-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x512 : Shape := ⟨2, ![40000, 512]⟩
abbrev S2x640000 : Shape := ⟨2, ![2, 640000]⟩
abbrev S640000 : Shape := ⟨1, ![640000]⟩
abbrev S512x128 : Shape := ⟨2, ![512, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S40000x512 : S_.BroadcastsInDim S40000x512 (![] : Fin 0 → Fin S40000x512.rank)
  reducesTo_S40000x512_S_d0_1 : S40000x512.ReducesTo [0, 1] S_
  h_S_ : 0 < S_.numel
  bcast_S_S640000 : S_.BroadcastsInDim S640000 (![] : Fin 0 → Fin S640000.rank)
  reducesTo_S640000_S_d0 : S640000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part6 {F : FTy → Type} [FloatOps F] (main_arg22 : FVec F S40 .f32) (main_v98 : IVec S_ 1) (main_v101 : IVec S128x40 1) (main_c_39 : IVec S_ 1) : IVec S_ 1 :=
  let main_v102 : IVec S_ 1 := (fun x v => Host.reduce IntOp.andi x v reducesTo_S128x40_S_d0_1 h_S_) main_v101 main_c_39
  let main_v103 : IVec S_ 1 := andi main_v98 main_v102
  let main_v104 : FVec F S40 .f32 := Host.absf main_arg22
  let main_cst_40 : FVec F S_ .f32 := constant S_ .f32 0x7F800000#32
  let main_v105 : FVec F S40 .f32 := broadcastInDim S40 ![] bcast_S_S40 main_cst_40
  let main_v106 : IVec S40 1 := cmpf .olt main_v104 main_v105
  let main_c_41 : IVec S_ 1 := constantI S_ 1 1#1
  let main_v107 : IVec S_ 1 := (fun x v => Host.reduce IntOp.andi x v reducesTo_S40_S_d0 h_S_) main_v106 main_c_41
  let main_v108 : IVec S_ 1 := andi main_v103 main_v107
  main_v108

def fn_part5 {F : FTy → Type} [FloatOps F] (main_arg19 : FVec F S128x128 .f32) (main_arg20 : FVec F S128 .f32) (main_arg21 : FVec F S128x40 .f32) (main_arg22 : FVec F S40 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg19
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x40 .f32 := Host.absf main_arg21
  let main_cst_38 : FVec F S_ .f32 := constant S_ .f32 0x7F800000#32
  let main_v100 : FVec F S128x40 .f32 := broadcastInDim S128x40 ![] bcast_S_S128x40 main_cst_38
  let main_v101 : IVec S128x40 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x40 .f32) (main_arg22 : FVec F S40 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x40 .f32) (main_arg22 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x40 .f32) (main_arg22 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x40 .f32) (main_arg22 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S40000x512 .f32) (main_arg1 : IVec S2x640000 32) (main_arg2 : FVec F S640000 .f32) (main_arg3 : FVec F S512x128 .f32) (main_arg4 : FVec F S128 .f32) (main_arg5 : FVec F S128x128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x40 .f32) (main_arg22 : FVec F S40 .f32) : IVec S_ 1 :=
  let main_v0 : FVec F S40000x512 .f32 := Host.absf main_arg0
  let main_cst : FVec F S_ .f32 := constant S_ .f32 0x7F800000#32
  let main_v1 : FVec F S40000x512 .f32 := broadcastInDim S40000x512 ![] bcast_S_S40000x512 main_cst
  let main_v2 : IVec S40000x512 1 := cmpf .olt main_v0 main_v1
  let main_c : IVec S_ 1 := constantI S_ 1 1#1
  let main_v3 : IVec S_ 1 := (fun x v => Host.reduce IntOp.andi x v reducesTo_S40000x512_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S40000x512 : Shape := ⟨2, ![40000, 512]⟩
abbrev S2x640000 : Shape := ⟨2, ![2, 640000]⟩
abbrev S640000 : Shape := ⟨1, ![640000]⟩
abbrev S512x128 : Shape := ⟨2, ![512, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x640000 : Shape := ⟨2, ![1, 640000]⟩
abbrev S_ : Shape := ⟨0, ![]⟩
abbrev S40000 : Shape := ⟨1, ![40000]⟩
abbrev S640000x1 : Shape := ⟨2, ![640000, 1]⟩
abbrev S1x128 : Shape := ⟨2, ![1, 128]⟩
abbrev S40000x128 : Shape := ⟨2, ![40000, 128]⟩
abbrev S4000x512 : Shape := ⟨2, ![4000, 512]⟩
abbrev S4000x128 : Shape := ⟨2, ![4000, 128]⟩
abbrev S640000x128 : Shape := ⟨2, ![640000, 128]⟩
abbrev S40000x1 : Shape := ⟨2, ![40000, 1]⟩
abbrev S1x40 : Shape := ⟨2, ![1, 40]⟩
abbrev S40000x40 : Shape := ⟨2, ![40000, 40]⟩
abbrev S4000x40 : Shape := ⟨2, ![4000, 40]⟩
abbrev S4000 : Shape := ⟨1, ![4000]⟩
abbrev S4000x1 : Shape := ⟨2, ![4000, 1]⟩

abbrev nBuf : Space → Nat
  | .hbm => 189
  | .vmem => 48
  | .smem => 0
  | _ => 0

abbrev hbmTy0_0 (i : Nat) : BufTy := match i % 128 with
  | 0 => ⟨S40000x512, .f32⟩
  | 1 => ⟨S2x640000, .i32⟩
  | 2 => ⟨S640000, .f32⟩
  | 3 => ⟨S512x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x40, .f32⟩
  | 22 => ⟨S40, .f32⟩
  | 23 => ⟨S1x640000, .i32⟩
  | 24 => ⟨S640000, .i32⟩
  | 25 => ⟨S1x640000, .i32⟩
  | 26 => ⟨S640000, .i32⟩
  | 27 => ⟨S640000, .i1⟩
  | 28 => ⟨S_, .f32⟩
  | 29 => ⟨S_, .f32⟩
  | 30 => ⟨S640000, .f32⟩
  | 31 => ⟨S640000, .f32⟩
  | 32 => ⟨S_, .f32⟩
  | 33 => ⟨S40000, .f32⟩
  | 34 => ⟨S640000x1, .i32⟩
  | 35 => ⟨S40000, .f32⟩
  | 36 => ⟨S_, .f32⟩
  | 37 => ⟨S40000, .f32⟩
  | 38 => ⟨S40000, .i1⟩
  | 39 => ⟨S_, .f32⟩
  | 40 => ⟨S40000, .f32⟩
  | 41 => ⟨S40000, .i1⟩
  | 42 => ⟨S_, .f32⟩
  | 43 => ⟨S_, .f32⟩
  | 44 => ⟨S40000, .f32⟩
  | 45 => ⟨S40000, .f32⟩
  | 46 => ⟨S40000, .f32⟩
  | 47 => ⟨S_, .f32⟩
  | 48 => ⟨S_, .f32⟩
  | 49 => ⟨S40000, .f32⟩
  | 50 => ⟨S40000, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000, .f32⟩
  | 60 => ⟨S640000, .f32⟩
  | 61 => ⟨S640000, .f32⟩
  | 62 => ⟨S_, .i32⟩
  | 63 => ⟨S640000, .i32⟩
  | 64 => ⟨S640000, .i1⟩
  | 65 => ⟨S_, .i32⟩
  | 66 => ⟨S640000, .i32⟩
  | 67 => ⟨S640000, .i32⟩
  | 68 => ⟨S640000, .i32⟩
  | 69 => ⟨S640000x1, .i32⟩
  | 70 => ⟨S640000, .f32⟩
  | 71 => ⟨S640000, .f32⟩
  | 72 => ⟨S_, .f32⟩
  | 73 => ⟨S_, .f32⟩
  | 74 => ⟨S640000, .f32⟩
  | 75 => ⟨S640000, .f32⟩
  | 76 => ⟨S640000, .f32⟩
  | 77 => ⟨S_, .f32⟩
  | 78 => ⟨S40000, .f32⟩
  | 79 => ⟨S640000x1, .i32⟩
  | 80 => ⟨S640000, .f32⟩
  | 81 => ⟨S40000, .f32⟩
  | 82 => ⟨S_, .f32⟩
  | 83 => ⟨S40000, .f32⟩
  | 84 => ⟨S40000, .f32⟩
  | 85 => ⟨S_, .f32⟩
  | 86 => ⟨S40000, .f32⟩
  | 87 => ⟨S_, .i32⟩
  | 88 => ⟨S_, .i32⟩
  | 89 => ⟨S640000, .i32⟩
  | 90 => ⟨S640000, .i32⟩
  | 91 => ⟨S_, .i32⟩
  | 92 => ⟨S640000, .i32⟩
  | 93 => ⟨S640000, .i1⟩
  | 94 => ⟨S_, .i32⟩
  | 95 => ⟨S640000, .i32⟩
  | 96 => ⟨S640000, .i32⟩
  | 97 => ⟨S640000, .i32⟩
  | 98 => ⟨S640000x1, .i32⟩
  | 99 => ⟨S40000, .f32⟩
  | 100 => ⟨S512x128, .bf16⟩
  | 101 => ⟨S1x128, .f32⟩
  | 102 => ⟨S40000x128, .bf16⟩
  | 103 => ⟨S_, .i32⟩
  | 104 => ⟨S640000, .i32⟩
  | 105 => ⟨S640000, .i1⟩
  | 106 => ⟨S_, .i32⟩
  | 107 => ⟨S640000, .i32⟩
  | 108 => ⟨S640000, .i32⟩
  | 109 => ⟨S640000, .i32⟩
  | 110 => ⟨S640000x1, .i32⟩
  | 111 => ⟨S640000x128, .bf16⟩
  | 112 => ⟨S640000x128, .f32⟩
  | 113 => ⟨S640000x1, .f32⟩
  | 114 => ⟨S640000x128, .f32⟩
  | 115 => ⟨S640000x128, .f32⟩
  | 116 => ⟨S_, .f32⟩
  | 117 => ⟨S40000x128, .f32⟩
  | 118 => ⟨S640000x1, .i32⟩
  | 119 => ⟨S40000x128, .f32⟩
  | 120 => ⟨S40000x128, .f32⟩
  | 121 => ⟨S640000x1, .f32⟩
  | 122 => ⟨S640000x128, .f32⟩
  | 123 => ⟨S640000x128, .f32⟩
  | 124 => ⟨S_, .f32⟩
  | 125 => ⟨S40000x128, .f32⟩
  | 126 => ⟨S640000x1, .i32⟩
  | 127 => ⟨S40000x128, .f32⟩
  | _ => ⟨S40000x512, .f32⟩

abbrev hbmTy0_1 (i : Nat) : BufTy := match i % 128 with
  | 0 => ⟨S40000x1, .f32⟩
  | 1 => ⟨S40000x128, .f32⟩
  | 2 => ⟨S40000x128, .f32⟩
  | 3 => ⟨S40000x128, .f32⟩
  | 4 => ⟨S40000x1, .f32⟩
  | 5 => ⟨S40000x128, .f32⟩
  | 6 => ⟨S40000x128, .f32⟩
  | 7 => ⟨S128x128, .bf16⟩
  | 8 => ⟨S128x128, .bf16⟩
  | 9 => ⟨S128x128, .bf16⟩
  | 10 => ⟨S128x128, .bf16⟩
  | 11 => ⟨S1x128, .f32⟩
  | 12 => ⟨S1x128, .f32⟩
  | 13 => ⟨S1x128, .f32⟩
  | 14 => ⟨S40000x128, .f32⟩
  | 15 => ⟨S128x128, .bf16⟩
  | 16 => ⟨S1x128, .f32⟩
  | 17 => ⟨S40000x128, .bf16⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000x128, .bf16⟩
  | 27 => ⟨S640000x128, .f32⟩
  | 28 => ⟨S640000x1, .f32⟩
  | 29 => ⟨S640000x128, .f32⟩
  | 30 => ⟨S640000x128, .f32⟩
  | 31 => ⟨S_, .f32⟩
  | 32 => ⟨S40000x128, .f32⟩
  | 33 => ⟨S640000x1, .i32⟩
  | 34 => ⟨S40000x128, .f32⟩
  | 35 => ⟨S40000x128, .f32⟩
  | 36 => ⟨S640000x1, .f32⟩
  | 37 => ⟨S640000x128, .f32⟩
  | 38 => ⟨S640000x128, .f32⟩
  | 39 => ⟨S_, .f32⟩
  | 40 => ⟨S40000x128, .f32⟩
  | 41 => ⟨S640000x1, .i32⟩
  | 42 => ⟨S40000x128, .f32⟩
  | 43 => ⟨S40000x1, .f32⟩
  | 44 => ⟨S40000x128, .f32⟩
  | 45 => ⟨S40000x128, .f32⟩
  | 46 => ⟨S40000x128, .f32⟩
  | 47 => ⟨S40000x1, .f32⟩
  | 48 => ⟨S40000x128, .f32⟩
  | 49 => ⟨S40000x128, .f32⟩
  | 50 => ⟨S128x128, .bf16⟩
  | 51 => ⟨S128x128, .bf16⟩
  | 52 => ⟨S128x128, .bf16⟩
  | 53 => ⟨S128x128, .bf16⟩
  | 54 => ⟨S1x128, .f32⟩
  | 55 => ⟨S1x128, .f32⟩
  | 56 => ⟨S1x128, .f32⟩
  | 57 => ⟨S40000x128, .f32⟩
  | 58 => ⟨S128x40, .bf16⟩
  | 59 => ⟨S1x40, .f32⟩
  | 60 => ⟨S40000x40, .f32⟩
  | _ => ⟨S40000x512, .f32⟩

abbrev hbmTy (i : Nat) : BufTy := match i / 128 with
  | 0 => hbmTy0_0 i
  | 1 => hbmTy0_1 i
  | _ => ⟨S40000x512, .f32⟩

abbrev bufTy : (tb : Table) → Fin (tcTables nBuf tb) → BufTy
  | .hbm, ⟨i, _⟩ => hbmTy i
  | .local _ .vmem, ⟨0, _⟩ => ⟨S4000x512, .f32⟩
  | .local _ .vmem, ⟨1, _⟩ => ⟨S4000x512, .f32⟩
  | .local _ .vmem, ⟨2, _⟩ => ⟨S512x128, .bf16⟩
  | .local _ .vmem, ⟨3, _⟩ => ⟨S1x128, .f32⟩
  | .local _ .vmem, ⟨4, _⟩ => ⟨S4000x128, .bf16⟩
  | .local _ .vmem, ⟨5, _⟩ => ⟨S4000x128, .bf16⟩
  | .local _ .vmem, ⟨6, _⟩ => ⟨S4000x128, .bf16⟩
  | .local _ .vmem, ⟨7, _⟩ => ⟨S4000x128, .bf16⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .bf16⟩
  | .local _ .vmem, ⟨13, _⟩ => ⟨S128x128, .bf16⟩
  | .local _ .vmem, ⟨14, _⟩ => ⟨S1x128, .f32⟩
  | .local _ .vmem, ⟨15, _⟩ => ⟨S128x128, .bf16⟩
  | .local _ .vmem, ⟨16, _⟩ => ⟨S1x128, .f32⟩
  | .local _ .vmem, ⟨17, _⟩ => ⟨S128x128, .bf16⟩
  | .local _ .vmem, ⟨18, _⟩ => ⟨S1x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S128x128, .bf16⟩
  | .local _ .vmem, ⟨24, _⟩ => ⟨S1x128, .f32⟩
  | .local _ .vmem, ⟨25, _⟩ => ⟨S4000x128, .bf16⟩
  | .local _ .vmem, ⟨26, _⟩ => ⟨S4000x128, .bf16⟩
  | .local _ .vmem, ⟨27, _⟩ => ⟨S4000x128, .bf16⟩
  | .local _ .vmem, ⟨28, _⟩ => ⟨S4000x128, .bf16⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S128x128, .bf16⟩
  | .local _ .vmem, ⟨34, _⟩ => ⟨S128x128, .bf16⟩
  | .local _ .vmem, ⟨35, _⟩ => ⟨S1x128, .f32⟩
  | .local _ .vmem, ⟨36, _⟩ => ⟨S128x128, .bf16⟩
  | .local _ .vmem, ⟨37, _⟩ => ⟨S1x128, .f32⟩
  | .local _ .vmem, ⟨38, _⟩ => ⟨S128x128, .bf16⟩
  | .local _ .vmem, ⟨39, _⟩ => ⟨S1x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S128x40, .bf16⟩
  | .local _ .vmem, ⟨45, _⟩ => ⟨S1x40, .f32⟩
  | .local _ .vmem, ⟨46, _⟩ => ⟨S4000x40, .f32⟩
  | .local _ .vmem, ⟨47, _⟩ => ⟨S4000x40, .f32⟩
  | _, _ => ⟨S40000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst_1 : Ref sig .tc := ⟨.hbm, 36, rfl⟩
abbrev main_v9 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v13 : Ref sig .tc := ⟨.hbm, 45, rfl⟩
abbrev main_v14 : Ref sig .tc := ⟨.hbm, 46, rfl⟩
abbrev main_cst_4 : Ref sig .tc := ⟨.hbm, 47, rfl⟩
abbrev main_call2_v0 : Ref sig .tc := ⟨.hbm, 48, rfl⟩
abbrev main_call2_v1 : Ref sig .tc := ⟨.hbm, 49, rfl⟩
abbrev main_v15 : Ref sig .tc := ⟨.hbm, 50, rfl⟩
abbrev main_c : Ref sig .tc := ⟨.hbm, 51, rfl⟩
abbrev main_v16 : Ref sig .tc := ⟨.hbm, 52, rfl⟩
abbrev main_v17 : Ref sig .tc := ⟨.hbm, 53, rfl⟩
abbrev main_c_5 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_c_6 : Ref sig .tc := ⟨.hbm, 62, rfl⟩
abbrev main_v25 : Ref sig .tc := ⟨.hbm, 63, rfl⟩
abbrev main_v26 : Ref sig .tc := ⟨.hbm, 64, rfl⟩
abbrev main_c_7 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_8 : Ref sig .tc := ⟨.hbm, 72, rfl⟩
abbrev main_cst_9 : Ref sig .tc := ⟨.hbm, 73, rfl⟩
abbrev main_call3_v0 : Ref sig .tc := ⟨.hbm, 74, rfl⟩
abbrev main_call3_v1 : Ref sig .tc := ⟨.hbm, 75, rfl⟩
abbrev main_v33 : Ref sig .tc := ⟨.hbm, 76, rfl⟩
abbrev main_cst_10 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_11 : Ref sig .tc := ⟨.hbm, 82, rfl⟩
abbrev main_v38 : Ref sig .tc := ⟨.hbm, 83, rfl⟩
abbrev main_v39 : Ref sig .tc := ⟨.hbm, 84, rfl⟩
abbrev main_cst_12 : Ref sig .tc := ⟨.hbm, 85, rfl⟩
abbrev main_v40 : Ref sig .tc := ⟨.hbm, 86, rfl⟩
abbrev main_c_13 : Ref sig .tc := ⟨.hbm, 87, rfl⟩
abbrev main_call4_v0 : Ref sig .tc := ⟨.hbm, 88, rfl⟩
abbrev main_call4_v1 : Ref sig .tc := ⟨.hbm, 89, rfl⟩
abbrev main_v41 : Ref sig .tc := ⟨.hbm, 90, rfl⟩
abbrev main_c_14 : Ref sig .tc := ⟨.hbm, 91, rfl⟩
abbrev main_v42 : Ref sig .tc := ⟨.hbm, 92, rfl⟩
abbrev main_v43 : Ref sig .tc := ⟨.hbm, 93, rfl⟩
abbrev main_c_15 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_c_16 : Ref sig .tc := ⟨.hbm, 103, rfl⟩
abbrev main_v52 : Ref sig .tc := ⟨.hbm, 104, rfl⟩
abbrev main_v53 : Ref sig .tc := ⟨.hbm, 105, rfl⟩
abbrev main_c_17 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_18 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_19 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_c_20 : Ref sig .tc := ⟨.hbm, 146, rfl⟩
abbrev main_v91 : Ref sig .tc := ⟨.hbm, 147, rfl⟩
abbrev main_v92 : Ref sig .tc := ⟨.hbm, 148, rfl⟩
abbrev main_c_21 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_cst_22 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_cst_23 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg10_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg9_0 : Ref sig .tc := ⟨.vmem, 39, rfl⟩
abbrev cc3_stg10_0 : Ref sig .tc := ⟨.vmem, 40, rfl⟩
abbrev cc3_stg10_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem10_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem9_0 : DmaSem sig := 39
abbrev cc3_sem10_0 : DmaSem sig := 40
abbrev cc3_sem10_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem3_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S4000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bitsLt_bf16_f32 : FTy.bits .bf16 < FTy.bits .f32
  shapeCasts_S128_S1x128 : S128.ShapeCasts S1x128
  inb_S4000x512_S4000x512_0_0 : ∀ a, (![0, 0] : Fin 2 → Nat) a + S4000x512.size a ≤ S4000x512.size a
  h_S4000x512 : 0 < S4000x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  dot_S4000x512_S512x128_S4000x128_1_0_0_1_n_n_wf : DotDims.WF S4000x512 S512x128 S4000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S40000x512.size a
  hwx0_0 : ∀ i : grid0.Coords, EltTy.bits .f32 = 32 ∨ (Rect.block (s := S40000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S40000x128.size a
  hwx0_3 : ∀ i : grid0.Coords, EltTy.bits .bf16 = 32 ∨ (Rect.block (s := S40000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .bf16 = 32 ∨ (Rect.block (s := S40000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S40000x128.size a
  hwx1_2 : ∀ i : grid1.Coords, EltTy.bits .f32 = 32 ∨ (Rect.block (s := S40000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .bf16 = 32 ∨ (Rect.block (s := S128x128) S128x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x128.size a ≤ S40000x128.size a
  hwx1_10 : ∀ i : grid1.Coords, EltTy.bits .f32 = 32 ∨ (Rect.block (s := S40000x128) S4000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S40000x128.size a
  hwx2_3 : ∀ i : grid2.Coords, EltTy.bits .bf16 = 32 ∨ (Rect.block (s := S40000x128) S4000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S40000x128.size a
  hwx3_0 : ∀ i : grid3.Coords, EltTy.bits .bf16 = 32 ∨ (Rect.block (s := S40000x128) S4000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S40000x128.size a
  hwx3_1 : ∀ i : grid3.Coords, EltTy.bits .f32 = 32 ∨ (Rect.block (s := S40000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S40000x128.size a
  hwx3_2 : ∀ i : grid3.Coords, EltTy.bits .f32 = 32 ∨ (Rect.block (s := S40000x128) S4000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .bf16 = 32 ∨ (Rect.block (s := S128x128) S128x128.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .bf16 = 32 ∨ (Rect.block (s := S128x128) S128x128.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .bf16 = 32 ∨ (Rect.block (s := S128x128) S128x128.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S4000x128.size a ≤ S40000x128.size a
  hwx3_10 : ∀ i : grid3.Coords, EltTy.bits .f32 = 32 ∨ (Rect.block (s := S40000x128) S4000x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S40000x128.size a
  hwx4_0 : ∀ i : grid4.Coords, EltTy.bits .f32 = 32 ∨ (Rect.block (s := S40000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .bf16 = 32 ∨ (Rect.block (s := S128x40) S128x40.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x40.size a ≤ S40000x40.size a
  hwx4_3 : ∀ i : grid4.Coords, EltTy.bits .f32 = 32 ∨ (Rect.block (s := S40000x40) S4000x40.size (cc4_transform_3 i) (hinb4_3 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v79) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v80) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v81) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v84) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v82) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v85) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v83) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v86) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v87) S4000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v87) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v89) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v90) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v104) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v118) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v119) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v120) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v123) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v121) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v124) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v122) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v125) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v126) S4000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v126) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v127) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v128) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v129) S4000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S40000x512 : Shape := ⟨2, ![40000, 512]⟩
abbrev S2x640000 : Shape := ⟨2, ![2, 640000]⟩
abbrev S640000 : Shape := ⟨1, ![640000]⟩
abbrev S512x128 : Shape := ⟨2, ![512, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x640000 : Shape := ⟨2, ![1, 640000]⟩
abbrev S40000x128 : Shape := ⟨2, ![40000, 128]⟩
abbrev S1x128 : Shape := ⟨2, ![1, 128]⟩
abbrev S_ : Shape := ⟨0, ![]⟩
abbrev S40000 : Shape := ⟨1, ![40000]⟩
abbrev S640000x1 : Shape := ⟨2, ![640000, 1]⟩
abbrev S640000x128 : Shape := ⟨2, ![640000, 128]⟩
abbrev S40000x1 : Shape := ⟨2, ![40000, 1]⟩
abbrev S40000x40 : Shape := ⟨2, ![40000, 40]⟩
abbrev S1x40 : Shape := ⟨2, ![1, 40]⟩

abbrev nBuf : Space → Nat
  | .hbm => 347
  | .vmem => 0
  | .smem => 0
  | _ => 0

abbrev hbmTy0_0 (i : Nat) : BufTy := match i % 128 with
  | 0 => ⟨S40000x512, .f32⟩
  | 1 => ⟨S2x640000, .i32⟩
  | 2 => ⟨S640000, .f32⟩
  | 3 => ⟨S512x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x40, .f32⟩
  | 22 => ⟨S40, .f32⟩
  | 23 => ⟨S1x640000, .i32⟩
  | 24 => ⟨S640000, .i32⟩
  | 25 => ⟨S1x640000, .i32⟩
  | 26 => ⟨S640000, .i32⟩
  | 27 => ⟨S640000, .i1⟩
  | 28 => ⟨S40000x128, .f32⟩
  | 29 => ⟨S1x128, .f32⟩
  | 30 => ⟨S40000x128, .f32⟩
  | 31 => ⟨S40000x128, .f32⟩
  | 32 => ⟨S_, .f32⟩
  | 33 => ⟨S_, .f32⟩
  | 34 => ⟨S640000, .f32⟩
  | 35 => ⟨S640000, .f32⟩
  | 36 => ⟨S_, .f32⟩
  | 37 => ⟨S40000, .f32⟩
  | 38 => ⟨S640000x1, .i32⟩
  | 39 => ⟨S40000, .f32⟩
  | 40 => ⟨S_, .f32⟩
  | 41 => ⟨S40000, .f32⟩
  | 42 => ⟨S40000, .i1⟩
  | 43 => ⟨S_, .f32⟩
  | 44 => ⟨S40000, .f32⟩
  | 45 => ⟨S40000, .i1⟩
  | 46 => ⟨S_, .f32⟩
  | 47 => ⟨S_, .f32⟩
  | 48 => ⟨S40000, .f32⟩
  | 49 => ⟨S40000, .f32⟩
  | 50 => ⟨S40000, .f32⟩
  | 51 => ⟨S_, .f32⟩
  | 52 => ⟨S_, .f32⟩
  | 53 => ⟨S40000, .f32⟩
  | 54 => ⟨S40000, .f32⟩
  | 55 => ⟨S_, .i32⟩
  | 56 => ⟨S640000, .i32⟩
  | 57 => ⟨S640000, .i1⟩
  | 58 => ⟨S_, .i32⟩
  | 59 => ⟨S640000, .i32⟩
  | 60 => ⟨S640000, .i32⟩
  | 61 => ⟨S640000, .i32⟩
  | 62 => ⟨S640000x1, .i32⟩
  | 63 => ⟨S640000, .f32⟩
  | 64 => ⟨S640000, .f32⟩
  | 65 => ⟨S640000, .f32⟩
  | 66 => ⟨S_, .i32⟩
  | 67 => ⟨S640000, .i32⟩
  | 68 => ⟨S640000, .i1⟩
  | 69 => ⟨S_, .i32⟩
  | 70 => ⟨S640000, .i32⟩
  | 71 => ⟨S640000, .i32⟩
  | 72 => ⟨S640000, .i32⟩
  | 73 => ⟨S640000x1, .i32⟩
  | 74 => ⟨S640000, .f32⟩
  | 75 => ⟨S640000, .f32⟩
  | 76 => ⟨S640000x1, .f32⟩
  | 77 => ⟨S_, .i32⟩
  | 78 => ⟨S640000, .i32⟩
  | 79 => ⟨S640000, .i1⟩
  | 80 => ⟨S_, .i32⟩
  | 81 => ⟨S640000, .i32⟩
  | 82 => ⟨S640000, .i32⟩
  | 83 => ⟨S640000, .i32⟩
  | 84 => ⟨S640000x1, .i32⟩
  | 85 => ⟨S640000x128, .f32⟩
  | 86 => ⟨S640000x128, .f32⟩
  | 87 => ⟨S640000x128, .f32⟩
  | 88 => ⟨S_, .f32⟩
  | 89 => ⟨S40000x128, .f32⟩
  | 90 => ⟨S640000x1, .i32⟩
  | 91 => ⟨S40000x128, .f32⟩
  | 92 => ⟨S40000x128, .f32⟩
  | 93 => ⟨S40000x128, .f32⟩
  | 94 => ⟨S40000x128, .f32⟩
  | 95 => ⟨S1x128, .f32⟩
  | 96 => ⟨S40000x128, .f32⟩
  | 97 => ⟨S40000x128, .f32⟩
  | 98 => ⟨S_, .f32⟩
  | 99 => ⟨S_, .f32⟩
  | 100 => ⟨S40000x128, .f32⟩
  | 101 => ⟨S40000x128, .i1⟩
  | 102 => ⟨S_, .f32⟩
  | 103 => ⟨S40000x128, .f32⟩
  | 104 => ⟨S40000x128, .f32⟩
  | 105 => ⟨S40000x128, .f32⟩
  | 106 => ⟨S_, .f32⟩
  | 107 => ⟨S40000, .f32⟩
  | 108 => ⟨S_, .i32⟩
  | 109 => ⟨S_, .i32⟩
  | 110 => ⟨S640000, .i32⟩
  | 111 => ⟨S640000, .i32⟩
  | 112 => ⟨S_, .i32⟩
  | 113 => ⟨S640000, .i32⟩
  | 114 => ⟨S640000, .i1⟩
  | 115 => ⟨S_, .i32⟩
  | 116 => ⟨S640000, .i32⟩
  | 117 => ⟨S640000, .i32⟩
  | 118 => ⟨S640000, .i32⟩
  | 119 => ⟨S640000x1, .i32⟩
  | 120 => ⟨S40000, .f32⟩
  | 121 => ⟨S_, .f32⟩
  | 122 => ⟨S_, .f32⟩
  | 123 => ⟨S640000, .f32⟩
  | 124 => ⟨S640000, .f32⟩
  | 125 => ⟨S640000x1, .f32⟩
  | 126 => ⟨S_, .i32⟩
  | 127 => ⟨S640000, .i32⟩
  | _ => ⟨S40000x512, .f32⟩

abbrev hbmTy0_1 (i : Nat) : BufTy := match i % 128 with
  | 0 => ⟨S640000, .i1⟩
  | 1 => ⟨S_, .i32⟩
  | 2 => ⟨S640000, .i32⟩
  | 3 => ⟨S640000, .i32⟩
  | 4 => ⟨S640000, .i32⟩
  | 5 => ⟨S640000x1, .i32⟩
  | 6 => ⟨S640000x128, .f32⟩
  | 7 => ⟨S640000x128, .f32⟩
  | 8 => ⟨S640000x128, .f32⟩
  | 9 => ⟨S_, .f32⟩
  | 10 => ⟨S40000x128, .f32⟩
  | 11 => ⟨S640000x1, .i32⟩
  | 12 => ⟨S40000x128, .f32⟩
  | 13 => ⟨S40000x1, .f32⟩
  | 14 => ⟨S40000x128, .f32⟩
  | 15 => ⟨S40000x128, .f32⟩
  | 16 => ⟨S40000x128, .f32⟩
  | 17 => ⟨S_, .f32⟩
  | 18 => ⟨S_, .f32⟩
  | 19 => ⟨S640000, .f32⟩
  | 20 => ⟨S640000, .f32⟩
  | 21 => ⟨S640000, .f32⟩
  | 22 => ⟨S_, .f32⟩
  | 23 => ⟨S40000, .f32⟩
  | 24 => ⟨S640000x1, .i32⟩
  | 25 => ⟨S640000, .f32⟩
  | 26 => ⟨S40000, .f32⟩
  | 27 => ⟨S_, .f32⟩
  | 28 => ⟨S40000, .f32⟩
  | 29 => ⟨S40000, .f32⟩
  | 30 => ⟨S40000x1, .f32⟩
  | 31 => ⟨S40000x128, .f32⟩
  | 32 => ⟨S40000x128, .f32⟩
  | 33 => ⟨S40000x128, .f32⟩
  | 34 => ⟨S1x128, .f32⟩
  | 35 => ⟨S40000x128, .f32⟩
  | 36 => ⟨S40000x128, .f32⟩
  | 37 => ⟨S_, .f32⟩
  | 38 => ⟨S_, .f32⟩
  | 39 => ⟨S40000x128, .f32⟩
  | 40 => ⟨S40000x128, .i1⟩
  | 41 => ⟨S_, .f32⟩
  | 42 => ⟨S40000x128, .f32⟩
  | 43 => ⟨S40000x128, .f32⟩
  | 44 => ⟨S40000x128, .f32⟩
  | 45 => ⟨S40000x128, .f32⟩
  | 46 => ⟨S40000x128, .f32⟩
  | 47 => ⟨S1x128, .f32⟩
  | 48 => ⟨S40000x128, .f32⟩
  | 49 => ⟨S40000x128, .f32⟩
  | 50 => ⟨S40000x128, .f32⟩
  | 51 => ⟨S1x128, .f32⟩
  | 52 => ⟨S40000x128, .f32⟩
  | 53 => ⟨S40000x128, .f32⟩
  | 54 => ⟨S_, .f32⟩
  | 55 => ⟨S_, .f32⟩
  | 56 => ⟨S640000, .f32⟩
  | 57 => ⟨S640000, .f32⟩
  | 58 => ⟨S_, .f32⟩
  | 59 => ⟨S40000, .f32⟩
  | 60 => ⟨S640000x1, .i32⟩
  | 61 => ⟨S40000, .f32⟩
  | 62 => ⟨S_, .f32⟩
  | 63 => ⟨S40000, .f32⟩
  | 64 => ⟨S40000, .i1⟩
  | 65 => ⟨S_, .f32⟩
  | 66 => ⟨S40000, .f32⟩
  | 67 => ⟨S40000, .i1⟩
  | 68 => ⟨S_, .f32⟩
  | 69 => ⟨S_, .f32⟩
  | 70 => ⟨S40000, .f32⟩
  | 71 => ⟨S40000, .f32⟩
  | 72 => ⟨S40000, .f32⟩
  | 73 => ⟨S_, .f32⟩
  | 74 => ⟨S_, .f32⟩
  | 75 => ⟨S40000, .f32⟩
  | 76 => ⟨S40000, .f32⟩
  | 77 => ⟨S_, .i32⟩
  | 78 => ⟨S640000, .i32⟩
  | 79 => ⟨S640000, .i1⟩
  | 80 => ⟨S_, .i32⟩
  | 81 => ⟨S640000, .i32⟩
  | 82 => ⟨S640000, .i32⟩
  | 83 => ⟨S640000, .i32⟩
  | 84 => ⟨S640000x1, .i32⟩
  | 85 => ⟨S640000, .f32⟩
  | 86 => ⟨S640000, .f32⟩
  | 87 => ⟨S640000, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000, .f32⟩
  | 97 => ⟨S640000, .f32⟩
  | 98 => ⟨S640000x1, .f32⟩
  | 99 => ⟨S_, .i32⟩
  | 100 => ⟨S640000, .i32⟩
  | 101 => ⟨S640000, .i1⟩
  | 102 => ⟨S_, .i32⟩
  | 103 => ⟨S640000, .i32⟩
  | 104 => ⟨S640000, .i32⟩
  | 105 => ⟨S640000, .i32⟩
  | 106 => ⟨S640000x1, .i32⟩
  | 107 => ⟨S640000x128, .f32⟩
  | 108 => ⟨S640000x128, .f32⟩
  | 109 => ⟨S640000x128, .f32⟩
  | 110 => ⟨S_, .f32⟩
  | 111 => ⟨S40000x128, .f32⟩
  | 112 => ⟨S640000x1, .i32⟩
  | 113 => ⟨S40000x128, .f32⟩
  | 114 => ⟨S40000x128, .f32⟩
  | 115 => ⟨S40000x128, .f32⟩
  | 116 => ⟨S40000x128, .f32⟩
  | 117 => ⟨S1x128, .f32⟩
  | 118 => ⟨S40000x128, .f32⟩
  | 119 => ⟨S40000x128, .f32⟩
  | 120 => ⟨S_, .f32⟩
  | 121 => ⟨S_, .f32⟩
  | 122 => ⟨S40000x128, .f32⟩
  | 123 => ⟨S40000x128, .i1⟩
  | 124 => ⟨S_, .f32⟩
  | 125 => ⟨S40000x128, .f32⟩
  | 126 => ⟨S40000x128, .f32⟩
  | 127 => ⟨S40000x128, .f32⟩
  | _ => ⟨S40000x512, .f32⟩

abbrev hbmTy0_2 (i : Nat) : BufTy := match i % 128 with
  | 0 => ⟨S_, .f32⟩
  | 1 => ⟨S40000, .f32⟩
  | 2 => ⟨S_, .i32⟩
  | 3 => ⟨S_, .i32⟩
  | 4 => ⟨S640000, .i32⟩
  | 5 => ⟨S640000, .i32⟩
  | 6 => ⟨S_, .i32⟩
  | 7 => ⟨S640000, .i32⟩
  | 8 => ⟨S640000, .i1⟩
  | 9 => ⟨S_, .i32⟩
  | 10 => ⟨S640000, .i32⟩
  | 11 => ⟨S640000, .i32⟩
  | 12 => ⟨S640000, .i32⟩
  | 13 => ⟨S640000x1, .i32⟩
  | 14 => ⟨S40000, .f32⟩
  | 15 => ⟨S_, .f32⟩
  | 16 => ⟨S_, .f32⟩
  | 17 => ⟨S640000, .f32⟩
  | 18 => ⟨S640000, .f32⟩
  | 19 => ⟨S640000x1, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S640000x128, .f32⟩
  | 30 => ⟨S640000x128, .f32⟩
  | 31 => ⟨S_, .f32⟩
  | 32 => ⟨S40000x128, .f32⟩
  | 33 => ⟨S640000x1, .i32⟩
  | 34 => ⟨S40000x128, .f32⟩
  | 35 => ⟨S40000x1, .f32⟩
  | 36 => ⟨S40000x128, .f32⟩
  | 37 => ⟨S40000x128, .f32⟩
  | 38 => ⟨S40000x128, .f32⟩
  | 39 => ⟨S_, .f32⟩
  | 40 => ⟨S_, .f32⟩
  | 41 => ⟨S640000, .f32⟩
  | 42 => ⟨S640000, .f32⟩
  | 43 => ⟨S640000, .f32⟩
  | 44 => ⟨S_, .f32⟩
  | 45 => ⟨S40000, .f32⟩
  | 46 => ⟨S640000x1, .i32⟩
  | 47 => ⟨S640000, .f32⟩
  | 48 => ⟨S40000, .f32⟩
  | 49 => ⟨S_, .f32⟩
  | 50 => ⟨S40000, .f32⟩
  | 51 => ⟨S40000, .f32⟩
  | 52 => ⟨S40000x1, .f32⟩
  | 53 => ⟨S40000x128, .f32⟩
  | 54 => ⟨S40000x128, .f32⟩
  | 55 => ⟨S40000x128, .f32⟩
  | 56 => ⟨S1x128, .f32⟩
  | 57 => ⟨S40000x128, .f32⟩
  | 58 => ⟨S40000x128, .f32⟩
  | 59 => ⟨S_, .f32⟩
  | 60 => ⟨S_, .f32⟩
  | 61 => ⟨S40000x128, .f32⟩
  | 62 => ⟨S40000x128, .i1⟩
  | 63 => ⟨S_, .f32⟩
  | 64 => ⟨S40000x128, .f32⟩
  | 65 => ⟨S40000x128, .f32⟩
  | 66 => ⟨S40000x128, .f32⟩
  | 67 => ⟨S40000x128, .f32⟩
  | 68 => ⟨S40000x128, .f32⟩
  | 69 => ⟨S1x128, .f32⟩
  | 70 => ⟨S40000x128, .f32⟩
  | 71 => ⟨S40000x128, .f32⟩
  | 72 => ⟨S40000x40, .f32⟩
  | 73 => ⟨S1x40, .f32⟩
  | 74 => ⟨S40000x40, .f32⟩
  | 75 => ⟨S40000x40, .f32⟩
  | 76 => ⟨S_, .f32⟩
  | 77 => ⟨S40000, .f32⟩
  | 78 => ⟨S_, .f32⟩
  | 79 => ⟨S40000, .f32⟩
  | 80 => ⟨S40000, .f32⟩
  | 81 => ⟨S40000x1, .f32⟩
  | 82 => ⟨S40000x40, .f32⟩
  | 83 => ⟨S40000x40, .f32⟩
  | 84 => ⟨S40000x40, .f32⟩
  | 85 => ⟨S_, .f32⟩
  | 86 => ⟨S40000, .f32⟩
  | 87 => ⟨S40000x1, .f32⟩
  | 88 => ⟨S40000x1, .f32⟩
  | 89 => ⟨S40000x40, .f32⟩
  | 90 => ⟨S40000x40, .f32⟩
  | _ => ⟨S40000x512, .f32⟩

abbrev hbmTy (i : Nat) : BufTy := match i / 128 with
  | 0 => hbmTy0_0 i
  | 1 => hbmTy0_1 i
  | 2 => hbmTy0_2 i
  | _ => ⟨S40000x512, .f32⟩

abbrev bufTy : (tb : Table) → Fin (tcTables nBuf tb) → BufTy
  | .hbm, ⟨i, _⟩ => hbmTy i
  | _, _ => ⟨S40000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_call1_v0 : Ref sig .tc := ⟨.hbm, 47, rfl⟩
abbrev main_call1_v1 : Ref sig .tc := ⟨.hbm, 48, rfl⟩
abbrev main_v17 : Ref sig .tc := ⟨.hbm, 49, rfl⟩
abbrev main_v18 : Ref sig .tc := ⟨.hbm, 50, rfl⟩
abbrev main_cst_4 : Ref sig .tc := ⟨.hbm, 51, rfl⟩
abbrev main_call2_v0 : Ref sig .tc := ⟨.hbm, 52, rfl⟩
abbrev main_call2_v1 : Ref sig .tc := ⟨.hbm, 53, rfl⟩
abbrev main_v19 : Ref sig .tc := ⟨.hbm, 54, rfl⟩
abbrev main_c : Ref sig .tc := ⟨.hbm, 55, rfl⟩
abbrev main_v20 : Ref sig .tc := ⟨.hbm, 56, rfl⟩
abbrev main_v21 : Ref sig .tc := ⟨.hbm, 57, rfl⟩
abbrev main_c_5 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_c_6 : Ref sig .tc := ⟨.hbm, 66, rfl⟩
abbrev main_v29 : Ref sig .tc := ⟨.hbm, 67, rfl⟩
abbrev main_v30 : Ref sig .tc := ⟨.hbm, 68, rfl⟩
abbrev main_c_7 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_c_8 : Ref sig .tc := ⟨.hbm, 77, rfl⟩
abbrev main_v38 : Ref sig .tc := ⟨.hbm, 78, rfl⟩
abbrev main_v39 : Ref sig .tc := ⟨.hbm, 79, rfl⟩
abbrev main_c_9 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_10 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_11 : Ref sig .tc := ⟨.hbm, 98, rfl⟩
abbrev main_call3_cst : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_v56 : Ref sig .tc := ⟨.hbm, 105, rfl⟩
abbrev main_cst_12 : Ref sig .tc := ⟨.hbm, 106, rfl⟩
abbrev main_v57 : Ref sig .tc := ⟨.hbm, 107, rfl⟩
abbrev main_c_13 : Ref sig .tc := ⟨.hbm, 108, rfl⟩
abbrev main_call4_v0 : Ref sig .tc := ⟨.hbm, 109, rfl⟩
abbrev main_call4_v1 : Ref sig .tc := ⟨.hbm, 110, rfl⟩
abbrev main_v58 : Ref sig .tc := ⟨.hbm, 111, rfl⟩
abbrev main_c_14 : Ref sig .tc := ⟨.hbm, 112, rfl⟩
abbrev main_v59 : Ref sig .tc := ⟨.hbm, 113, rfl⟩
abbrev main_v60 : Ref sig .tc := ⟨.hbm, 114, rfl⟩
abbrev main_c_15 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_cst_16 : Ref sig .tc := ⟨.hbm, 121, rfl⟩
abbrev main_call5_v0 : Ref sig .tc := ⟨.hbm, 122, rfl⟩
abbrev main_call5_v1 : Ref sig .tc := ⟨.hbm, 123, rfl⟩
abbrev main_v66 : Ref sig .tc := ⟨.hbm, 124, rfl⟩
abbrev main_v67 : Ref sig .tc := ⟨.hbm, 125, rfl⟩
abbrev main_c_17 : Ref sig .tc := ⟨.hbm, 126, rfl⟩
abbrev main_v68 : Ref sig .tc := ⟨.hbm, 127, rfl⟩
abbrev main_v69 : Ref sig .tc := ⟨.hbm, 128, rfl⟩
abbrev main_c_18 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_cst_19 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_cst_20 : Ref sig .tc := ⟨.hbm, 145, rfl⟩
abbrev main_cst_21 : Ref sig .tc := ⟨.hbm, 146, rfl⟩
abbrev main_call6_v0 : Ref sig .tc := ⟨.hbm, 147, rfl⟩
abbrev main_call6_v1 : Ref sig .tc := ⟨.hbm, 148, rfl⟩
abbrev main_v84 : Ref sig .tc := ⟨.hbm, 149, rfl⟩
abbrev main_cst_22 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_cst_23 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_cst_24 : Ref sig .tc := ⟨.hbm, 165, rfl⟩
abbrev main_call7_cst : Ref sig .tc := ⟨.hbm, 166, rfl⟩
abbrev main_call7_v0 : Ref sig .tc := ⟨.hbm, 167, rfl⟩
abbrev main_call7_v1 : Ref sig .tc := ⟨.hbm, 168, rfl⟩
abbrev main_call7_v2 : Ref sig .tc := ⟨.hbm, 169, rfl⟩
abbrev main_call7_v3 : Ref sig .tc := ⟨.hbm, 170, rfl⟩
abbrev main_call7_v4 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_cst_25 : Ref sig .tc := ⟨.hbm, 182, rfl⟩
abbrev main_call8_v0 : Ref sig .tc := ⟨.hbm, 183, rfl⟩
abbrev main_call8_v1 : Ref sig .tc := ⟨.hbm, 184, rfl⟩
abbrev main_v108 : Ref sig .tc := ⟨.hbm, 185, rfl⟩
abbrev main_cst_26 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_27 : Ref sig .tc := ⟨.hbm, 190, rfl⟩
abbrev main_v112 : Ref sig .tc := ⟨.hbm, 191, rfl⟩
abbrev main_v113 : Ref sig .tc := ⟨.hbm, 192, rfl⟩
abbrev main_cst_28 : Ref sig .tc := ⟨.hbm, 193, rfl⟩
abbrev main_v114 : Ref sig .tc := ⟨.hbm, 194, rfl⟩
abbrev main_v115 : Ref sig .tc := ⟨.hbm, 195, rfl⟩
abbrev main_cst_29 : Ref sig .tc := ⟨.hbm, 196, rfl⟩
abbrev main_call9_v0 : Ref sig .tc := ⟨.hbm, 197, rfl⟩
abbrev main_call9_v1 : Ref sig .tc := ⟨.hbm, 198, rfl⟩
abbrev main_v116 : Ref sig .tc := ⟨.hbm, 199, rfl⟩
abbrev main_v117 : Ref sig .tc := ⟨.hbm, 200, rfl⟩
abbrev main_cst_30 : Ref sig .tc := ⟨.hbm, 201, rfl⟩
abbrev main_call10_v0 : Ref sig .tc := ⟨.hbm, 202, rfl⟩
abbrev main_call10_v1 : Ref sig .tc := ⟨.hbm, 203, rfl⟩
abbrev main_v118 : Ref sig .tc := ⟨.hbm, 204, rfl⟩
abbrev main_c_31 : Ref sig .tc := ⟨.hbm, 205, rfl⟩
abbrev main_v119 : Ref sig .tc := ⟨.hbm, 206, rfl⟩
abbrev main_v120 : Ref sig .tc := ⟨.hbm, 207, rfl⟩
abbrev main_c_32 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_c_33 : Ref sig .tc := ⟨.hbm, 216, rfl⟩
abbrev main_v128 : Ref sig .tc := ⟨.hbm, 217, rfl⟩
abbrev main_v129 : Ref sig .tc := ⟨.hbm, 218, rfl⟩
abbrev main_c_34 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_c_35 : Ref sig .tc := ⟨.hbm, 227, rfl⟩
abbrev main_v137 : Ref sig .tc := ⟨.hbm, 228, rfl⟩
abbrev main_v138 : Ref sig .tc := ⟨.hbm, 229, rfl⟩
abbrev main_c_36 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_cst_37 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_cst_38 : Ref sig .tc := ⟨.hbm, 248, rfl⟩
abbrev main_call11_cst : Ref sig .tc := ⟨.hbm, 249, rfl⟩
abbrev main_call11_v0 : Ref sig .tc := ⟨.hbm, 250, rfl⟩
abbrev main_call11_v1 : Ref sig .tc := ⟨.hbm, 251, rfl⟩
abbrev main_call11_v2 : Ref sig .tc := ⟨.hbm, 252, rfl⟩
abbrev main_call11_v3 : Ref sig .tc := ⟨.hbm, 253, rfl⟩
abbrev main_call11_v4 : Ref sig .tc := ⟨.hbm, 254, rfl⟩
abbrev main_v155 : Ref sig .tc := ⟨.hbm, 255, rfl⟩
abbrev main_cst_39 : Ref sig .tc := ⟨.hbm, 256, rfl⟩
abbrev main_v156 : Ref sig .tc := ⟨.hbm, 257, rfl⟩
abbrev main_c_40 : Ref sig .tc := ⟨.hbm, 258, rfl⟩
abbrev main_call12_v0 : Ref sig .tc := ⟨.hbm, 259, rfl⟩
abbrev main_call12_v1 : Ref sig .tc := ⟨.hbm, 260, rfl⟩
abbrev main_v157 : Ref sig .tc := ⟨.hbm, 261, rfl⟩
abbrev main_c_41 : Ref sig .tc := ⟨.hbm, 262, rfl⟩
abbrev main_v158 : Ref sig .tc := ⟨.hbm, 263, rfl⟩
abbrev main_v159 : Ref sig .tc := ⟨.hbm, 264, rfl⟩
abbrev main_c_42 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_cst_43 : Ref sig .tc := ⟨.hbm, 271, rfl⟩
abbrev main_call13_v0 : Ref sig .tc := ⟨.hbm, 272, rfl⟩
abbrev main_call13_v1 : Ref sig .tc := ⟨.hbm, 273, rfl⟩
abbrev main_v165 : Ref sig .tc := ⟨.hbm, 274, rfl⟩
abbrev main_v166 : Ref sig .tc := ⟨.hbm, 275, rfl⟩
abbrev main_c_44 : Ref sig .tc := ⟨.hbm, 276, rfl⟩
abbrev main_v167 : Ref sig .tc := ⟨.hbm, 277, rfl⟩
abbrev main_v168 : Ref sig .tc := ⟨.hbm, 278, rfl⟩
abbrev main_c_45 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_cst_46 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_cst_47 : Ref sig .tc := ⟨.hbm, 295, rfl⟩
abbrev main_cst_48 : Ref sig .tc := ⟨.hbm, 296, rfl⟩
abbrev main_call14_v0 : Ref sig .tc := ⟨.hbm, 297, rfl⟩
abbrev main_call14_v1 : Ref sig .tc := ⟨.hbm, 298, rfl⟩
abbrev main_v183 : Ref sig .tc := ⟨.hbm, 299, rfl⟩
abbrev main_cst_49 : Ref sig .tc := ⟨.hbm, 300, rfl⟩
abbrev main_v184 : Ref sig .tc := ⟨.hbm, 301, rfl⟩
abbrev main_v185 : Ref sig .tc := ⟨.hbm, 302, rfl⟩
abbrev main_v186 : Ref sig .tc := ⟨.hbm, 303, rfl⟩
abbrev main_v187 : Ref sig .tc := ⟨.hbm, 304, rfl⟩
abbrev main_cst_50 : Ref sig .tc := ⟨.hbm, 305, rfl⟩
abbrev main_v188 : Ref sig .tc := ⟨.hbm, 306, rfl⟩
abbrev main_v189 : Ref sig .tc := ⟨.hbm, 307, rfl⟩
abbrev main_v190 : Ref sig .tc := ⟨.hbm, 308, rfl⟩
abbrev main_v191 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_51 : Ref sig .tc := ⟨.hbm, 315, rfl⟩
abbrev main_call15_cst : Ref sig .tc := ⟨.hbm, 316, rfl⟩
abbrev main_call15_v0 : Ref sig .tc := ⟨.hbm, 317, rfl⟩
abbrev main_call15_v1 : Ref sig .tc := ⟨.hbm, 318, rfl⟩
abbrev main_call15_v2 : Ref sig .tc := ⟨.hbm, 319, rfl⟩
abbrev main_call15_v3 : Ref sig .tc := ⟨.hbm, 320, rfl⟩
abbrev main_call15_v4 : Ref sig .tc := ⟨.hbm, 321, rfl⟩
abbrev main_v197 : Ref sig .tc := ⟨.hbm, 322, rfl⟩
abbrev main_v198 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_v204 : Ref sig .tc := ⟨.hbm, 329, rfl⟩
abbrev main_v205 : Ref sig .tc := ⟨.hbm, 330, rfl⟩
abbrev main_v206 : Ref sig .tc := ⟨.hbm, 331, rfl⟩
abbrev main_call16_cst : Ref sig .tc := ⟨.hbm, 332, rfl⟩
abbrev main_call16_v0 : Ref sig .tc := ⟨.hbm, 333, rfl⟩
abbrev main_call16_cst_0 : Ref sig .tc := ⟨.hbm, 334, rfl⟩
abbrev main_call16_v1 : Ref sig .tc := ⟨.hbm, 335, rfl⟩
abbrev main_call16_v2 : Ref sig .tc := ⟨.hbm, 336, rfl⟩
abbrev main_call16_v3 : Ref sig .tc := ⟨.hbm, 337, rfl⟩
abbrev main_call16_v4 : Ref sig .tc := ⟨.hbm, 338, rfl⟩
abbrev main_call16_v5 : Ref sig .tc := ⟨.hbm, 339, rfl⟩
abbrev main_call16_v6 : Ref sig .tc := ⟨.hbm, 340, rfl⟩
abbrev main_call16_cst_1 : Ref sig .tc := ⟨.hbm, 341, rfl⟩
abbrev main_call16_v7 : Ref sig .tc := ⟨.hbm, 342, rfl⟩
abbrev main_call16_v8 : Ref sig .tc := ⟨.hbm, 343, rfl⟩
abbrev main_call16_v9 : Ref sig .tc := ⟨.hbm, 344, rfl⟩
abbrev main_call16_v10 : Ref sig .tc := ⟨.hbm, 345, rfl⟩
abbrev main_v207 : Ref sig .tc := ⟨.hbm, 346, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S40_S1x40_1 : S40.BroadcastsInDim S1x40 (![1] : Fin 1 → Fin S1x40.rank)
  bcast_S1x40_S40000x40_0_1 : S1x40.BroadcastsInDim S40000x40 (![0, 1] : Fin 2 → Fin S40000x40.rank)
  reducesTo_S40000x40_S40000_d1 : S40000x40.ReducesTo [1] S40000
  h_S_ : 0 < S_.numel
  bcast_S40000x1_S40000x40_0_1 : S40000x1.BroadcastsInDim S40000x40 (![0, 1] : Fin 2 → Fin S40000x40.rank)
  dot_S40000x512_S512x128_S40000x128_1_0_0_1_n_n_wf : DotDims.WF S40000x512 S512x128 S40000x128 [1] [0] [0] [1] [] []
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  dot_S40000x128_S128x40_S40000x40_1_0_0_1_n_n_wf : DotDims.WF S40000x128 S128x40 S40000x40 [1] [0] [0] [1] [] []

variable [Facts₀]

def dot_S40000x512_S512x128_S40000x128_1_0_0_1_n_n : DotDims S40000x512 S512x128 S40000x128 where
  lhsContracting := [1]
  rhsContracting := [0]
  lhsNonContracting := [0]
  rhsNonContracting := [1]
  lhsBatch := []
  rhsBatch := []
  wf := dot_S40000x512_S512x128_S40000x128_1_0_0_1_n_n_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x40_S40000x40_1_0_0_1_n_n : DotDims S40000x128 S128x40 S40000x40 where
  lhsContracting := [1]
  rhsContracting := [0]
  lhsNonContracting := [0]
  rhsNonContracting := [1]
  lhsBatch := []
  rhsBatch := []
  wf := dot_S40000x128_S128x40_S40000x40_1_0_0_1_n_n_wf

class Facts : Prop extends Facts₀ where

variable [Facts]
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.LibSoftmaxRows.lean ====
/-
  Row softmax on the extended reals, and the vector operations that compute it on an `[a, b]` array, read at an entry.

  For a row `f : Fin n → EReal`: `rowMax f` is the fold of `max` over its entries from `-∞` (the f32 word
  `0xFF800000`), `expShift f k = exp (f k - rowMax f)`, `overSum g k = g k / ∑ j, g j`, and
  `softmaxRow f = overSum (expShift f)`.  One more maximum with `-∞` does not change a row's maximum.
  For an `[a, b]` array `v` of f32 values at the extended reals, any extents: its row maxima (a maximum-reduction along
  axis 1 from `-∞`) re-laid as a column and spread back over the lanes read, at `(r, k)`, `rowMax` of row `r`; its row
  sums (an add-reduction along axis 1 from zero) likewise read the row's sum; so `exp (v - spread maxima)` at `(r, k)` is
  `expShift` of row `r` at `k` and `g / spread sums` at `(r, k)` is `overSum` of row `r` at `k`.  Also the re-layings
  between `[1, 1, a, b]` and `[a, b]` read at an entry.  (The column forms and the reduction's source index come from the
  keepdims lemma file this module imports.)
-/
import Idealize.ShloMosaic.PureOps.Ideal
import Idealize.ShloMosaic.PureOps.Ideal.Laws
import Idealize.ShloMosaic.Lib.ValueIdx
import Idealize.ShloMosaic.Lib.Pipeline.Value
import proofs.«143715_j36816459661705_2_alg».proof.Proof.LibKeepdims

noncomputable section

namespace Cert.Attn

open Idealize.ShloMosaic Idealize.ShloMosaic.ValueIdx

/-- A row's maximum: the fold of `max` over its entries, from `-∞`. -/
def rowMax {n : ℕ} (f : Fin n → EReal) : EReal :=
  (Finset.univ : Finset (Fin n)).fold max (Ideal.ofBits .f32 0xFF800000#32) f

/-- The numerator of a row's softmax at `k`. -/
def expShift {n : ℕ} (f : Fin n → EReal) (k : Fin n) : EReal := Ideal.exp (f k - rowMax f)

/-- An entry of a row over the row's sum. -/
def overSum {n : ℕ} (g : Fin n → EReal) (k : Fin n) : EReal := Ideal.div (g k) (∑ j : Fin n, g j)

/-- A row's softmax at `k`. -/
def softmaxRow {n : ℕ} (f : Fin n → EReal) (k : Fin n) : EReal := overSum (expShift f) k

/-- The maximum of `-∞` and a row's maximum is the row's maximum: the fold starts from `-∞`. -/
theorem max_negInf_rowMax {n : ℕ} (f : Fin n → EReal) :
    max (Ideal.ofBits .f32 0xFF800000#32) (rowMax f) = rowMax f := by
  unfold rowMax
  exact max_eq_right ((Finset.le_fold_max _).2 (Or.inl le_rfl))

end Cert.Attn

namespace Cert.Attn.RowOps

open Idealize.ShloMosaic Idealize.ShloMosaic.ValueIdx Cert.Attn Cert.Lib.Keepdims

variable {a b : ℕ}

/-- The row maxima of `v`, spread back over the lanes, at `(r, k)`: the maximum of row `r`. -/
theorem rowMax_spread (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ (multiReduction .maximumf [1] ⟨1, ![a]⟩ v 0xFF800000#32 hr hφ hacc) hc) hb (ix2 r k)
      = rowMax fun k' : Fin b => v (ix2 r k') := by
  refine (column_spread_apply _ hc hb r k).trans ?_
  refine (Ideal.multiReduction_maximumf_single v _ hr hφ hacc (ix1 r)).trans ?_
  unfold rowMax
  show (Finset.univ : Finset (Fin b)).fold max _ _ = _
  refine congrArg (fun g => (Finset.univ : Finset (Fin b)).fold max (Ideal.ofBits .f32 0xFF800000#32) g) ?_
  funext k'
  exact congrArg v (lift_axis1 hr r k')

/-- The row sums of `g`, spread back over the lanes, at `(r, k)`: the sum of row `r`. -/
theorem rowSum_spread (g : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ (multiReduction .add [1] ⟨1, ![a]⟩ g 0x00000000#32 hr hφ hacc) hc) hb (ix2 r k)
      = ∑ k' : Fin b, g (ix2 r k') := by
  refine (column_spread_apply _ hc hb r k).trans ?_
  refine (Ideal.multiReduction_add_single g _ hr hφ hacc (ix1 r)).trans ?_
  show ∑ k' : Fin b, _ = _
  refine Finset.sum_congr rfl fun k' _ => ?_
  exact congrArg g (lift_axis1 hr r k')

/-- `exp` of the array minus its spread row maxima, at `(r, k)`: the softmax numerator of row `r` at `k`. -/
theorem expShift_vec (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    exp (subf v (broadcastTo ⟨2, ![a, b]⟩ (shapeCast ⟨2, ![a, 1]⟩ (multiReduction .maximumf [1] ⟨1, ![a]⟩ v 0xFF800000#32 hr hφ hacc) hc) hb)) (ix2 r k)
      = expShift (fun k' : Fin b => v (ix2 r k')) k :=
  congrArg (fun M => Ideal.exp (v (ix2 r k) - M)) (rowMax_spread v hr hφ hacc hc hb r k)

/-- The array over its spread row sums, at `(r, k)`: row `r`'s entry over the row's sum. -/
theorem overSum_vec (g : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf g (broadcastTo ⟨2, ![a, b]⟩ (shapeCast ⟨2, ![a, 1]⟩ (multiReduction .add [1] ⟨1, ![a]⟩ g 0x00000000#32 hr hφ hacc) hc) hb) (ix2 r k)
      = overSum (fun k' : Fin b => g (ix2 r k')) k :=
  congrArg (fun S => Ideal.div (g (ix2 r k)) S) (rowSum_spread g hr hφ hacc hc hb r k)

variable {α : Type}

/-- A `[1, 1, a, b]` array re-laid as `[a, b]` reads, at `(i, j)`, the operand at `(0, 0, i, j)`. -/
theorem shapeCast_11ab_ab_apply (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array re-laid as `[1, 1, a, b]` reads, at `(u, w, i, j)`, the operand at `(i, j)`. -/
theorem shapeCast_ab_11ab_apply (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]; simp only [Nat.zero_mul, Nat.zero_add])

end Cert.Attn.RowOps

end
-- ==== Proof.Entry.lean ====
/-
  The dense stages of the two-cell graph network, one entry at a time, on the extended reals.

  Every dense stage is row-wise: entry (r, j) of its result depends only on row r of the node arrays and on the
  (small) weight matrices. Three kinds occur.
  * A linear map with a one-row bias: (x · w + b)[r, j] = ∑ₖ x[r, k] · w[k, j] + b[0, j].
  * The combining stage of a cell. With the leaky rectifier ℓ(v) = v if v ≥ 0, else s · v (s the f32 nearest
    to 1/100), the two branches are
        o₁[r, k] = ℓ((∑ᵢ xh[r, i] · w₀[i, k] + ∑ᵢ tx[r, i] · w₁[i, k]) + cb[0, k])   (Chebyshev, order 2)
        o₂[r, k] = ℓ(∑ᵢ agg[r, i] · sw[i, k] + sb[0, k])                              (mean aggregation)
    and the stage is ((o₁ + o₂) · lw + lb)[r, j].
  * The classifier: with y[r, ·] = (x · w + b)[r, ·] and z = y − max_q y[r, q], the entry is
    z[j] − log ∑_q exp z[q] (the logarithm of a row's softmax).
  Sums are finite sums in the extended reals in the order of `Finset.univ`; nothing here needs finiteness.
-/
import Idealize.ShloMosaic.Lib.ValueIdx
import Idealize.ShloMosaic.PureOps.Ideal.Laws
import proofs.«143715_j36816459661705_2_alg».proof.Proof.LibSoftmaxRows

noncomputable section

open scoped BigOperators

namespace Cert.Gnn

open Idealize.ShloMosaic Idealize.ShloMosaic.ValueIdx

variable {N K D C : Nat}

/-- Entry (r, j) of x · w + b, the bias b a one-row matrix. -/
def linAt (x : FVec Ideal ⟨2, ![N, K]⟩ .f32) (w : FVec Ideal ⟨2, ![K, D]⟩ .f32) (b : FVec Ideal ⟨2, ![1, D]⟩ .f32)
    (r : Fin N) (j : Fin D) : EReal :=
  (∑ k : Fin K, x (ix2 r k) * w (ix2 k j)) + b (ix2 (0 : Fin 1) j)

/-- The leaky rectifier: v where v ≥ 0, otherwise v scaled by the f32 nearest to 1/100. -/
def lrelu (v : EReal) : EReal :=
  Scalar.select (FloatOps.cmpf (F := Ideal) (φ := .f32) .oge v (Ideal.ofBits .f32 0x00000000#32)) v
    (Ideal.ofBits .f32 0x3C23D70A#32 * v)

/-- The Chebyshev branch before its rectifier, at (r, k): xh · w₀ + tx · w₁ + cb. -/
def chebAt (xh tx : FVec Ideal ⟨2, ![N, D]⟩ .f32) (w0 w1 : FVec Ideal ⟨2, ![D, D]⟩ .f32) (cb : FVec Ideal ⟨2, ![1, D]⟩ .f32)
    (r : Fin N) (k : Fin D) : EReal :=
  ((∑ i : Fin D, xh (ix2 r i) * w0 (ix2 i k)) + (∑ i : Fin D, tx (ix2 r i) * w1 (ix2 i k))) + cb (ix2 (0 : Fin 1) k)

/-- The combining stage of a cell at (r, j): ((ℓ(cheb) + ℓ(agg · sw + sb)) · lw + lb)[r, j]. -/
def combAt (xh tx agg : FVec Ideal ⟨2, ![N, D]⟩ .f32) (w0 w1 : FVec Ideal ⟨2, ![D, D]⟩ .f32) (cb : FVec Ideal ⟨2, ![1, D]⟩ .f32)
    (sw : FVec Ideal ⟨2, ![D, D]⟩ .f32) (sb : FVec Ideal ⟨2, ![1, D]⟩ .f32)
    (lw : FVec Ideal ⟨2, ![D, D]⟩ .f32) (lb : FVec Ideal ⟨2, ![1, D]⟩ .f32) (r : Fin N) (j : Fin D) : EReal :=
  (∑ k : Fin D, (lrelu (chebAt xh tx w0 w1 cb r k) + lrelu (linAt agg sw sb r k)) * lw (ix2 k j)) + lb (ix2 (0 : Fin 1) j)

/-- A row of the classifier's affine map, shifted by the row's maximum. -/
def shiftedAt (x : FVec Ideal ⟨2, ![N, D]⟩ .f32) (w : FVec Ideal ⟨2, ![D, C]⟩ .f32) (b : FVec Ideal ⟨2, ![1, C]⟩ .f32)
    (r : Fin N) (q : Fin C) : EReal :=
  linAt x w b r q - Cert.Attn.rowMax (fun q' : Fin C => linAt x w b r q')

/-- The classifier at (r, j): the shifted row minus the logarithm of the sum of its exponentials. -/
def clsAt (x : FVec Ideal ⟨2, ![N, D]⟩ .f32) (w : FVec Ideal ⟨2, ![D, C]⟩ .f32) (b : FVec Ideal ⟨2, ![1, C]⟩ .f32)
    (r : Fin N) (j : Fin C) : EReal :=
  shiftedAt x w b r j - Ideal.log (∑ q : Fin C, Ideal.exp (shiftedAt x w b r q))

end Cert.Gnn

end
-- ==== Proof.DenseHost.lean ====
/-
  The dense stages in the host's spelling, read at an entry.

  The reference spells a linear map as a `dot_general` plus a bias made a row and then spread over the rows, the
  leaky rectifier as `select (x ≥ 0) x (s · x)` with both constants broadcast from scalars, and the logarithm of a
  row's softmax as: the row maximum (a reduce from −∞, then one more maximum with −∞), the shifted rows, their
  exponentials, the row sums (a reduce from 0), their logarithms, and a last subtraction — each row quantity made
  a column and spread along the row. At the ideal values a `dot_general` with one contracted axis is the plain
  sum over that axis, so each stage reads, entry by entry, the formulas of `Cert.Gnn` (Entry). Sizes are abstract.
-/
import Idealize.ShloMosaic.Lib.ValueIdx
import Idealize.ShloMosaic.Lib.ValueLayout
import Idealize.ShloMosaic.Lib.Pipeline.Value
import Idealize.ShloMosaic.PureOps.Ideal.Laws
import proofs.«143715_j36816459661705_2_alg».proof.Proof.LibMlpAt
import proofs.«143715_j36816459661705_2_alg».proof.Proof.LibKeepdims
import proofs.«143715_j36816459661705_2_alg».proof.Proof.Entry

noncomputable section

open scoped BigOperators

namespace Cert.Gnn.HostForm

open Idealize.ShloMosaic Idealize.ShloMosaic.ValueIdx Cert.Mlp Cert.Gnn

variable {N K D C : Nat}

/-- A vector [D] made the one row [1, D]. -/
abbrev rowOf (hr : (⟨1, ![D]⟩ : Shape).BroadcastsInDim ⟨2, ![1, D]⟩ (![1] : Fin 1 → Fin 2)) (b : FVec Ideal ⟨1, ![D]⟩ .f32) :
    FVec Ideal ⟨2, ![1, D]⟩ .f32 := broadcastInDim ⟨2, ![1, D]⟩ (![1] : Fin 1 → Fin 2) hr b

/-- x · w + b, the bias spread over the rows. -/
def lin (wA : DotDims.WF ⟨2, ![N, K]⟩ ⟨2, ![K, D]⟩ ⟨2, ![N, D]⟩ [1] [0] [0] [1] [] [])
    (hb : (⟨2, ![1, D]⟩ : Shape).BroadcastsInDim ⟨2, ![N, D]⟩ (![0, 1] : Fin 2 → Fin 2))
    (hr : (⟨1, ![D]⟩ : Shape).BroadcastsInDim ⟨2, ![1, D]⟩ (![1] : Fin 1 → Fin 2))
    (x : FVec Ideal ⟨2, ![N, K]⟩ .f32) (w : FVec Ideal ⟨2, ![K, D]⟩ .f32) (b : FVec Ideal ⟨1, ![D]⟩ .f32) :
    FVec Ideal ⟨2, ![N, D]⟩ .f32 :=
  addf (Host.dotGeneral (D2 wA) none x w) (broadcastInDim ⟨2, ![N, D]⟩ (![0, 1] : Fin 2 → Fin 2) hb (rowOf hr b))

theorem lin_at (wA : DotDims.WF ⟨2, ![N, K]⟩ ⟨2, ![K, D]⟩ ⟨2, ![N, D]⟩ [1] [0] [0] [1] [] [])
    (hb : (⟨2, ![1, D]⟩ : Shape).BroadcastsInDim ⟨2, ![N, D]⟩ (![0, 1] : Fin 2 → Fin 2))
    (hr : (⟨1, ![D]⟩ : Shape).BroadcastsInDim ⟨2, ![1, D]⟩ (![1] : Fin 1 → Fin 2))
    (x : FVec Ideal ⟨2, ![N, K]⟩ .f32) (w : FVec Ideal ⟨2, ![K, D]⟩ .f32) (b : FVec Ideal ⟨1, ![D]⟩ .f32) (r : Fin N) (j : Fin D) :
    lin wA hb hr x w b (ix2 r j) = linAt x w (rowOf hr b) r j := by
  unfold lin linAt
  rw [addf_apply, dotGeneral_at, bcastRow_at]

/-- The leaky rectifier, both constants broadcast from scalars. -/
def lreluH (hz : (⟨0, ![]⟩ : Shape).BroadcastsInDim ⟨2, ![N, D]⟩ (![] : Fin 0 → Fin 2)) (x : FVec Ideal ⟨2, ![N, D]⟩ .f32) :
    FVec Ideal ⟨2, ![N, D]⟩ .f32 :=
  select (cmpf .oge x (broadcastInDim ⟨2, ![N, D]⟩ (![] : Fin 0 → Fin 2) hz (constant (F := Ideal) ⟨0, ![]⟩ .f32 0x00000000#32))) x
    (mulf (broadcastInDim ⟨2, ![N, D]⟩ (![] : Fin 0 → Fin 2) hz (constant (F := Ideal) ⟨0, ![]⟩ .f32 0x3C23D70A#32)) x)

theorem lreluH_at (hz : (⟨0, ![]⟩ : Shape).BroadcastsInDim ⟨2, ![N, D]⟩ (![] : Fin 0 → Fin 2)) (x : FVec Ideal ⟨2, ![N, D]⟩ .f32)
    (i : (⟨2, ![N, D]⟩ : Shape).Idx) : lreluH hz x i = lrelu (x i) := by
  unfold lreluH lrelu
  rw [select_apply, cmpf_apply, mulf_apply, bcastScalar_at, bcastScalar_at, constant_apply, constant_apply]

/-- The combining stage: (ℓ(xh · w₀ + tx · w₁ + cb) + ℓ(agg · sw + sb)) · lw + lb. -/
def comb (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hr : (⟨1, ![D]⟩ : Shape).BroadcastsInDim ⟨2, ![1, D]⟩ (![1] : Fin 1 → Fin 2))
    (hz : (⟨0, ![]⟩ : Shape).BroadcastsInDim ⟨2, ![N, D]⟩ (![] : Fin 0 → Fin 2))
    (xh tx agg : FVec Ideal ⟨2, ![N, D]⟩ .f32) (w0 w1 : FVec Ideal ⟨2, ![D, D]⟩ .f32) (cb : FVec Ideal ⟨1, ![D]⟩ .f32)
    (sw : FVec Ideal ⟨2, ![D, D]⟩ .f32) (sb : FVec Ideal ⟨1, ![D]⟩ .f32) (lw : FVec Ideal ⟨2, ![D, D]⟩ .f32) (lb : FVec Ideal ⟨1, ![D]⟩ .f32) :
    FVec Ideal ⟨2, ![N, D]⟩ .f32 :=
  lin wB hb hr
    (addf
      (lreluH hz (addf (addf (Host.dotGeneral (D2 wB) none xh w0) (Host.dotGeneral (D2 wB) none tx w1))
        (broadcastInDim ⟨2, ![N, D]⟩ (![0, 1] : Fin 2 → Fin 2) hb (rowOf hr cb))))
      (lreluH hz (lin wB hb hr agg sw sb)))
    lw lb

theorem comb_at (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hr : (⟨1, ![D]⟩ : Shape).BroadcastsInDim ⟨2, ![1, D]⟩ (![1] : Fin 1 → Fin 2))
    (hz : (⟨0, ![]⟩ : Shape).BroadcastsInDim ⟨2, ![N, D]⟩ (![] : Fin 0 → Fin 2))
    (xh tx agg : FVec Ideal ⟨2, ![N, D]⟩ .f32) (w0 w1 : FVec Ideal ⟨2, ![D, D]⟩ .f32) (cb : FVec Ideal ⟨1, ![D]⟩ .f32)
    (sw : FVec Ideal ⟨2, ![D, D]⟩ .f32) (sb : FVec Ideal ⟨1, ![D]⟩ .f32) (lw : FVec Ideal ⟨2, ![D, D]⟩ .f32) (lb : FVec Ideal ⟨1, ![D]⟩ .f32)
    (r : Fin N) (j : Fin D) :
    comb wB hb hr hz xh tx agg w0 w1 cb sw sb lw lb (ix2 r j)
      = combAt xh tx agg w0 w1 (rowOf hr cb) sw (rowOf hr sb) lw (rowOf hr lb) r j := by
  unfold comb
  rw [lin_at]
  unfold linAt combAt
  refine congrArg (fun s => s + rowOf hr lb (ix2 (0 : Fin 1) j)) ?_
  refine Finset.sum_congr rfl fun k _ => ?_
  refine congrArg (fun s => s * lw (ix2 k j)) ?_
  rw [addf_apply, lreluH_at, lreluH_at, lin_at, addf_apply, addf_apply, dotGeneral_at, dotGeneral_at, bcastRow_at]
  rfl

/-- The logarithm of a row's softmax of x · w + b. -/
def cls (wC : DotDims.WF ⟨2, ![N, D]⟩ ⟨2, ![D, C]⟩ ⟨2, ![N, C]⟩ [1] [0] [0] [1] [] [])
    (hb : (⟨2, ![1, C]⟩ : Shape).BroadcastsInDim ⟨2, ![N, C]⟩ (![0, 1] : Fin 2 → Fin 2))
    (hr : (⟨1, ![C]⟩ : Shape).BroadcastsInDim ⟨2, ![1, C]⟩ (![1] : Fin 1 → Fin 2))
    (hred : (⟨2, ![N, C]⟩ : Shape).ReducesTo [1] ⟨1, ![N]⟩) (hu : 0 < (⟨0, ![]⟩ : Shape).numel)
    (hs : (⟨0, ![]⟩ : Shape).BroadcastsInDim ⟨1, ![N]⟩ (![] : Fin 0 → Fin 1))
    (hc : (⟨1, ![N]⟩ : Shape).BroadcastsInDim ⟨2, ![N, 1]⟩ (![0] : Fin 1 → Fin 2))
    (hw : (⟨2, ![N, 1]⟩ : Shape).BroadcastsInDim ⟨2, ![N, C]⟩ (![0, 1] : Fin 2 → Fin 2))
    (x : FVec Ideal ⟨2, ![N, D]⟩ .f32) (w : FVec Ideal ⟨2, ![D, C]⟩ .f32) (b : FVec Ideal ⟨1, ![C]⟩ .f32) :
    FVec Ideal ⟨2, ![N, C]⟩ .f32 :=
  let y := lin wC hb hr x w b
  let mx : FVec Ideal ⟨1, ![N]⟩ .f32 :=
    maximumf (broadcastInDim ⟨1, ![N]⟩ (![] : Fin 0 → Fin 1) hs (constant (F := Ideal) ⟨0, ![]⟩ .f32 0xFF800000#32))
      (Host.reduce FloatOps.maximumf y (constant (F := Ideal) ⟨0, ![]⟩ .f32 0xFF800000#32) hred hu)
  let z := subf y (broadcastInDim ⟨2, ![N, C]⟩ (![0, 1] : Fin 2 → Fin 2) hw (broadcastInDim ⟨2, ![N, 1]⟩ (![0] : Fin 1 → Fin 2) hc mx))
  let sm : FVec Ideal ⟨1, ![N]⟩ .f32 := Host.reduceAdd (Host.exp z) (constant (F := Ideal) ⟨0, ![]⟩ .f32 0x00000000#32) hred hu
  subf z (broadcastInDim ⟨2, ![N, C]⟩ (![0, 1] : Fin 2 → Fin 2) hw (Host.log (broadcastInDim ⟨2, ![N, 1]⟩ (![0] : Fin 1 → Fin 2) hc sm)))

end Cert.Gnn.HostForm

end
-- ==== Proof.LibHostRows.lean ====
/-
  Row quantities in the host's spelling, read at an index (general lemmas, abstract sizes, at the ideal values).

  For a matrix y : [N, C]: the host's row maximum — a `reduce` with a maximum body from −∞ along axis 1, followed by
  one more maximum with a broadcast −∞ — is the fold of max from −∞ over the row (`Cert.Attn.rowMax`); the host's row
  sum — a `reduce` with an add body from 0 — is the plain finite sum over the row; a scalar broadcast to a vector
  reads the scalar; a vector [N] made a column [N, 1] by `broadcast_in_dim` along axis 0, and a column spread along
  the rows of [N, C] by `broadcast_in_dim` along axes (0, 1), read back the entry of the row's number. These are
  the pieces of a host softmax or log-softmax over the last axis.
-/
import Idealize.ShloMosaic.Lib.ValueIdx
import Idealize.ShloMosaic.Lib.Pipeline.Value
import Idealize.ShloMosaic.PureOps.Ideal.Laws
import proofs.«143715_j36816459661705_2_alg».proof.Proof.LibKeepdims
import proofs.«143715_j36816459661705_2_alg».proof.Proof.LibSoftmaxRows

noncomputable section

open scoped BigOperators

namespace Cert.Lib.HostRows

open Idealize.ShloMosaic Idealize.ShloMosaic.ValueIdx

variable {N C : Nat}

/-- A scalar broadcast to a vector reads the scalar everywhere. -/
theorem bcastScalar1_at {α : Type} (h : (⟨0, ![]⟩ : Shape).BroadcastsInDim ⟨1, ![N]⟩ (![] : Fin 0 → Fin 1))
    (v : (⟨0, ![]⟩ : Shape).Idx → α) (i : (⟨1, ![N]⟩ : Shape).Idx) :
    broadcastInDim ⟨1, ![N]⟩ (![] : Fin 0 → Fin 1) h v i = v ix0 :=
  broadcastInDim_apply _ h v i ix0 fun ax => ax.elim0

/-- A vector [N] made a column [N, 1] reads the vector's entry r at (r, 0). -/
theorem column_at {α : Type} (hc : (⟨1, ![N]⟩ : Shape).BroadcastsInDim ⟨2, ![N, 1]⟩ (![0] : Fin 1 → Fin 2))
    (v : (⟨1, ![N]⟩ : Shape).Idx → α) (r : Fin N) (u : Fin 1) :
    broadcastInDim ⟨2, ![N, 1]⟩ (![0] : Fin 1 → Fin 2) hc v (ix2 r u) = v (ix1 r) := by
  refine broadcastInDim_apply _ hc v (ix2 r u) (ix1 r) fun ax => ?_
  match ax with
  | ⟨0, _⟩ =>
    show r.val = if N = 1 then 0 else r.val
    split
    · have := r.isLt; omega
    · rfl

/-- A column [N, 1] spread along the rows of [N, C] reads the column's entry (r, 0) at (r, q). -/
theorem spread_at {α : Type} (hw : (⟨2, ![N, 1]⟩ : Shape).BroadcastsInDim ⟨2, ![N, C]⟩ (![0, 1] : Fin 2 → Fin 2))
    (v : (⟨2, ![N, 1]⟩ : Shape).Idx → α) (r : Fin N) (q : Fin C) :
    broadcastInDim ⟨2, ![N, C]⟩ (![0, 1] : Fin 2 → Fin 2) hw v (ix2 r q) = v (ix2 r (0 : Fin 1)) := by
  refine broadcastInDim_apply _ hw v (ix2 r q) (ix2 r (0 : Fin 1)) fun ax => ?_
  match ax with
  | ⟨0, _⟩ =>
    show r.val = if N = 1 then 0 else r.val
    split
    · have := r.isLt; omega
    · rfl
  | ⟨1, _⟩ => rfl

/-- The host's row maximum — a reduce from −∞ and one more maximum with −∞ — is the row's maximum. -/
theorem rowMax_host (y : FVec Ideal ⟨2, ![N, C]⟩ .f32)
    (hred : (⟨2, ![N, C]⟩ : Shape).ReducesTo [1] ⟨1, ![N]⟩) (hR : (⟨2, ![N, C]⟩ : Shape).Reduces [1] ⟨1, ![N]⟩)
    (hu : 0 < (⟨0, ![]⟩ : Shape).numel) (hs : (⟨0, ![]⟩ : Shape).BroadcastsInDim ⟨1, ![N]⟩ (![] : Fin 0 → Fin 1)) (r : Fin N) :
    maximumf (broadcastInDim ⟨1, ![N]⟩ (![] : Fin 0 → Fin 1) hs (constant (F := Ideal) ⟨0, ![]⟩ .f32 0xFF800000#32))
        (Host.reduce FloatOps.maximumf y (constant (F := Ideal) ⟨0, ![]⟩ .f32 0xFF800000#32) hred hu) (ix1 r)
      = Cert.Attn.rowMax (fun q : Fin C => y (ix2 r q)) := by
  rw [maximumf_apply, bcastScalar1_at, constant_apply, Host.reduce_eq_fold_single FloatOps.maximumf y _ hred hR hu]
  have hf : (y ∘ hR.lift (ix1 r)) = fun q : Fin C => y (ix2 r q) :=
    funext fun q => congrArg y (Cert.Lib.Keepdims.lift_axis1 hR r q)
  refine Eq.trans ?_ (Cert.Attn.max_negInf_rowMax _)
  unfold Cert.Attn.rowMax
  exact congrArg (fun f => max (Ideal.ofBits .f32 0xFF800000#32)
    (Finset.fold max (Ideal.ofBits .f32 0xFF800000#32) f (Finset.univ : Finset (Fin C)))) hf

/-- The host's row sum from 0 is the plain sum over the row. -/
theorem rowSum_host (e : FVec Ideal ⟨2, ![N, C]⟩ .f32)
    (hred : (⟨2, ![N, C]⟩ : Shape).ReducesTo [1] ⟨1, ![N]⟩) (hR : (⟨2, ![N, C]⟩ : Shape).Reduces [1] ⟨1, ![N]⟩)
    (hu : 0 < (⟨0, ![]⟩ : Shape).numel) (r : Fin N) :
    Host.reduceAdd e (constant (F := Ideal) ⟨0, ![]⟩ .f32 0x00000000#32) hred hu (ix1 r) = ∑ q : Fin C, e (ix2 r q) := by
  show FloatOps.hostReduceAdd [1] hred .single e _ (ix1 r) = _
  rw [Ideal.hostReduceAdd_def, Ideal.hostReduceAdd_single hred hR, constant_apply, Ideal.ofBits_zero_f32, zero_add]
  exact Finset.sum_congr rfl fun q _ => congrArg e (Cert.Lib.Keepdims.lift_axis1 hR r q)

end Cert.Lib.HostRows

end
-- ==== Proof.DenseHostCls.lean ====
/-
  The host's logarithm of a row's softmax, read at an entry.

  Row by row: the maximum is the fold of max from −∞ over the row (one more maximum with −∞ changes nothing), the
  shifted row is the row minus its maximum, the sum of exponentials starts from 0 and so is the plain finite sum,
  and a row quantity made a column and spread along the row is read back at the row's number. Sizes are abstract.
-/
import proofs.«143715_j36816459661705_2_alg».proof.Proof.DenseHost
import proofs.«143715_j36816459661705_2_alg».proof.Proof.LibHostRows

noncomputable section

open scoped BigOperators

namespace Cert.Gnn.HostForm

open Idealize.ShloMosaic Idealize.ShloMosaic.ValueIdx Cert.Mlp Cert.Gnn Cert.Lib.HostRows

variable {N D C : Nat}

theorem cls_at (wC : DotDims.WF ⟨2, ![N, D]⟩ ⟨2, ![D, C]⟩ ⟨2, ![N, C]⟩ [1] [0] [0] [1] [] [])
    (hb : (⟨2, ![1, C]⟩ : Shape).BroadcastsInDim ⟨2, ![N, C]⟩ (![0, 1] : Fin 2 → Fin 2))
    (hr : (⟨1, ![C]⟩ : Shape).BroadcastsInDim ⟨2, ![1, C]⟩ (![1] : Fin 1 → Fin 2))
    (hred : (⟨2, ![N, C]⟩ : Shape).ReducesTo [1] ⟨1, ![N]⟩) (hu : 0 < (⟨0, ![]⟩ : Shape).numel)
    (hs : (⟨0, ![]⟩ : Shape).BroadcastsInDim ⟨1, ![N]⟩ (![] : Fin 0 → Fin 1))
    (hc : (⟨1, ![N]⟩ : Shape).BroadcastsInDim ⟨2, ![N, 1]⟩ (![0] : Fin 1 → Fin 2))
    (hw : (⟨2, ![N, 1]⟩ : Shape).BroadcastsInDim ⟨2, ![N, C]⟩ (![0, 1] : Fin 2 → Fin 2))
    (hR : (⟨2, ![N, C]⟩ : Shape).Reduces [1] ⟨1, ![N]⟩)
    (x : FVec Ideal ⟨2, ![N, D]⟩ .f32) (w : FVec Ideal ⟨2, ![D, C]⟩ .f32) (b : FVec Ideal ⟨1, ![C]⟩ .f32) (r : Fin N) (j : Fin C) :
    cls wC hb hr hred hu hs hc hw x w b (ix2 r j) = clsAt x w (rowOf hr b) r j := by
  -- the shifted row, at any column
  have hz : ∀ q : Fin C,
      subf (lin wC hb hr x w b) (broadcastInDim ⟨2, ![N, C]⟩ (![0, 1] : Fin 2 → Fin 2) hw
        (broadcastInDim ⟨2, ![N, 1]⟩ (![0] : Fin 1 → Fin 2) hc
          (maximumf (broadcastInDim ⟨1, ![N]⟩ (![] : Fin 0 → Fin 1) hs (constant (F := Ideal) ⟨0, ![]⟩ .f32 0xFF800000#32))
            (Host.reduce FloatOps.maximumf (lin wC hb hr x w b) (constant (F := Ideal) ⟨0, ![]⟩ .f32 0xFF800000#32) hred hu)))) (ix2 r q)
        = shiftedAt x w (rowOf hr b) r q := by
    intro q
    rw [subf_apply, spread_at, column_at, rowMax_host _ hred hR hu hs r, lin_at]
    unfold shiftedAt
    refine congrArg (fun t => linAt x w (rowOf hr b) r q - Cert.Attn.rowMax t) ?_
    funext q'
    exact lin_at wC hb hr x w b r q'
  unfold cls
  dsimp only
  rw [subf_apply, hz j, spread_at]
  unfold clsAt
  refine congrArg (fun t => shiftedAt x w (rowOf hr b) r j - t) ?_
  show FloatOps.hostUnary .log _ = _
  rw [Ideal.hostUnary_log_def, column_at, rowSum_host _ hred hR hu r]
  refine congrArg Ideal.log (Finset.sum_congr rfl fun q _ => ?_)
  show FloatOps.hostUnary .exp _ = _
  rw [Ideal.hostUnary_exp_def, hz q]

end Cert.Gnn.HostForm

end
-- ==== Proof.DenseBridge.lean ====
/-
  From entries to arrays: an array whose every entry is the entry formula of a dense stage IS the host's spelling
  of that stage. The kernel hands its weight matrices over narrowed to bf16 (the same values) and its biases
  reshaped to one row (the same row as the broadcast along a new unit axis), so the entry formulas are stated at
  the matrix itself and at the bias made a row. Sizes are abstract.
-/
import proofs.«143715_j36816459661705_2_alg».proof.Proof.DenseHostCls

noncomputable section

open scoped BigOperators

namespace Cert.Gnn.HostForm

open Idealize.ShloMosaic Idealize.ShloMosaic.ValueIdx Cert.Mlp Cert.Gnn

variable {N K D C : Nat}

/-- Two matrices with equal entries are equal. -/
theorem ext2 {A B : Nat} {α : Type} (X Y : (⟨2, ![A, B]⟩ : Shape).Idx → α) (h : ∀ (r : Fin A) (j : Fin B), X (ix2 r j) = Y (ix2 r j)) :
    X = Y := by
  funext i
  obtain ⟨r, j, rfl⟩ : ∃ (r : Fin A) (j : Fin B), i = ix2 r j := ⟨i 0, i 1, eq_ix2 i⟩
  exact h r j

/-- A bias reshaped to one row is the bias broadcast along a new unit axis. -/
theorem reshape_row (hc : (⟨1, ![D]⟩ : Shape).ShapeCasts ⟨2, ![1, D]⟩)
    (hr : (⟨1, ![D]⟩ : Shape).BroadcastsInDim ⟨2, ![1, D]⟩ (![1] : Fin 1 → Fin 2)) (b : FVec Ideal ⟨1, ![D]⟩ .f32) :
    shapeCast ⟨2, ![1, D]⟩ b hc = rowOf hr b := rowCast_eq_bcast b hc hr

theorem lin_of_entries (wA : DotDims.WF ⟨2, ![N, K]⟩ ⟨2, ![K, D]⟩ ⟨2, ![N, D]⟩ [1] [0] [0] [1] [] [])
    (hb : (⟨2, ![1, D]⟩ : Shape).BroadcastsInDim ⟨2, ![N, D]⟩ (![0, 1] : Fin 2 → Fin 2))
    (hr : (⟨1, ![D]⟩ : Shape).BroadcastsInDim ⟨2, ![1, D]⟩ (![1] : Fin 1 → Fin 2))
    (x : FVec Ideal ⟨2, ![N, K]⟩ .f32) (w : FVec Ideal ⟨2, ![K, D]⟩ .f32) (b : FVec Ideal ⟨1, ![D]⟩ .f32)
    (X : (⟨2, ![N, D]⟩ : Shape).Idx → EReal) (hX : ∀ r j, X (ix2 r j) = linAt x w (rowOf hr b) r j) :
    X = lin wA hb hr x w b :=
  ext2 _ _ fun r j => (hX r j).trans (lin_at wA hb hr x w b r j).symm

theorem comb_of_entries (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hr : (⟨1, ![D]⟩ : Shape).BroadcastsInDim ⟨2, ![1, D]⟩ (![1] : Fin 1 → Fin 2))
    (hz : (⟨0, ![]⟩ : Shape).BroadcastsInDim ⟨2, ![N, D]⟩ (![] : Fin 0 → Fin 2))
    (xh tx agg : FVec Ideal ⟨2, ![N, D]⟩ .f32) (w0 w1 : FVec Ideal ⟨2, ![D, D]⟩ .f32) (cb : FVec Ideal ⟨1, ![D]⟩ .f32)
    (sw : FVec Ideal ⟨2, ![D, D]⟩ .f32) (sb : FVec Ideal ⟨1, ![D]⟩ .f32) (lw : FVec Ideal ⟨2, ![D, D]⟩ .f32) (lb : FVec Ideal ⟨1, ![D]⟩ .f32)
    (X : (⟨2, ![N, D]⟩ : Shape).Idx → EReal)
    (hX : ∀ r j, X (ix2 r j) = combAt xh tx agg w0 w1 (rowOf hr cb) sw (rowOf hr sb) lw (rowOf hr lb) r j) :
    X = comb wB hb hr hz xh tx agg w0 w1 cb sw sb lw lb :=
  ext2 _ _ fun r j => (hX r j).trans (comb_at wB hb hr hz xh tx agg w0 w1 cb sw sb lw lb r j).symm

theorem cls_of_entries (wC : DotDims.WF ⟨2, ![N, D]⟩ ⟨2, ![D, C]⟩ ⟨2, ![N, C]⟩ [1] [0] [0] [1] [] [])
    (hb : (⟨2, ![1, C]⟩ : Shape).BroadcastsInDim ⟨2, ![N, C]⟩ (![0, 1] : Fin 2 → Fin 2))
    (hr : (⟨1, ![C]⟩ : Shape).BroadcastsInDim ⟨2, ![1, C]⟩ (![1] : Fin 1 → Fin 2))
    (hred : (⟨2, ![N, C]⟩ : Shape).ReducesTo [1] ⟨1, ![N]⟩) (hu : 0 < (⟨0, ![]⟩ : Shape).numel)
    (hs : (⟨0, ![]⟩ : Shape).BroadcastsInDim ⟨1, ![N]⟩ (![] : Fin 0 → Fin 1))
    (hc : (⟨1, ![N]⟩ : Shape).BroadcastsInDim ⟨2, ![N, 1]⟩ (![0] : Fin 1 → Fin 2))
    (hw : (⟨2, ![N, 1]⟩ : Shape).BroadcastsInDim ⟨2, ![N, C]⟩ (![0, 1] : Fin 2 → Fin 2))
    (hR : (⟨2, ![N, C]⟩ : Shape).Reduces [1] ⟨1, ![N]⟩)
    (x : FVec Ideal ⟨2, ![N, D]⟩ .f32) (w : FVec Ideal ⟨2, ![D, C]⟩ .f32) (b : FVec Ideal ⟨1, ![C]⟩ .f32)
    (X : (⟨2, ![N, C]⟩ : Shape).Idx → EReal) (hX : ∀ r j, X (ix2 r j) = clsAt x w (rowOf hr b) r j) :
    X = cls wC hb hr hred hu hs hc hw x w b :=
  ext2 _ _ fun r j => (hX r j).trans (cls_at wC hb hr hred hu hs hc hw hR x w b r j).symm

end Cert.Gnn.HostForm

end
-- ==== Proof.RegLin0Pay.lean ====
/-
  The first linear stage's tile, entry by entry.

  One grid point of the stage holds a tile x : [4000, 512] of the node features, the whole weight matrix w : [512, 128] and
  the one-row bias b : [1, 128], and stores (x · w + b) narrowed to the storage format. On the extended reals narrowing is
  the identity and the product into a zero accumulator is the plain sum over the contracted coordinate, so the stored tile
  reads ∑ₖ x[p, k] · w[k, q] + b[0, q] at (p, q).
-/
import proofs.«143715_j36816459661705_2_alg».proof.Proof.Gen.KernelIdeal.Frame
import proofs.«143715_j36816459661705_2_alg».proof.Proof.Entry
import proofs.«143715_j36816459661705_2_alg».proof.Proof.LibMlpAt

noncomputable section

open scoped BigOperators

namespace Cert.KernelIdeal.Blocks

open Cert.KernelIdeal Cert.KernelIdeal.Gen Idealize.ShloMosaic Idealize.ShloMosaic.ValueIdx

/-- The stored tile of the first linear stage at (p, q): the affine map's entry. -/
theorem pay0_at (x0 : Vec Ideal S4000x512 .f32) (x1 : Vec Ideal S512x128 .bf16) (x2 : Vec Ideal S1x128 .f32)
    (p : Fin 4000) (q : Fin 128) :
    k0_pay1 (F := Ideal) x0 x1 x2 (ix2 p q) = Cert.Gnn.linAt x0 x1 x2 p q := by
  unfold k0_pay1 Cert.Gnn.linAt
  rw [truncf_apply, addf_apply]
  refine congrArg₂ (· + ·) ?_ ?_
  · refine (Cert.Mlp.matmul_zero_at dot_S4000x512_S512x128_S4000x128_1_0_0_1_n_n.wf none _ _ p q).trans ?_
    refine Finset.sum_congr rfl fun k _ => ?_
    rw [truncf_apply, shapeCast_self]
  · rw [broadcastTo_1b_ab_apply, shapeCast_self]

end Cert.KernelIdeal.Blocks

end
-- ==== Proof.RegLin0.lean ====
/-
  The linear stage's output array after its region, entry by entry.

  The region walks 10 row blocks of 4000 rows. At block t it holds rows 4000·t … 4000·t + 3999 of the node array, the whole
  weight matrix and the whole one-row bias, and writes the stored tile back over the same rows of the output array. The
  stored tile at (p, q) is ∑ₖ x[p, k] · w[k, q] + b[0, q] of the block's rows, so what block t writes is the restriction to
  its rows of ONE function of the region's input arrays, (r, j) ↦ ∑ₖ x[r, k] · w[k, j] + b[0, j]; the 10 blocks cover all
  40000 rows (row r lies in block r / 4000), so the output array is that function.
-/
import proofs.«143715_j36816459661705_2_alg».proof.Proof.RegLin0Pay
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOff0 : (![0, 0] : Fin 2 → Nat) = fun _ => 0 := funext fun a => by fin_cases a <;> rfl

/-- The affine map's entry (r, j) reads the node array only along row r. -/
theorem linAt_row0 {N N' K D : Nat} (x : FVec Ideal ⟨2, ![N, K]⟩ .f32) (x' : FVec Ideal ⟨2, ![N', K]⟩ .f32)
    (w : FVec Ideal ⟨2, ![K, D]⟩ .f32) (b : FVec Ideal ⟨2, ![1, D]⟩ .f32) (p : Fin N) (r : Fin N')
    (h : ∀ k : Fin K, x (ix2 p k) = x' (ix2 r k)) (j : Fin D) :
    Cert.Gnn.linAt x w b p j = Cert.Gnn.linAt x' w b r j := by
  unfold Cert.Gnn.linAt
  exact congrArg (· + b (ix2 (0 : Fin 1) j)) (Finset.sum_congr rfl fun k _ => by rw [h k])

/-- The whole output array as one function of the region's input arrays: the affine map, entry by entry. -/
def lin0 (c : Dev nD) : S40000x128.Idx → EReal := fun i =>
  Cert.Gnn.linAt (V c (Pipeline.arrRef spec0 0)) (V c (Pipeline.arrRef spec0 1)) (V c (Pipeline.arrRef spec0 2)) (i 0) (i 1)

/-- The index maps over the 10 grid points: the node array and the output move with the point along the rows, the weights
    and the bias stay at block (0, 0). -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the node array's block at point t is row 4000·t + p of the array. -/
theorem xblk0_apply (c : Dev nD) (t : Fin cfg0.N) (p : Fin 4000) (k : Fin 512) (r : Fin 40000) (hr : r.val = t.val * 4000 + p.val) :
    (iblk0 V c 0 t : S4000x512.Idx → EReal) (ix2 p k) = (V c (Pipeline.arrRef spec0 0) : S40000x512.Idx → EReal) (ix2 r k) := by
  obtain ⟨e0, e1, -⟩ := blockIdx0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 4000 + 1 * p.val = r.val; rw [e0, hr]; omega
  | ⟨1, _⟩ => show win0_0.index t (1 : Fin 2) * 512 + 1 * k.val = k.val; rw [e1]; omega

/-- The weight matrix's block at every point is the whole matrix. -/
theorem wblk0_eq (c : Dev nD) (t : Fin cfg0.N) :
    (iblk0 V c 1 t : S512x128.Idx → EReal) = (V c (Pipeline.arrRef spec0 1) : S512x128.Idx → EReal) := by
  obtain ⟨-, -, e2, e3, -⟩ := blockIdx0 t
  funext j
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 512 + 1 * (j 0).val = (j 0).val; rw [e2]; omega
  | ⟨1, _⟩ => show win0_1.index t (1 : Fin 2) * 128 + 1 * (j 1).val = (j 1).val; rw [e3]; omega

/-- The bias's block at every point is the whole one-row bias. -/
theorem bblk0_eq (c : Dev nD) (t : Fin cfg0.N) :
    (iblk0 V c 2 t : S1x128.Idx → EReal) = (V c (Pipeline.arrRef spec0 2) : S1x128.Idx → EReal) := by
  obtain ⟨-, -, -, -, e4, e5, -⟩ := blockIdx0 t
  funext j
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * (j 0).val = (j 0).val; rw [e4]; omega
  | ⟨1, _⟩ => show win0_2.index t (1 : Fin 2) * 128 + 1 * (j 1).val = (j 1).val; rw [e5]; omega

/-- Entry (p, q) of the output's block at point t is entry (4000·t + p, q) of the output array. -/
theorem oblk0_emb (t : Fin cfg0.N) (p : Fin 4000) (q : Fin 128) (r : Fin 40000) (hr : r.val = t.val * 4000 + p.val) :
    (((cfg0.win 3).blk t).view.emb (ix2 p q) : S40000x128.Idx) = ix2 r q := by
  obtain ⟨-, -, -, -, -, -, e6, e7⟩ := blockIdx0 t
  funext a
  apply Fin.ext
  match a with
  | ⟨0, _⟩ => show win0_3.index t (0 : Fin 2) * 4000 + 1 * p.val = r.val; rw [e6, hr]; omega
  | ⟨1, _⟩ => show win0_3.index t (1 : Fin 2) * 128 + 1 * q.val = q.val; rw [e7]; omega

/-- What point t writes back is block t of the affine map of the region's input arrays. -/
theorem flushed0_eq (c : Dev nD) (t : Fin cfg0.N) :
    (dat0 V c).flushed 3 t = ((cfg0.win 3).blk t).view.read (Elt Ideal) (lin0 V c) := by
  show (cfg0.win 3).cut (grid0.coords t) ((dat0 V c).after 3 t) = _
  rw [after0_3]
  unfold out0_3
  rw [View.canon_unit_zero zeroOff0]
  simp only [View.ld_unit_zero (S := S4000x512) zeroOff0, View.ld_unit_zero (S := S512x128) zeroOff0, View.ld_unit_zero (S := S1x128) zeroOff0]
  funext j
  obtain ⟨p, q, rfl⟩ : ∃ (p : Fin 4000) (q : Fin 128), j = ix2 p q := ⟨j 0, j 1, eq_ix2 j⟩
  have hN : cfg0.N = 10 := N_0
  have hr : t.val * 4000 + p.val < 40000 := by have := t.isLt; have := p.isLt; omega
  show k0_pay1 (iblk0 V c 0 t) (iblk0 V c 1 t) (iblk0 V c 2 t) (ix2 p q) = lin0 V c (((cfg0.win 3).blk t).view.emb (ix2 p q))
  refine ((pay0_at _ _ _ p q).trans ?_).trans (congrArg (lin0 V c) (oblk0_emb t p q ⟨_, hr⟩ rfl)).symm
  rw [wblk0_eq, bblk0_eq]
  exact linAt_row0 _ _ _ _ p ⟨_, hr⟩ (fun k => xblk0_apply V c t p k ⟨_, hr⟩ rfl) q

/-- An index of the output array is in point t's block iff each coordinate is in the block's range on its axis. -/
theorem mem_oblk0 (t : Fin cfg0.N) (i : S40000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v51).slice (win0_3.rect t)).set ↔ _
  rw [View.set_slice_whole, Rect.mem_set_unit]
  exact Iff.rfl

/-- Every entry of the output array lies in the block of the point its row selects: row r in block r / 4000. -/
theorem cover0 (i : S40000x128.Idx) :
    ∃ t : Fin cfg0.N, (cfg0.win 3).flush t = true ∧ i ∈ ((cfg0.win 3).blk t).view.set := by
  have hi0 : (i 0).val < 40000 := (i 0).isLt
  have hi1 : (i 1).val < 128 := (i 1).isLt
  have hN : cfg0.N = 10 := N_0
  obtain ⟨t, ht⟩ : ∃ t : Fin cfg0.N, t.val = (i 0).val / 4000 := ⟨⟨(i 0).val / 4000, by omega⟩, rfl⟩
  obtain ⟨-, -, -, -, -, -, e6, e7⟩ := blockIdx0 t
  refine ⟨t, flush0_3 t, ?_⟩
  rw [mem_oblk0]
  intro a
  match a with
  | ⟨0, _⟩ => show win0_3.index t (0 : Fin 2) * 4000 ≤ (i 0).val ∧ (i 0).val < win0_3.index t (0 : Fin 2) * 4000 + 4000; rw [e6, ht]; omega
  | ⟨1, _⟩ => show win0_3.index t (1 : Fin 2) * 128 ≤ (i 1).val ∧ (i 1).val < win0_3.index t (1 : Fin 2) * 128 + 128; rw [e7]; omega

/-- The output array after the region is the affine map of the region's input arrays. -/
theorem arr0_eq (c : Dev nD) : (dat0 V c).arrAt 3 cfg0.N = lin0 V c :=
  (dat0 V c).arrAt_eq_of_cover 3 (lin0 V c) (fun t _ => flushed0_eq V c t) cover0

/-- The output array after the region at (r, j): ∑ₖ x[r, k] · w[k, j] + b[0, j] of the region's input arrays. -/
theorem arr0_apply (c : Dev nD) (r : Fin 40000) (j : Fin 128) :
    (dat0 (F := Ideal) V c).arrAt 3 cfg0.N (ix2 r j)
      = Cert.Gnn.linAt (V c (Pipeline.arrRef spec0 0)) (V c (Pipeline.arrRef spec0 1)) (V c (Pipeline.arrRef spec0 2)) r j := by
  rw [arr0_eq]
  rfl

end Cert.KernelIdeal.Blocks

end
-- ==== Proof.RegLin2Pay.lean ====
/-
  The linear stage's tile, entry by entry.

  One grid point of the stage holds a tile x : [4000, K] of the node array, the whole weight matrix w : [K, D] and the
  one-row bias b : [1, D], and stores (x · w + b) narrowed to the storage format. On the extended reals narrowing is the
  identity and the product into a zero accumulator is the plain sum over the contracted coordinate, so the stored tile
  reads ∑ₖ x[p, k] · w[k, q] + b[0, q] at (p, q).
-/
import proofs.«143715_j36816459661705_2_alg».proof.Proof.Gen.KernelIdeal.Frame
import proofs.«143715_j36816459661705_2_alg».proof.Proof.Entry
import proofs.«143715_j36816459661705_2_alg».proof.Proof.LibMlpAt

noncomputable section

open scoped BigOperators

namespace Cert.KernelIdeal.Blocks

open Cert.KernelIdeal Cert.KernelIdeal.Gen Idealize.ShloMosaic Idealize.ShloMosaic.ValueIdx

/-- The stored tile of the second linear stage at (p, q): the affine map's entry. -/
theorem pay2_at (x0 : Vec Ideal S4000x128 .f32) (x1 : Vec Ideal S128x128 .bf16) (x2 : Vec Ideal S1x128 .f32)
    (p : Fin 4000) (q : Fin 128) :
    k2_pay1 (F := Ideal) x0 x1 x2 (ix2 p q) = Cert.Gnn.linAt x0 x1 x2 p q := by
  unfold k2_pay1 Cert.Gnn.linAt
  rw [truncf_apply, addf_apply]
  refine congrArg₂ (· + ·) ?_ ?_
  · refine (Cert.Mlp.matmul_zero_at dot_S4000x128_S128x128_S4000x128_1_0_0_1_n_n.wf none _ _ p q).trans ?_
    refine Finset.sum_congr rfl fun k _ => ?_
    rw [truncf_apply, shapeCast_self, shapeCast_self]
  · rw [broadcastTo_1b_ab_apply, shapeCast_self]

end Cert.KernelIdeal.Blocks

end
-- ==== Proof.RegLin2.lean ====
/-
  The linear stage's output array after its region, entry by entry.

  The region walks 10 row blocks of 4000 rows. At block t it holds rows 4000·t … 4000·t + 3999 of the node array, the whole
  weight matrix and the whole one-row bias, and writes the stored tile back over the same rows of the output array. The
  stored tile at (p, q) is ∑ₖ x[p, k] · w[k, q] + b[0, q] of the block's rows, so what block t writes is the restriction to
  its rows of ONE function of the region's input arrays, (r, j) ↦ ∑ₖ x[r, k] · w[k, j] + b[0, j]; the 10 blocks cover all
  40000 rows (row r lies in block r / 4000), so the output array is that function.
-/
import proofs.«143715_j36816459661705_2_alg».proof.Proof.RegLin2Pay
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOff2 : (![0, 0] : Fin 2 → Nat) = fun _ => 0 := funext fun a => by fin_cases a <;> rfl

/-- The affine map's entry (r, j) reads the node array only along row r. -/
theorem linAt_row2 {N N' K D : Nat} (x : FVec Ideal ⟨2, ![N, K]⟩ .f32) (x' : FVec Ideal ⟨2, ![N', K]⟩ .f32)
    (w : FVec Ideal ⟨2, ![K, D]⟩ .f32) (b : FVec Ideal ⟨2, ![1, D]⟩ .f32) (p : Fin N) (r : Fin N')
    (h : ∀ k : Fin K, x (ix2 p k) = x' (ix2 r k)) (j : Fin D) :
    Cert.Gnn.linAt x w b p j = Cert.Gnn.linAt x' w b r j := by
  unfold Cert.Gnn.linAt
  exact congrArg (· + b (ix2 (0 : Fin 1) j)) (Finset.sum_congr rfl fun k _ => by rw [h k])

/-- The whole output array as one function of the region's input arrays: the affine map, entry by entry. -/
def lin2 (c : Dev nD) : S40000x128.Idx → EReal := fun i =>
  Cert.Gnn.linAt (V c (Pipeline.arrRef spec2 0)) (V c (Pipeline.arrRef spec2 1)) (V c (Pipeline.arrRef spec2 2)) (i 0) (i 1)

/-- The index maps over the 10 grid points: the node array and the output move with the point along the rows, the weights
    and the bias stay at block (0, 0). -/
theorem blockIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the node array's block at point t is row 4000·t + p of the array. -/
theorem xblk2_apply (c : Dev nD) (t : Fin cfg2.N) (p : Fin 4000) (k : Fin 128) (r : Fin 40000) (hr : r.val = t.val * 4000 + p.val) :
    (iblk2 V c 0 t : S4000x128.Idx → EReal) (ix2 p k) = (V c (Pipeline.arrRef spec2 0) : S40000x128.Idx → EReal) (ix2 r k) := by
  obtain ⟨e0, e1, -⟩ := blockIdx2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 4000 + 1 * p.val = r.val; rw [e0, hr]; omega
  | ⟨1, _⟩ => show win2_0.index t (1 : Fin 2) * 128 + 1 * k.val = k.val; rw [e1]; omega

/-- The weight matrix's block at every point is the whole matrix. -/
theorem wblk2_eq (c : Dev nD) (t : Fin cfg2.N) :
    (iblk2 V c 1 t : S128x128.Idx → EReal) = (V c (Pipeline.arrRef spec2 1) : S128x128.Idx → EReal) := by
  obtain ⟨-, -, e2, e3, -⟩ := blockIdx2 t
  funext j
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 128 + 1 * (j 0).val = (j 0).val; rw [e2]; omega
  | ⟨1, _⟩ => show win2_1.index t (1 : Fin 2) * 128 + 1 * (j 1).val = (j 1).val; rw [e3]; omega

/-- The bias's block at every point is the whole one-row bias. -/
theorem bblk2_eq (c : Dev nD) (t : Fin cfg2.N) :
    (iblk2 V c 2 t : S1x128.Idx → EReal) = (V c (Pipeline.arrRef spec2 2) : S1x128.Idx → EReal) := by
  obtain ⟨-, -, -, -, e4, e5, -⟩ := blockIdx2 t
  funext j
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * (j 0).val = (j 0).val; rw [e4]; omega
  | ⟨1, _⟩ => show win2_2.index t (1 : Fin 2) * 128 + 1 * (j 1).val = (j 1).val; rw [e5]; omega

/-- Entry (p, q) of the output's block at point t is entry (4000·t + p, q) of the output array. -/
theorem oblk2_emb (t : Fin cfg2.N) (p : Fin 4000) (q : Fin 128) (r : Fin 40000) (hr : r.val = t.val * 4000 + p.val) :
    (((cfg2.win 3).blk t).view.emb (ix2 p q) : S40000x128.Idx) = ix2 r q := by
  obtain ⟨-, -, -, -, -, -, e6, e7⟩ := blockIdx2 t
  funext a
  apply Fin.ext
  match a with
  | ⟨0, _⟩ => show win2_3.index t (0 : Fin 2) * 4000 + 1 * p.val = r.val; rw [e6, hr]; omega
  | ⟨1, _⟩ => show win2_3.index t (1 : Fin 2) * 128 + 1 * q.val = q.val; rw [e7]; omega

/-- What point t writes back is block t of the affine map of the region's input arrays. -/
theorem flushed2_eq (c : Dev nD) (t : Fin cfg2.N) :
    (dat2 V c).flushed 3 t = ((cfg2.win 3).blk t).view.read (Elt Ideal) (lin2 V c) := by
  show (cfg2.win 3).cut (grid2.coords t) ((dat2 V c).after 3 t) = _
  rw [after2_3]
  unfold out2_3
  rw [View.canon_unit_zero zeroOff2]
  simp only [View.ld_unit_zero (S := S4000x128) zeroOff2, View.ld_unit_zero (S := S128x128) zeroOff2, View.ld_unit_zero (S := S1x128) zeroOff2]
  funext j
  obtain ⟨p, q, rfl⟩ : ∃ (p : Fin 4000) (q : Fin 128), j = ix2 p q := ⟨j 0, j 1, eq_ix2 j⟩
  have hN : cfg2.N = 10 := N_2
  have hr : t.val * 4000 + p.val < 40000 := by have := t.isLt; have := p.isLt; omega
  show k2_pay1 (iblk2 V c 0 t) (iblk2 V c 1 t) (iblk2 V c 2 t) (ix2 p q) = lin2 V c (((cfg2.win 3).blk t).view.emb (ix2 p q))
  refine ((pay2_at _ _ _ p q).trans ?_).trans (congrArg (lin2 V c) (oblk2_emb t p q ⟨_, hr⟩ rfl)).symm
  rw [wblk2_eq, bblk2_eq]
  exact linAt_row2 _ _ _ _ p ⟨_, hr⟩ (fun k => xblk2_apply V c t p k ⟨_, hr⟩ rfl) q

/-- An index of the output array is in point t's block iff each coordinate is in the block's range on its axis. -/
theorem mem_oblk2 (t : Fin cfg2.N) (i : S40000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_v90).slice (win2_3.rect t)).set ↔ _
  rw [View.set_slice_whole, Rect.mem_set_unit]
  exact Iff.rfl

/-- Every entry of the output array lies in the block of the point its row selects: row r in block r / 4000. -/
theorem cover2 (i : S40000x128.Idx) :
    ∃ t : Fin cfg2.N, (cfg2.win 3).flush t = true ∧ i ∈ ((cfg2.win 3).blk t).view.set := by
  have hi0 : (i 0).val < 40000 := (i 0).isLt
  have hi1 : (i 1).val < 128 := (i 1).isLt
  have hN : cfg2.N = 10 := N_2
  obtain ⟨t, ht⟩ : ∃ t : Fin cfg2.N, t.val = (i 0).val / 4000 := ⟨⟨(i 0).val / 4000, by omega⟩, rfl⟩
  obtain ⟨-, -, -, -, -, -, e6, e7⟩ := blockIdx2 t
  refine ⟨t, flush2_3 t, ?_⟩
  rw [mem_oblk2]
  intro a
  match a with
  | ⟨0, _⟩ => show win2_3.index t (0 : Fin 2) * 4000 ≤ (i 0).val ∧ (i 0).val < win2_3.index t (0 : Fin 2) * 4000 + 4000; rw [e6, ht]; omega
  | ⟨1, _⟩ => show win2_3.index t (1 : Fin 2) * 128 ≤ (i 1).val ∧ (i 1).val < win2_3.index t (1 : Fin 2) * 128 + 128; rw [e7]; omega

/-- The output array after the region is the affine map of the region's input arrays. -/
theorem arr2_eq (c : Dev nD) : (dat2 V c).arrAt 3 cfg2.N = lin2 V c :=
  (dat2 V c).arrAt_eq_of_cover 3 (lin2 V c) (fun t _ => flushed2_eq V c t) cover2

/-- The output array after the region at (r, j): ∑ₖ x[r, k] · w[k, j] + b[0, j] of the region's input arrays. -/
theorem arr2_apply (c : Dev nD) (r : Fin 40000) (j : Fin 128) :
    (dat2 (F := Ideal) V c).arrAt 3 cfg2.N (ix2 r j)
      = Cert.Gnn.linAt (V c (Pipeline.arrRef spec2 0)) (V c (Pipeline.arrRef spec2 1)) (V c (Pipeline.arrRef spec2 2)) r j := by
  rw [arr2_eq]
  rfl

end Cert.KernelIdeal.Blocks

end
-- ==== Proof.RegCls4Pay.lean ====
/-
  The classifier's tile, entry by entry.

  One grid point of the classifier holds a tile x : [4000, 128] of the node array, the whole weight matrix w : [128, 40]
  and the one-row bias b : [1, 40]. With y = x · w + b it takes each row's maximum, subtracts it (z = y − max), and stores
  z − log ∑ exp z, the sum along the row. On the extended reals the product into a zero accumulator is the plain sum over
  the contracted coordinate and a change of format is the identity, so y[p, q] = ∑ₖ x[p, k] · w[k, q] + b[0, q]; a lane
  reduction re-laid as a column and spread back over the lanes reads the row's fold at every lane. So the stored tile at
  (p, q) is the logarithm of the softmax of row p of y at q.
-/
import proofs.«143715_j36816459661705_2_alg».proof.Proof.Gen.KernelIdeal.Frame
import proofs.«143715_j36816459661705_2_alg».proof.Proof.Entry
import proofs.«143715_j36816459661705_2_alg».proof.Proof.LibMlpAt
import proofs.«143715_j36816459661705_2_alg».proof.Proof.LibSoftmaxRows

noncomputable section

open scoped BigOperators

namespace Cert.KernelIdeal.Blocks

open Cert.KernelIdeal Cert.KernelIdeal.Gen Idealize.ShloMosaic Idealize.ShloMosaic.ValueIdx
open Cert.Attn Cert.Attn.RowOps Cert.Lib.Keepdims

/-- For an [a, b] array y whose row r is f: y minus its spread row maxima, minus the spread logarithm of the row sums of
    the exponentials of that difference, reads at (r, k) the shifted entry of f minus the logarithm of the row's sum. -/
theorem logSoftmax_vec {a b : ℕ} (y : FVec Ideal ⟨2, ![a, b]⟩ .f32)
    (hr : (⟨2, ![a, b]⟩ : Shape).Reduces [1] ⟨1, ![a]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) (f : Fin b → EReal) (hy : ∀ k' : Fin b, y (ix2 r k') = f k') :
    subf (subf y (broadcastTo ⟨2, ![a, b]⟩ (shapeCast ⟨2, ![a, 1]⟩ (multiReduction .maximumf [1] ⟨1, ![a]⟩ y 0xFF800000#32 hr hφ hmax) hc) hb))
        (broadcastTo ⟨2, ![a, b]⟩ (log (shapeCast ⟨2, ![a, 1]⟩ (multiReduction .add [1] ⟨1, ![a]⟩
          (exp (subf y (broadcastTo ⟨2, ![a, b]⟩ (shapeCast ⟨2, ![a, 1]⟩ (multiReduction .maximumf [1] ⟨1, ![a]⟩ y 0xFF800000#32 hr hφ hmax) hc) hb)))
          0x00000000#32 hr hφ hadd) hc)) hb) (ix2 r k)
      = (f k - rowMax f) - Ideal.log (∑ k' : Fin b, Ideal.exp (f k' - rowMax f)) := by
  obtain rfl : (fun k' : Fin b => y (ix2 r k')) = f := funext hy
  have hS : shapeCast ⟨2, ![a, 1]⟩ (multiReduction .add [1] ⟨1, ![a]⟩
        (exp (subf y (broadcastTo ⟨2, ![a, b]⟩ (shapeCast ⟨2, ![a, 1]⟩ (multiReduction .maximumf [1] ⟨1, ![a]⟩ y 0xFF800000#32 hr hφ hmax) hc) hb)))
        0x00000000#32 hr hφ hadd) hc (ix2 r (0 : Fin 1))
      = ∑ k' : Fin b, Ideal.exp (y (ix2 r k') - rowMax fun k'' : Fin b => y (ix2 r k'')) := by
    refine (shapeCast_a_a1_apply _ hc r 0).trans ?_
    refine (Ideal.multiReduction_add_single _ _ hr hφ hadd (ix1 r)).trans ?_
    show ∑ k' : Fin b, _ = _
    refine Finset.sum_congr rfl fun k' _ => ?_
    refine (congrArg _ (lift_axis1 hr r k')).trans ?_
    exact expShift_vec y hr hφ hmax hc hb r k'
  rw [subf_apply, subf_apply, rowMax_spread y hr hφ hmax hc hb r k, broadcastTo_a1_ab_apply]
  exact congrArg (fun s => (y (ix2 r k) - rowMax fun k' : Fin b => y (ix2 r k')) - Ideal.log s) hS

/-- The classifier's affine map on a tile, at (p, q). -/
theorem affine4_at (x0 : Vec Ideal S4000x128 .f32) (x1 : Vec Ideal S128x40 .bf16) (x2 : Vec Ideal S1x40 .f32)
    (p : Fin 4000) (q : Fin 40) :
    addf (matmul dot_S4000x128_S128x40_S4000x40_1_0_0_1_n_n none
          (truncf .bf16 (shapeCast S4000x128 x0 shapeCasts_S4000x128_S4000x128 : FVec Ideal S4000x128 .f32) bitsLt_bf16_f32)
          (shapeCast S128x40 x1 shapeCasts_S128x40_S128x40 : FVec Ideal S128x40 .bf16) (constant (F := Ideal) S4000x40 .f32 0x00000000#32))
        (broadcastTo S4000x40 (shapeCast S1x40 x2 shapeCasts_S1x40_S1x40 : FVec Ideal S1x40 .f32) broadcasts_S1x40_S4000x40) (ix2 p q)
      = Cert.Gnn.linAt x0 x1 x2 p q := by
  unfold Cert.Gnn.linAt
  rw [addf_apply]
  refine congrArg₂ (· + ·) ?_ ?_
  · refine (Cert.Mlp.matmul_zero_at dot_S4000x128_S128x40_S4000x40_1_0_0_1_n_n.wf none _ _ p q).trans ?_
    refine Finset.sum_congr rfl fun k _ => ?_
    rw [truncf_apply, shapeCast_self, shapeCast_self]
  · rw [broadcastTo_1b_ab_apply, shapeCast_self]

/-- The stored tile of the classifier at (p, q): the logarithm of the row's softmax. -/
theorem pay4_at (x0 : Vec Ideal S4000x128 .f32) (x1 : Vec Ideal S128x40 .bf16) (x2 : Vec Ideal S1x40 .f32)
    (p : Fin 4000) (q : Fin 40) :
    k4_pay1 (F := Ideal) x0 x1 x2 (ix2 p q) = Cert.Gnn.clsAt x0 x1 x2 p q := by
  unfold k4_pay1 Cert.Gnn.clsAt Cert.Gnn.shiftedAt
  exact logSoftmax_vec _ reduces_S4000x40_S4000 (.inl rfl) rfl rfl shapeCasts_S4000_S4000x1 broadcasts_S4000x1_S4000x40 p q
    (fun k' => Cert.Gnn.linAt x0 x1 x2 p k') (fun k' => affine4_at x0 x1 x2 p k')

end Cert.KernelIdeal.Blocks

end
-- ==== Proof.RegCls4.lean ====
/-
  The classifier's output array after its region, entry by entry.

  The region walks 10 row blocks of 4000 rows. At block t it holds rows 4000·t … 4000·t + 3999 of the node array, the whole
  weight matrix and the whole one-row bias, and writes the stored tile back over the same rows of the output array. The
  stored tile at (p, q) is the logarithm of the softmax of row p of x · w + b at q, which reads the node array only along
  that row; so what block t writes is the restriction to its rows of ONE function of the region's input arrays, and the 10
  blocks cover all 40000 rows (row r lies in block r / 4000): the output array is that function.
-/
import proofs.«143715_j36816459661705_2_alg».proof.Proof.RegCls4Pay
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOff4 : (![0, 0] : Fin 2 → Nat) = fun _ => 0 := funext fun a => by fin_cases a <;> rfl

/-- The affine map's entry (r, j) reads the node array only along row r. -/
theorem linAt_row4 {N N' K D : Nat} (x : FVec Ideal ⟨2, ![N, K]⟩ .f32) (x' : FVec Ideal ⟨2, ![N', K]⟩ .f32)
    (w : FVec Ideal ⟨2, ![K, D]⟩ .f32) (b : FVec Ideal ⟨2, ![1, D]⟩ .f32) (p : Fin N) (r : Fin N')
    (h : ∀ k : Fin K, x (ix2 p k) = x' (ix2 r k)) (j : Fin D) :
    Cert.Gnn.linAt x w b p j = Cert.Gnn.linAt x' w b r j := by
  unfold Cert.Gnn.linAt
  exact congrArg (· + b (ix2 (0 : Fin 1) j)) (Finset.sum_congr rfl fun k _ => by rw [h k])

/-- So does the classifier's entry (r, j): every term of it is an entry of row r of the affine map. -/
theorem clsAt_row4 {N N' K D : Nat} (x : FVec Ideal ⟨2, ![N, K]⟩ .f32) (x' : FVec Ideal ⟨2, ![N', K]⟩ .f32)
    (w : FVec Ideal ⟨2, ![K, D]⟩ .f32) (b : FVec Ideal ⟨2, ![1, D]⟩ .f32) (p : Fin N) (r : Fin N')
    (h : ∀ k : Fin K, x (ix2 p k) = x' (ix2 r k)) (j : Fin D) :
    Cert.Gnn.clsAt x w b p j = Cert.Gnn.clsAt x' w b r j := by
  have e : (fun q : Fin D => Cert.Gnn.linAt x w b p q) = fun q : Fin D => Cert.Gnn.linAt x' w b r q :=
    funext fun q => linAt_row4 x x' w b p r h q
  have s : ∀ q : Fin D, Cert.Gnn.shiftedAt x w b p q = Cert.Gnn.shiftedAt x' w b r q := fun q => by
    unfold Cert.Gnn.shiftedAt
    rw [e, congrFun e q]
  unfold Cert.Gnn.clsAt
  rw [s j, Finset.sum_congr rfl fun q _ => by rw [s q]]

/-- The whole output array as one function of the region's input arrays: the classifier, entry by entry. -/
def cls4 (c : Dev nD) : S40000x40.Idx → EReal := fun i =>
  Cert.Gnn.clsAt (V c (Pipeline.arrRef spec4 0)) (V c (Pipeline.arrRef spec4 1)) (V c (Pipeline.arrRef spec4 2)) (i 0) (i 1)

/-- The index maps over the 10 grid points: the node array and the output move with the point along the rows, the weights
    and the bias stay at block (0, 0). -/
theorem blockIdx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of the node array's block at point t is row 4000·t + p of the array. -/
theorem xblk4_apply (c : Dev nD) (t : Fin cfg4.N) (p : Fin 4000) (k : Fin 128) (r : Fin 40000) (hr : r.val = t.val * 4000 + p.val) :
    (iblk4 V c 0 t : S4000x128.Idx → EReal) (ix2 p k) = (V c (Pipeline.arrRef spec4 0) : S40000x128.Idx → EReal) (ix2 r k) := by
  obtain ⟨e0, e1, -⟩ := blockIdx4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 4000 + 1 * p.val = r.val; rw [e0, hr]; omega
  | ⟨1, _⟩ => show win4_0.index t (1 : Fin 2) * 128 + 1 * k.val = k.val; rw [e1]; omega

/-- The weight matrix's block at every point is the whole matrix. -/
theorem wblk4_eq (c : Dev nD) (t : Fin cfg4.N) :
    (iblk4 V c 1 t : S128x40.Idx → EReal) = (V c (Pipeline.arrRef spec4 1) : S128x40.Idx → EReal) := by
  obtain ⟨-, -, e2, e3, -⟩ := blockIdx4 t
  funext j
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 128 + 1 * (j 0).val = (j 0).val; rw [e2]; omega
  | ⟨1, _⟩ => show win4_1.index t (1 : Fin 2) * 40 + 1 * (j 1).val = (j 1).val; rw [e3]; omega

/-- The bias's block at every point is the whole one-row bias. -/
theorem bblk4_eq (c : Dev nD) (t : Fin cfg4.N) :
    (iblk4 V c 2 t : S1x40.Idx → EReal) = (V c (Pipeline.arrRef spec4 2) : S1x40.Idx → EReal) := by
  obtain ⟨-, -, -, -, e4, e5, -⟩ := blockIdx4 t
  funext j
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 1 + 1 * (j 0).val = (j 0).val; rw [e4]; omega
  | ⟨1, _⟩ => show win4_2.index t (1 : Fin 2) * 40 + 1 * (j 1).val = (j 1).val; rw [e5]; omega

/-- Entry (p, q) of the output's block at point t is entry (4000·t + p, q) of the output array. -/
theorem oblk4_emb (t : Fin cfg4.N) (p : Fin 4000) (q : Fin 40) (r : Fin 40000) (hr : r.val = t.val * 4000 + p.val) :
    (((cfg4.win 3).blk t).view.emb (ix2 p q) : S40000x40.Idx) = ix2 r q := by
  obtain ⟨-, -, -, -, -, -, e6, e7⟩ := blockIdx4 t
  funext a
  apply Fin.ext
  match a with
  | ⟨0, _⟩ => show win4_3.index t (0 : Fin 2) * 4000 + 1 * p.val = r.val; rw [e6, hr]; omega
  | ⟨1, _⟩ => show win4_3.index t (1 : Fin 2) * 40 + 1 * q.val = q.val; rw [e7]; omega

/-- What point t writes back is block t of the classifier of the region's input arrays. -/
theorem flushed4_eq (c : Dev nD) (t : Fin cfg4.N) :
    (dat4 V c).flushed 3 t = ((cfg4.win 3).blk t).view.read (Elt Ideal) (cls4 V c) := by
  show (cfg4.win 3).cut (grid4.coords t) ((dat4 V c).after 3 t) = _
  rw [after4_3]
  unfold out4_3
  rw [View.canon_unit_zero zeroOff4]
  simp only [View.ld_unit_zero (S := S4000x128) zeroOff4, View.ld_unit_zero (S := S128x40) zeroOff4, View.ld_unit_zero (S := S1x40) zeroOff4]
  funext j
  obtain ⟨p, q, rfl⟩ : ∃ (p : Fin 4000) (q : Fin 40), j = ix2 p q := ⟨j 0, j 1, eq_ix2 j⟩
  have hN : cfg4.N = 10 := N_4
  have hr : t.val * 4000 + p.val < 40000 := by have := t.isLt; have := p.isLt; omega
  show k4_pay1 (iblk4 V c 0 t) (iblk4 V c 1 t) (iblk4 V c 2 t) (ix2 p q) = cls4 V c (((cfg4.win 3).blk t).view.emb (ix2 p q))
  refine ((pay4_at _ _ _ p q).trans ?_).trans (congrArg (cls4 V c) (oblk4_emb t p q ⟨_, hr⟩ rfl)).symm
  rw [wblk4_eq, bblk4_eq]
  exact clsAt_row4 _ _ _ _ p ⟨_, hr⟩ (fun k => xblk4_apply V c t p k ⟨_, hr⟩ rfl) q

/-- An index of the output array is in point t's block iff each coordinate is in the block's range on its axis. -/
theorem mem_oblk4 (t : Fin cfg4.N) (i : S40000x40.Idx) :
    i ∈ ((cfg4.win 3).blk t).view.set ↔ ∀ a : Fin 2, win4_3.index t a * S4000x40.size a ≤ (i a).val ∧ (i a).val < win4_3.index t a * S4000x40.size a + S4000x40.size a := by
  show i ∈ ((View.whole main_v129).slice (win4_3.rect t)).set ↔ _
  rw [View.set_slice_whole, Rect.mem_set_unit]
  exact Iff.rfl

/-- Every entry of the output array lies in the block of the point its row selects: row r in block r / 4000. -/
theorem cover4 (i : S40000x40.Idx) :
    ∃ t : Fin cfg4.N, (cfg4.win 3).flush t = true ∧ i ∈ ((cfg4.win 3).blk t).view.set := by
  have hi0 : (i 0).val < 40000 := (i 0).isLt
  have hi1 : (i 1).val < 40 := (i 1).isLt
  have hN : cfg4.N = 10 := N_4
  obtain ⟨t, ht⟩ : ∃ t : Fin cfg4.N, t.val = (i 0).val / 4000 := ⟨⟨(i 0).val / 4000, by omega⟩, rfl⟩
  obtain ⟨-, -, -, -, -, -, e6, e7⟩ := blockIdx4 t
  refine ⟨t, flush4_3 t, ?_⟩
  rw [mem_oblk4]
  intro a
  match a with
  | ⟨0, _⟩ => show win4_3.index t (0 : Fin 2) * 4000 ≤ (i 0).val ∧ (i 0).val < win4_3.index t (0 : Fin 2) * 4000 + 4000; rw [e6, ht]; omega
  | ⟨1, _⟩ => show win4_3.index t (1 : Fin 2) * 40 ≤ (i 1).val ∧ (i 1).val < win4_3.index t (1 : Fin 2) * 40 + 40; rw [e7]; omega

/-- The output array after the region is the classifier of the region's input arrays. -/
theorem arr4_eq (c : Dev nD) : (dat4 V c).arrAt 3 cfg4.N = cls4 V c :=
  (dat4 V c).arrAt_eq_of_cover 3 (cls4 V c) (fun t _ => flushed4_eq V c t) cover4

/-- The output array after the region at (r, j): the logarithm of the softmax of row r of x · w + b, at j. -/
theorem arr4_apply (c : Dev nD) (r : Fin 40000) (j : Fin 40) :
    (dat4 (F := Ideal) V c).arrAt 3 cfg4.N (ix2 r j)
      = Cert.Gnn.clsAt (V c (Pipeline.arrRef spec4 0)) (V c (Pipeline.arrRef spec4 1)) (V c (Pipeline.arrRef spec4 2)) r j := by
  rw [arr4_eq]
  rfl

end Cert.KernelIdeal.Blocks

end
-- ==== Proof.KerChainKeep.lean ====
/-
  Which buffers a stretch of whole-array operations writes, and that every other buffer keeps its contents.

  Each operation of a stretch writes exactly one buffer, its result. So the contents after the stretch, read at a
  buffer that is no operation's result, are the contents before it. Stated for each stretch of the program over an
  arbitrary valuation of the buffers, with the list of result buffers spelt out so that "is not written" is a
  decidable membership test on references.
-/
import proofs.«143715_j36816459661705_2_alg».proof.Proof.Gen.KernelIdeal.Launch
import Idealize.ShloMosaic.Lib.StableHlo.Run

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

/-- The result buffers of stretch `hostOps0`. -/
abbrev wr0 : List (Ref sig .tc) := [main_v0, main_v1, main_v2, main_v3, main_v4, main_cst]
theorem writes0 : (hostOps0 : List (HloOp τ sig (Elt F))).Forall fun op => op.writes ⊆ (wr0.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer that is no result of `hostOps0` holds after it what it held before. -/
theorem keep0 (W : Valuation τ sig (Elt F)) (r : Ref sig .tc) (h : r ∉ wr0) :
    StableHlo.after hostOps0 W (Proc.devRef .tc r) = W (Proc.devRef .tc r) :=
  StableHlo.after_of_writes_sub hostOps0 W writes0 h

/-- The result buffers of stretch `hostOps0_1`. -/
abbrev wr0_1 : List (Ref sig .tc) := [main_call0_v0, main_call0_v1, main_v5]
theorem writes0_1 : (hostOps0_1 : List (HloOp τ sig (Elt F))).Forall fun op => op.writes ⊆ (wr0_1.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer that is no result of `hostOps0_1` holds after it what it held before. -/
theorem keep0_1 (W : Valuation τ sig (Elt F)) (r : Ref sig .tc) (h : r ∉ wr0_1) :
    StableHlo.after hostOps0_1 W (Proc.devRef .tc r) = W (Proc.devRef .tc r) :=
  StableHlo.after_of_writes_sub hostOps0_1 W writes0_1 h

/-- The result buffers of stretch `hostOps0_2`. -/
abbrev wr0_2 : List (Ref sig .tc) := [main_cst_0, main_v6, main_v7, main_v8, main_cst_1, main_v9, main_v10, main_cst_2, main_v11, main_v12, main_cst_3]
theorem writes0_2 : (hostOps0_2 : List (HloOp τ sig (Elt F))).Forall fun op => op.writes ⊆ (wr0_2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer that is no result of `hostOps0_2` holds after it what it held before. -/
theorem keep0_2 (W : Valuation τ sig (Elt F)) (r : Ref sig .tc) (h : r ∉ wr0_2) :
    StableHlo.after hostOps0_2 W (Proc.devRef .tc r) = W (Proc.devRef .tc r) :=
  StableHlo.after_of_writes_sub hostOps0_2 W writes0_2 h

/-- The result buffers of stretch `hostOps0_3`. -/
abbrev wr0_3 : List (Ref sig .tc) := [main_call1_v0, main_call1_v1, main_v13]
theorem writes0_3 : (hostOps0_3 : List (HloOp τ sig (Elt F))).Forall fun op => op.writes ⊆ (wr0_3.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer that is no result of `hostOps0_3` holds after it what it held before. -/
theorem keep0_3 (W : Valuation τ sig (Elt F)) (r : Ref sig .tc) (h : r ∉ wr0_3) :
    StableHlo.after hostOps0_3 W (Proc.devRef .tc r) = W (Proc.devRef .tc r) :=
  StableHlo.after_of_writes_sub hostOps0_3 W writes0_3 h

/-- The result buffers of stretch `hostOps0_4`. -/
abbrev wr0_4 : List (Ref sig .tc) := [main_v14, main_cst_4]
theorem writes0_4 : (hostOps0_4 : List (HloOp τ sig (Elt F))).Forall fun op => op.writes ⊆ (wr0_4.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer that is no result of `hostOps0_4` holds after it what it held before. -/
theorem keep0_4 (W : Valuation τ sig (Elt F)) (r : Ref sig .tc) (h : r ∉ wr0_4) :
    StableHlo.after hostOps0_4 W (Proc.devRef .tc r) = W (Proc.devRef .tc r) :=
  StableHlo.after_of_writes_sub hostOps0_4 W writes0_4 h

/-- The result buffers of stretch `hostOps0_5`. -/
abbrev wr0_5 : List (Ref sig .tc) := [main_call2_v0, main_call2_v1, main_v15]
theorem writes0_5 : (hostOps0_5 : List (HloOp τ sig (Elt F))).Forall fun op => op.writes ⊆ (wr0_5.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer that is no result of `hostOps0_5` holds after it what it held before. -/
theorem keep0_5 (W : Valuation τ sig (Elt F)) (r : Ref sig .tc) (h : r ∉ wr0_5) :
    StableHlo.after hostOps0_5 W (Proc.devRef .tc r) = W (Proc.devRef .tc r) :=
  StableHlo.after_of_writes_sub hostOps0_5 W writes0_5 h

/-- The result buffers of stretch `hostOps0_6`. -/
abbrev wr0_6 : List (Ref sig .tc) := [main_c, main_v16, main_v17, main_c_5, main_v18, main_v19, main_v20, main_v21, main_v22, main_v23, main_v24, main_c_6, main_v25, main_v26, main_c_7, main_v27, main_v28, main_v29, main_v30, main_v31, main_v32, main_cst_8, main_cst_9]
theorem writes0_6 : (hostOps0_6 : List (HloOp τ sig (Elt F))).Forall fun op => op.writes ⊆ (wr0_6.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer that is no result of `hostOps0_6` holds after it what it held before. -/
theorem keep0_6 (W : Valuation τ sig (Elt F)) (r : Ref sig .tc) (h : r ∉ wr0_6) :
    StableHlo.after hostOps0_6 W (Proc.devRef .tc r) = W (Proc.devRef .tc r) :=
  StableHlo.after_of_writes_sub hostOps0_6 W writes0_6 h

/-- The result buffers of stretch `hostOps0_7`. -/
abbrev wr0_7 : List (Ref sig .tc) := [main_call3_v0, main_call3_v1, main_v33]
theorem writes0_7 : (hostOps0_7 : List (HloOp τ sig (Elt F))).Forall fun op => op.writes ⊆ (wr0_7.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer that is no result of `hostOps0_7` holds after it what it held before. -/
theorem keep0_7 (W : Valuation τ sig (Elt F)) (r : Ref sig .tc) (h : r ∉ wr0_7) :
    StableHlo.after hostOps0_7 W (Proc.devRef .tc r) = W (Proc.devRef .tc r) :=
  StableHlo.after_of_writes_sub hostOps0_7 W writes0_7 h

/-- The result buffers of stretch `hostOps0_8`. -/
abbrev wr0_8 : List (Ref sig .tc) := [main_cst_10, main_v34, main_v35, main_v36, main_v37, main_cst_11, main_v38, main_v39, main_cst_12, main_v40, main_c_13]
theorem writes0_8 : (hostOps0_8 : List (HloOp τ sig (Elt F))).Forall fun op => op.writes ⊆ (wr0_8.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer that is no result of `hostOps0_8` holds after it what it held before. -/
theorem keep0_8 (W : Valuation τ sig (Elt F)) (r : Ref sig .tc) (h : r ∉ wr0_8) :
    StableHlo.after hostOps0_8 W (Proc.devRef .tc r) = W (Proc.devRef .tc r) :=
  StableHlo.after_of_writes_sub hostOps0_8 W writes0_8 h

/-- The result buffers of stretch `hostOps0_9`. -/
abbrev wr0_9 : List (Ref sig .tc) := [main_call4_v0, main_call4_v1, main_v41]
theorem writes0_9 : (hostOps0_9 : List (HloOp τ sig (Elt F))).Forall fun op => op.writes ⊆ (wr0_9.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer that is no result of `hostOps0_9` holds after it what it held before. -/
theorem keep0_9 (W : Valuation τ sig (Elt F)) (r : Ref sig .tc) (h : r ∉ wr0_9) :
    StableHlo.after hostOps0_9 W (Proc.devRef .tc r) = W (Proc.devRef .tc r) :=
  StableHlo.after_of_writes_sub hostOps0_9 W writes0_9 h

/-- The result buffers of stretch `hostOps0_10`. -/
abbrev wr0_10 : List (Ref sig .tc) := [main_c_14, main_v42, main_v43, main_c_15, main_v44, main_v45, main_v46, main_v47, main_v48, main_v49, main_v50]
theorem writes0_10 : (hostOps0_10 : List (HloOp τ sig (Elt F))).Forall fun op => op.writes ⊆ (wr0_10.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer that is no result of `hostOps0_10` holds after it what it held before. -/
theorem keep0_10 (W : Valuation τ sig (Elt F)) (r : Ref sig .tc) (h : r ∉ wr0_10) :
    StableHlo.after hostOps0_10 W (Proc.devRef .tc r) = W (Proc.devRef .tc r) :=
  StableHlo.after_of_writes_sub hostOps0_10 W writes0_10 h

/-- The result buffers of stretch `hostOps1`. -/
abbrev wr1 : List (Ref sig .tc) := [main_c_16, main_v52, main_v53, main_c_17, main_v54, main_v55, main_v56, main_v57, main_v58, main_v59, main_v60, main_v61, main_v62, main_cst_18, main_v63, main_v64, main_v65, main_v66, main_v67, main_v68, main_v69, main_cst_19, main_v70, main_v71, main_v72, main_v73, main_v74, main_v75, main_v76, main_v77, main_v78, main_v79, main_v80, main_v81, main_v82, main_v83, main_v84, main_v85, main_v86]
theorem writes1 : (hostOps1 : List (HloOp τ sig (Elt F))).Forall fun op => op.writes ⊆ (wr1.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer that is no result of `hostOps1` holds after it what it held before. -/
theorem keep1 (W : Valuation τ sig (Elt F)) (r : Ref sig .tc) (h : r ∉ wr1) :
    StableHlo.after hostOps1 W (Proc.devRef .tc r) = W (Proc.devRef .tc r) :=
  StableHlo.after_of_writes_sub hostOps1 W writes1 h

/-- The result buffers of stretch `hostOps2`. -/
abbrev wr2 : List (Ref sig .tc) := [main_v88, main_v89]
theorem writes2 : (hostOps2 : List (HloOp τ sig (Elt F))).Forall fun op => op.writes ⊆ (wr2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer that is no result of `hostOps2` holds after it what it held before. -/
theorem keep2 (W : Valuation τ sig (Elt F)) (r : Ref sig .tc) (h : r ∉ wr2) :
    StableHlo.after hostOps2 W (Proc.devRef .tc r) = W (Proc.devRef .tc r) :=
  StableHlo.after_of_writes_sub hostOps2 W writes2 h

/-- The result buffers of stretch `hostOps3`. -/
abbrev wr3 : List (Ref sig .tc) := [main_c_20, main_v91, main_v92, main_c_21, main_v93, main_v94, main_v95, main_v96, main_v97, main_v98, main_v99, main_v100, main_v101, main_cst_22, main_v102, main_v103, main_v104, main_v105, main_v106, main_v107, main_v108, main_cst_23, main_v109, main_v110, main_v111, main_v112, main_v113, main_v114, main_v115, main_v116, main_v117, main_v118, main_v119, main_v120, main_v121, main_v122, main_v123, main_v124, main_v125]
theorem writes3 : (hostOps3 : List (HloOp τ sig (Elt F))).Forall fun op => op.writes ⊆ (wr3.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer that is no result of `hostOps3` holds after it what it held before. -/
theorem keep3 (W : Valuation τ sig (Elt F)) (r : Ref sig .tc) (h : r ∉ wr3) :
    StableHlo.after hostOps3 W (Proc.devRef .tc r) = W (Proc.devRef .tc r) :=
  StableHlo.after_of_writes_sub hostOps3 W writes3 h

/-- The result buffers of stretch `hostOps4`. -/
abbrev wr4 : List (Ref sig .tc) := [main_v127, main_v128]
theorem writes4 : (hostOps4 : List (HloOp τ sig (Elt F))).Forall fun op => op.writes ⊆ (wr4.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer that is no result of `hostOps4` holds after it what it held before. -/
theorem keep4 (W : Valuation τ sig (Elt F)) (r : Ref sig .tc) (h : r ∉ wr4) :
    StableHlo.after hostOps4 W (Proc.devRef .tc r) = W (Proc.devRef .tc r) :=
  StableHlo.after_of_writes_sub hostOps4 W writes4 h

end Cert.KernelIdeal.Hand

end
-- ==== Proof.KerChainShort.lean ====
/-
  What the three row-wise linear regions (the first, the third and the last) are entered with, and the result.

  Each of these regions reads a node array, a weight matrix rounded to the narrow float format and a bias laid out as
  one row, and writes one array. Walking the chain of boundary contents back from a region's entry: the weight and the
  bias are the last stretch's cast and reshape of two arguments, which nothing before has written; the node array is
  the first argument (first region) or the previous region's output (the others). The program's result is the last
  region's output.
-/
import proofs.«143715_j36816459661705_2_alg».proof.Proof.Gen.KernelIdeal.Frame
import proofs.«143715_j36816459661705_2_alg».proof.Proof.KerChainKeep

set_option maxRecDepth 16384

noncomputable section

namespace Cert.KernelIdeal.Hand

open Idealize.ShloMosaic Idealize.ShloMosaic.TcCoe Idealize.ShloMosaic.Tactic
open Idealize.ShloMosaic.StableHlo (after_cons after_nil)
open Cert.KernelIdeal.Gen

variable {F : FTy → Type} [FloatOps F]

/-! ## The casts and reshapes of the stretches before these regions, over any contents -/

section Ops
variable (W : Valuation τ sig (Elt F))

theorem ops0_10_v49 : StableHlo.after hostOps0_10 W (Proc.devRef .tc main_v49)
    = truncf .bf16 (W (Proc.devRef .tc main_arg3)) bitsLt_bf16_f32 := by
  simp only [hostOps0_10]; after_results
theorem ops0_10_v50 : StableHlo.after hostOps0_10 W (Proc.devRef .tc main_v50)
    = shapeCast S1x128 (W (Proc.devRef .tc main_arg4)) shapeCasts_S128_S1x128 := by
  simp only [hostOps0_10]; after_results; rfl
theorem ops2_v88 : StableHlo.after hostOps2 W (Proc.devRef .tc main_v88)
    = truncf .bf16 (W (Proc.devRef .tc main_arg12)) bitsLt_bf16_f32 := by
  simp only [hostOps2]; after_results
theorem ops2_v89 : StableHlo.after hostOps2 W (Proc.devRef .tc main_v89)
    = shapeCast S1x128 (W (Proc.devRef .tc main_arg13)) shapeCasts_S128_S1x128 := by
  simp only [hostOps2]; after_results; rfl
theorem ops4_v127 : StableHlo.after hostOps4 W (Proc.devRef .tc main_v127)
    = truncf .bf16 (W (Proc.devRef .tc main_arg21)) bitsLt_bf16_f32 := by
  simp only [hostOps4]; after_results
theorem ops4_v128 : StableHlo.after hostOps4 W (Proc.devRef .tc main_v128)
    = shapeCast S1x40 (W (Proc.devRef .tc main_arg22)) shapeCasts_S40_S1x40 := by
  simp only [hostOps4]; after_results; rfl

end Ops

variable (m : (ℓ : Loc nD τ sig) → Buf (Elt F) ℓ) (ρ : Dev nD → PrngReg) (c : Dev nD)

/-! ## The arguments these stretches and regions read are still as launched where they are read -/

theorem arg0_at11 : W11 m ρ c (Proc.devRef .tc main_arg0) = m ((c : Thread nD τ).loc main_arg0) :=
  ((keep0_10 (W10 m ρ c) main_arg0 (by decide)).trans <| (keep0_9 (W9 m ρ c) main_arg0 (by decide)).trans <| (keep0_8 (W8 m ρ c) main_arg0 (by decide)).trans <| (keep0_7 (W7 m ρ c) main_arg0 (by decide)).trans <| (keep0_6 (W6 m ρ c) main_arg0 (by decide)).trans <| (keep0_5 (W5 m ρ c) main_arg0 (by decide)).trans <| (keep0_4 (W4 m ρ c) main_arg0 (by decide)).trans <| (keep0_3 (W3 m ρ c) main_arg0 (by decide)).trans <| (keep0_2 (W2 m ρ c) main_arg0 (by decide)).trans <| (keep0_1 (W1 m ρ c) main_arg0 (by decide)).trans <| (keep0 (W0 m ρ c) main_arg0 (by decide))).trans rfl
theorem arg3_at10 : W10 m ρ c (Proc.devRef .tc main_arg3) = m ((c : Thread nD τ).loc main_arg3) :=
  ((keep0_9 (W9 m ρ c) main_arg3 (by decide)).trans <| (keep0_8 (W8 m ρ c) main_arg3 (by decide)).trans <| (keep0_7 (W7 m ρ c) main_arg3 (by decide)).trans <| (keep0_6 (W6 m ρ c) main_arg3 (by decide)).trans <| (keep0_5 (W5 m ρ c) main_arg3 (by decide)).trans <| (keep0_4 (W4 m ρ c) main_arg3 (by decide)).trans <| (keep0_3 (W3 m ρ c) main_arg3 (by decide)).trans <| (keep0_2 (W2 m ρ c) main_arg3 (by decide)).trans <| (keep0_1 (W1 m ρ c) main_arg3 (by decide)).trans <| (keep0 (W0 m ρ c) main_arg3 (by decide))).trans rfl
theorem arg4_at10 : W10 m ρ c (Proc.devRef .tc main_arg4) = m ((c : Thread nD τ).loc main_arg4) :=
  ((keep0_9 (W9 m ρ c) main_arg4 (by decide)).trans <| (keep0_8 (W8 m ρ c) main_arg4 (by decide)).trans <| (keep0_7 (W7 m ρ c) main_arg4 (by decide)).trans <| (keep0_6 (W6 m ρ c) main_arg4 (by decide)).trans <| (keep0_5 (W5 m ρ c) main_arg4 (by decide)).trans <| (keep0_4 (W4 m ρ c) main_arg4 (by decide)).trans <| (keep0_3 (W3 m ρ c) main_arg4 (by decide)).trans <| (keep0_2 (W2 m ρ c) main_arg4 (by decide)).trans <| (keep0_1 (W1 m ρ c) main_arg4 (by decide)).trans <| (keep0 (W0 m ρ c) main_arg4 (by decide))).trans rfl
theorem arg12_at14 : W14 m ρ c (Proc.devRef .tc main_arg12) = m ((c : Thread nD τ).loc main_arg12) :=
  ((W14_of_ne m ρ c main_arg12 (by decide)).trans <| (keep1 (W12 m ρ c) main_arg12 (by decide)).trans <| (W12_of_ne m ρ c main_arg12 (by decide)).trans <| (keep0_10 (W10 m ρ c) main_arg12 (by decide)).trans <| (keep0_9 (W9 m ρ c) main_arg12 (by decide)).trans <| (keep0_8 (W8 m ρ c) main_arg12 (by decide)).trans <| (keep0_7 (W7 m ρ c) main_arg12 (by decide)).trans <| (keep0_6 (W6 m ρ c) main_arg12 (by decide)).trans <| (keep0_5 (W5 m ρ c) main_arg12 (by decide)).trans <| (keep0_4 (W4 m ρ c) main_arg12 (by decide)).trans <| (keep0_3 (W3 m ρ c) main_arg12 (by decide)).trans <| (keep0_2 (W2 m ρ c) main_arg12 (by decide)).trans <| (keep0_1 (W1 m ρ c) main_arg12 (by decide)).trans <| (keep0 (W0 m ρ c) main_arg12 (by decide))).trans rfl
theorem arg13_at14 : W14 m ρ c (Proc.devRef .tc main_arg13) = m ((c : Thread nD τ).loc main_arg13) :=
  ((W14_of_ne m ρ c main_arg13 (by decide)).trans <| (keep1 (W12 m ρ c) main_arg13 (by decide)).trans <| (W12_of_ne m ρ c main_arg13 (by decide)).trans <| (keep0_10 (W10 m ρ c) main_arg13 (by decide)).trans <| (keep0_9 (W9 m ρ c) main_arg13 (by decide)).trans <| (keep0_8 (W8 m ρ c) main_arg13 (by decide)).trans <| (keep0_7 (W7 m ρ c) main_arg13 (by decide)).trans <| (keep0_6 (W6 m ρ c) main_arg13 (by decide)).trans <| (keep0_5 (W5 m ρ c) main_arg13 (by decide)).trans <| (keep0_4 (W4 m ρ c) main_arg13 (by decide)).trans <| (keep0_3 (W3 m ρ c) main_arg13 (by decide)).trans <| (keep0_2 (W2 m ρ c) main_arg13 (by decide)).trans <| (keep0_1 (W1 m ρ c) main_arg13 (by decide)).trans <| (keep0 (W0 m ρ c) main_arg13 (by decide))).trans rfl
theorem arg21_at18 : W18 m ρ c (Proc.devRef .tc main_arg21) = m ((c : Thread nD τ).loc main_arg21) :=
  ((W18_of_ne m ρ c main_arg21 (by decide)).trans <| (keep3 (W16 m ρ c) main_arg21 (by decide)).trans <| (W16_of_ne m ρ c main_arg21 (by decide)).trans <| (keep2 (W14 m ρ c) main_arg21 (by decide)).trans <| (W14_of_ne m ρ c main_arg21 (by decide)).trans <| (keep1 (W12 m ρ c) main_arg21 (by decide)).trans <| (W12_of_ne m ρ c main_arg21 (by decide)).trans <| (keep0_10 (W10 m ρ c) main_arg21 (by decide)).trans <| (keep0_9 (W9 m ρ c) main_arg21 (by decide)).trans <| (keep0_8 (W8 m ρ c) main_arg21 (by decide)).trans <| (keep0_7 (W7 m ρ c) main_arg21 (by decide)).trans <| (keep0_6 (W6 m ρ c) main_arg21 (by decide)).trans <| (keep0_5 (W5 m ρ c) main_arg21 (by decide)).trans <| (keep0_4 (W4 m ρ c) main_arg21 (by decide)).trans <| (keep0_3 (W3 m ρ c) main_arg21 (by decide)).trans <| (keep0_2 (W2 m ρ c) main_arg21 (by decide)).trans <| (keep0_1 (W1 m ρ c) main_arg21 (by decide)).trans <| (keep0 (W0 m ρ c) main_arg21 (by decide))).trans rfl
theorem arg22_at18 : W18 m ρ c (Proc.devRef .tc main_arg22) = m ((c : Thread nD τ).loc main_arg22) :=
  ((W18_of_ne m ρ c main_arg22 (by decide)).trans <| (keep3 (W16 m ρ c) main_arg22 (by decide)).trans <| (W16_of_ne m ρ c main_arg22 (by decide)).trans <| (keep2 (W14 m ρ c) main_arg22 (by decide)).trans <| (W14_of_ne m ρ c main_arg22 (by decide)).trans <| (keep1 (W12 m ρ c) main_arg22 (by decide)).trans <| (W12_of_ne m ρ c main_arg22 (by decide)).trans <| (keep0_10 (W10 m ρ c) main_arg22 (by decide)).trans <| (keep0_9 (W9 m ρ c) main_arg22 (by decide)).trans <| (keep0_8 (W8 m ρ c) main_arg22 (by decide)).trans <| (keep0_7 (W7 m ρ c) main_arg22 (by decide)).trans <| (keep0_6 (W6 m ρ c) main_arg22 (by decide)).trans <| (keep0_5 (W5 m ρ c) main_arg22 (by decide)).trans <| (keep0_4 (W4 m ρ c) main_arg22 (by decide)).trans <| (keep0_3 (W3 m ρ c) main_arg22 (by decide)).trans <| (keep0_2 (W2 m ρ c) main_arg22 (by decide)).trans <| (keep0_1 (W1 m ρ c) main_arg22 (by decide)).trans <| (keep0 (W0 m ρ c) main_arg22 (by decide))).trans rfl

/-! ## The four intermediate node arrays: what regions 0 … 3 leave in their output -/

/-- The first linear region's output. -/
def X0 : FVec F S40000x128 .bf16 := (dat0 (V11 m ρ) c).arrAt 3 cfg0.N
/-- The first combining region's output. -/
def X1 : FVec F S40000x128 .f32 := (dat1 (V13 m ρ) c).arrAt 10 cfg1.N
/-- The second linear region's output. -/
def X2 : FVec F S40000x128 .bf16 := (dat2 (V15 m ρ) c).arrAt 3 cfg2.N
/-- The second combining region's output. -/
def X3 : FVec F S40000x128 .f32 := (dat3 (V17 m ρ) c).arrAt 10 cfg3.N

/-! ## The result, and the entries of regions 4, 0 and 2 -/

/-- The program's result is what the last region leaves in its output. -/
theorem out_eq : W20 m ρ c (Proc.devRef .tc main_v129) = (dat4 (V19 m ρ) c).arrAt 3 cfg4.N := W20_arr m ρ c 3

theorem entry4_w0 : V19 m ρ c (Pipeline.arrRef spec4 0) = X3 m ρ c :=
  (keep4 (W18 m ρ c) main_v126 (by decide)).trans (W18_arr m ρ c 10)
theorem entry4_w1 : V19 m ρ c (Pipeline.arrRef spec4 1) = truncf .bf16 (m ((c : Thread nD τ).loc main_arg21)) bitsLt_bf16_f32 :=
  (ops4_v127 (W18 m ρ c)).trans (by rw [arg21_at18])
theorem entry4_w2 : V19 m ρ c (Pipeline.arrRef spec4 2) = shapeCast S1x40 (m ((c : Thread nD τ).loc main_arg22)) shapeCasts_S40_S1x40 :=
  (ops4_v128 (W18 m ρ c)).trans (by rw [arg22_at18])

theorem entry0_w0 : V11 m ρ c (Pipeline.arrRef spec0 0) = m ((c : Thread nD τ).loc main_arg0) := arg0_at11 m ρ c
theorem entry0_w1 : V11 m ρ c (Pipeline.arrRef spec0 1) = truncf .bf16 (m ((c : Thread nD τ).loc main_arg3)) bitsLt_bf16_f32 :=
  (ops0_10_v49 (W10 m ρ c)).trans (by rw [arg3_at10])
theorem entry0_w2 : V11 m ρ c (Pipeline.arrRef spec0 2) = shapeCast S1x128 (m ((c : Thread nD τ).loc main_arg4)) shapeCasts_S128_S1x128 :=
  (ops0_10_v50 (W10 m ρ c)).trans (by rw [arg4_at10])

theorem entry2_w0 : V15 m ρ c (Pipeline.arrRef spec2 0) = X1 m ρ c :=
  (keep2 (W14 m ρ c) main_v87 (by decide)).trans (W14_arr m ρ c 10)
theorem entry2_w1 : V15 m ρ c (Pipeline.arrRef spec2 1) = truncf .bf16 (m ((c : Thread nD τ).loc main_arg12)) bitsLt_bf16_f32 :=
  (ops2_v88 (W14 m ρ c)).trans (by rw [arg12_at14])
theorem entry2_w2 : V15 m ρ c (Pipeline.arrRef spec2 2) = shapeCast S1x128 (m ((c : Thread nD τ).loc main_arg13)) shapeCasts_S128_S1x128 :=
  (ops2_v89 (W14 m ρ c)).trans (by rw [arg13_at14])

end Cert.KernelIdeal.Hand

end
-- ==== Proof.KerValueLin.lean ====
/-
  The idealized kernel's three one-matmul stages as whole arrays in the host's spelling.

  After the first region the array it wrote is x · w₁ + b₁ of the launch arrays (its windows are entered with the
  input array, the weight matrix narrowed to bf16 — the same values — and the bias reshaped to one row); the third
  region does the same to the second region's result, and the last region's array — the program's result — is the
  logarithm of the rows' softmax of (fourth region's result) · w + b. Each is read off the region's blocks entry
  by entry and compared with the host's spelling at that entry.
-/
import proofs.«143715_j36816459661705_2_alg».proof.Proof.DenseBridge
import proofs.«143715_j36816459661705_2_alg».proof.Proof.RegLin0
import proofs.«143715_j36816459661705_2_alg».proof.Proof.RegLin2
import proofs.«143715_j36816459661705_2_alg».proof.Proof.RegCls4
import proofs.«143715_j36816459661705_2_alg».proof.Proof.KerChainShort
import proofs.«143715_j36816459661705_2_alg».proof.ReferenceIdeal
import proofs.«143715_j36816459661705_2_alg».proof.Proof.Gen.ReferenceIdeal

noncomputable section

namespace Cert.Proof.Bridge

open Idealize.ShloMosaic Idealize.ShloMosaic.ValueIdx Idealize.ShloMosaic.TcCoe Idealize.SL.Sem
open Cert.Gnn Cert.Gnn.HostForm
open Cert.KernelIdeal Cert.KernelIdeal.Gen Cert.KernelIdeal.Hand

variable (m : (ℓ : Loc nD τ sig) → Buf (Elt Ideal) ℓ) (ρ : Dev nD → PrngReg) (c : Dev nD)

/-- The first region's array: x · w₁ + b₁. -/
theorem stage0 :
    X0 (F := Ideal) m ρ c
      = lin Cert.ReferenceIdeal.Facts₀.dot_S40000x512_S512x128_S40000x128_1_0_0_1_n_n_wf
          Cert.ReferenceIdeal.Facts₀.bcast_S1x128_S40000x128_0_1 Cert.ReferenceIdeal.Facts₀.bcast_S128_S1x128_1
          (m ((c : Thread nD τ).loc main_arg0)) (m ((c : Thread nD τ).loc main_arg3)) (m ((c : Thread nD τ).loc main_arg4)) := by
  refine lin_of_entries _ _ _ _ _ _ _ fun r j => ?_
  have h := Cert.KernelIdeal.Blocks.arr0_apply (Gen.V11 m ρ) c r j
  rw [entry0_w0, entry0_w1, entry0_w2, reshape_row _ Cert.ReferenceIdeal.Facts₀.bcast_S128_S1x128_1] at h
  exact h

/-- The third region's array: (second region's array) · w₂ + b₂. -/
theorem stage2 :
    X2 (F := Ideal) m ρ c
      = lin Cert.ReferenceIdeal.Facts₀.dot_S40000x128_S128x128_S40000x128_1_0_0_1_n_n_wf
          Cert.ReferenceIdeal.Facts₀.bcast_S1x128_S40000x128_0_1 Cert.ReferenceIdeal.Facts₀.bcast_S128_S1x128_1
          (X1 (F := Ideal) m ρ c) (m ((c : Thread nD τ).loc main_arg12)) (m ((c : Thread nD τ).loc main_arg13)) := by
  refine lin_of_entries _ _ _ _ _ _ _ fun r j => ?_
  have h := Cert.KernelIdeal.Blocks.arr2_apply (Gen.V15 m ρ) c r j
  rw [entry2_w0, entry2_w1, entry2_w2, reshape_row _ Cert.ReferenceIdeal.Facts₀.bcast_S128_S1x128_1] at h
  exact h

/-- Rows of [40000, 40] reduce along axis 1 to [40000]. -/
theorem reduces_rows : (⟨2, ![40000, 40]⟩ : Shape).Reduces [1] ⟨1, ![40000]⟩ := by decide

/-- The program's result: the logarithm of the rows' softmax of (fourth region's array) · w + b. -/
theorem stage4 :
    W20 (F := Ideal) m ρ c (Proc.devRef .tc main_v129)
      = cls Cert.ReferenceIdeal.Facts₀.dot_S40000x128_S128x40_S40000x40_1_0_0_1_n_n_wf
          Cert.ReferenceIdeal.Facts₀.bcast_S1x40_S40000x40_0_1 Cert.ReferenceIdeal.Facts₀.bcast_S40_S1x40_1
          Cert.ReferenceIdeal.Facts₀.reducesTo_S40000x40_S40000_d1 Cert.ReferenceIdeal.Facts₀.h_S_
          Cert.ReferenceIdeal.Facts₀.bcast_S_S40000 Cert.ReferenceIdeal.Facts₀.bcast_S40000_S40000x1_0
          Cert.ReferenceIdeal.Facts₀.bcast_S40000x1_S40000x40_0_1
          (X3 (F := Ideal) m ρ c) (m ((c : Thread nD τ).loc main_arg21)) (m ((c : Thread nD τ).loc main_arg22)) := by
  rw [out_eq]
  refine cls_of_entries _ _ _ _ _ _ _ _ reduces_rows _ _ _ _ fun r j => ?_
  have h := Cert.KernelIdeal.Blocks.arr4_apply (Gen.V19 m ρ) c r j
  rw [entry4_w0, entry4_w1, entry4_w2, reshape_row _ Cert.ReferenceIdeal.Facts₀.bcast_S40_S1x40_1] at h
  exact h

end Cert.Proof.Bridge

end
-- ==== Proof.RegCombPay.lean ====
/-
  The combining stage of a cell as a tile computes it, read at one entry.

  A tile of T rows holds the rows of the three node arrays xh, tx, agg and all of the seven small operands. It forms
      o₁ = ℓ(xh · w₀ + tx · w₁ + cb),   o₂ = ℓ(agg · sw + sb),   out = (o₁ + o₂) · lw + lb,
  each product a matrix product into the zero accumulator, each one-row bias spread along the rows, and the
  leaky rectifier ℓ spelt as a choice, by the comparison v ≥ 0 with a splat zero, between v and v scaled by a splat
  constant. At the ideal values a change of format is the identity and a product into zero is the plain sum over
  the contracted coordinate, so entry (p, q) of the tile's result is the combining stage's formula on the tile's
  own rows; and that formula at row p only reads row p of the node arrays.
-/
import proofs.«143715_j36816459661705_2_alg».proof.Proof.Entry
import proofs.«143715_j36816459661705_2_alg».proof.Proof.LibMlpAt
import proofs.«143715_j36816459661705_2_alg».proof.Proof.Gen.KernelIdeal.Skeleton
import Idealize.ShloMosaic.Lib.ValueLayout

noncomputable section

open scoped BigOperators

namespace Cert.Gnn.Comb

open Idealize.ShloMosaic Idealize.ShloMosaic.ValueIdx Cert.Mlp Cert.Gnn

variable {T D : Nat}

/-- The leaky rectifier on every entry, as a tile spells it. -/
def lreluTile (v : FVec Ideal ⟨2, ![T, D]⟩ .f32) : FVec Ideal ⟨2, ![T, D]⟩ .f32 :=
  select (cmpf .oge v (broadcast ⟨2, ![T, D]⟩ (Scalar.ofBits (F := Ideal) .f32 0x00000000#32))) v
    (mulf (broadcast ⟨2, ![T, D]⟩ (Scalar.ofBits (F := Ideal) .f32 0x3C23D70A#32)) v)

theorem lreluTile_at (v : FVec Ideal ⟨2, ![T, D]⟩ .f32) (i : (⟨2, ![T, D]⟩ : Shape).Idx) :
    lreluTile v i = lrelu (v i) := rfl

/-- The Chebyshev branch of a tile: ℓ(xh · w₀ + tx · w₁ + cb). -/
def chebTile (wf : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (xh : FVec Ideal ⟨2, ![T, D]⟩ .bf16) (tx : FVec Ideal ⟨2, ![T, D]⟩ .f32)
    (w0 w1 : FVec Ideal ⟨2, ![D, D]⟩ .bf16) (cb : FVec Ideal ⟨2, ![1, D]⟩ .f32) : FVec Ideal ⟨2, ![T, D]⟩ .f32 :=
  lreluTile (addf (addf (matmul (D2 wf) none xh w0 (constant ⟨2, ![T, D]⟩ .f32 0x00000000#32))
      (matmul (D2 wf) none (truncf .bf16 tx hlt) w1 (constant ⟨2, ![T, D]⟩ .f32 0x00000000#32)))
    (broadcastTo ⟨2, ![T, D]⟩ cb hb))

/-- The aggregation branch of a tile: ℓ(agg · sw + sb). -/
def aggTile (wf : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (agg : FVec Ideal ⟨2, ![T, D]⟩ .f32) (sw : FVec Ideal ⟨2, ![D, D]⟩ .bf16) (sb : FVec Ideal ⟨2, ![1, D]⟩ .f32) :
    FVec Ideal ⟨2, ![T, D]⟩ .f32 :=
  lreluTile (addf (matmul (D2 wf) none (truncf .bf16 agg hlt) sw (constant ⟨2, ![T, D]⟩ .f32 0x00000000#32))
    (broadcastTo ⟨2, ![T, D]⟩ sb hb))

/-- The output map of a tile: (o₁ + o₂) · lw + lb. -/
def outTile (wf : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (o1 o2 : FVec Ideal ⟨2, ![T, D]⟩ .f32) (lw : FVec Ideal ⟨2, ![D, D]⟩ .bf16) (lb : FVec Ideal ⟨2, ![1, D]⟩ .f32) :
    FVec Ideal ⟨2, ![T, D]⟩ .f32 :=
  addf (matmul (D2 wf) none (truncf .bf16 (addf o1 o2) hlt) lw (constant ⟨2, ![T, D]⟩ .f32 0x00000000#32))
    (broadcastTo ⟨2, ![T, D]⟩ lb hb)

theorem chebTile_at (wf : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (xh : FVec Ideal ⟨2, ![T, D]⟩ .bf16) (tx : FVec Ideal ⟨2, ![T, D]⟩ .f32)
    (w0 w1 : FVec Ideal ⟨2, ![D, D]⟩ .bf16) (cb : FVec Ideal ⟨2, ![1, D]⟩ .f32) (p : Fin T) (q : Fin D) :
    chebTile wf hb hlt xh tx w0 w1 cb (ix2 p q) = lrelu (chebAt xh tx w0 w1 cb p q) := by
  unfold chebTile chebAt
  rw [lreluTile_at, addf_apply, addf_apply, matmul_zero_at, matmul_zero_at, broadcastTo_1b_ab_apply]
  refine congrArg (fun s => lrelu (((∑ i : Fin D, xh (ix2 p i) * w0 (ix2 i q)) + s) + cb (ix2 (0 : Fin 1) q))) ?_
  refine Finset.sum_congr rfl fun i _ => ?_
  rw [truncf_apply]

theorem aggTile_at (wf : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (agg : FVec Ideal ⟨2, ![T, D]⟩ .f32) (sw : FVec Ideal ⟨2, ![D, D]⟩ .bf16) (sb : FVec Ideal ⟨2, ![1, D]⟩ .f32)
    (p : Fin T) (q : Fin D) :
    aggTile wf hb hlt agg sw sb (ix2 p q) = lrelu (linAt agg sw sb p q) := by
  unfold aggTile linAt
  rw [lreluTile_at, addf_apply, matmul_zero_at, broadcastTo_1b_ab_apply]
  refine congrArg (fun s => lrelu (s + sb (ix2 (0 : Fin 1) q))) ?_
  refine Finset.sum_congr rfl fun i _ => ?_
  rw [truncf_apply]

/-- Entry (p, q) of a tile's result is the combining stage's formula on the tile's rows. -/
theorem combTile_at (wf : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (xh : FVec Ideal ⟨2, ![T, D]⟩ .bf16) (tx agg : FVec Ideal ⟨2, ![T, D]⟩ .f32)
    (w0 w1 : FVec Ideal ⟨2, ![D, D]⟩ .bf16) (cb : FVec Ideal ⟨2, ![1, D]⟩ .f32)
    (sw : FVec Ideal ⟨2, ![D, D]⟩ .bf16) (sb : FVec Ideal ⟨2, ![1, D]⟩ .f32)
    (lw : FVec Ideal ⟨2, ![D, D]⟩ .bf16) (lb : FVec Ideal ⟨2, ![1, D]⟩ .f32) (p : Fin T) (q : Fin D) :
    outTile wf hb hlt (chebTile wf hb hlt xh tx w0 w1 cb) (aggTile wf hb hlt agg sw sb) lw lb (ix2 p q)
      = combAt xh tx agg w0 w1 cb sw sb lw lb p q := by
  unfold outTile combAt
  rw [addf_apply, matmul_zero_at, broadcastTo_1b_ab_apply]
  refine congrArg (fun s => s + lb (ix2 (0 : Fin 1) q)) ?_
  refine Finset.sum_congr rfl fun k _ => ?_
  rw [truncf_apply, addf_apply, chebTile_at, aggTile_at]

/-- The combining stage at row r reads only row r of the three node arrays: two families of arrays with equal
    rows (and equal small operands) give equal entries. -/
theorem combAt_congr {N N' : Nat} (xh tx agg : FVec Ideal ⟨2, ![N, D]⟩ .f32) (xh' tx' agg' : FVec Ideal ⟨2, ![N', D]⟩ .f32)
    (w0 w1 w0' w1' : FVec Ideal ⟨2, ![D, D]⟩ .f32) (cb cb' : FVec Ideal ⟨2, ![1, D]⟩ .f32)
    (sw sw' : FVec Ideal ⟨2, ![D, D]⟩ .f32) (sb sb' : FVec Ideal ⟨2, ![1, D]⟩ .f32)
    (lw lw' : FVec Ideal ⟨2, ![D, D]⟩ .f32) (lb lb' : FVec Ideal ⟨2, ![1, D]⟩ .f32) (r : Fin N) (r' : Fin N')
    (hxh : ∀ i : Fin D, xh (ix2 r i) = xh' (ix2 r' i)) (htx : ∀ i : Fin D, tx (ix2 r i) = tx' (ix2 r' i))
    (hagg : ∀ i : Fin D, agg (ix2 r i) = agg' (ix2 r' i))
    (hw0 : w0 = w0') (hw1 : w1 = w1') (hcb : cb = cb') (hsw : sw = sw') (hsb : sb = sb') (hlw : lw = lw') (hlb : lb = lb')
    (j : Fin D) :
    combAt xh tx agg w0 w1 cb sw sb lw lb r j = combAt xh' tx' agg' w0' w1' cb' sw' sb' lw' lb' r' j := by
  subst hw0 hw1 hcb hsw hsb hlw hlb
  unfold combAt chebAt linAt
  simp only [hxh, htx, hagg]

end Cert.Gnn.Comb

namespace Cert.KernelIdeal.Blocks

open Cert.KernelIdeal Cert.KernelIdeal.Gen Idealize.ShloMosaic Idealize.ShloMosaic.ValueIdx Cert.Gnn Cert.Gnn.Comb

/-- The first launch's payloads are the tile's three maps. -/
theorem pay1_eq (x0 : Vec Ideal S4000x128 .bf16) (x1 x2 : Vec Ideal S4000x128 .f32) (x3 x4 : Vec Ideal S128x128 .bf16)
    (x5 : Vec Ideal S1x128 .f32) (x6 : Vec Ideal S128x128 .bf16) (x7 : Vec Ideal S1x128 .f32)
    (x8 : Vec Ideal S128x128 .bf16) (x9 : Vec Ideal S1x128 .f32) :
    k1_pay1 (k1_pay2 x0 x1 x3 x4 x5) (k1_pay3 x2 x6 x7) x8 x9
      = outTile dot_S4000x128_S128x128_S4000x128_1_0_0_1_n_n_wf broadcasts_S1x128_S4000x128 bitsLt_bf16_f32
          (chebTile dot_S4000x128_S128x128_S4000x128_1_0_0_1_n_n_wf broadcasts_S1x128_S4000x128 bitsLt_bf16_f32 x0 x1 x3 x4 x5)
          (aggTile dot_S4000x128_S128x128_S4000x128_1_0_0_1_n_n_wf broadcasts_S1x128_S4000x128 bitsLt_bf16_f32 x2 x6 x7) x8 x9 := by
  unfold k1_pay1 k1_pay2 k1_pay3
  simp only [shapeCast_self]
  rfl

/-- Entry (p, q) of what the first launch's body stores, from the blocks it loaded. -/
theorem pay1_at (x0 : Vec Ideal S4000x128 .bf16) (x1 x2 : Vec Ideal S4000x128 .f32) (x3 x4 : Vec Ideal S128x128 .bf16)
    (x5 : Vec Ideal S1x128 .f32) (x6 : Vec Ideal S128x128 .bf16) (x7 : Vec Ideal S1x128 .f32)
    (x8 : Vec Ideal S128x128 .bf16) (x9 : Vec Ideal S1x128 .f32) (p : Fin 4000) (q : Fin 128) :
    k1_pay1 (k1_pay2 x0 x1 x3 x4 x5) (k1_pay3 x2 x6 x7) x8 x9 (ix2 p q) = combAt x0 x1 x2 x3 x4 x5 x6 x7 x8 x9 p q := by
  rw [pay1_eq]
  exact combTile_at _ _ _ x0 x1 x2 x3 x4 x5 x6 x7 x8 x9 p q

/-- The second launch's payloads are the tile's three maps. -/
theorem pay3_eq (x0 : Vec Ideal S4000x128 .bf16) (x1 x2 : Vec Ideal S4000x128 .f32) (x3 x4 : Vec Ideal S128x128 .bf16)
    (x5 : Vec Ideal S1x128 .f32) (x6 : Vec Ideal S128x128 .bf16) (x7 : Vec Ideal S1x128 .f32)
    (x8 : Vec Ideal S128x128 .bf16) (x9 : Vec Ideal S1x128 .f32) :
    k3_pay1 (k3_pay2 x0 x1 x3 x4 x5) (k3_pay3 x2 x6 x7) x8 x9
      = outTile dot_S4000x128_S128x128_S4000x128_1_0_0_1_n_n_wf broadcasts_S1x128_S4000x128 bitsLt_bf16_f32
          (chebTile dot_S4000x128_S128x128_S4000x128_1_0_0_1_n_n_wf broadcasts_S1x128_S4000x128 bitsLt_bf16_f32 x0 x1 x3 x4 x5)
          (aggTile dot_S4000x128_S128x128_S4000x128_1_0_0_1_n_n_wf broadcasts_S1x128_S4000x128 bitsLt_bf16_f32 x2 x6 x7) x8 x9 := by
  unfold k3_pay1 k3_pay2 k3_pay3
  simp only [shapeCast_self]
  rfl

/-- Entry (p, q) of what the second launch's body stores, from the blocks it loaded. -/
theorem pay3_at (x0 : Vec Ideal S4000x128 .bf16) (x1 x2 : Vec Ideal S4000x128 .f32) (x3 x4 : Vec Ideal S128x128 .bf16)
    (x5 : Vec Ideal S1x128 .f32) (x6 : Vec Ideal S128x128 .bf16) (x7 : Vec Ideal S1x128 .f32)
    (x8 : Vec Ideal S128x128 .bf16) (x9 : Vec Ideal S1x128 .f32) (p : Fin 4000) (q : Fin 128) :
    k3_pay1 (k3_pay2 x0 x1 x3 x4 x5) (k3_pay3 x2 x6 x7) x8 x9 (ix2 p q) = combAt x0 x1 x2 x3 x4 x5 x6 x7 x8 x9 p q := by
  rw [pay3_eq]
  exact combTile_at _ _ _ x0 x1 x2 x3 x4 x5 x6 x7 x8 x9 p q

end Cert.KernelIdeal.Blocks

end
-- ==== Proof.RegComb1.lean ====
/-
  The first combining launch, as a whole array.

  The launch runs over ten grid points; point t works on rows 4000·t … 4000·t + 3999 of the three node arrays and on all
  of the seven small operands, and writes the same rows of the result. What point t writes back is therefore the block of
  ONE function of the ten input arrays, the combining stage's formula entry by entry, because that formula at row r reads
  only row r of the node arrays. The ten row blocks cover the result, so after the launch the result array is that function.
-/
import proofs.«143715_j36816459661705_2_alg».proof.Proof.RegCombPay
import proofs.«143715_j36816459661705_2_alg».proof.Proof.Gen.KernelIdeal.Frame
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Gnn Cert.Gnn.Comb
open Idealize.ShloMosaic.Pipeline (Dat)

variable (V : (c : Dev nD) → (b : Ref sig .tc) → Buf (Elt Ideal) ((c : Thread nD τ).loc b))

/-- The zero offsets of a whole-block access, as a constant function. -/
theorem zeroOff1 : (![0, 0] : Fin 2 → Nat) = fun _ => 0 := funext fun a => by fin_cases a <;> rfl

/-- The launch's result as one function of its ten input arrays: the combining stage entry by entry. -/
abbrev comb1 (c : Dev nD) : S40000x128.Idx → EReal := fun i =>
  combAt (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (i 0) (i 1)

/-- The block indices over the grid: the node arrays and the result move with the point along the rows, the small
    operands stay at their one block. -/
theorem blockIdx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_10.index t (0 : Fin 2) = t.val
    ∧ win1_10.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0 :=
  (by decide +kernel : ∀ t : Fin grid1.N, _)

/-- Row p of window 0's block at point t is row 4000·t + p of its array. -/
theorem blkRow1_0 (c : Dev nD) (t : Fin cfg1.N) (p : Fin 4000) (R : Fin 40000) (hR : R.val = t.val * 4000 + p.val) (i : Fin 128) :
    ((iblk1 V c 0 t) : S4000x128.Idx → EReal) (ix2 p i) = ((V c (Pipeline.arrRef spec1 0)) : S40000x128.Idx → EReal) (ix2 R i) := by
  obtain ⟨n0a, n0b, n1a, n1b, n2a, n2b, n10a, n10b, n3a, n3b, n4a, n4b, n5a, n5b, n6a, n6b, n7a, n7b, n8a, n8b, n9a, n9b⟩ := blockIdx1 t
  show ((V c (Pipeline.arrRef spec1 0)) : S40000x128.Idx → EReal) (((cfg1.win 0).blk t).view.emb (ix2 p i)) = _
  refine congrArg _ (funext fun a => Fin.ext ?_)
  match a with
  | ⟨0, _⟩ => show win1_0.index t (0 : Fin 2) * 4000 + 1 * p.val = R.val; rw [n0a, hR]; omega
  | ⟨1, _⟩ => show win1_0.index t (1 : Fin 2) * 128 + 1 * i.val = i.val; rw [n0b]; omega

/-- Row p of window 1's block at point t is row 4000·t + p of its array. -/
theorem blkRow1_1 (c : Dev nD) (t : Fin cfg1.N) (p : Fin 4000) (R : Fin 40000) (hR : R.val = t.val * 4000 + p.val) (i : Fin 128) :
    ((iblk1 V c 1 t) : S4000x128.Idx → EReal) (ix2 p i) = ((V c (Pipeline.arrRef spec1 1)) : S40000x128.Idx → EReal) (ix2 R i) := by
  obtain ⟨n0a, n0b, n1a, n1b, n2a, n2b, n10a, n10b, n3a, n3b, n4a, n4b, n5a, n5b, n6a, n6b, n7a, n7b, n8a, n8b, n9a, n9b⟩ := blockIdx1 t
  show ((V c (Pipeline.arrRef spec1 1)) : S40000x128.Idx → EReal) (((cfg1.win 1).blk t).view.emb (ix2 p i)) = _
  refine congrArg _ (funext fun a => Fin.ext ?_)
  match a with
  | ⟨0, _⟩ => show win1_1.index t (0 : Fin 2) * 4000 + 1 * p.val = R.val; rw [n1a, hR]; omega
  | ⟨1, _⟩ => show win1_1.index t (1 : Fin 2) * 128 + 1 * i.val = i.val; rw [n1b]; omega

/-- Row p of window 2's block at point t is row 4000·t + p of its array. -/
theorem blkRow1_2 (c : Dev nD) (t : Fin cfg1.N) (p : Fin 4000) (R : Fin 40000) (hR : R.val = t.val * 4000 + p.val) (i : Fin 128) :
    ((iblk1 V c 2 t) : S4000x128.Idx → EReal) (ix2 p i) = ((V c (Pipeline.arrRef spec1 2)) : S40000x128.Idx → EReal) (ix2 R i) := by
  obtain ⟨n0a, n0b, n1a, n1b, n2a, n2b, n10a, n10b, n3a, n3b, n4a, n4b, n5a, n5b, n6a, n6b, n7a, n7b, n8a, n8b, n9a, n9b⟩ := blockIdx1 t
  show ((V c (Pipeline.arrRef spec1 2)) : S40000x128.Idx → EReal) (((cfg1.win 2).blk t).view.emb (ix2 p i)) = _
  refine congrArg _ (funext fun a => Fin.ext ?_)
  match a with
  | ⟨0, _⟩ => show win1_2.index t (0 : Fin 2) * 4000 + 1 * p.val = R.val; rw [n2a, hR]; omega
  | ⟨1, _⟩ => show win1_2.index t (1 : Fin 2) * 128 + 1 * i.val = i.val; rw [n2b]; omega

/-- Window 3's block at any point is all of its array. -/
theorem blkWhole1_3 (c : Dev nD) (t : Fin cfg1.N) :
    ((iblk1 V c 3 t) : S128x128.Idx → EReal) = ((V c (Pipeline.arrRef spec1 3)) : S128x128.Idx → EReal) := funext fun y => by
  obtain ⟨n0a, n0b, n1a, n1b, n2a, n2b, n10a, n10b, n3a, n3b, n4a, n4b, n5a, n5b, n6a, n6b, n7a, n7b, n8a, n8b, n9a, n9b⟩ := blockIdx1 t
  show ((V c (Pipeline.arrRef spec1 3)) : S128x128.Idx → EReal) (((cfg1.win 3).blk t).view.emb y) = _
  refine congrArg _ (funext fun a => Fin.ext ?_)
  match a with
  | ⟨0, _⟩ => show win1_3.index t (0 : Fin 2) * 128 + 1 * (y 0).val = (y 0).val; rw [n3a]; omega
  | ⟨1, _⟩ => show win1_3.index t (1 : Fin 2) * 128 + 1 * (y 1).val = (y 1).val; rw [n3b]; omega

/-- Window 4's block at any point is all of its array. -/
theorem blkWhole1_4 (c : Dev nD) (t : Fin cfg1.N) :
    ((iblk1 V c 4 t) : S128x128.Idx → EReal) = ((V c (Pipeline.arrRef spec1 4)) : S128x128.Idx → EReal) := funext fun y => by
  obtain ⟨n0a, n0b, n1a, n1b, n2a, n2b, n10a, n10b, n3a, n3b, n4a, n4b, n5a, n5b, n6a, n6b, n7a, n7b, n8a, n8b, n9a, n9b⟩ := blockIdx1 t
  show ((V c (Pipeline.arrRef spec1 4)) : S128x128.Idx → EReal) (((cfg1.win 4).blk t).view.emb y) = _
  refine congrArg _ (funext fun a => Fin.ext ?_)
  match a with
  | ⟨0, _⟩ => show win1_4.index t (0 : Fin 2) * 128 + 1 * (y 0).val = (y 0).val; rw [n4a]; omega
  | ⟨1, _⟩ => show win1_4.index t (1 : Fin 2) * 128 + 1 * (y 1).val = (y 1).val; rw [n4b]; omega

/-- Window 5's block at any point is all of its array. -/
theorem blkWhole1_5 (c : Dev nD) (t : Fin cfg1.N) :
    ((iblk1 V c 5 t) : S1x128.Idx → EReal) = ((V c (Pipeline.arrRef spec1 5)) : S1x128.Idx → EReal) := funext fun y => by
  obtain ⟨n0a, n0b, n1a, n1b, n2a, n2b, n10a, n10b, n3a, n3b, n4a, n4b, n5a, n5b, n6a, n6b, n7a, n7b, n8a, n8b, n9a, n9b⟩ := blockIdx1 t
  show ((V c (Pipeline.arrRef spec1 5)) : S1x128.Idx → EReal) (((cfg1.win 5).blk t).view.emb y) = _
  refine congrArg _ (funext fun a => Fin.ext ?_)
  match a with
  | ⟨0, _⟩ => show win1_5.index t (0 : Fin 2) * 1 + 1 * (y 0).val = (y 0).val; rw [n5a]; omega
  | ⟨1, _⟩ => show win1_5.index t (1 : Fin 2) * 128 + 1 * (y 1).val = (y 1).val; rw [n5b]; omega

/-- Window 6's block at any point is all of its array. -/
theorem blkWhole1_6 (c : Dev nD) (t : Fin cfg1.N) :
    ((iblk1 V c 6 t) : S128x128.Idx → EReal) = ((V c (Pipeline.arrRef spec1 6)) : S128x128.Idx → EReal) := funext fun y => by
  obtain ⟨n0a, n0b, n1a, n1b, n2a, n2b, n10a, n10b, n3a, n3b, n4a, n4b, n5a, n5b, n6a, n6b, n7a, n7b, n8a, n8b, n9a, n9b⟩ := blockIdx1 t
  show ((V c (Pipeline.arrRef spec1 6)) : S128x128.Idx → EReal) (((cfg1.win 6).blk t).view.emb y) = _
  refine congrArg _ (funext fun a => Fin.ext ?_)
  match a with
  | ⟨0, _⟩ => show win1_6.index t (0 : Fin 2) * 128 + 1 * (y 0).val = (y 0).val; rw [n6a]; omega
  | ⟨1, _⟩ => show win1_6.index t (1 : Fin 2) * 128 + 1 * (y 1).val = (y 1).val; rw [n6b]; omega

/-- Window 7's block at any point is all of its array. -/
theorem blkWhole1_7 (c : Dev nD) (t : Fin cfg1.N) :
    ((iblk1 V c 7 t) : S1x128.Idx → EReal) = ((V c (Pipeline.arrRef spec1 7)) : S1x128.Idx → EReal) := funext fun y => by
  obtain ⟨n0a, n0b, n1a, n1b, n2a, n2b, n10a, n10b, n3a, n3b, n4a, n4b, n5a, n5b, n6a, n6b, n7a, n7b, n8a, n8b, n9a, n9b⟩ := blockIdx1 t
  show ((V c (Pipeline.arrRef spec1 7)) : S1x128.Idx → EReal) (((cfg1.win 7).blk t).view.emb y) = _
  refine congrArg _ (funext fun a => Fin.ext ?_)
  match a with
  | ⟨0, _⟩ => show win1_7.index t (0 : Fin 2) * 1 + 1 * (y 0).val = (y 0).val; rw [n7a]; omega
  | ⟨1, _⟩ => show win1_7.index t (1 : Fin 2) * 128 + 1 * (y 1).val = (y 1).val; rw [n7b]; omega

/-- Window 8's block at any point is all of its array. -/
theorem blkWhole1_8 (c : Dev nD) (t : Fin cfg1.N) :
    ((iblk1 V c 8 t) : S128x128.Idx → EReal) = ((V c (Pipeline.arrRef spec1 8)) : S128x128.Idx → EReal) := funext fun y => by
  obtain ⟨n0a, n0b, n1a, n1b, n2a, n2b, n10a, n10b, n3a, n3b, n4a, n4b, n5a, n5b, n6a, n6b, n7a, n7b, n8a, n8b, n9a, n9b⟩ := blockIdx1 t
  show ((V c (Pipeline.arrRef spec1 8)) : S128x128.Idx → EReal) (((cfg1.win 8).blk t).view.emb y) = _
  refine congrArg _ (funext fun a => Fin.ext ?_)
  match a with
  | ⟨0, _⟩ => show win1_8.index t (0 : Fin 2) * 128 + 1 * (y 0).val = (y 0).val; rw [n8a]; omega
  | ⟨1, _⟩ => show win1_8.index t (1 : Fin 2) * 128 + 1 * (y 1).val = (y 1).val; rw [n8b]; omega

/-- Window 9's block at any point is all of its array. -/
theorem blkWhole1_9 (c : Dev nD) (t : Fin cfg1.N) :
    ((iblk1 V c 9 t) : S1x128.Idx → EReal) = ((V c (Pipeline.arrRef spec1 9)) : S1x128.Idx → EReal) := funext fun y => by
  obtain ⟨n0a, n0b, n1a, n1b, n2a, n2b, n10a, n10b, n3a, n3b, n4a, n4b, n5a, n5b, n6a, n6b, n7a, n7b, n8a, n8b, n9a, n9b⟩ := blockIdx1 t
  show ((V c (Pipeline.arrRef spec1 9)) : S1x128.Idx → EReal) (((cfg1.win 9).blk t).view.emb y) = _
  refine congrArg _ (funext fun a => Fin.ext ?_)
  match a with
  | ⟨0, _⟩ => show win1_9.index t (0 : Fin 2) * 1 + 1 * (y 0).val = (y 0).val; rw [n9a]; omega
  | ⟨1, _⟩ => show win1_9.index t (1 : Fin 2) * 128 + 1 * (y 1).val = (y 1).val; rw [n9b]; omega

/-- What point t writes back is rows 4000·t … 4000·t + 3999 of the combining stage of the input arrays. -/
theorem flushed1_eq (c : Dev nD) (t : Fin cfg1.N) :
    (dat1 (F := Ideal) V c).flushed 10 t = ((cfg1.win 10).blk t).view.read (Elt Ideal) (comb1 V c) := by
  show (cfg1.win 10).cut (grid1.coords t) ((dat1 V c).after 10 t) = _
  rw [after1_10]
  unfold out1_10
  rw [View.canon_unit_zero zeroOff1]
  simp only [View.ld_unit_zero (S := S4000x128) zeroOff1, View.ld_unit_zero (S := S128x128) zeroOff1, View.ld_unit_zero (S := S1x128) zeroOff1]
  obtain ⟨n0a, n0b, n1a, n1b, n2a, n2b, n10a, n10b, n3a, n3b, n4a, n4b, n5a, n5b, n6a, n6b, n7a, n7b, n8a, n8b, n9a, n9b⟩ := blockIdx1 t
  have hN : t.val < 10 := Nat.lt_of_lt_of_eq t.isLt N_1
  refine funext fun (j : S4000x128.Idx) => ?_
  obtain ⟨p, q, rfl⟩ : ∃ (p : Fin 4000) (q : Fin 128), j = ix2 p q := ⟨j 0, j 1, eq_ix2 j⟩
  refine (pay1_at (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p q).trans ?_
  have hR : t.val * 4000 + p.val < 40000 := by have := p.isLt; omega
  have hout : ((cfg1.win 10).blk t).view.emb (ix2 p q) = (ix2 (⟨t.val * 4000 + p.val, hR⟩ : Fin 40000) q : S40000x128.Idx) := by
    refine funext fun a => Fin.ext ?_
    match a with
    | ⟨0, _⟩ => show win1_10.index t (0 : Fin 2) * 4000 + 1 * p.val = t.val * 4000 + p.val; rw [n10a]; omega
    | ⟨1, _⟩ => show win1_10.index t (1 : Fin 2) * 128 + 1 * q.val = q.val; rw [n10b]; omega
  show _ = comb1 V c (((cfg1.win 10).blk t).view.emb (ix2 p q))
  rw [hout]
  exact combAt_congr _ _ _ _ _ _ _ _ _ _ _ _ _ _ _ _ _ _ _ _ p ⟨t.val * 4000 + p.val, hR⟩
    (blkRow1_0 V c t p _ rfl) (blkRow1_1 V c t p _ rfl) (blkRow1_2 V c t p _ rfl)
    (blkWhole1_3 V c t) (blkWhole1_4 V c t) (blkWhole1_5 V c t) (blkWhole1_6 V c t) (blkWhole1_7 V c t)
    (blkWhole1_8 V c t) (blkWhole1_9 V c t) q

/-- An index of the result is in point t's block iff each coordinate is in the block's range on its axis. -/
theorem mem_blk1 (t : Fin cfg1.N) (i : S40000x128.Idx) :
    i ∈ ((cfg1.win 10).blk t).view.set ↔ ∀ a : Fin 2, win1_10.index t a * S4000x128.size a ≤ (i a).val ∧ (i a).val < win1_10.index t a * S4000x128.size a + S4000x128.size a := by
  show i ∈ ((View.whole main_v87).slice (win1_10.rect t)).set ↔ _
  rw [View.set_slice_whole, Rect.mem_set_unit]
  exact Iff.rfl

/-- Every index of the result is in some point's block: row r is in the block of point r / 4000. -/
theorem covered1 (i : S40000x128.Idx) :
    ∃ t : Fin cfg1.N, (cfg1.win 10).flush t = true ∧ i ∈ ((cfg1.win 10).blk t).view.set := by
  have hi0 : (i 0).val < 40000 := (i 0).isLt
  have hi1 : (i 1).val < 128 := (i 1).isLt
  let t : Fin cfg1.N := ⟨(i 0).val / 4000, by rw [show cfg1.N = 10 from N_1]; omega⟩
  have ht : t.val = (i 0).val / 4000 := rfl
  obtain ⟨n0a, n0b, n1a, n1b, n2a, n2b, n10a, n10b, n3a, n3b, n4a, n4b, n5a, n5b, n6a, n6b, n7a, n7b, n8a, n8b, n9a, n9b⟩ := blockIdx1 t
  refine ⟨t, flush1_10 t, ?_⟩
  rw [mem_blk1]
  intro a
  match a with
  | ⟨0, _⟩ => show win1_10.index t (0 : Fin 2) * 4000 ≤ (i 0).val ∧ (i 0).val < win1_10.index t (0 : Fin 2) * 4000 + 4000; rw [n10a, ht]; omega
  | ⟨1, _⟩ => show win1_10.index t (1 : Fin 2) * 128 ≤ (i 1).val ∧ (i 1).val < win1_10.index t (1 : Fin 2) * 128 + 128; rw [n10b]; omega

/-- The result array after the launch is the combining stage of the input arrays. -/
theorem arr1_eq (c : Dev nD) : (dat1 (F := Ideal) V c).arrAt 10 cfg1.N = comb1 V c :=
  (dat1 (F := Ideal) V c).arrAt_eq_of_cover 10 (comb1 V c) (fun t _ => flushed1_eq V c t) (covered1)

/-- The result array after the launch, entry (r, j). -/
theorem arr1_apply (c : Dev nD) (r : Fin 40000) (j : Fin 128) :
    (dat1 (F := Ideal) V c).arrAt 10 cfg1.N (ix2 r j)
      = Cert.Gnn.combAt (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) r j := by
  rw [arr1_eq]

end Cert.KernelIdeal.Blocks

end
-- ==== Proof.RegComb3.lean ====
/-
  The second combining launch, as a whole array.

  The launch runs over ten grid points; point t works on rows 4000·t … 4000·t + 3999 of the three node arrays and on all
  of the seven small operands, and writes the same rows of the result. What point t writes back is therefore the block of
  ONE function of the ten input arrays, the combining stage's formula entry by entry, because that formula at row r reads
  only row r of the node arrays. The ten row blocks cover the result, so after the launch the result array is that function.
-/
import proofs.«143715_j36816459661705_2_alg».proof.Proof.RegCombPay
import proofs.«143715_j36816459661705_2_alg».proof.Proof.Gen.KernelIdeal.Frame
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Gnn Cert.Gnn.Comb
open Idealize.ShloMosaic.Pipeline (Dat)

variable (V : (c : Dev nD) → (b : Ref sig .tc) → Buf (Elt Ideal) ((c : Thread nD τ).loc b))

/-- The zero offsets of a whole-block access, as a constant function. -/
theorem zeroOff3 : (![0, 0] : Fin 2 → Nat) = fun _ => 0 := funext fun a => by fin_cases a <;> rfl

/-- The launch's result as one function of its ten input arrays: the combining stage entry by entry. -/
abbrev comb3 (c : Dev nD) : S40000x128.Idx → EReal := fun i =>
  combAt (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (i 0) (i 1)

/-- The block indices over the grid: the node arrays and the result move with the point along the rows, the small
    operands stay at their one block. -/
theorem blockIdx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_10.index t (0 : Fin 2) = t.val
    ∧ win3_10.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0 :=
  (by decide +kernel : ∀ t : Fin grid3.N, _)

/-- Row p of window 0's block at point t is row 4000·t + p of its array. -/
theorem blkRow3_0 (c : Dev nD) (t : Fin cfg3.N) (p : Fin 4000) (R : Fin 40000) (hR : R.val = t.val * 4000 + p.val) (i : Fin 128) :
    ((iblk3 V c 0 t) : S4000x128.Idx → EReal) (ix2 p i) = ((V c (Pipeline.arrRef spec3 0)) : S40000x128.Idx → EReal) (ix2 R i) := by
  obtain ⟨n0a, n0b, n1a, n1b, n2a, n2b, n10a, n10b, n3a, n3b, n4a, n4b, n5a, n5b, n6a, n6b, n7a, n7b, n8a, n8b, n9a, n9b⟩ := blockIdx3 t
  show ((V c (Pipeline.arrRef spec3 0)) : S40000x128.Idx → EReal) (((cfg3.win 0).blk t).view.emb (ix2 p i)) = _
  refine congrArg _ (funext fun a => Fin.ext ?_)
  match a with
  | ⟨0, _⟩ => show win3_0.index t (0 : Fin 2) * 4000 + 1 * p.val = R.val; rw [n0a, hR]; omega
  | ⟨1, _⟩ => show win3_0.index t (1 : Fin 2) * 128 + 1 * i.val = i.val; rw [n0b]; omega

/-- Row p of window 1's block at point t is row 4000·t + p of its array. -/
theorem blkRow3_1 (c : Dev nD) (t : Fin cfg3.N) (p : Fin 4000) (R : Fin 40000) (hR : R.val = t.val * 4000 + p.val) (i : Fin 128) :
    ((iblk3 V c 1 t) : S4000x128.Idx → EReal) (ix2 p i) = ((V c (Pipeline.arrRef spec3 1)) : S40000x128.Idx → EReal) (ix2 R i) := by
  obtain ⟨n0a, n0b, n1a, n1b, n2a, n2b, n10a, n10b, n3a, n3b, n4a, n4b, n5a, n5b, n6a, n6b, n7a, n7b, n8a, n8b, n9a, n9b⟩ := blockIdx3 t
  show ((V c (Pipeline.arrRef spec3 1)) : S40000x128.Idx → EReal) (((cfg3.win 1).blk t).view.emb (ix2 p i)) = _
  refine congrArg _ (funext fun a => Fin.ext ?_)
  match a with
  | ⟨0, _⟩ => show win3_1.index t (0 : Fin 2) * 4000 + 1 * p.val = R.val; rw [n1a, hR]; omega
  | ⟨1, _⟩ => show win3_1.index t (1 : Fin 2) * 128 + 1 * i.val = i.val; rw [n1b]; omega

/-- Row p of window 2's block at point t is row 4000·t + p of its array. -/
theorem blkRow3_2 (c : Dev nD) (t : Fin cfg3.N) (p : Fin 4000) (R : Fin 40000) (hR : R.val = t.val * 4000 + p.val) (i : Fin 128) :
    ((iblk3 V c 2 t) : S4000x128.Idx → EReal) (ix2 p i) = ((V c (Pipeline.arrRef spec3 2)) : S40000x128.Idx → EReal) (ix2 R i) := by
  obtain ⟨n0a, n0b, n1a, n1b, n2a, n2b, n10a, n10b, n3a, n3b, n4a, n4b, n5a, n5b, n6a, n6b, n7a, n7b, n8a, n8b, n9a, n9b⟩ := blockIdx3 t
  show ((V c (Pipeline.arrRef spec3 2)) : S40000x128.Idx → EReal) (((cfg3.win 2).blk t).view.emb (ix2 p i)) = _
  refine congrArg _ (funext fun a => Fin.ext ?_)
  match a with
  | ⟨0, _⟩ => show win3_2.index t (0 : Fin 2) * 4000 + 1 * p.val = R.val; rw [n2a, hR]; omega
  | ⟨1, _⟩ => show win3_2.index t (1 : Fin 2) * 128 + 1 * i.val = i.val; rw [n2b]; omega

/-- Window 3's block at any point is all of its array. -/
theorem blkWhole3_3 (c : Dev nD) (t : Fin cfg3.N) :
    ((iblk3 V c 3 t) : S128x128.Idx → EReal) = ((V c (Pipeline.arrRef spec3 3)) : S128x128.Idx → EReal) := funext fun y => by
  obtain ⟨n0a, n0b, n1a, n1b, n2a, n2b, n10a, n10b, n3a, n3b, n4a, n4b, n5a, n5b, n6a, n6b, n7a, n7b, n8a, n8b, n9a, n9b⟩ := blockIdx3 t
  show ((V c (Pipeline.arrRef spec3 3)) : S128x128.Idx → EReal) (((cfg3.win 3).blk t).view.emb y) = _
  refine congrArg _ (funext fun a => Fin.ext ?_)
  match a with
  | ⟨0, _⟩ => show win3_3.index t (0 : Fin 2) * 128 + 1 * (y 0).val = (y 0).val; rw [n3a]; omega
  | ⟨1, _⟩ => show win3_3.index t (1 : Fin 2) * 128 + 1 * (y 1).val = (y 1).val; rw [n3b]; omega

/-- Window 4's block at any point is all of its array. -/
theorem blkWhole3_4 (c : Dev nD) (t : Fin cfg3.N) :
    ((iblk3 V c 4 t) : S128x128.Idx → EReal) = ((V c (Pipeline.arrRef spec3 4)) : S128x128.Idx → EReal) := funext fun y => by
  obtain ⟨n0a, n0b, n1a, n1b, n2a, n2b, n10a, n10b, n3a, n3b, n4a, n4b, n5a, n5b, n6a, n6b, n7a, n7b, n8a, n8b, n9a, n9b⟩ := blockIdx3 t
  show ((V c (Pipeline.arrRef spec3 4)) : S128x128.Idx → EReal) (((cfg3.win 4).blk t).view.emb y) = _
  refine congrArg _ (funext fun a => Fin.ext ?_)
  match a with
  | ⟨0, _⟩ => show win3_4.index t (0 : Fin 2) * 128 + 1 * (y 0).val = (y 0).val; rw [n4a]; omega
  | ⟨1, _⟩ => show win3_4.index t (1 : Fin 2) * 128 + 1 * (y 1).val = (y 1).val; rw [n4b]; omega

/-- Window 5's block at any point is all of its array. -/
theorem blkWhole3_5 (c : Dev nD) (t : Fin cfg3.N) :
    ((iblk3 V c 5 t) : S1x128.Idx → EReal) = ((V c (Pipeline.arrRef spec3 5)) : S1x128.Idx → EReal) := funext fun y => by
  obtain ⟨n0a, n0b, n1a, n1b, n2a, n2b, n10a, n10b, n3a, n3b, n4a, n4b, n5a, n5b, n6a, n6b, n7a, n7b, n8a, n8b, n9a, n9b⟩ := blockIdx3 t
  show ((V c (Pipeline.arrRef spec3 5)) : S1x128.Idx → EReal) (((cfg3.win 5).blk t).view.emb y) = _
  refine congrArg _ (funext fun a => Fin.ext ?_)
  match a with
  | ⟨0, _⟩ => show win3_5.index t (0 : Fin 2) * 1 + 1 * (y 0).val = (y 0).val; rw [n5a]; omega
  | ⟨1, _⟩ => show win3_5.index t (1 : Fin 2) * 128 + 1 * (y 1).val = (y 1).val; rw [n5b]; omega

/-- Window 6's block at any point is all of its array. -/
theorem blkWhole3_6 (c : Dev nD) (t : Fin cfg3.N) :
    ((iblk3 V c 6 t) : S128x128.Idx → EReal) = ((V c (Pipeline.arrRef spec3 6)) : S128x128.Idx → EReal) := funext fun y => by
  obtain ⟨n0a, n0b, n1a, n1b, n2a, n2b, n10a, n10b, n3a, n3b, n4a, n4b, n5a, n5b, n6a, n6b, n7a, n7b, n8a, n8b, n9a, n9b⟩ := blockIdx3 t
  show ((V c (Pipeline.arrRef spec3 6)) : S128x128.Idx → EReal) (((cfg3.win 6).blk t).view.emb y) = _
  refine congrArg _ (funext fun a => Fin.ext ?_)
  match a with
  | ⟨0, _⟩ => show win3_6.index t (0 : Fin 2) * 128 + 1 * (y 0).val = (y 0).val; rw [n6a]; omega
  | ⟨1, _⟩ => show win3_6.index t (1 : Fin 2) * 128 + 1 * (y 1).val = (y 1).val; rw [n6b]; omega

/-- Window 7's block at any point is all of its array. -/
theorem blkWhole3_7 (c : Dev nD) (t : Fin cfg3.N) :
    ((iblk3 V c 7 t) : S1x128.Idx → EReal) = ((V c (Pipeline.arrRef spec3 7)) : S1x128.Idx → EReal) := funext fun y => by
  obtain ⟨n0a, n0b, n1a, n1b, n2a, n2b, n10a, n10b, n3a, n3b, n4a, n4b, n5a, n5b, n6a, n6b, n7a, n7b, n8a, n8b, n9a, n9b⟩ := blockIdx3 t
  show ((V c (Pipeline.arrRef spec3 7)) : S1x128.Idx → EReal) (((cfg3.win 7).blk t).view.emb y) = _
  refine congrArg _ (funext fun a => Fin.ext ?_)
  match a with
  | ⟨0, _⟩ => show win3_7.index t (0 : Fin 2) * 1 + 1 * (y 0).val = (y 0).val; rw [n7a]; omega
  | ⟨1, _⟩ => show win3_7.index t (1 : Fin 2) * 128 + 1 * (y 1).val = (y 1).val; rw [n7b]; omega

/-- Window 8's block at any point is all of its array. -/
theorem blkWhole3_8 (c : Dev nD) (t : Fin cfg3.N) :
    ((iblk3 V c 8 t) : S128x128.Idx → EReal) = ((V c (Pipeline.arrRef spec3 8)) : S128x128.Idx → EReal) := funext fun y => by
  obtain ⟨n0a, n0b, n1a, n1b, n2a, n2b, n10a, n10b, n3a, n3b, n4a, n4b, n5a, n5b, n6a, n6b, n7a, n7b, n8a, n8b, n9a, n9b⟩ := blockIdx3 t
  show ((V c (Pipeline.arrRef spec3 8)) : S128x128.Idx → EReal) (((cfg3.win 8).blk t).view.emb y) = _
  refine congrArg _ (funext fun a => Fin.ext ?_)
  match a with
  | ⟨0, _⟩ => show win3_8.index t (0 : Fin 2) * 128 + 1 * (y 0).val = (y 0).val; rw [n8a]; omega
  | ⟨1, _⟩ => show win3_8.index t (1 : Fin 2) * 128 + 1 * (y 1).val = (y 1).val; rw [n8b]; omega

/-- Window 9's block at any point is all of its array. -/
theorem blkWhole3_9 (c : Dev nD) (t : Fin cfg3.N) :
    ((iblk3 V c 9 t) : S1x128.Idx → EReal) = ((V c (Pipeline.arrRef spec3 9)) : S1x128.Idx → EReal) := funext fun y => by
  obtain ⟨n0a, n0b, n1a, n1b, n2a, n2b, n10a, n10b, n3a, n3b, n4a, n4b, n5a, n5b, n6a, n6b, n7a, n7b, n8a, n8b, n9a, n9b⟩ := blockIdx3 t
  show ((V c (Pipeline.arrRef spec3 9)) : S1x128.Idx → EReal) (((cfg3.win 9).blk t).view.emb y) = _
  refine congrArg _ (funext fun a => Fin.ext ?_)
  match a with
  | ⟨0, _⟩ => show win3_9.index t (0 : Fin 2) * 1 + 1 * (y 0).val = (y 0).val; rw [n9a]; omega
  | ⟨1, _⟩ => show win3_9.index t (1 : Fin 2) * 128 + 1 * (y 1).val = (y 1).val; rw [n9b]; omega

/-- What point t writes back is rows 4000·t … 4000·t + 3999 of the combining stage of the input arrays. -/
theorem flushed3_eq (c : Dev nD) (t : Fin cfg3.N) :
    (dat3 (F := Ideal) V c).flushed 10 t = ((cfg3.win 10).blk t).view.read (Elt Ideal) (comb3 V c) := by
  show (cfg3.win 10).cut (grid3.coords t) ((dat3 V c).after 10 t) = _
  rw [after3_10]
  unfold out3_10
  rw [View.canon_unit_zero zeroOff3]
  simp only [View.ld_unit_zero (S := S4000x128) zeroOff3, View.ld_unit_zero (S := S128x128) zeroOff3, View.ld_unit_zero (S := S1x128) zeroOff3]
  obtain ⟨n0a, n0b, n1a, n1b, n2a, n2b, n10a, n10b, n3a, n3b, n4a, n4b, n5a, n5b, n6a, n6b, n7a, n7b, n8a, n8b, n9a, n9b⟩ := blockIdx3 t
  have hN : t.val < 10 := Nat.lt_of_lt_of_eq t.isLt N_3
  refine funext fun (j : S4000x128.Idx) => ?_
  obtain ⟨p, q, rfl⟩ : ∃ (p : Fin 4000) (q : Fin 128), j = ix2 p q := ⟨j 0, j 1, eq_ix2 j⟩
  refine (pay3_at (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) p q).trans ?_
  have hR : t.val * 4000 + p.val < 40000 := by have := p.isLt; omega
  have hout : ((cfg3.win 10).blk t).view.emb (ix2 p q) = (ix2 (⟨t.val * 4000 + p.val, hR⟩ : Fin 40000) q : S40000x128.Idx) := by
    refine funext fun a => Fin.ext ?_
    match a with
    | ⟨0, _⟩ => show win3_10.index t (0 : Fin 2) * 4000 + 1 * p.val = t.val * 4000 + p.val; rw [n10a]; omega
    | ⟨1, _⟩ => show win3_10.index t (1 : Fin 2) * 128 + 1 * q.val = q.val; rw [n10b]; omega
  show _ = comb3 V c (((cfg3.win 10).blk t).view.emb (ix2 p q))
  rw [hout]
  exact combAt_congr _ _ _ _ _ _ _ _ _ _ _ _ _ _ _ _ _ _ _ _ p ⟨t.val * 4000 + p.val, hR⟩
    (blkRow3_0 V c t p _ rfl) (blkRow3_1 V c t p _ rfl) (blkRow3_2 V c t p _ rfl)
    (blkWhole3_3 V c t) (blkWhole3_4 V c t) (blkWhole3_5 V c t) (blkWhole3_6 V c t) (blkWhole3_7 V c t)
    (blkWhole3_8 V c t) (blkWhole3_9 V c t) q

/-- An index of the result is in point t's block iff each coordinate is in the block's range on its axis. -/
theorem mem_blk3 (t : Fin cfg3.N) (i : S40000x128.Idx) :
    i ∈ ((cfg3.win 10).blk t).view.set ↔ ∀ a : Fin 2, win3_10.index t a * S4000x128.size a ≤ (i a).val ∧ (i a).val < win3_10.index t a * S4000x128.size a + S4000x128.size a := by
  show i ∈ ((View.whole main_v126).slice (win3_10.rect t)).set ↔ _
  rw [View.set_slice_whole, Rect.mem_set_unit]
  exact Iff.rfl

/-- Every index of the result is in some point's block: row r is in the block of point r / 4000. -/
theorem covered3 (i : S40000x128.Idx) :
    ∃ t : Fin cfg3.N, (cfg3.win 10).flush t = true ∧ i ∈ ((cfg3.win 10).blk t).view.set := by
  have hi0 : (i 0).val < 40000 := (i 0).isLt
  have hi1 : (i 1).val < 128 := (i 1).isLt
  let t : Fin cfg3.N := ⟨(i 0).val / 4000, by rw [show cfg3.N = 10 from N_3]; omega⟩
  have ht : t.val = (i 0).val / 4000 := rfl
  obtain ⟨n0a, n0b, n1a, n1b, n2a, n2b, n10a, n10b, n3a, n3b, n4a, n4b, n5a, n5b, n6a, n6b, n7a, n7b, n8a, n8b, n9a, n9b⟩ := blockIdx3 t
  refine ⟨t, flush3_10 t, ?_⟩
  rw [mem_blk3]
  intro a
  match a with
  | ⟨0, _⟩ => show win3_10.index t (0 : Fin 2) * 4000 ≤ (i 0).val ∧ (i 0).val < win3_10.index t (0 : Fin 2) * 4000 + 4000; rw [n10a, ht]; omega
  | ⟨1, _⟩ => show win3_10.index t (1 : Fin 2) * 128 ≤ (i 1).val ∧ (i 1).val < win3_10.index t (1 : Fin 2) * 128 + 128; rw [n10b]; omega

/-- The result array after the launch is the combining stage of the input arrays. -/
theorem arr3_eq (c : Dev nD) : (dat3 (F := Ideal) V c).arrAt 10 cfg3.N = comb3 V c :=
  (dat3 (F := Ideal) V c).arrAt_eq_of_cover 10 (comb3 V c) (fun t _ => flushed3_eq V c t) (covered3)

/-- The result array after the launch, entry (r, j). -/
theorem arr3_apply (c : Dev nD) (r : Fin 40000) (j : Fin 128) :
    (dat3 (F := Ideal) V c).arrAt 10 cfg3.N (ix2 r j)
      = Cert.Gnn.combAt (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) r j := by
  rw [arr3_eq]

end Cert.KernelIdeal.Blocks

end
-- ==== Proof.KerEdges.lean ====
/-
  The edge-derived quantities of the graph network, as the program computes them once from the edge list and the edge
  weights, and the two neighbourhood aggregations of a node array.

  From the edge list ei (row 0 the sources, row 1 the targets) and the weights ew:
  * src, dst: the two rows; loop marks the self-loops (src = dst); wc is the weight with the self-loops' weights
    replaced by zero.
  * norm (Chebyshev coefficient): with deg the sum of wc over each node's outgoing edges and dinv = deg^(-1/2) where
    deg is positive, else 0: norm[e] = -(dinv[src e]) * wc[e] * dinv[dst e]. Node numbers index an array of 40000
    rows, a negative one counted from the end.
  * cnt: one plus the number of incoming edges of a node that are not self-loops.
  * loopw: one, overwritten by the weight of a self-loop at its node (an edge that is no self-loop writes out of range
    and is dropped).
  * tx: each edge carries norm[e] times row src e of the node array to row dst e, summed there.
  * agg: each edge carries wc[e] times row src e to row dst e, summed there; plus loopw times the node's own row; all
    divided by cnt.
  Every definition is the composition of the program's whole-array operations, in the program's order.
-/
import proofs.«143715_j36816459661705_2_alg».proof.Proof.Gen.KernelIdeal

noncomputable section

namespace Cert.KernelIdeal.Hand

open Idealize.ShloMosaic
open Cert.KernelIdeal.Facts₀ Cert.KernelIdeal.Facts

variable {F : FTy → Type} [FloatOps F]

/-- The edges' sources: row 0 of the edge list. -/
def srcK (ei : IVec S2x640000 32) : IVec S640000 32 :=
  shapeCast S640000 (extractStridedSlice S1x640000 ![0, 0] ei slices_S2x640000_S1x640000_0_0) shapeCasts_S1x640000_S640000

/-- The edges' targets: row 1 of the edge list. -/
def dstK (ei : IVec S2x640000 32) : IVec S640000 32 :=
  shapeCast S640000 (extractStridedSlice S1x640000 ![1, 0] ei slices_S2x640000_S1x640000_1_0) shapeCasts_S1x640000_S640000

/-- The self-loops: source equal to target. -/
def loopK (ei : IVec S2x640000 32) : IVec S640000 1 :=
  cmpi .eq (srcK ei) (dstK ei)

/-- The edge weights with the self-loops' weights set to zero. -/
def wcK (ei : IVec S2x640000 32) (ew : FVec F S640000 .f32) : FVec F S640000 .f32 :=
  select (loopK ei) (broadcastInDim S640000 ![] bcast_S_S640000 (id (constant (F := F) S_ .f32 0x00000000#32))) ew

/-- The Chebyshev coefficient of each edge. -/
def normK (ei : IVec S2x640000 32) (ew : FVec F S640000 .f32) : FVec F S640000 .f32 :=
  (mulf (mulf (Host.negf (Host.gather gather_S40000_S640000x1_S640000_n_0_n_n_0_1_1 (select (cmpf .ogt (Host.scatterAdd scatter_S40000_S640000x1_S640000_n_0_0_1 (broadcastInDim S40000 ![] bcast_S_S40000 (constant (F := F) S_ .f32 0x00000000#32)) (broadcastInDim S640000x1 ![0] bcast_S640000_S640000x1_0 (srcK ei)) (wcK ei ew)) (broadcastInDim S40000 ![] bcast_S_S40000 (constant (F := F) S_ .f32 0x00000000#32))) (Host.rsqrt (select (cmpf .ogt (Host.scatterAdd scatter_S40000_S640000x1_S640000_n_0_0_1 (broadcastInDim S40000 ![] bcast_S_S40000 (constant (F := F) S_ .f32 0x00000000#32)) (broadcastInDim S640000x1 ![0] bcast_S640000_S640000x1_0 (srcK ei)) (wcK ei ew)) (broadcastInDim S40000 ![] bcast_S_S40000 (constant (F := F) S_ .f32 0x00000000#32))) (Host.scatterAdd scatter_S40000_S640000x1_S640000_n_0_0_1 (broadcastInDim S40000 ![] bcast_S_S40000 (constant (F := F) S_ .f32 0x00000000#32)) (broadcastInDim S640000x1 ![0] bcast_S640000_S640000x1_0 (srcK ei)) (wcK ei ew)) (broadcastInDim S40000 ![] bcast_S_S40000 (id (constant (F := F) S_ .f32 0x3F800000#32))))) (broadcastInDim S40000 ![] bcast_S_S40000 (id (constant (F := F) S_ .f32 0x00000000#32)))) (broadcastInDim S640000x1 ![0] bcast_S640000_S640000x1_0 (select (cmpi .slt (srcK ei) (broadcastInDim S640000 ![] bcast_S_S640000 (constantI S_ 32 0#32))) (addi (srcK ei) (broadcastInDim S640000 ![] bcast_S_S640000 (constantI S_ 32 40000#32))) (srcK ei))))) (wcK ei ew)) (Host.gather gather_S40000_S640000x1_S640000_n_0_n_n_0_1_1 (select (cmpf .ogt (Host.scatterAdd scatter_S40000_S640000x1_S640000_n_0_0_1 (broadcastInDim S40000 ![] bcast_S_S40000 (constant (F := F) S_ .f32 0x00000000#32)) (broadcastInDim S640000x1 ![0] bcast_S640000_S640000x1_0 (srcK ei)) (wcK ei ew)) (broadcastInDim S40000 ![] bcast_S_S40000 (constant (F := F) S_ .f32 0x00000000#32))) (Host.rsqrt (select (cmpf .ogt (Host.scatterAdd scatter_S40000_S640000x1_S640000_n_0_0_1 (broadcastInDim S40000 ![] bcast_S_S40000 (constant (F := F) S_ .f32 0x00000000#32)) (broadcastInDim S640000x1 ![0] bcast_S640000_S640000x1_0 (srcK ei)) (wcK ei ew)) (broadcastInDim S40000 ![] bcast_S_S40000 (constant (F := F) S_ .f32 0x00000000#32))) (Host.scatterAdd scatter_S40000_S640000x1_S640000_n_0_0_1 (broadcastInDim S40000 ![] bcast_S_S40000 (constant (F := F) S_ .f32 0x00000000#32)) (broadcastInDim S640000x1 ![0] bcast_S640000_S640000x1_0 (srcK ei)) (wcK ei ew)) (broadcastInDim S40000 ![] bcast_S_S40000 (id (constant (F := F) S_ .f32 0x3F800000#32))))) (broadcastInDim S40000 ![] bcast_S_S40000 (id (constant (F := F) S_ .f32 0x00000000#32)))) (broadcastInDim S640000x1 ![0] bcast_S640000_S640000x1_0 (select (cmpi .slt (dstK ei) (broadcastInDim S640000 ![] bcast_S_S640000 (constantI S_ 32 0#32))) (addi (dstK ei) (broadcastInDim S640000 ![] bcast_S_S640000 (constantI S_ 32 40000#32))) (dstK ei)))))

/-- One plus the number of incoming edges that are not self-loops, per node. -/
def cntK (ei : IVec S2x640000 32) : FVec F S40000 .f32 :=
  (addf (Host.scatterAdd scatter_S40000_S640000x1_S640000_n_0_0_1 (broadcastInDim S40000 ![] bcast_S_S40000 (constant (F := F) S_ .f32 0x00000000#32)) (broadcastInDim S640000x1 ![0] bcast_S640000_S640000x1_0 (dstK ei)) (id (select (loopK ei) (broadcastInDim S640000 ![] bcast_S_S640000 (constant (F := F) S_ .f32 0x00000000#32)) (broadcastInDim S640000 ![] bcast_S_S640000 (constant (F := F) S_ .f32 0x3F800000#32))))) (broadcastInDim S40000 ![] bcast_S_S40000 (constant (F := F) S_ .f32 0x3F800000#32)))

/-- The self-loop weight of each node (one where it has none). -/
def loopwK (ei : IVec S2x640000 32) (ew : FVec F S640000 .f32) : FVec F S40000 .f32 :=
  (Host.scatter scatter_S40000_S640000x1_S640000_n_0_0_1 (fun _ b => b) (broadcastInDim S40000 ![] bcast_S_S40000 (constant (F := F) S_ .f32 0x3F800000#32)) (broadcastInDim S640000x1 ![0] bcast_S640000_S640000x1_0 (select (cmpi .slt (select (loopK ei) (srcK ei) (broadcastInDim S640000 ![] bcast_S_S640000 (id (constantI S_ 32 40000#32)))) (broadcastInDim S640000 ![] bcast_S_S640000 (constantI S_ 32 0#32))) (addi (select (loopK ei) (srcK ei) (broadcastInDim S640000 ![] bcast_S_S640000 (id (constantI S_ 32 40000#32)))) (broadcastInDim S640000 ![] bcast_S_S640000 (constantI S_ 32 40000#32))) (select (loopK ei) (srcK ei) (broadcastInDim S640000 ![] bcast_S_S640000 (id (constantI S_ 32 40000#32)))))) ew)

/-- The Chebyshev aggregation of a node array: norm-weighted rows of the sources summed at the targets. -/
def txK (xh : FVec F S40000x128 .bf16) (ei : IVec S2x640000 32) (ew : FVec F S640000 .f32) : FVec F S40000x128 .f32 :=
  (Host.scatterAdd scatter_S40000x128_S640000x1_S640000x128_1_0_0_1 (broadcastInDim S40000x128 ![] bcast_S_S40000x128 (constant (F := F) S_ .f32 0x00000000#32)) (broadcastInDim S640000x1 ![0] bcast_S640000_S640000x1_0 (dstK ei)) (mulf (broadcastInDim S640000x128 ![0, 1] bcast_S640000x1_S640000x128_0_1 (broadcastInDim S640000x1 ![0] bcast_S640000_S640000x1_0 (normK ei ew))) (extf .f32 (Host.gather gather_S40000x128_S640000x1_S640000x128_1_0_n_n_0_1_1128 xh (broadcastInDim S640000x1 ![0] bcast_S640000_S640000x1_0 (select (cmpi .slt (srcK ei) (broadcastInDim S640000 ![] bcast_S_S640000 (constantI S_ 32 0#32))) (addi (srcK ei) (broadcastInDim S640000 ![] bcast_S_S640000 (constantI S_ 32 40000#32))) (srcK ei)))) bitsLt_bf16_f32)))

/-- The mean aggregation of a node array: weighted rows of the sources summed at the targets, plus the self-loop
    weight times the node's own row, divided by the count. -/
def aggK (xh : FVec F S40000x128 .bf16) (ei : IVec S2x640000 32) (ew : FVec F S640000 .f32) : FVec F S40000x128 .f32 :=
  (Host.divf (addf (Host.scatterAdd scatter_S40000x128_S640000x1_S640000x128_1_0_0_1 (broadcastInDim S40000x128 ![] bcast_S_S40000x128 (constant (F := F) S_ .f32 0x00000000#32)) (broadcastInDim S640000x1 ![0] bcast_S640000_S640000x1_0 (dstK ei)) (mulf (broadcastInDim S640000x128 ![0, 1] bcast_S640000x1_S640000x128_0_1 (broadcastInDim S640000x1 ![0] bcast_S640000_S640000x1_0 (wcK ei ew))) (extf .f32 (Host.gather gather_S40000x128_S640000x1_S640000x128_1_0_n_n_0_1_1128 xh (broadcastInDim S640000x1 ![0] bcast_S640000_S640000x1_0 (select (cmpi .slt (srcK ei) (broadcastInDim S640000 ![] bcast_S_S640000 (constantI S_ 32 0#32))) (addi (srcK ei) (broadcastInDim S640000 ![] bcast_S_S640000 (constantI S_ 32 40000#32))) (srcK ei)))) bitsLt_bf16_f32))) (mulf (broadcastInDim S40000x128 ![0, 1] bcast_S40000x1_S40000x128_0_1 (broadcastInDim S40000x1 ![0] bcast_S40000_S40000x1_0 (loopwK ei ew))) (extf .f32 xh bitsLt_bf16_f32))) (broadcastInDim S40000x128 ![0, 1] bcast_S40000x1_S40000x128_0_1 (broadcastInDim S40000x1 ![0] bcast_S40000_S40000x1_0 (cntK ei))))

end Cert.KernelIdeal.Hand

end
-- ==== Proof.KerChainEdgeOps.lean ====
/-
  The stretches of whole-array operations before the first region, each read at the buffers later stretches use:
  the contents after a stretch, at such a buffer, as the composition of the stretch's operations applied to the
  contents before it. Stated over an arbitrary valuation of the buffers.
-/
import proofs.«143715_j36816459661705_2_alg».proof.Proof.Gen.KernelIdeal.Launch
import Idealize.ShloMosaic.Lib.StableHlo.Run
import proofs.«143715_j36816459661705_2_alg».proof.Proof.KerEdges

set_option maxRecDepth 16384

noncomputable section

namespace Cert.KernelIdeal.Hand

open Idealize.ShloMosaic Idealize.ShloMosaic.TcCoe Idealize.ShloMosaic.Tactic
open Idealize.ShloMosaic.StableHlo (after_cons after_nil)
open Cert.KernelIdeal.Gen

variable {F : FTy → Type} [FloatOps F]

variable (W : Valuation τ sig (Elt F))

theorem ops0_v1 : (StableHlo.after hostOps0 W (Proc.devRef .tc main_v1) : IVec S640000 32)
    = (srcK (W (Proc.devRef .tc main_arg1) : IVec S2x640000 32)) := by
  simp only [hostOps0]; after_results <;> rfl

theorem ops0_v3 : (StableHlo.after hostOps0 W (Proc.devRef .tc main_v3) : IVec S640000 32)
    = (dstK (W (Proc.devRef .tc main_arg1) : IVec S2x640000 32)) := by
  simp only [hostOps0]; after_results <;> rfl

theorem ops0_v4 : (StableHlo.after hostOps0 W (Proc.devRef .tc main_v4) : IVec S640000 1)
    = (loopK (W (Proc.devRef .tc main_arg1) : IVec S2x640000 32)) := by
  simp only [hostOps0]; after_results <;> rfl

theorem ops0_cst : (StableHlo.after hostOps0 W (Proc.devRef .tc main_cst) : FVec F S_ .f32)
    = (constant (F := F) S_ .f32 0x00000000#32) := by
  simp only [hostOps0]; after_results <;> rfl

theorem ops0_1_v5 : (StableHlo.after hostOps0_1 W (Proc.devRef .tc main_v5) : FVec F S640000 .f32)
    = (select (W (Proc.devRef .tc main_v4) : IVec S640000 1) (broadcastInDim S640000 ![] bcast_S_S640000 (id (W (Proc.devRef .tc main_cst) : FVec F S_ .f32))) (W (Proc.devRef .tc main_arg2) : FVec F S640000 .f32)) := by
  simp only [hostOps0_1]; after_results <;> rfl

theorem ops0_2_v8 : (StableHlo.after hostOps0_2 W (Proc.devRef .tc main_v8) : FVec F S40000 .f32)
    = (Host.scatterAdd scatter_S40000_S640000x1_S640000_n_0_0_1 (broadcastInDim S40000 ![] bcast_S_S40000 (constant (F := F) S_ .f32 0x00000000#32)) (broadcastInDim S640000x1 ![0] bcast_S640000_S640000x1_0 (W (Proc.devRef .tc main_v1) : IVec S640000 32)) (W (Proc.devRef .tc main_v5) : FVec F S640000 .f32)) := by
  simp only [hostOps0_2]; after_results_simp <;> rfl

theorem ops0_2_v10 : (StableHlo.after hostOps0_2 W (Proc.devRef .tc main_v10) : IVec S40000 1)
    = (cmpf .ogt (Host.scatterAdd scatter_S40000_S640000x1_S640000_n_0_0_1 (broadcastInDim S40000 ![] bcast_S_S40000 (constant (F := F) S_ .f32 0x00000000#32)) (broadcastInDim S640000x1 ![0] bcast_S640000_S640000x1_0 (W (Proc.devRef .tc main_v1) : IVec S640000 32)) (W (Proc.devRef .tc main_v5) : FVec F S640000 .f32)) (broadcastInDim S40000 ![] bcast_S_S40000 (constant (F := F) S_ .f32 0x00000000#32))) := by
  simp only [hostOps0_2]; after_results_simp <;> rfl

theorem ops0_2_v12 : (StableHlo.after hostOps0_2 W (Proc.devRef .tc main_v12) : IVec S40000 1)
    = (cmpf .ogt (Host.scatterAdd scatter_S40000_S640000x1_S640000_n_0_0_1 (broadcastInDim S40000 ![] bcast_S_S40000 (constant (F := F) S_ .f32 0x00000000#32)) (broadcastInDim S640000x1 ![0] bcast_S640000_S640000x1_0 (W (Proc.devRef .tc main_v1) : IVec S640000 32)) (W (Proc.devRef .tc main_v5) : FVec F S640000 .f32)) (broadcastInDim S40000 ![] bcast_S_S40000 (constant (F := F) S_ .f32 0x00000000#32))) := by
  simp only [hostOps0_2]; after_results_simp <;> rfl

theorem ops0_2_cst_3 : (StableHlo.after hostOps0_2 W (Proc.devRef .tc main_cst_3) : FVec F S_ .f32)
    = (constant (F := F) S_ .f32 0x3F800000#32) := by
  simp only [hostOps0_2]; after_results_simp <;> rfl

theorem ops0_3_v13 : (StableHlo.after hostOps0_3 W (Proc.devRef .tc main_v13) : FVec F S40000 .f32)
    = (select (W (Proc.devRef .tc main_v12) : IVec S40000 1) (W (Proc.devRef .tc main_v8) : FVec F S40000 .f32) (broadcastInDim S40000 ![] bcast_S_S40000 (id (W (Proc.devRef .tc main_cst_3) : FVec F S_ .f32)))) := by
  simp only [hostOps0_3]; after_results <;> rfl

theorem ops0_4_v14 : (StableHlo.after hostOps0_4 W (Proc.devRef .tc main_v14) : FVec F S40000 .f32)
    = (Host.rsqrt (W (Proc.devRef .tc main_v13) : FVec F S40000 .f32)) := by
  simp only [hostOps0_4]; after_results <;> rfl

theorem ops0_4_cst_4 : (StableHlo.after hostOps0_4 W (Proc.devRef .tc main_cst_4) : FVec F S_ .f32)
    = (constant (F := F) S_ .f32 0x00000000#32) := by
  simp only [hostOps0_4]; after_results <;> rfl

theorem ops0_5_v15 : (StableHlo.after hostOps0_5 W (Proc.devRef .tc main_v15) : FVec F S40000 .f32)
    = (select (W (Proc.devRef .tc main_v10) : IVec S40000 1) (W (Proc.devRef .tc main_v14) : FVec F S40000 .f32) (broadcastInDim S40000 ![] bcast_S_S40000 (id (W (Proc.devRef .tc main_cst_4) : FVec F S_ .f32)))) := by
  simp only [hostOps0_5]; after_results <;> rfl

theorem ops0_6_v32 : (StableHlo.after hostOps0_6 W (Proc.devRef .tc main_v32) : FVec F S640000 .f32)
    = (mulf (mulf (Host.negf (Host.gather gather_S40000_S640000x1_S640000_n_0_n_n_0_1_1 (W (Proc.devRef .tc main_v15) : FVec F S40000 .f32) (broadcastInDim S640000x1 ![0] bcast_S640000_S640000x1_0 (select (cmpi .slt (W (Proc.devRef .tc main_v1) : IVec S640000 32) (broadcastInDim S640000 ![] bcast_S_S640000 (constantI S_ 32 0#32))) (addi (W (Proc.devRef .tc main_v1) : IVec S640000 32) (broadcastInDim S640000 ![] bcast_S_S640000 (constantI S_ 32 40000#32))) (W (Proc.devRef .tc main_v1) : IVec S640000 32))))) (W (Proc.devRef .tc main_v5) : FVec F S640000 .f32)) (Host.gather gather_S40000_S640000x1_S640000_n_0_n_n_0_1_1 (W (Proc.devRef .tc main_v15) : FVec F S40000 .f32) (broadcastInDim S640000x1 ![0] bcast_S640000_S640000x1_0 (select (cmpi .slt (W (Proc.devRef .tc main_v3) : IVec S640000 32) (broadcastInDim S640000 ![] bcast_S_S640000 (constantI S_ 32 0#32))) (addi (W (Proc.devRef .tc main_v3) : IVec S640000 32) (broadcastInDim S640000 ![] bcast_S_S640000 (constantI S_ 32 40000#32))) (W (Proc.devRef .tc main_v3) : IVec S640000 32))))) := by
  simp only [hostOps0_6]; after_results_simp <;> rfl

theorem ops0_6_cst_8 : (StableHlo.after hostOps0_6 W (Proc.devRef .tc main_cst_8) : FVec F S_ .f32)
    = (constant (F := F) S_ .f32 0x00000000#32) := by
  simp only [hostOps0_6]; after_results_simp <;> rfl

theorem ops0_6_cst_9 : (StableHlo.after hostOps0_6 W (Proc.devRef .tc main_cst_9) : FVec F S_ .f32)
    = (constant (F := F) S_ .f32 0x3F800000#32) := by
  simp only [hostOps0_6]; after_results_simp <;> rfl

theorem ops0_7_v33 : (StableHlo.after hostOps0_7 W (Proc.devRef .tc main_v33) : FVec F S640000 .f32)
    = (select (W (Proc.devRef .tc main_v4) : IVec S640000 1) (broadcastInDim S640000 ![] bcast_S_S640000 (W (Proc.devRef .tc main_cst_8) : FVec F S_ .f32)) (broadcastInDim S640000 ![] bcast_S_S640000 (W (Proc.devRef .tc main_cst_9) : FVec F S_ .f32))) := by
  simp only [hostOps0_7]; after_results <;> rfl

theorem ops0_8_v39 : (StableHlo.after hostOps0_8 W (Proc.devRef .tc main_v39) : FVec F S40000 .f32)
    = (addf (Host.scatterAdd scatter_S40000_S640000x1_S640000_n_0_0_1 (broadcastInDim S40000 ![] bcast_S_S40000 (constant (F := F) S_ .f32 0x00000000#32)) (broadcastInDim S640000x1 ![0] bcast_S640000_S640000x1_0 (W (Proc.devRef .tc main_v3) : IVec S640000 32)) (id (W (Proc.devRef .tc main_v33) : FVec F S640000 .f32))) (broadcastInDim S40000 ![] bcast_S_S40000 (constant (F := F) S_ .f32 0x3F800000#32))) := by
  simp only [hostOps0_8]; after_results_simp <;> rfl

theorem ops0_8_v40 : (StableHlo.after hostOps0_8 W (Proc.devRef .tc main_v40) : FVec F S40000 .f32)
    = (broadcastInDim S40000 ![] bcast_S_S40000 (constant (F := F) S_ .f32 0x3F800000#32)) := by
  simp only [hostOps0_8]; after_results_simp <;> rfl

theorem ops0_8_c_13 : (StableHlo.after hostOps0_8 W (Proc.devRef .tc main_c_13) : IVec S_ 32)
    = (constantI S_ 32 40000#32) := by
  simp only [hostOps0_8]; after_results_simp <;> rfl

theorem ops0_9_v41 : (StableHlo.after hostOps0_9 W (Proc.devRef .tc main_v41) : IVec S640000 32)
    = (select (W (Proc.devRef .tc main_v4) : IVec S640000 1) (W (Proc.devRef .tc main_v1) : IVec S640000 32) (broadcastInDim S640000 ![] bcast_S_S640000 (id (W (Proc.devRef .tc main_c_13) : IVec S_ 32)))) := by
  simp only [hostOps0_9]; after_results <;> rfl

theorem ops0_10_v48 : (StableHlo.after hostOps0_10 W (Proc.devRef .tc main_v48) : FVec F S40000 .f32)
    = (Host.scatter scatter_S40000_S640000x1_S640000_n_0_0_1 (fun _ b => b) (W (Proc.devRef .tc main_v40) : FVec F S40000 .f32) (broadcastInDim S640000x1 ![0] bcast_S640000_S640000x1_0 (select (cmpi .slt (W (Proc.devRef .tc main_v41) : IVec S640000 32) (broadcastInDim S640000 ![] bcast_S_S640000 (constantI S_ 32 0#32))) (addi (W (Proc.devRef .tc main_v41) : IVec S640000 32) (broadcastInDim S640000 ![] bcast_S_S640000 (constantI S_ 32 40000#32))) (W (Proc.devRef .tc main_v41) : IVec S640000 32))) (W (Proc.devRef .tc main_arg2) : FVec F S640000 .f32)) := by
  simp only [hostOps0_10]; after_results_simp <;> rfl

end Cert.KernelIdeal.Hand

end
-- ==== Proof.KerChainEdgesAt.lean ====
/-
  The edge-derived quantities where the chain of boundary contents holds them.

  Walking the stretches before the first region in order: after each stretch, the buffers later stretches read hold
  the composition of the program's operations applied to the launch contents of the edge list and the edge weights.
  Between the stretch that computes a quantity and the stretch (or region) that reads it nothing writes its buffer, so
  it is still there: in particular the sources, targets, masked weights, Chebyshev coefficients, counts and self-loop
  weights are unchanged where the two aggregation stretches read them, after the first and after the third region.
-/
import proofs.«143715_j36816459661705_2_alg».proof.Proof.Gen.KernelIdeal.Frame
import proofs.«143715_j36816459661705_2_alg».proof.Proof.KerChainKeep
import proofs.«143715_j36816459661705_2_alg».proof.Proof.KerChainEdgeOps

set_option maxRecDepth 16384

noncomputable section

namespace Cert.KernelIdeal.Hand

open Idealize.ShloMosaic Idealize.ShloMosaic.TcCoe Idealize.ShloMosaic.Tactic
open Idealize.ShloMosaic.StableHlo (after_cons after_nil)
open Cert.KernelIdeal.Gen

variable {F : FTy → Type} [FloatOps F]

variable (m : (ℓ : Loc nD τ sig) → Buf (Elt F) ℓ) (ρ : Dev nD → PrngReg) (c : Dev nD)

theorem arg1_at0 : W0 m ρ c (Proc.devRef .tc main_arg1) = (m ((c : Thread nD τ).loc main_arg1)) := rfl
theorem arg2_at1 : W1 m ρ c (Proc.devRef .tc main_arg2) = m ((c : Thread nD τ).loc main_arg2) :=
  ((keep0 (W0 m ρ c) main_arg2 (by decide))).trans rfl
theorem arg2_at10 : W10 m ρ c (Proc.devRef .tc main_arg2) = m ((c : Thread nD τ).loc main_arg2) :=
  ((keep0_9 (W9 m ρ c) main_arg2 (by decide)).trans <| (keep0_8 (W8 m ρ c) main_arg2 (by decide)).trans <| (keep0_7 (W7 m ρ c) main_arg2 (by decide)).trans <| (keep0_6 (W6 m ρ c) main_arg2 (by decide)).trans <| (keep0_5 (W5 m ρ c) main_arg2 (by decide)).trans <| (keep0_4 (W4 m ρ c) main_arg2 (by decide)).trans <| (keep0_3 (W3 m ρ c) main_arg2 (by decide)).trans <| (keep0_2 (W2 m ρ c) main_arg2 (by decide)).trans <| (keep0_1 (W1 m ρ c) main_arg2 (by decide)).trans <| (keep0 (W0 m ρ c) main_arg2 (by decide))).trans rfl

theorem at1_v1 : (W1 m ρ c (Proc.devRef .tc main_v1) : IVec S640000 32) = (srcK (m ((c : Thread nD τ).loc main_arg1))) := by
  refine (ops0_v1 (W0 m ρ c)).trans ?_
  rw [arg1_at0 m ρ c]
theorem at1_v3 : (W1 m ρ c (Proc.devRef .tc main_v3) : IVec S640000 32) = (dstK (m ((c : Thread nD τ).loc main_arg1))) := by
  refine (ops0_v3 (W0 m ρ c)).trans ?_
  rw [arg1_at0 m ρ c]
theorem at1_v4 : (W1 m ρ c (Proc.devRef .tc main_v4) : IVec S640000 1) = (loopK (m ((c : Thread nD τ).loc main_arg1))) := by
  refine (ops0_v4 (W0 m ρ c)).trans ?_
  rw [arg1_at0 m ρ c]
theorem at1_cst : (W1 m ρ c (Proc.devRef .tc main_cst) : FVec F S_ .f32) = (constant (F := F) S_ .f32 0x00000000#32) :=
  ops0_cst (W0 m ρ c)
theorem at2_v5 : (W2 m ρ c (Proc.devRef .tc main_v5) : FVec F S640000 .f32) = (wcK (m ((c : Thread nD τ).loc main_arg1)) (m ((c : Thread nD τ).loc main_arg2))) := by
  refine (ops0_1_v5 (W1 m ρ c)).trans ?_
  rw [at1_v4, at1_cst, arg2_at1 m ρ c]
  rfl
theorem at2_v1 : (W2 m ρ c (Proc.devRef .tc main_v1) : IVec S640000 32) = (srcK (m ((c : Thread nD τ).loc main_arg1))) :=
  ((keep0_1 (W1 m ρ c) main_v1 (by decide))).trans (at1_v1 m ρ c)
theorem at3_v8 : (W3 m ρ c (Proc.devRef .tc main_v8) : FVec F S40000 .f32) = (Host.scatterAdd scatter_S40000_S640000x1_S640000_n_0_0_1 (broadcastInDim S40000 ![] bcast_S_S40000 (constant (F := F) S_ .f32 0x00000000#32)) (broadcastInDim S640000x1 ![0] bcast_S640000_S640000x1_0 (srcK (m ((c : Thread nD τ).loc main_arg1)))) (wcK (m ((c : Thread nD τ).loc main_arg1)) (m ((c : Thread nD τ).loc main_arg2)))) := by
  refine (ops0_2_v8 (W2 m ρ c)).trans ?_
  rw [at2_v1, at2_v5]
theorem at3_v10 : (W3 m ρ c (Proc.devRef .tc main_v10) : IVec S40000 1) = (cmpf .ogt (Host.scatterAdd scatter_S40000_S640000x1_S640000_n_0_0_1 (broadcastInDim S40000 ![] bcast_S_S40000 (constant (F := F) S_ .f32 0x00000000#32)) (broadcastInDim S640000x1 ![0] bcast_S640000_S640000x1_0 (srcK (m ((c : Thread nD τ).loc main_arg1)))) (wcK (m ((c : Thread nD τ).loc main_arg1)) (m ((c : Thread nD τ).loc main_arg2)))) (broadcastInDim S40000 ![] bcast_S_S40000 (constant (F := F) S_ .f32 0x00000000#32))) := by
  refine (ops0_2_v10 (W2 m ρ c)).trans ?_
  rw [at2_v1, at2_v5]
theorem at3_v12 : (W3 m ρ c (Proc.devRef .tc main_v12) : IVec S40000 1) = (cmpf .ogt (Host.scatterAdd scatter_S40000_S640000x1_S640000_n_0_0_1 (broadcastInDim S40000 ![] bcast_S_S40000 (constant (F := F) S_ .f32 0x00000000#32)) (broadcastInDim S640000x1 ![0] bcast_S640000_S640000x1_0 (srcK (m ((c : Thread nD τ).loc main_arg1)))) (wcK (m ((c : Thread nD τ).loc main_arg1)) (m ((c : Thread nD τ).loc main_arg2)))) (broadcastInDim S40000 ![] bcast_S_S40000 (constant (F := F) S_ .f32 0x00000000#32))) := by
  refine (ops0_2_v12 (W2 m ρ c)).trans ?_
  rw [at2_v1, at2_v5]
theorem at3_cst_3 : (W3 m ρ c (Proc.devRef .tc main_cst_3) : FVec F S_ .f32) = (constant (F := F) S_ .f32 0x3F800000#32) :=
  ops0_2_cst_3 (W2 m ρ c)
theorem at4_v13 : (W4 m ρ c (Proc.devRef .tc main_v13) : FVec F S40000 .f32) = (select (cmpf .ogt (Host.scatterAdd scatter_S40000_S640000x1_S640000_n_0_0_1 (broadcastInDim S40000 ![] bcast_S_S40000 (constant (F := F) S_ .f32 0x00000000#32)) (broadcastInDim S640000x1 ![0] bcast_S640000_S640000x1_0 (srcK (m ((c : Thread nD τ).loc main_arg1)))) (wcK (m ((c : Thread nD τ).loc main_arg1)) (m ((c : Thread nD τ).loc main_arg2)))) (broadcastInDim S40000 ![] bcast_S_S40000 (constant (F := F) S_ .f32 0x00000000#32))) (Host.scatterAdd scatter_S40000_S640000x1_S640000_n_0_0_1 (broadcastInDim S40000 ![] bcast_S_S40000 (constant (F := F) S_ .f32 0x00000000#32)) (broadcastInDim S640000x1 ![0] bcast_S640000_S640000x1_0 (srcK (m ((c : Thread nD τ).loc main_arg1)))) (wcK (m ((c : Thread nD τ).loc main_arg1)) (m ((c : Thread nD τ).loc main_arg2)))) (broadcastInDim S40000 ![] bcast_S_S40000 (id (constant (F := F) S_ .f32 0x3F800000#32)))) := by
  refine (ops0_3_v13 (W3 m ρ c)).trans ?_
  rw [at3_v12, at3_v8, at3_cst_3]
theorem at5_v14 : (W5 m ρ c (Proc.devRef .tc main_v14) : FVec F S40000 .f32) = (Host.rsqrt (select (cmpf .ogt (Host.scatterAdd scatter_S40000_S640000x1_S640000_n_0_0_1 (broadcastInDim S40000 ![] bcast_S_S40000 (constant (F := F) S_ .f32 0x00000000#32)) (broadcastInDim S640000x1 ![0] bcast_S640000_S640000x1_0 (srcK (m ((c : Thread nD τ).loc main_arg1)))) (wcK (m ((c : Thread nD τ).loc main_arg1)) (m ((c : Thread nD τ).loc main_arg2)))) (broadcastInDim S40000 ![] bcast_S_S40000 (constant (F := F) S_ .f32 0x00000000#32))) (Host.scatterAdd scatter_S40000_S640000x1_S640000_n_0_0_1 (broadcastInDim S40000 ![] bcast_S_S40000 (constant (F := F) S_ .f32 0x00000000#32)) (broadcastInDim S640000x1 ![0] bcast_S640000_S640000x1_0 (srcK (m ((c : Thread nD τ).loc main_arg1)))) (wcK (m ((c : Thread nD τ).loc main_arg1)) (m ((c : Thread nD τ).loc main_arg2)))) (broadcastInDim S40000 ![] bcast_S_S40000 (id (constant (F := F) S_ .f32 0x3F800000#32))))) := by
  refine (ops0_4_v14 (W4 m ρ c)).trans ?_
  rw [at4_v13]
theorem at5_cst_4 : (W5 m ρ c (Proc.devRef .tc main_cst_4) : FVec F S_ .f32) = (constant (F := F) S_ .f32 0x00000000#32) :=
  ops0_4_cst_4 (W4 m ρ c)
theorem at5_v10 : (W5 m ρ c (Proc.devRef .tc main_v10) : IVec S40000 1) = (cmpf .ogt (Host.scatterAdd scatter_S40000_S640000x1_S640000_n_0_0_1 (broadcastInDim S40000 ![] bcast_S_S40000 (constant (F := F) S_ .f32 0x00000000#32)) (broadcastInDim S640000x1 ![0] bcast_S640000_S640000x1_0 (srcK (m ((c : Thread nD τ).loc main_arg1)))) (wcK (m ((c : Thread nD τ).loc main_arg1)) (m ((c : Thread nD τ).loc main_arg2)))) (broadcastInDim S40000 ![] bcast_S_S40000 (constant (F := F) S_ .f32 0x00000000#32))) :=
  ((keep0_4 (W4 m ρ c) main_v10 (by decide)).trans <| (keep0_3 (W3 m ρ c) main_v10 (by decide))).trans (at3_v10 m ρ c)
theorem at6_v15 : (W6 m ρ c (Proc.devRef .tc main_v15) : FVec F S40000 .f32) = (select (cmpf .ogt (Host.scatterAdd scatter_S40000_S640000x1_S640000_n_0_0_1 (broadcastInDim S40000 ![] bcast_S_S40000 (constant (F := F) S_ .f32 0x00000000#32)) (broadcastInDim S640000x1 ![0] bcast_S640000_S640000x1_0 (srcK (m ((c : Thread nD τ).loc main_arg1)))) (wcK (m ((c : Thread nD τ).loc main_arg1)) (m ((c : Thread nD τ).loc main_arg2)))) (broadcastInDim S40000 ![] bcast_S_S40000 (constant (F := F) S_ .f32 0x00000000#32))) (Host.rsqrt (select (cmpf .ogt (Host.scatterAdd scatter_S40000_S640000x1_S640000_n_0_0_1 (broadcastInDim S40000 ![] bcast_S_S40000 (constant (F := F) S_ .f32 0x00000000#32)) (broadcastInDim S640000x1 ![0] bcast_S640000_S640000x1_0 (srcK (m ((c : Thread nD τ).loc main_arg1)))) (wcK (m ((c : Thread nD τ).loc main_arg1)) (m ((c : Thread nD τ).loc main_arg2)))) (broadcastInDim S40000 ![] bcast_S_S40000 (constant (F := F) S_ .f32 0x00000000#32))) (Host.scatterAdd scatter_S40000_S640000x1_S640000_n_0_0_1 (broadcastInDim S40000 ![] bcast_S_S40000 (constant (F := F) S_ .f32 0x00000000#32)) (broadcastInDim S640000x1 ![0] bcast_S640000_S640000x1_0 (srcK (m ((c : Thread nD τ).loc main_arg1)))) (wcK (m ((c : Thread nD τ).loc main_arg1)) (m ((c : Thread nD τ).loc main_arg2)))) (broadcastInDim S40000 ![] bcast_S_S40000 (id (constant (F := F) S_ .f32 0x3F800000#32))))) (broadcastInDim S40000 ![] bcast_S_S40000 (id (constant (F := F) S_ .f32 0x00000000#32)))) := by
  refine (ops0_5_v15 (W5 m ρ c)).trans ?_
  rw [at5_v10, at5_v14, at5_cst_4]
theorem at6_v1 : (W6 m ρ c (Proc.devRef .tc main_v1) : IVec S640000 32) = (srcK (m ((c : Thread nD τ).loc main_arg1))) :=
  ((keep0_5 (W5 m ρ c) main_v1 (by decide)).trans <| (keep0_4 (W4 m ρ c) main_v1 (by decide)).trans <| (keep0_3 (W3 m ρ c) main_v1 (by decide)).trans <| (keep0_2 (W2 m ρ c) main_v1 (by decide)).trans <| (keep0_1 (W1 m ρ c) main_v1 (by decide))).trans (at1_v1 m ρ c)
theorem at6_v3 : (W6 m ρ c (Proc.devRef .tc main_v3) : IVec S640000 32) = (dstK (m ((c : Thread nD τ).loc main_arg1))) :=
  ((keep0_5 (W5 m ρ c) main_v3 (by decide)).trans <| (keep0_4 (W4 m ρ c) main_v3 (by decide)).trans <| (keep0_3 (W3 m ρ c) main_v3 (by decide)).trans <| (keep0_2 (W2 m ρ c) main_v3 (by decide)).trans <| (keep0_1 (W1 m ρ c) main_v3 (by decide))).trans (at1_v3 m ρ c)
theorem at6_v5 : (W6 m ρ c (Proc.devRef .tc main_v5) : FVec F S640000 .f32) = (wcK (m ((c : Thread nD τ).loc main_arg1)) (m ((c : Thread nD τ).loc main_arg2))) :=
  ((keep0_5 (W5 m ρ c) main_v5 (by decide)).trans <| (keep0_4 (W4 m ρ c) main_v5 (by decide)).trans <| (keep0_3 (W3 m ρ c) main_v5 (by decide)).trans <| (keep0_2 (W2 m ρ c) main_v5 (by decide))).trans (at2_v5 m ρ c)
theorem at7_v32 : (W7 m ρ c (Proc.devRef .tc main_v32) : FVec F S640000 .f32) = (normK (m ((c : Thread nD τ).loc main_arg1)) (m ((c : Thread nD τ).loc main_arg2))) := by
  refine (ops0_6_v32 (W6 m ρ c)).trans ?_
  rw [at6_v1, at6_v3, at6_v5, at6_v15]
  rfl
theorem at7_cst_8 : (W7 m ρ c (Proc.devRef .tc main_cst_8) : FVec F S_ .f32) = (constant (F := F) S_ .f32 0x00000000#32) :=
  ops0_6_cst_8 (W6 m ρ c)
theorem at7_cst_9 : (W7 m ρ c (Proc.devRef .tc main_cst_9) : FVec F S_ .f32) = (constant (F := F) S_ .f32 0x3F800000#32) :=
  ops0_6_cst_9 (W6 m ρ c)
theorem at7_v4 : (W7 m ρ c (Proc.devRef .tc main_v4) : IVec S640000 1) = (loopK (m ((c : Thread nD τ).loc main_arg1))) :=
  ((keep0_6 (W6 m ρ c) main_v4 (by decide)).trans <| (keep0_5 (W5 m ρ c) main_v4 (by decide)).trans <| (keep0_4 (W4 m ρ c) main_v4 (by decide)).trans <| (keep0_3 (W3 m ρ c) main_v4 (by decide)).trans <| (keep0_2 (W2 m ρ c) main_v4 (by decide)).trans <| (keep0_1 (W1 m ρ c) main_v4 (by decide))).trans (at1_v4 m ρ c)
theorem at8_v33 : (W8 m ρ c (Proc.devRef .tc main_v33) : FVec F S640000 .f32) = (select (loopK (m ((c : Thread nD τ).loc main_arg1))) (broadcastInDim S640000 ![] bcast_S_S640000 (constant (F := F) S_ .f32 0x00000000#32)) (broadcastInDim S640000 ![] bcast_S_S640000 (constant (F := F) S_ .f32 0x3F800000#32))) := by
  refine (ops0_7_v33 (W7 m ρ c)).trans ?_
  rw [at7_v4, at7_cst_8, at7_cst_9]
theorem at8_v3 : (W8 m ρ c (Proc.devRef .tc main_v3) : IVec S640000 32) = (dstK (m ((c : Thread nD τ).loc main_arg1))) :=
  ((keep0_7 (W7 m ρ c) main_v3 (by decide)).trans <| (keep0_6 (W6 m ρ c) main_v3 (by decide)).trans <| (keep0_5 (W5 m ρ c) main_v3 (by decide)).trans <| (keep0_4 (W4 m ρ c) main_v3 (by decide)).trans <| (keep0_3 (W3 m ρ c) main_v3 (by decide)).trans <| (keep0_2 (W2 m ρ c) main_v3 (by decide)).trans <| (keep0_1 (W1 m ρ c) main_v3 (by decide))).trans (at1_v3 m ρ c)
theorem at9_v39 : (W9 m ρ c (Proc.devRef .tc main_v39) : FVec F S40000 .f32) = (cntK (m ((c : Thread nD τ).loc main_arg1))) := by
  refine (ops0_8_v39 (W8 m ρ c)).trans ?_
  rw [at8_v3, at8_v33]
  rfl
theorem at9_v40 : (W9 m ρ c (Proc.devRef .tc main_v40) : FVec F S40000 .f32) = (broadcastInDim S40000 ![] bcast_S_S40000 (constant (F := F) S_ .f32 0x3F800000#32)) :=
  ops0_8_v40 (W8 m ρ c)
theorem at9_c_13 : (W9 m ρ c (Proc.devRef .tc main_c_13) : IVec S_ 32) = (constantI S_ 32 40000#32) :=
  ops0_8_c_13 (W8 m ρ c)
theorem at9_v4 : (W9 m ρ c (Proc.devRef .tc main_v4) : IVec S640000 1) = (loopK (m ((c : Thread nD τ).loc main_arg1))) :=
  ((keep0_8 (W8 m ρ c) main_v4 (by decide)).trans <| (keep0_7 (W7 m ρ c) main_v4 (by decide)).trans <| (keep0_6 (W6 m ρ c) main_v4 (by decide)).trans <| (keep0_5 (W5 m ρ c) main_v4 (by decide)).trans <| (keep0_4 (W4 m ρ c) main_v4 (by decide)).trans <| (keep0_3 (W3 m ρ c) main_v4 (by decide)).trans <| (keep0_2 (W2 m ρ c) main_v4 (by decide)).trans <| (keep0_1 (W1 m ρ c) main_v4 (by decide))).trans (at1_v4 m ρ c)
theorem at9_v1 : (W9 m ρ c (Proc.devRef .tc main_v1) : IVec S640000 32) = (srcK (m ((c : Thread nD τ).loc main_arg1))) :=
  ((keep0_8 (W8 m ρ c) main_v1 (by decide)).trans <| (keep0_7 (W7 m ρ c) main_v1 (by decide)).trans <| (keep0_6 (W6 m ρ c) main_v1 (by decide)).trans <| (keep0_5 (W5 m ρ c) main_v1 (by decide)).trans <| (keep0_4 (W4 m ρ c) main_v1 (by decide)).trans <| (keep0_3 (W3 m ρ c) main_v1 (by decide)).trans <| (keep0_2 (W2 m ρ c) main_v1 (by decide)).trans <| (keep0_1 (W1 m ρ c) main_v1 (by decide))).trans (at1_v1 m ρ c)
theorem at10_v41 : (W10 m ρ c (Proc.devRef .tc main_v41) : IVec S640000 32) = (select (loopK (m ((c : Thread nD τ).loc main_arg1))) (srcK (m ((c : Thread nD τ).loc main_arg1))) (broadcastInDim S640000 ![] bcast_S_S640000 (id (constantI S_ 32 40000#32)))) := by
  refine (ops0_9_v41 (W9 m ρ c)).trans ?_
  rw [at9_v4, at9_v1, at9_c_13]
theorem at10_v40 : (W10 m ρ c (Proc.devRef .tc main_v40) : FVec F S40000 .f32) = (broadcastInDim S40000 ![] bcast_S_S40000 (constant (F := F) S_ .f32 0x3F800000#32)) :=
  ((keep0_9 (W9 m ρ c) main_v40 (by decide))).trans (at9_v40 m ρ c)
theorem at11_v48 : (W11 m ρ c (Proc.devRef .tc main_v48) : FVec F S40000 .f32) = (loopwK (m ((c : Thread nD τ).loc main_arg1)) (m ((c : Thread nD τ).loc main_arg2))) := by
  refine (ops0_10_v48 (W10 m ρ c)).trans ?_
  rw [at10_v40, at10_v41, arg2_at10 m ρ c]
  rfl
theorem at12_v1 : (W12 m ρ c (Proc.devRef .tc main_v1) : IVec S640000 32) = (srcK (m ((c : Thread nD τ).loc main_arg1))) :=
  ((W12_of_ne m ρ c main_v1 (by decide)).trans <| (keep0_10 (W10 m ρ c) main_v1 (by decide)).trans <| (keep0_9 (W9 m ρ c) main_v1 (by decide)).trans <| (keep0_8 (W8 m ρ c) main_v1 (by decide)).trans <| (keep0_7 (W7 m ρ c) main_v1 (by decide)).trans <| (keep0_6 (W6 m ρ c) main_v1 (by decide)).trans <| (keep0_5 (W5 m ρ c) main_v1 (by decide)).trans <| (keep0_4 (W4 m ρ c) main_v1 (by decide)).trans <| (keep0_3 (W3 m ρ c) main_v1 (by decide)).trans <| (keep0_2 (W2 m ρ c) main_v1 (by decide)).trans <| (keep0_1 (W1 m ρ c) main_v1 (by decide))).trans (at1_v1 m ρ c)
theorem at12_v3 : (W12 m ρ c (Proc.devRef .tc main_v3) : IVec S640000 32) = (dstK (m ((c : Thread nD τ).loc main_arg1))) :=
  ((W12_of_ne m ρ c main_v3 (by decide)).trans <| (keep0_10 (W10 m ρ c) main_v3 (by decide)).trans <| (keep0_9 (W9 m ρ c) main_v3 (by decide)).trans <| (keep0_8 (W8 m ρ c) main_v3 (by decide)).trans <| (keep0_7 (W7 m ρ c) main_v3 (by decide)).trans <| (keep0_6 (W6 m ρ c) main_v3 (by decide)).trans <| (keep0_5 (W5 m ρ c) main_v3 (by decide)).trans <| (keep0_4 (W4 m ρ c) main_v3 (by decide)).trans <| (keep0_3 (W3 m ρ c) main_v3 (by decide)).trans <| (keep0_2 (W2 m ρ c) main_v3 (by decide)).trans <| (keep0_1 (W1 m ρ c) main_v3 (by decide))).trans (at1_v3 m ρ c)
theorem at12_v32 : (W12 m ρ c (Proc.devRef .tc main_v32) : FVec F S640000 .f32) = (normK (m ((c : Thread nD τ).loc main_arg1)) (m ((c : Thread nD τ).loc main_arg2))) :=
  ((W12_of_ne m ρ c main_v32 (by decide)).trans <| (keep0_10 (W10 m ρ c) main_v32 (by decide)).trans <| (keep0_9 (W9 m ρ c) main_v32 (by decide)).trans <| (keep0_8 (W8 m ρ c) main_v32 (by decide)).trans <| (keep0_7 (W7 m ρ c) main_v32 (by decide))).trans (at7_v32 m ρ c)
theorem at12_v5 : (W12 m ρ c (Proc.devRef .tc main_v5) : FVec F S640000 .f32) = (wcK (m ((c : Thread nD τ).loc main_arg1)) (m ((c : Thread nD τ).loc main_arg2))) :=
  ((W12_of_ne m ρ c main_v5 (by decide)).trans <| (keep0_10 (W10 m ρ c) main_v5 (by decide)).trans <| (keep0_9 (W9 m ρ c) main_v5 (by decide)).trans <| (keep0_8 (W8 m ρ c) main_v5 (by decide)).trans <| (keep0_7 (W7 m ρ c) main_v5 (by decide)).trans <| (keep0_6 (W6 m ρ c) main_v5 (by decide)).trans <| (keep0_5 (W5 m ρ c) main_v5 (by decide)).trans <| (keep0_4 (W4 m ρ c) main_v5 (by decide)).trans <| (keep0_3 (W3 m ρ c) main_v5 (by decide)).trans <| (keep0_2 (W2 m ρ c) main_v5 (by decide))).trans (at2_v5 m ρ c)
theorem at12_v39 : (W12 m ρ c (Proc.devRef .tc main_v39) : FVec F S40000 .f32) = (cntK (m ((c : Thread nD τ).loc main_arg1))) :=
  ((W12_of_ne m ρ c main_v39 (by decide)).trans <| (keep0_10 (W10 m ρ c) main_v39 (by decide)).trans <| (keep0_9 (W9 m ρ c) main_v39 (by decide))).trans (at9_v39 m ρ c)
theorem at12_v48 : (W12 m ρ c (Proc.devRef .tc main_v48) : FVec F S40000 .f32) = (loopwK (m ((c : Thread nD τ).loc main_arg1)) (m ((c : Thread nD τ).loc main_arg2))) :=
  ((W12_of_ne m ρ c main_v48 (by decide))).trans (at11_v48 m ρ c)
theorem at16_v1 : (W16 m ρ c (Proc.devRef .tc main_v1) : IVec S640000 32) = (srcK (m ((c : Thread nD τ).loc main_arg1))) :=
  ((W16_of_ne m ρ c main_v1 (by decide)).trans <| (keep2 (W14 m ρ c) main_v1 (by decide)).trans <| (W14_of_ne m ρ c main_v1 (by decide)).trans <| (keep1 (W12 m ρ c) main_v1 (by decide)).trans <| (W12_of_ne m ρ c main_v1 (by decide)).trans <| (keep0_10 (W10 m ρ c) main_v1 (by decide)).trans <| (keep0_9 (W9 m ρ c) main_v1 (by decide)).trans <| (keep0_8 (W8 m ρ c) main_v1 (by decide)).trans <| (keep0_7 (W7 m ρ c) main_v1 (by decide)).trans <| (keep0_6 (W6 m ρ c) main_v1 (by decide)).trans <| (keep0_5 (W5 m ρ c) main_v1 (by decide)).trans <| (keep0_4 (W4 m ρ c) main_v1 (by decide)).trans <| (keep0_3 (W3 m ρ c) main_v1 (by decide)).trans <| (keep0_2 (W2 m ρ c) main_v1 (by decide)).trans <| (keep0_1 (W1 m ρ c) main_v1 (by decide))).trans (at1_v1 m ρ c)
theorem at16_v3 : (W16 m ρ c (Proc.devRef .tc main_v3) : IVec S640000 32) = (dstK (m ((c : Thread nD τ).loc main_arg1))) :=
  ((W16_of_ne m ρ c main_v3 (by decide)).trans <| (keep2 (W14 m ρ c) main_v3 (by decide)).trans <| (W14_of_ne m ρ c main_v3 (by decide)).trans <| (keep1 (W12 m ρ c) main_v3 (by decide)).trans <| (W12_of_ne m ρ c main_v3 (by decide)).trans <| (keep0_10 (W10 m ρ c) main_v3 (by decide)).trans <| (keep0_9 (W9 m ρ c) main_v3 (by decide)).trans <| (keep0_8 (W8 m ρ c) main_v3 (by decide)).trans <| (keep0_7 (W7 m ρ c) main_v3 (by decide)).trans <| (keep0_6 (W6 m ρ c) main_v3 (by decide)).trans <| (keep0_5 (W5 m ρ c) main_v3 (by decide)).trans <| (keep0_4 (W4 m ρ c) main_v3 (by decide)).trans <| (keep0_3 (W3 m ρ c) main_v3 (by decide)).trans <| (keep0_2 (W2 m ρ c) main_v3 (by decide)).trans <| (keep0_1 (W1 m ρ c) main_v3 (by decide))).trans (at1_v3 m ρ c)
theorem at16_v32 : (W16 m ρ c (Proc.devRef .tc main_v32) : FVec F S640000 .f32) = (normK (m ((c : Thread nD τ).loc main_arg1)) (m ((c : Thread nD τ).loc main_arg2))) :=
  ((W16_of_ne m ρ c main_v32 (by decide)).trans <| (keep2 (W14 m ρ c) main_v32 (by decide)).trans <| (W14_of_ne m ρ c main_v32 (by decide)).trans <| (keep1 (W12 m ρ c) main_v32 (by decide)).trans <| (W12_of_ne m ρ c main_v32 (by decide)).trans <| (keep0_10 (W10 m ρ c) main_v32 (by decide)).trans <| (keep0_9 (W9 m ρ c) main_v32 (by decide)).trans <| (keep0_8 (W8 m ρ c) main_v32 (by decide)).trans <| (keep0_7 (W7 m ρ c) main_v32 (by decide))).trans (at7_v32 m ρ c)
theorem at16_v5 : (W16 m ρ c (Proc.devRef .tc main_v5) : FVec F S640000 .f32) = (wcK (m ((c : Thread nD τ).loc main_arg1)) (m ((c : Thread nD τ).loc main_arg2))) :=
  ((W16_of_ne m ρ c main_v5 (by decide)).trans <| (keep2 (W14 m ρ c) main_v5 (by decide)).trans <| (W14_of_ne m ρ c main_v5 (by decide)).trans <| (keep1 (W12 m ρ c) main_v5 (by decide)).trans <| (W12_of_ne m ρ c main_v5 (by decide)).trans <| (keep0_10 (W10 m ρ c) main_v5 (by decide)).trans <| (keep0_9 (W9 m ρ c) main_v5 (by decide)).trans <| (keep0_8 (W8 m ρ c) main_v5 (by decide)).trans <| (keep0_7 (W7 m ρ c) main_v5 (by decide)).trans <| (keep0_6 (W6 m ρ c) main_v5 (by decide)).trans <| (keep0_5 (W5 m ρ c) main_v5 (by decide)).trans <| (keep0_4 (W4 m ρ c) main_v5 (by decide)).trans <| (keep0_3 (W3 m ρ c) main_v5 (by decide)).trans <| (keep0_2 (W2 m ρ c) main_v5 (by decide))).trans (at2_v5 m ρ c)
theorem at16_v39 : (W16 m ρ c (Proc.devRef .tc main_v39) : FVec F S40000 .f32) = (cntK (m ((c : Thread nD τ).loc main_arg1))) :=
  ((W16_of_ne m ρ c main_v39 (by decide)).trans <| (keep2 (W14 m ρ c) main_v39 (by decide)).trans <| (W14_of_ne m ρ c main_v39 (by decide)).trans <| (keep1 (W12 m ρ c) main_v39 (by decide)).trans <| (W12_of_ne m ρ c main_v39 (by decide)).trans <| (keep0_10 (W10 m ρ c) main_v39 (by decide)).trans <| (keep0_9 (W9 m ρ c) main_v39 (by decide))).trans (at9_v39 m ρ c)
theorem at16_v48 : (W16 m ρ c (Proc.devRef .tc main_v48) : FVec F S40000 .f32) = (loopwK (m ((c : Thread nD τ).loc main_arg1)) (m ((c : Thread nD τ).loc main_arg2))) :=
  ((W16_of_ne m ρ c main_v48 (by decide)).trans <| (keep2 (W14 m ρ c) main_v48 (by decide)).trans <| (W14_of_ne m ρ c main_v48 (by decide)).trans <| (keep1 (W12 m ρ c) main_v48 (by decide)).trans <| (W12_of_ne m ρ c main_v48 (by decide))).trans (at11_v48 m ρ c)

end Cert.KernelIdeal.Hand

end
-- ==== Proof.KerChainAggOps.lean ====
/-
  The two aggregation stretches (after the first and after the third region), each read at the arrays the following
  combining region takes: the Chebyshev aggregation, the mean aggregation, four weight matrices rounded to the narrow
  float format and three biases laid out as one row — as the composition of the stretch's operations applied to the
  contents before it. Stated over an arbitrary valuation of the buffers.
-/
import proofs.«143715_j36816459661705_2_alg».proof.Proof.Gen.KernelIdeal.Launch
import Idealize.ShloMosaic.Lib.StableHlo.Run
import proofs.«143715_j36816459661705_2_alg».proof.Proof.KerEdges

set_option maxRecDepth 16384

noncomputable section

namespace Cert.KernelIdeal.Hand

open Idealize.ShloMosaic Idealize.ShloMosaic.TcCoe Idealize.ShloMosaic.Tactic
open Idealize.ShloMosaic.StableHlo (after_cons after_nil)
open Cert.KernelIdeal.Gen

variable {F : FTy → Type} [FloatOps F]

variable (W : Valuation τ sig (Elt F))

theorem ops1_v65 : (StableHlo.after hostOps1 W (Proc.devRef .tc main_v65) : FVec F S40000x128 .f32)
    = (Host.scatterAdd scatter_S40000x128_S640000x1_S640000x128_1_0_0_1 (broadcastInDim S40000x128 ![] bcast_S_S40000x128 (constant (F := F) S_ .f32 0x00000000#32)) (broadcastInDim S640000x1 ![0] bcast_S640000_S640000x1_0 (W (Proc.devRef .tc main_v3) : IVec S640000 32)) (mulf (broadcastInDim S640000x128 ![0, 1] bcast_S640000x1_S640000x128_0_1 (broadcastInDim S640000x1 ![0] bcast_S640000_S640000x1_0 (W (Proc.devRef .tc main_v32) : FVec F S640000 .f32))) (extf .f32 (Host.gather gather_S40000x128_S640000x1_S640000x128_1_0_n_n_0_1_1128 (W (Proc.devRef .tc main_v51) : FVec F S40000x128 .bf16) (broadcastInDim S640000x1 ![0] bcast_S640000_S640000x1_0 (select (cmpi .slt (W (Proc.devRef .tc main_v1) : IVec S640000 32) (broadcastInDim S640000 ![] bcast_S_S640000 (constantI S_ 32 0#32))) (addi (W (Proc.devRef .tc main_v1) : IVec S640000 32) (broadcastInDim S640000 ![] bcast_S_S640000 (constantI S_ 32 40000#32))) (W (Proc.devRef .tc main_v1) : IVec S640000 32)))) bitsLt_bf16_f32))) := by
  simp only [hostOps1]; after_results_simp <;> rfl

theorem ops1_v79 : (StableHlo.after hostOps1 W (Proc.devRef .tc main_v79) : FVec F S40000x128 .f32)
    = (Host.divf (addf (Host.scatterAdd scatter_S40000x128_S640000x1_S640000x128_1_0_0_1 (broadcastInDim S40000x128 ![] bcast_S_S40000x128 (constant (F := F) S_ .f32 0x00000000#32)) (broadcastInDim S640000x1 ![0] bcast_S640000_S640000x1_0 (W (Proc.devRef .tc main_v3) : IVec S640000 32)) (mulf (broadcastInDim S640000x128 ![0, 1] bcast_S640000x1_S640000x128_0_1 (broadcastInDim S640000x1 ![0] bcast_S640000_S640000x1_0 (W (Proc.devRef .tc main_v5) : FVec F S640000 .f32))) (extf .f32 (Host.gather gather_S40000x128_S640000x1_S640000x128_1_0_n_n_0_1_1128 (W (Proc.devRef .tc main_v51) : FVec F S40000x128 .bf16) (broadcastInDim S640000x1 ![0] bcast_S640000_S640000x1_0 (select (cmpi .slt (W (Proc.devRef .tc main_v1) : IVec S640000 32) (broadcastInDim S640000 ![] bcast_S_S640000 (constantI S_ 32 0#32))) (addi (W (Proc.devRef .tc main_v1) : IVec S640000 32) (broadcastInDim S640000 ![] bcast_S_S640000 (constantI S_ 32 40000#32))) (W (Proc.devRef .tc main_v1) : IVec S640000 32)))) bitsLt_bf16_f32))) (mulf (broadcastInDim S40000x128 ![0, 1] bcast_S40000x1_S40000x128_0_1 (broadcastInDim S40000x1 ![0] bcast_S40000_S40000x1_0 (W (Proc.devRef .tc main_v48) : FVec F S40000 .f32))) (extf .f32 (W (Proc.devRef .tc main_v51) : FVec F S40000x128 .bf16) bitsLt_bf16_f32))) (broadcastInDim S40000x128 ![0, 1] bcast_S40000x1_S40000x128_0_1 (broadcastInDim S40000x1 ![0] bcast_S40000_S40000x1_0 (W (Proc.devRef .tc main_v39) : FVec F S40000 .f32)))) := by
  simp only [hostOps1]; after_results_simp <;> rfl

theorem ops1_v80 : (StableHlo.after hostOps1 W (Proc.devRef .tc main_v80) : FVec F S128x128 .bf16)
    = (truncf .bf16 (W (Proc.devRef .tc main_arg5) : FVec F S128x128 .f32) bitsLt_bf16_f32) := by
  simp only [hostOps1]; after_results_simp <;> rfl

theorem ops1_v81 : (StableHlo.after hostOps1 W (Proc.devRef .tc main_v81) : FVec F S128x128 .bf16)
    = (truncf .bf16 (W (Proc.devRef .tc main_arg6) : FVec F S128x128 .f32) bitsLt_bf16_f32) := by
  simp only [hostOps1]; after_results_simp <;> rfl

theorem ops1_v82 : (StableHlo.after hostOps1 W (Proc.devRef .tc main_v82) : FVec F S128x128 .bf16)
    = (truncf .bf16 (W (Proc.devRef .tc main_arg8) : FVec F S128x128 .f32) bitsLt_bf16_f32) := by
  simp only [hostOps1]; after_results_simp <;> rfl

theorem ops1_v83 : (StableHlo.after hostOps1 W (Proc.devRef .tc main_v83) : FVec F S128x128 .bf16)
    = (truncf .bf16 (W (Proc.devRef .tc main_arg10) : FVec F S128x128 .f32) bitsLt_bf16_f32) := by
  simp only [hostOps1]; after_results_simp <;> rfl

theorem ops1_v84 : (StableHlo.after hostOps1 W (Proc.devRef .tc main_v84) : FVec F S1x128 .f32)
    = (shapeCast S1x128 (W (Proc.devRef .tc main_arg7) : FVec F S128 .f32) shapeCasts_S128_S1x128) := by
  simp only [hostOps1]; after_results_simp <;> rfl

theorem ops1_v85 : (StableHlo.after hostOps1 W (Proc.devRef .tc main_v85) : FVec F S1x128 .f32)
    = (shapeCast S1x128 (W (Proc.devRef .tc main_arg9) : FVec F S128 .f32) shapeCasts_S128_S1x128) := by
  simp only [hostOps1]; after_results_simp <;> rfl

theorem ops1_v86 : (StableHlo.after hostOps1 W (Proc.devRef .tc main_v86) : FVec F S1x128 .f32)
    = (shapeCast S1x128 (W (Proc.devRef .tc main_arg11) : FVec F S128 .f32) shapeCasts_S128_S1x128) := by
  simp only [hostOps1]; after_results_simp <;> rfl

theorem ops3_v104 : (StableHlo.after hostOps3 W (Proc.devRef .tc main_v104) : FVec F S40000x128 .f32)
    = (Host.scatterAdd scatter_S40000x128_S640000x1_S640000x128_1_0_0_1 (broadcastInDim S40000x128 ![] bcast_S_S40000x128 (constant (F := F) S_ .f32 0x00000000#32)) (broadcastInDim S640000x1 ![0] bcast_S640000_S640000x1_0 (W (Proc.devRef .tc main_v3) : IVec S640000 32)) (mulf (broadcastInDim S640000x128 ![0, 1] bcast_S640000x1_S640000x128_0_1 (broadcastInDim S640000x1 ![0] bcast_S640000_S640000x1_0 (W (Proc.devRef .tc main_v32) : FVec F S640000 .f32))) (extf .f32 (Host.gather gather_S40000x128_S640000x1_S640000x128_1_0_n_n_0_1_1128 (W (Proc.devRef .tc main_v90) : FVec F S40000x128 .bf16) (broadcastInDim S640000x1 ![0] bcast_S640000_S640000x1_0 (select (cmpi .slt (W (Proc.devRef .tc main_v1) : IVec S640000 32) (broadcastInDim S640000 ![] bcast_S_S640000 (constantI S_ 32 0#32))) (addi (W (Proc.devRef .tc main_v1) : IVec S640000 32) (broadcastInDim S640000 ![] bcast_S_S640000 (constantI S_ 32 40000#32))) (W (Proc.devRef .tc main_v1) : IVec S640000 32)))) bitsLt_bf16_f32))) := by
  simp only [hostOps3]; after_results_simp <;> rfl

theorem ops3_v118 : (StableHlo.after hostOps3 W (Proc.devRef .tc main_v118) : FVec F S40000x128 .f32)
    = (Host.divf (addf (Host.scatterAdd scatter_S40000x128_S640000x1_S640000x128_1_0_0_1 (broadcastInDim S40000x128 ![] bcast_S_S40000x128 (constant (F := F) S_ .f32 0x00000000#32)) (broadcastInDim S640000x1 ![0] bcast_S640000_S640000x1_0 (W (Proc.devRef .tc main_v3) : IVec S640000 32)) (mulf (broadcastInDim S640000x128 ![0, 1] bcast_S640000x1_S640000x128_0_1 (broadcastInDim S640000x1 ![0] bcast_S640000_S640000x1_0 (W (Proc.devRef .tc main_v5) : FVec F S640000 .f32))) (extf .f32 (Host.gather gather_S40000x128_S640000x1_S640000x128_1_0_n_n_0_1_1128 (W (Proc.devRef .tc main_v90) : FVec F S40000x128 .bf16) (broadcastInDim S640000x1 ![0] bcast_S640000_S640000x1_0 (select (cmpi .slt (W (Proc.devRef .tc main_v1) : IVec S640000 32) (broadcastInDim S640000 ![] bcast_S_S640000 (constantI S_ 32 0#32))) (addi (W (Proc.devRef .tc main_v1) : IVec S640000 32) (broadcastInDim S640000 ![] bcast_S_S640000 (constantI S_ 32 40000#32))) (W (Proc.devRef .tc main_v1) : IVec S640000 32)))) bitsLt_bf16_f32))) (mulf (broadcastInDim S40000x128 ![0, 1] bcast_S40000x1_S40000x128_0_1 (broadcastInDim S40000x1 ![0] bcast_S40000_S40000x1_0 (W (Proc.devRef .tc main_v48) : FVec F S40000 .f32))) (extf .f32 (W (Proc.devRef .tc main_v90) : FVec F S40000x128 .bf16) bitsLt_bf16_f32))) (broadcastInDim S40000x128 ![0, 1] bcast_S40000x1_S40000x128_0_1 (broadcastInDim S40000x1 ![0] bcast_S40000_S40000x1_0 (W (Proc.devRef .tc main_v39) : FVec F S40000 .f32)))) := by
  simp only [hostOps3]; after_results_simp <;> rfl

theorem ops3_v119 : (StableHlo.after hostOps3 W (Proc.devRef .tc main_v119) : FVec F S128x128 .bf16)
    = (truncf .bf16 (W (Proc.devRef .tc main_arg14) : FVec F S128x128 .f32) bitsLt_bf16_f32) := by
  simp only [hostOps3]; after_results_simp <;> rfl

theorem ops3_v120 : (StableHlo.after hostOps3 W (Proc.devRef .tc main_v120) : FVec F S128x128 .bf16)
    = (truncf .bf16 (W (Proc.devRef .tc main_arg15) : FVec F S128x128 .f32) bitsLt_bf16_f32) := by
  simp only [hostOps3]; after_results_simp <;> rfl

theorem ops3_v121 : (StableHlo.after hostOps3 W (Proc.devRef .tc main_v121) : FVec F S128x128 .bf16)
    = (truncf .bf16 (W (Proc.devRef .tc main_arg17) : FVec F S128x128 .f32) bitsLt_bf16_f32) := by
  simp only [hostOps3]; after_results_simp <;> rfl

theorem ops3_v122 : (StableHlo.after hostOps3 W (Proc.devRef .tc main_v122) : FVec F S128x128 .bf16)
    = (truncf .bf16 (W (Proc.devRef .tc main_arg19) : FVec F S128x128 .f32) bitsLt_bf16_f32) := by
  simp only [hostOps3]; after_results_simp <;> rfl

theorem ops3_v123 : (StableHlo.after hostOps3 W (Proc.devRef .tc main_v123) : FVec F S1x128 .f32)
    = (shapeCast S1x128 (W (Proc.devRef .tc main_arg16) : FVec F S128 .f32) shapeCasts_S128_S1x128) := by
  simp only [hostOps3]; after_results_simp <;> rfl

theorem ops3_v124 : (StableHlo.after hostOps3 W (Proc.devRef .tc main_v124) : FVec F S1x128 .f32)
    = (shapeCast S1x128 (W (Proc.devRef .tc main_arg18) : FVec F S128 .f32) shapeCasts_S128_S1x128) := by
  simp only [hostOps3]; after_results_simp <;> rfl

theorem ops3_v125 : (StableHlo.after hostOps3 W (Proc.devRef .tc main_v125) : FVec F S1x128 .f32)
    = (shapeCast S1x128 (W (Proc.devRef .tc main_arg20) : FVec F S128 .f32) shapeCasts_S128_S1x128) := by
  simp only [hostOps3]; after_results_simp <;> rfl

end Cert.KernelIdeal.Hand

end
-- ==== Proof.KerChainEntry13.lean ====
/-
  What the two combining regions are entered with.

  A combining region reads the node array the preceding linear region left, its two aggregations along the edges, four
  weight matrices rounded to the narrow float format and three biases laid out as one row. The aggregations are the
  aggregation stretch applied to that node array and to the edge quantities, which are computed once before the first
  region and which nothing writes afterwards; so both combining regions see the same functions of the edge list and
  the edge weights, applied to their own node array.
-/
import proofs.«143715_j36816459661705_2_alg».proof.Proof.Gen.KernelIdeal.Frame
import proofs.«143715_j36816459661705_2_alg».proof.Proof.KerChainKeep
import proofs.«143715_j36816459661705_2_alg».proof.Proof.KerChainShort
import proofs.«143715_j36816459661705_2_alg».proof.Proof.KerChainEdgesAt
import proofs.«143715_j36816459661705_2_alg».proof.Proof.KerChainAggOps

set_option maxRecDepth 16384

noncomputable section

namespace Cert.KernelIdeal.Hand

open Idealize.ShloMosaic Idealize.ShloMosaic.TcCoe Idealize.ShloMosaic.Tactic
open Idealize.ShloMosaic.StableHlo (after_cons after_nil)
open Cert.KernelIdeal.Gen

variable {F : FTy → Type} [FloatOps F]

variable (m : (ℓ : Loc nD τ sig) → Buf (Elt F) ℓ) (ρ : Dev nD → PrngReg) (c : Dev nD)

/-! ## Region 1: the combining region entered after stretch `hostOps1` -/

theorem arg5_at12 : W12 m ρ c (Proc.devRef .tc main_arg5) = m ((c : Thread nD τ).loc main_arg5) :=
  ((W12_of_ne m ρ c main_arg5 (by decide)).trans <| (keep0_10 (W10 m ρ c) main_arg5 (by decide)).trans <| (keep0_9 (W9 m ρ c) main_arg5 (by decide)).trans <| (keep0_8 (W8 m ρ c) main_arg5 (by decide)).trans <| (keep0_7 (W7 m ρ c) main_arg5 (by decide)).trans <| (keep0_6 (W6 m ρ c) main_arg5 (by decide)).trans <| (keep0_5 (W5 m ρ c) main_arg5 (by decide)).trans <| (keep0_4 (W4 m ρ c) main_arg5 (by decide)).trans <| (keep0_3 (W3 m ρ c) main_arg5 (by decide)).trans <| (keep0_2 (W2 m ρ c) main_arg5 (by decide)).trans <| (keep0_1 (W1 m ρ c) main_arg5 (by decide)).trans <| (keep0 (W0 m ρ c) main_arg5 (by decide))).trans rfl
theorem arg6_at12 : W12 m ρ c (Proc.devRef .tc main_arg6) = m ((c : Thread nD τ).loc main_arg6) :=
  ((W12_of_ne m ρ c main_arg6 (by decide)).trans <| (keep0_10 (W10 m ρ c) main_arg6 (by decide)).trans <| (keep0_9 (W9 m ρ c) main_arg6 (by decide)).trans <| (keep0_8 (W8 m ρ c) main_arg6 (by decide)).trans <| (keep0_7 (W7 m ρ c) main_arg6 (by decide)).trans <| (keep0_6 (W6 m ρ c) main_arg6 (by decide)).trans <| (keep0_5 (W5 m ρ c) main_arg6 (by decide)).trans <| (keep0_4 (W4 m ρ c) main_arg6 (by decide)).trans <| (keep0_3 (W3 m ρ c) main_arg6 (by decide)).trans <| (keep0_2 (W2 m ρ c) main_arg6 (by decide)).trans <| (keep0_1 (W1 m ρ c) main_arg6 (by decide)).trans <| (keep0 (W0 m ρ c) main_arg6 (by decide))).trans rfl
theorem arg7_at12 : W12 m ρ c (Proc.devRef .tc main_arg7) = m ((c : Thread nD τ).loc main_arg7) :=
  ((W12_of_ne m ρ c main_arg7 (by decide)).trans <| (keep0_10 (W10 m ρ c) main_arg7 (by decide)).trans <| (keep0_9 (W9 m ρ c) main_arg7 (by decide)).trans <| (keep0_8 (W8 m ρ c) main_arg7 (by decide)).trans <| (keep0_7 (W7 m ρ c) main_arg7 (by decide)).trans <| (keep0_6 (W6 m ρ c) main_arg7 (by decide)).trans <| (keep0_5 (W5 m ρ c) main_arg7 (by decide)).trans <| (keep0_4 (W4 m ρ c) main_arg7 (by decide)).trans <| (keep0_3 (W3 m ρ c) main_arg7 (by decide)).trans <| (keep0_2 (W2 m ρ c) main_arg7 (by decide)).trans <| (keep0_1 (W1 m ρ c) main_arg7 (by decide)).trans <| (keep0 (W0 m ρ c) main_arg7 (by decide))).trans rfl
theorem arg8_at12 : W12 m ρ c (Proc.devRef .tc main_arg8) = m ((c : Thread nD τ).loc main_arg8) :=
  ((W12_of_ne m ρ c main_arg8 (by decide)).trans <| (keep0_10 (W10 m ρ c) main_arg8 (by decide)).trans <| (keep0_9 (W9 m ρ c) main_arg8 (by decide)).trans <| (keep0_8 (W8 m ρ c) main_arg8 (by decide)).trans <| (keep0_7 (W7 m ρ c) main_arg8 (by decide)).trans <| (keep0_6 (W6 m ρ c) main_arg8 (by decide)).trans <| (keep0_5 (W5 m ρ c) main_arg8 (by decide)).trans <| (keep0_4 (W4 m ρ c) main_arg8 (by decide)).trans <| (keep0_3 (W3 m ρ c) main_arg8 (by decide)).trans <| (keep0_2 (W2 m ρ c) main_arg8 (by decide)).trans <| (keep0_1 (W1 m ρ c) main_arg8 (by decide)).trans <| (keep0 (W0 m ρ c) main_arg8 (by decide))).trans rfl
theorem arg9_at12 : W12 m ρ c (Proc.devRef .tc main_arg9) = m ((c : Thread nD τ).loc main_arg9) :=
  ((W12_of_ne m ρ c main_arg9 (by decide)).trans <| (keep0_10 (W10 m ρ c) main_arg9 (by decide)).trans <| (keep0_9 (W9 m ρ c) main_arg9 (by decide)).trans <| (keep0_8 (W8 m ρ c) main_arg9 (by decide)).trans <| (keep0_7 (W7 m ρ c) main_arg9 (by decide)).trans <| (keep0_6 (W6 m ρ c) main_arg9 (by decide)).trans <| (keep0_5 (W5 m ρ c) main_arg9 (by decide)).trans <| (keep0_4 (W4 m ρ c) main_arg9 (by decide)).trans <| (keep0_3 (W3 m ρ c) main_arg9 (by decide)).trans <| (keep0_2 (W2 m ρ c) main_arg9 (by decide)).trans <| (keep0_1 (W1 m ρ c) main_arg9 (by decide)).trans <| (keep0 (W0 m ρ c) main_arg9 (by decide))).trans rfl
theorem arg10_at12 : W12 m ρ c (Proc.devRef .tc main_arg10) = m ((c : Thread nD τ).loc main_arg10) :=
  ((W12_of_ne m ρ c main_arg10 (by decide)).trans <| (keep0_10 (W10 m ρ c) main_arg10 (by decide)).trans <| (keep0_9 (W9 m ρ c) main_arg10 (by decide)).trans <| (keep0_8 (W8 m ρ c) main_arg10 (by decide)).trans <| (keep0_7 (W7 m ρ c) main_arg10 (by decide)).trans <| (keep0_6 (W6 m ρ c) main_arg10 (by decide)).trans <| (keep0_5 (W5 m ρ c) main_arg10 (by decide)).trans <| (keep0_4 (W4 m ρ c) main_arg10 (by decide)).trans <| (keep0_3 (W3 m ρ c) main_arg10 (by decide)).trans <| (keep0_2 (W2 m ρ c) main_arg10 (by decide)).trans <| (keep0_1 (W1 m ρ c) main_arg10 (by decide)).trans <| (keep0 (W0 m ρ c) main_arg10 (by decide))).trans rfl
theorem arg11_at12 : W12 m ρ c (Proc.devRef .tc main_arg11) = m ((c : Thread nD τ).loc main_arg11) :=
  ((W12_of_ne m ρ c main_arg11 (by decide)).trans <| (keep0_10 (W10 m ρ c) main_arg11 (by decide)).trans <| (keep0_9 (W9 m ρ c) main_arg11 (by decide)).trans <| (keep0_8 (W8 m ρ c) main_arg11 (by decide)).trans <| (keep0_7 (W7 m ρ c) main_arg11 (by decide)).trans <| (keep0_6 (W6 m ρ c) main_arg11 (by decide)).trans <| (keep0_5 (W5 m ρ c) main_arg11 (by decide)).trans <| (keep0_4 (W4 m ρ c) main_arg11 (by decide)).trans <| (keep0_3 (W3 m ρ c) main_arg11 (by decide)).trans <| (keep0_2 (W2 m ρ c) main_arg11 (by decide)).trans <| (keep0_1 (W1 m ρ c) main_arg11 (by decide)).trans <| (keep0 (W0 m ρ c) main_arg11 (by decide))).trans rfl
theorem at12_v51 : (W12 m ρ c (Proc.devRef .tc main_v51) : FVec F S40000x128 .bf16) = X0 m ρ c := W12_arr m ρ c 3

theorem entry1_w0 : V13 m ρ c (Pipeline.arrRef spec1 0) = X0 m ρ c :=
  (keep1 (W12 m ρ c) main_v51 (by decide)).trans (at12_v51 m ρ c)
theorem entry1_w1 : V13 m ρ c (Pipeline.arrRef spec1 1) = txK (X0 m ρ c) (m ((c : Thread nD τ).loc main_arg1)) (m ((c : Thread nD τ).loc main_arg2)) := by
  refine (ops1_v65 (W12 m ρ c)).trans ?_
  rw [at12_v51, at12_v1, at12_v3, at12_v32]
  rfl
theorem entry1_w2 : V13 m ρ c (Pipeline.arrRef spec1 2) = aggK (X0 m ρ c) (m ((c : Thread nD τ).loc main_arg1)) (m ((c : Thread nD τ).loc main_arg2)) := by
  refine (ops1_v79 (W12 m ρ c)).trans ?_
  rw [at12_v51, at12_v1, at12_v3, at12_v5, at12_v39, at12_v48]
  rfl
theorem entry1_w3 : V13 m ρ c (Pipeline.arrRef spec1 3) = truncf .bf16 (m ((c : Thread nD τ).loc main_arg5)) bitsLt_bf16_f32 :=
  (ops1_v80 (W12 m ρ c)).trans (by rw [arg5_at12])
theorem entry1_w4 : V13 m ρ c (Pipeline.arrRef spec1 4) = truncf .bf16 (m ((c : Thread nD τ).loc main_arg6)) bitsLt_bf16_f32 :=
  (ops1_v81 (W12 m ρ c)).trans (by rw [arg6_at12])
theorem entry1_w5 : V13 m ρ c (Pipeline.arrRef spec1 5) = shapeCast S1x128 (m ((c : Thread nD τ).loc main_arg7)) shapeCasts_S128_S1x128 :=
  (ops1_v84 (W12 m ρ c)).trans (by rw [arg7_at12])
theorem entry1_w6 : V13 m ρ c (Pipeline.arrRef spec1 6) = truncf .bf16 (m ((c : Thread nD τ).loc main_arg8)) bitsLt_bf16_f32 :=
  (ops1_v82 (W12 m ρ c)).trans (by rw [arg8_at12])
theorem entry1_w7 : V13 m ρ c (Pipeline.arrRef spec1 7) = shapeCast S1x128 (m ((c : Thread nD τ).loc main_arg9)) shapeCasts_S128_S1x128 :=
  (ops1_v85 (W12 m ρ c)).trans (by rw [arg9_at12])
theorem entry1_w8 : V13 m ρ c (Pipeline.arrRef spec1 8) = truncf .bf16 (m ((c : Thread nD τ).loc main_arg10)) bitsLt_bf16_f32 :=
  (ops1_v83 (W12 m ρ c)).trans (by rw [arg10_at12])
theorem entry1_w9 : V13 m ρ c (Pipeline.arrRef spec1 9) = shapeCast S1x128 (m ((c : Thread nD τ).loc main_arg11)) shapeCasts_S128_S1x128 :=
  (ops1_v86 (W12 m ρ c)).trans (by rw [arg11_at12])

/-! ## Region 3: the combining region entered after stretch `hostOps3` -/

theorem arg14_at16 : W16 m ρ c (Proc.devRef .tc main_arg14) = m ((c : Thread nD τ).loc main_arg14) :=
  ((W16_of_ne m ρ c main_arg14 (by decide)).trans <| (keep2 (W14 m ρ c) main_arg14 (by decide)).trans <| (W14_of_ne m ρ c main_arg14 (by decide)).trans <| (keep1 (W12 m ρ c) main_arg14 (by decide)).trans <| (W12_of_ne m ρ c main_arg14 (by decide)).trans <| (keep0_10 (W10 m ρ c) main_arg14 (by decide)).trans <| (keep0_9 (W9 m ρ c) main_arg14 (by decide)).trans <| (keep0_8 (W8 m ρ c) main_arg14 (by decide)).trans <| (keep0_7 (W7 m ρ c) main_arg14 (by decide)).trans <| (keep0_6 (W6 m ρ c) main_arg14 (by decide)).trans <| (keep0_5 (W5 m ρ c) main_arg14 (by decide)).trans <| (keep0_4 (W4 m ρ c) main_arg14 (by decide)).trans <| (keep0_3 (W3 m ρ c) main_arg14 (by decide)).trans <| (keep0_2 (W2 m ρ c) main_arg14 (by decide)).trans <| (keep0_1 (W1 m ρ c) main_arg14 (by decide)).trans <| (keep0 (W0 m ρ c) main_arg14 (by decide))).trans rfl
theorem arg15_at16 : W16 m ρ c (Proc.devRef .tc main_arg15) = m ((c : Thread nD τ).loc main_arg15) :=
  ((W16_of_ne m ρ c main_arg15 (by decide)).trans <| (keep2 (W14 m ρ c) main_arg15 (by decide)).trans <| (W14_of_ne m ρ c main_arg15 (by decide)).trans <| (keep1 (W12 m ρ c) main_arg15 (by decide)).trans <| (W12_of_ne m ρ c main_arg15 (by decide)).trans <| (keep0_10 (W10 m ρ c) main_arg15 (by decide)).trans <| (keep0_9 (W9 m ρ c) main_arg15 (by decide)).trans <| (keep0_8 (W8 m ρ c) main_arg15 (by decide)).trans <| (keep0_7 (W7 m ρ c) main_arg15 (by decide)).trans <| (keep0_6 (W6 m ρ c) main_arg15 (by decide)).trans <| (keep0_5 (W5 m ρ c) main_arg15 (by decide)).trans <| (keep0_4 (W4 m ρ c) main_arg15 (by decide)).trans <| (keep0_3 (W3 m ρ c) main_arg15 (by decide)).trans <| (keep0_2 (W2 m ρ c) main_arg15 (by decide)).trans <| (keep0_1 (W1 m ρ c) main_arg15 (by decide)).trans <| (keep0 (W0 m ρ c) main_arg15 (by decide))).trans rfl
theorem arg16_at16 : W16 m ρ c (Proc.devRef .tc main_arg16) = m ((c : Thread nD τ).loc main_arg16) :=
  ((W16_of_ne m ρ c main_arg16 (by decide)).trans <| (keep2 (W14 m ρ c) main_arg16 (by decide)).trans <| (W14_of_ne m ρ c main_arg16 (by decide)).trans <| (keep1 (W12 m ρ c) main_arg16 (by decide)).trans <| (W12_of_ne m ρ c main_arg16 (by decide)).trans <| (keep0_10 (W10 m ρ c) main_arg16 (by decide)).trans <| (keep0_9 (W9 m ρ c) main_arg16 (by decide)).trans <| (keep0_8 (W8 m ρ c) main_arg16 (by decide)).trans <| (keep0_7 (W7 m ρ c) main_arg16 (by decide)).trans <| (keep0_6 (W6 m ρ c) main_arg16 (by decide)).trans <| (keep0_5 (W5 m ρ c) main_arg16 (by decide)).trans <| (keep0_4 (W4 m ρ c) main_arg16 (by decide)).trans <| (keep0_3 (W3 m ρ c) main_arg16 (by decide)).trans <| (keep0_2 (W2 m ρ c) main_arg16 (by decide)).trans <| (keep0_1 (W1 m ρ c) main_arg16 (by decide)).trans <| (keep0 (W0 m ρ c) main_arg16 (by decide))).trans rfl
theorem arg17_at16 : W16 m ρ c (Proc.devRef .tc main_arg17) = m ((c : Thread nD τ).loc main_arg17) :=
  ((W16_of_ne m ρ c main_arg17 (by decide)).trans <| (keep2 (W14 m ρ c) main_arg17 (by decide)).trans <| (W14_of_ne m ρ c main_arg17 (by decide)).trans <| (keep1 (W12 m ρ c) main_arg17 (by decide)).trans <| (W12_of_ne m ρ c main_arg17 (by decide)).trans <| (keep0_10 (W10 m ρ c) main_arg17 (by decide)).trans <| (keep0_9 (W9 m ρ c) main_arg17 (by decide)).trans <| (keep0_8 (W8 m ρ c) main_arg17 (by decide)).trans <| (keep0_7 (W7 m ρ c) main_arg17 (by decide)).trans <| (keep0_6 (W6 m ρ c) main_arg17 (by decide)).trans <| (keep0_5 (W5 m ρ c) main_arg17 (by decide)).trans <| (keep0_4 (W4 m ρ c) main_arg17 (by decide)).trans <| (keep0_3 (W3 m ρ c) main_arg17 (by decide)).trans <| (keep0_2 (W2 m ρ c) main_arg17 (by decide)).trans <| (keep0_1 (W1 m ρ c) main_arg17 (by decide)).trans <| (keep0 (W0 m ρ c) main_arg17 (by decide))).trans rfl
theorem arg18_at16 : W16 m ρ c (Proc.devRef .tc main_arg18) = m ((c : Thread nD τ).loc main_arg18) :=
  ((W16_of_ne m ρ c main_arg18 (by decide)).trans <| (keep2 (W14 m ρ c) main_arg18 (by decide)).trans <| (W14_of_ne m ρ c main_arg18 (by decide)).trans <| (keep1 (W12 m ρ c) main_arg18 (by decide)).trans <| (W12_of_ne m ρ c main_arg18 (by decide)).trans <| (keep0_10 (W10 m ρ c) main_arg18 (by decide)).trans <| (keep0_9 (W9 m ρ c) main_arg18 (by decide)).trans <| (keep0_8 (W8 m ρ c) main_arg18 (by decide)).trans <| (keep0_7 (W7 m ρ c) main_arg18 (by decide)).trans <| (keep0_6 (W6 m ρ c) main_arg18 (by decide)).trans <| (keep0_5 (W5 m ρ c) main_arg18 (by decide)).trans <| (keep0_4 (W4 m ρ c) main_arg18 (by decide)).trans <| (keep0_3 (W3 m ρ c) main_arg18 (by decide)).trans <| (keep0_2 (W2 m ρ c) main_arg18 (by decide)).trans <| (keep0_1 (W1 m ρ c) main_arg18 (by decide)).trans <| (keep0 (W0 m ρ c) main_arg18 (by decide))).trans rfl
theorem arg19_at16 : W16 m ρ c (Proc.devRef .tc main_arg19) = m ((c : Thread nD τ).loc main_arg19) :=
  ((W16_of_ne m ρ c main_arg19 (by decide)).trans <| (keep2 (W14 m ρ c) main_arg19 (by decide)).trans <| (W14_of_ne m ρ c main_arg19 (by decide)).trans <| (keep1 (W12 m ρ c) main_arg19 (by decide)).trans <| (W12_of_ne m ρ c main_arg19 (by decide)).trans <| (keep0_10 (W10 m ρ c) main_arg19 (by decide)).trans <| (keep0_9 (W9 m ρ c) main_arg19 (by decide)).trans <| (keep0_8 (W8 m ρ c) main_arg19 (by decide)).trans <| (keep0_7 (W7 m ρ c) main_arg19 (by decide)).trans <| (keep0_6 (W6 m ρ c) main_arg19 (by decide)).trans <| (keep0_5 (W5 m ρ c) main_arg19 (by decide)).trans <| (keep0_4 (W4 m ρ c) main_arg19 (by decide)).trans <| (keep0_3 (W3 m ρ c) main_arg19 (by decide)).trans <| (keep0_2 (W2 m ρ c) main_arg19 (by decide)).trans <| (keep0_1 (W1 m ρ c) main_arg19 (by decide)).trans <| (keep0 (W0 m ρ c) main_arg19 (by decide))).trans rfl
theorem arg20_at16 : W16 m ρ c (Proc.devRef .tc main_arg20) = m ((c : Thread nD τ).loc main_arg20) :=
  ((W16_of_ne m ρ c main_arg20 (by decide)).trans <| (keep2 (W14 m ρ c) main_arg20 (by decide)).trans <| (W14_of_ne m ρ c main_arg20 (by decide)).trans <| (keep1 (W12 m ρ c) main_arg20 (by decide)).trans <| (W12_of_ne m ρ c main_arg20 (by decide)).trans <| (keep0_10 (W10 m ρ c) main_arg20 (by decide)).trans <| (keep0_9 (W9 m ρ c) main_arg20 (by decide)).trans <| (keep0_8 (W8 m ρ c) main_arg20 (by decide)).trans <| (keep0_7 (W7 m ρ c) main_arg20 (by decide)).trans <| (keep0_6 (W6 m ρ c) main_arg20 (by decide)).trans <| (keep0_5 (W5 m ρ c) main_arg20 (by decide)).trans <| (keep0_4 (W4 m ρ c) main_arg20 (by decide)).trans <| (keep0_3 (W3 m ρ c) main_arg20 (by decide)).trans <| (keep0_2 (W2 m ρ c) main_arg20 (by decide)).trans <| (keep0_1 (W1 m ρ c) main_arg20 (by decide)).trans <| (keep0 (W0 m ρ c) main_arg20 (by decide))).trans rfl
theorem at16_v90 : (W16 m ρ c (Proc.devRef .tc main_v90) : FVec F S40000x128 .bf16) = X2 m ρ c := W16_arr m ρ c 3

theorem entry3_w0 : V17 m ρ c (Pipeline.arrRef spec3 0) = X2 m ρ c :=
  (keep3 (W16 m ρ c) main_v90 (by decide)).trans (at16_v90 m ρ c)
theorem entry3_w1 : V17 m ρ c (Pipeline.arrRef spec3 1) = txK (X2 m ρ c) (m ((c : Thread nD τ).loc main_arg1)) (m ((c : Thread nD τ).loc main_arg2)) := by
  refine (ops3_v104 (W16 m ρ c)).trans ?_
  rw [at16_v90, at16_v1, at16_v3, at16_v32]
  rfl
theorem entry3_w2 : V17 m ρ c (Pipeline.arrRef spec3 2) = aggK (X2 m ρ c) (m ((c : Thread nD τ).loc main_arg1)) (m ((c : Thread nD τ).loc main_arg2)) := by
  refine (ops3_v118 (W16 m ρ c)).trans ?_
  rw [at16_v90, at16_v1, at16_v3, at16_v5, at16_v39, at16_v48]
  rfl
theorem entry3_w3 : V17 m ρ c (Pipeline.arrRef spec3 3) = truncf .bf16 (m ((c : Thread nD τ).loc main_arg14)) bitsLt_bf16_f32 :=
  (ops3_v119 (W16 m ρ c)).trans (by rw [arg14_at16])
theorem entry3_w4 : V17 m ρ c (Pipeline.arrRef spec3 4) = truncf .bf16 (m ((c : Thread nD τ).loc main_arg15)) bitsLt_bf16_f32 :=
  (ops3_v120 (W16 m ρ c)).trans (by rw [arg15_at16])
theorem entry3_w5 : V17 m ρ c (Pipeline.arrRef spec3 5) = shapeCast S1x128 (m ((c : Thread nD τ).loc main_arg16)) shapeCasts_S128_S1x128 :=
  (ops3_v123 (W16 m ρ c)).trans (by rw [arg16_at16])
theorem entry3_w6 : V17 m ρ c (Pipeline.arrRef spec3 6) = truncf .bf16 (m ((c : Thread nD τ).loc main_arg17)) bitsLt_bf16_f32 :=
  (ops3_v121 (W16 m ρ c)).trans (by rw [arg17_at16])
theorem entry3_w7 : V17 m ρ c (Pipeline.arrRef spec3 7) = shapeCast S1x128 (m ((c : Thread nD τ).loc main_arg18)) shapeCasts_S128_S1x128 :=
  (ops3_v124 (W16 m ρ c)).trans (by rw [arg18_at16])
theorem entry3_w8 : V17 m ρ c (Pipeline.arrRef spec3 8) = truncf .bf16 (m ((c : Thread nD τ).loc main_arg19)) bitsLt_bf16_f32 :=
  (ops3_v122 (W16 m ρ c)).trans (by rw [arg19_at16])
theorem entry3_w9 : V17 m ρ c (Pipeline.arrRef spec3 9) = shapeCast S1x128 (m ((c : Thread nD τ).loc main_arg20)) shapeCasts_S128_S1x128 :=
  (ops3_v125 (W16 m ρ c)).trans (by rw [arg20_at16])

end Cert.KernelIdeal.Hand

end
-- ==== Proof.KerValueComb.lean ====
/-
  The idealized kernel's two combining stages as whole arrays in the host's spelling.

  A combining region is entered with the node array xh its cell's linear stage wrote, the two aggregations of xh over
  the edges (the Chebyshev one and the mean one, computed on the host between the regions from the edge quantities
  computed once before the first region), and the seven weight and bias arrays (matrices narrowed to bf16, biases
  reshaped to one row). Its array after the region is read off its blocks entry by entry and is the host's
  (ℓ(xh · w₀ + tx · w₁ + cb) + ℓ(agg · sw + sb)) · lw + lb at that entry.
-/
import proofs.«143715_j36816459661705_2_alg».proof.Proof.DenseBridge
import proofs.«143715_j36816459661705_2_alg».proof.Proof.RegComb1
import proofs.«143715_j36816459661705_2_alg».proof.Proof.RegComb3
import proofs.«143715_j36816459661705_2_alg».proof.Proof.KerChainShort
import proofs.«143715_j36816459661705_2_alg».proof.Proof.KerChainEntry13
import proofs.«143715_j36816459661705_2_alg».proof.Proof.KerEdges
import proofs.«143715_j36816459661705_2_alg».proof.ReferenceIdeal
import proofs.«143715_j36816459661705_2_alg».proof.Proof.Gen.ReferenceIdeal

noncomputable section

namespace Cert.Proof.Bridge

open Idealize.ShloMosaic Idealize.ShloMosaic.ValueIdx Idealize.ShloMosaic.TcCoe Idealize.SL.Sem
open Cert.Gnn Cert.Gnn.HostForm
open Cert.KernelIdeal Cert.KernelIdeal.Gen Cert.KernelIdeal.Hand

/-- The combining stage's entry formula at equal operands. -/
theorem combAt_args {N D : Nat} {xh xh' tx tx' agg agg' : FVec Ideal ⟨2, ![N, D]⟩ .f32} {w0 w0' w1 w1' : FVec Ideal ⟨2, ![D, D]⟩ .f32}
    {cb cb' : FVec Ideal ⟨2, ![1, D]⟩ .f32} {sw sw' : FVec Ideal ⟨2, ![D, D]⟩ .f32} {sb sb' : FVec Ideal ⟨2, ![1, D]⟩ .f32}
    {lw lw' : FVec Ideal ⟨2, ![D, D]⟩ .f32} {lb lb' : FVec Ideal ⟨2, ![1, D]⟩ .f32}
    (h0 : xh = xh') (h1 : tx = tx') (h2 : agg = agg') (h3 : w0 = w0') (h4 : w1 = w1') (h5 : cb = cb') (h6 : sw = sw')
    (h7 : sb = sb') (h8 : lw = lw') (h9 : lb = lb') (r : Fin N) (j : Fin D) :
    combAt xh tx agg w0 w1 cb sw sb lw lb r j = combAt xh' tx' agg' w0' w1' cb' sw' sb' lw' lb' r j := by
  subst h0 h1 h2 h3 h4 h5 h6 h7 h8 h9
  rfl

variable (m : (ℓ : Loc nD τ sig) → Buf (Elt Ideal) ℓ) (ρ : Dev nD → PrngReg) (c : Dev nD)

/-- The second region's array: the first cell's combining stage of the first region's array and its two aggregations. -/
theorem stage1 :
    X1 (F := Ideal) m ρ c
      = comb Cert.ReferenceIdeal.Facts₀.dot_S40000x128_S128x128_S40000x128_1_0_0_1_n_n_wf
          Cert.ReferenceIdeal.Facts₀.bcast_S1x128_S40000x128_0_1 Cert.ReferenceIdeal.Facts₀.bcast_S128_S1x128_1
          Cert.ReferenceIdeal.Facts₀.bcast_S_S40000x128
          (X0 (F := Ideal) m ρ c)
          (txK (X0 (F := Ideal) m ρ c) (m ((c : Thread nD τ).loc main_arg1)) (m ((c : Thread nD τ).loc main_arg2)))
          (aggK (X0 (F := Ideal) m ρ c) (m ((c : Thread nD τ).loc main_arg1)) (m ((c : Thread nD τ).loc main_arg2)))
          (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine comb_of_entries _ _ _ _ _ _ _ _ _ _ _ _ _ _ _ fun r j => ?_
  exact (Cert.KernelIdeal.Blocks.arr1_apply (Gen.V13 m ρ) c r j).trans
    (combAt_args (N := 40000) (D := 128) (entry1_w0 (F := Ideal) m ρ c) (entry1_w1 (F := Ideal) m ρ c) (entry1_w2 (F := Ideal) m ρ c) (entry1_w3 (F := Ideal) m ρ c) (entry1_w4 (F := Ideal) m ρ c)
      ((entry1_w5 (F := Ideal) m ρ c).trans (reshape_row _ Cert.ReferenceIdeal.Facts₀.bcast_S128_S1x128_1 _)) (entry1_w6 (F := Ideal) m ρ c) ((entry1_w7 (F := Ideal) m ρ c).trans (reshape_row _ Cert.ReferenceIdeal.Facts₀.bcast_S128_S1x128_1 _)) (entry1_w8 (F := Ideal) m ρ c) ((entry1_w9 (F := Ideal) m ρ c).trans (reshape_row _ Cert.ReferenceIdeal.Facts₀.bcast_S128_S1x128_1 _)) r j)

/-- The fourth region's array: the second cell's combining stage of the third region's array and its two aggregations. -/
theorem stage3 :
    X3 (F := Ideal) m ρ c
      = comb Cert.ReferenceIdeal.Facts₀.dot_S40000x128_S128x128_S40000x128_1_0_0_1_n_n_wf
          Cert.ReferenceIdeal.Facts₀.bcast_S1x128_S40000x128_0_1 Cert.ReferenceIdeal.Facts₀.bcast_S128_S1x128_1
          Cert.ReferenceIdeal.Facts₀.bcast_S_S40000x128
          (X2 (F := Ideal) m ρ c)
          (txK (X2 (F := Ideal) m ρ c) (m ((c : Thread nD τ).loc main_arg1)) (m ((c : Thread nD τ).loc main_arg2)))
          (aggK (X2 (F := Ideal) m ρ c) (m ((c : Thread nD τ).loc main_arg1)) (m ((c : Thread nD τ).loc main_arg2)))
          (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine comb_of_entries _ _ _ _ _ _ _ _ _ _ _ _ _ _ _ fun r j => ?_
  exact (Cert.KernelIdeal.Blocks.arr3_apply (Gen.V17 m ρ) c r j).trans
    (combAt_args (N := 40000) (D := 128) (entry3_w0 (F := Ideal) m ρ c) (entry3_w1 (F := Ideal) m ρ c) (entry3_w2 (F := Ideal) m ρ c) (entry3_w3 (F := Ideal) m ρ c) (entry3_w4 (F := Ideal) m ρ c)
      ((entry3_w5 (F := Ideal) m ρ c).trans (reshape_row _ Cert.ReferenceIdeal.Facts₀.bcast_S128_S1x128_1 _)) (entry3_w6 (F := Ideal) m ρ c) ((entry3_w7 (F := Ideal) m ρ c).trans (reshape_row _ Cert.ReferenceIdeal.Facts₀.bcast_S128_S1x128_1 _)) (entry3_w8 (F := Ideal) m ρ c) ((entry3_w9 (F := Ideal) m ρ c).trans (reshape_row _ Cert.ReferenceIdeal.Facts₀.bcast_S128_S1x128_1 _)) r j)

end Cert.Proof.Bridge

end
-- ==== Proof.RefEdges.lean ====
/-
  The edge-derived quantities of the graph network as the reference program computes them from the edge list and the
  edge weights, and its two neighbourhood aggregations of a node array, on the extended reals.

  From the edge list ei (row 0 the sources, row 1 the targets) and the weights ew:
  * src, dst: the two rows; loop marks the self-loops (src = dst); wc is the weight with the self-loops' weights
    replaced by zero.
  * norm (Chebyshev coefficient): with deg the sum of wc over each node's outgoing edges and dinv = deg^(-1/2) where
    deg is positive, else 0: norm[e] = -(dinv[src e]) * wc[e] * dinv[dst e]. Node numbers index an array of 40000
    rows, a negative one counted from the end.
  * cnt: one plus the number of incoming edges of a node that are not self-loops.
  * loopw: one, overwritten by the weight of a self-loop at its node (an edge that is no self-loop writes out of range
    and is dropped).
  * tx: each edge carries norm[e] times row src e of the node array to row dst e, summed there.
  * agg: each edge carries wc[e] times row src e to row dst e, summed there; plus loopw times the node's own row; all
    divided by cnt. (The reference computes wc and the sources' row numbers a second time for agg: the same terms.)
  Every definition is the composition of the reference's whole-array operations, in its order, the small selecting
  functions it calls written out (their conversion of a scalar kept as the identity it is).
-/
import proofs.«143715_j36816459661705_2_alg».proof.Proof.Gen.ReferenceIdeal
import Idealize.ShloMosaic.PureOps.Ideal

noncomputable section

namespace Cert.ReferenceIdeal.Hand

open Idealize.ShloMosaic
open Cert.ReferenceIdeal.Facts₀ Cert.ReferenceIdeal.Facts

/-- The edges' sources: row 0 of the edge list. -/
def srcR (ei : IVec S2x640000 32) : IVec S640000 32 :=
  shapeCast S640000 (extractStridedSlice S1x640000 ![0, 0] ei slices_S2x640000_S1x640000_0_0) shapeCasts_S1x640000_S640000

/-- The edges' targets: row 1 of the edge list. -/
def dstR (ei : IVec S2x640000 32) : IVec S640000 32 :=
  shapeCast S640000 (extractStridedSlice S1x640000 ![1, 0] ei slices_S2x640000_S1x640000_1_0) shapeCasts_S1x640000_S640000

/-- The self-loops: source equal to target. -/
def loopR (ei : IVec S2x640000 32) : IVec S640000 1 :=
  cmpi .eq (srcR ei) (dstR ei)

/-- The edge weights with the self-loops' weights set to zero. -/
def wcR (ei : IVec S2x640000 32) (ew : FVec Ideal S640000 .f32) : FVec Ideal S640000 .f32 :=
  select (loopR ei) (broadcastInDim S640000 ![] bcast_S_S640000 (id (constant (F := Ideal) S_ .f32 0x00000000#32))) ew

/-- The Chebyshev coefficient of each edge. -/
def normR (ei : IVec S2x640000 32) (ew : FVec Ideal S640000 .f32) : FVec Ideal S640000 .f32 :=
  (mulf (mulf (Host.negf (Host.gather gather_S40000_S640000x1_S640000_n_0_n_n_0_1_1 (select (cmpf .ogt (Host.scatterAdd scatter_S40000_S640000x1_S640000_n_0_0_1 (broadcastInDim S40000 ![] bcast_S_S40000 (constant (F := Ideal) S_ .f32 0x00000000#32)) (broadcastInDim S640000x1 ![0] bcast_S640000_S640000x1_0 (srcR ei)) (wcR ei ew)) (broadcastInDim S40000 ![] bcast_S_S40000 (constant (F := Ideal) S_ .f32 0x00000000#32))) (Host.rsqrt (select (cmpf .ogt (Host.scatterAdd scatter_S40000_S640000x1_S640000_n_0_0_1 (broadcastInDim S40000 ![] bcast_S_S40000 (constant (F := Ideal) S_ .f32 0x00000000#32)) (broadcastInDim S640000x1 ![0] bcast_S640000_S640000x1_0 (srcR ei)) (wcR ei ew)) (broadcastInDim S40000 ![] bcast_S_S40000 (constant (F := Ideal) S_ .f32 0x00000000#32))) (Host.scatterAdd scatter_S40000_S640000x1_S640000_n_0_0_1 (broadcastInDim S40000 ![] bcast_S_S40000 (constant (F := Ideal) S_ .f32 0x00000000#32)) (broadcastInDim S640000x1 ![0] bcast_S640000_S640000x1_0 (srcR ei)) (wcR ei ew)) (broadcastInDim S40000 ![] bcast_S_S40000 (id (constant (F := Ideal) S_ .f32 0x3F800000#32))))) (broadcastInDim S40000 ![] bcast_S_S40000 (id (constant (F := Ideal) S_ .f32 0x00000000#32)))) (broadcastInDim S640000x1 ![0] bcast_S640000_S640000x1_0 (select (cmpi .slt (srcR ei) (broadcastInDim S640000 ![] bcast_S_S640000 (constantI S_ 32 0#32))) (addi (srcR ei) (broadcastInDim S640000 ![] bcast_S_S640000 (constantI S_ 32 40000#32))) (srcR ei))))) (wcR ei ew)) (Host.gather gather_S40000_S640000x1_S640000_n_0_n_n_0_1_1 (select (cmpf .ogt (Host.scatterAdd scatter_S40000_S640000x1_S640000_n_0_0_1 (broadcastInDim S40000 ![] bcast_S_S40000 (constant (F := Ideal) S_ .f32 0x00000000#32)) (broadcastInDim S640000x1 ![0] bcast_S640000_S640000x1_0 (srcR ei)) (wcR ei ew)) (broadcastInDim S40000 ![] bcast_S_S40000 (constant (F := Ideal) S_ .f32 0x00000000#32))) (Host.rsqrt (select (cmpf .ogt (Host.scatterAdd scatter_S40000_S640000x1_S640000_n_0_0_1 (broadcastInDim S40000 ![] bcast_S_S40000 (constant (F := Ideal) S_ .f32 0x00000000#32)) (broadcastInDim S640000x1 ![0] bcast_S640000_S640000x1_0 (srcR ei)) (wcR ei ew)) (broadcastInDim S40000 ![] bcast_S_S40000 (constant (F := Ideal) S_ .f32 0x00000000#32))) (Host.scatterAdd scatter_S40000_S640000x1_S640000_n_0_0_1 (broadcastInDim S40000 ![] bcast_S_S40000 (constant (F := Ideal) S_ .f32 0x00000000#32)) (broadcastInDim S640000x1 ![0] bcast_S640000_S640000x1_0 (srcR ei)) (wcR ei ew)) (broadcastInDim S40000 ![] bcast_S_S40000 (id (constant (F := Ideal) S_ .f32 0x3F800000#32))))) (broadcastInDim S40000 ![] bcast_S_S40000 (id (constant (F := Ideal) S_ .f32 0x00000000#32)))) (broadcastInDim S640000x1 ![0] bcast_S640000_S640000x1_0 (select (cmpi .slt (dstR ei) (broadcastInDim S640000 ![] bcast_S_S640000 (constantI S_ 32 0#32))) (addi (dstR ei) (broadcastInDim S640000 ![] bcast_S_S640000 (constantI S_ 32 40000#32))) (dstR ei)))))

/-- One plus the number of incoming edges that are not self-loops, per node. -/
def cntR (ei : IVec S2x640000 32) : FVec Ideal S40000 .f32 :=
  (addf (Host.scatterAdd scatter_S40000_S640000x1_S640000_n_0_0_1 (broadcastInDim S40000 ![] bcast_S_S40000 (constant (F := Ideal) S_ .f32 0x00000000#32)) (broadcastInDim S640000x1 ![0] bcast_S640000_S640000x1_0 (dstR ei)) (id (select (loopR ei) (broadcastInDim S640000 ![] bcast_S_S640000 (constant (F := Ideal) S_ .f32 0x00000000#32)) (broadcastInDim S640000 ![] bcast_S_S640000 (constant (F := Ideal) S_ .f32 0x3F800000#32))))) (broadcastInDim S40000 ![] bcast_S_S40000 (constant (F := Ideal) S_ .f32 0x3F800000#32)))

/-- The self-loop weight of each node (one where it has none). -/
def loopwR (ei : IVec S2x640000 32) (ew : FVec Ideal S640000 .f32) : FVec Ideal S40000 .f32 :=
  (Host.scatter scatter_S40000_S640000x1_S640000_n_0_0_1 (fun _ b => b) (broadcastInDim S40000 ![] bcast_S_S40000 (constant (F := Ideal) S_ .f32 0x3F800000#32)) (broadcastInDim S640000x1 ![0] bcast_S640000_S640000x1_0 (select (cmpi .slt (select (loopR ei) (srcR ei) (broadcastInDim S640000 ![] bcast_S_S640000 (id (constantI S_ 32 40000#32)))) (broadcastInDim S640000 ![] bcast_S_S640000 (constantI S_ 32 0#32))) (addi (select (loopR ei) (srcR ei) (broadcastInDim S640000 ![] bcast_S_S640000 (id (constantI S_ 32 40000#32)))) (broadcastInDim S640000 ![] bcast_S_S640000 (constantI S_ 32 40000#32))) (select (loopR ei) (srcR ei) (broadcastInDim S640000 ![] bcast_S_S640000 (id (constantI S_ 32 40000#32)))))) ew)

/-- The Chebyshev aggregation of a node array: norm-weighted rows of the sources summed at the targets. -/
def txR (xh : FVec Ideal S40000x128 .f32) (ei : IVec S2x640000 32) (ew : FVec Ideal S640000 .f32) : FVec Ideal S40000x128 .f32 :=
  (Host.scatterAdd scatter_S40000x128_S640000x1_S640000x128_1_0_0_1 (broadcastInDim S40000x128 ![] bcast_S_S40000x128 (constant (F := Ideal) S_ .f32 0x00000000#32)) (broadcastInDim S640000x1 ![0] bcast_S640000_S640000x1_0 (dstR ei)) (mulf (broadcastInDim S640000x128 ![0, 1] bcast_S640000x1_S640000x128_0_1 (broadcastInDim S640000x1 ![0] bcast_S640000_S640000x1_0 (normR ei ew))) (Host.gather gather_S40000x128_S640000x1_S640000x128_1_0_n_n_0_1_1128 xh (broadcastInDim S640000x1 ![0] bcast_S640000_S640000x1_0 (select (cmpi .slt (srcR ei) (broadcastInDim S640000 ![] bcast_S_S640000 (constantI S_ 32 0#32))) (addi (srcR ei) (broadcastInDim S640000 ![] bcast_S_S640000 (constantI S_ 32 40000#32))) (srcR ei))))))

/-- The mean aggregation of a node array: weighted rows of the sources summed at the targets, plus the self-loop
    weight times the node's own row, divided by the count. -/
def aggR (xh : FVec Ideal S40000x128 .f32) (ei : IVec S2x640000 32) (ew : FVec Ideal S640000 .f32) : FVec Ideal S40000x128 .f32 :=
  (Host.divf (addf (Host.scatterAdd scatter_S40000x128_S640000x1_S640000x128_1_0_0_1 (broadcastInDim S40000x128 ![] bcast_S_S40000x128 (constant (F := Ideal) S_ .f32 0x00000000#32)) (broadcastInDim S640000x1 ![0] bcast_S640000_S640000x1_0 (dstR ei)) (mulf (broadcastInDim S640000x128 ![0, 1] bcast_S640000x1_S640000x128_0_1 (broadcastInDim S640000x1 ![0] bcast_S640000_S640000x1_0 (wcR ei ew))) (Host.gather gather_S40000x128_S640000x1_S640000x128_1_0_n_n_0_1_1128 xh (broadcastInDim S640000x1 ![0] bcast_S640000_S640000x1_0 (select (cmpi .slt (srcR ei) (broadcastInDim S640000 ![] bcast_S_S640000 (constantI S_ 32 0#32))) (addi (srcR ei) (broadcastInDim S640000 ![] bcast_S_S640000 (constantI S_ 32 40000#32))) (srcR ei)))))) (mulf (broadcastInDim S40000x128 ![0, 1] bcast_S40000x1_S40000x128_0_1 (broadcastInDim S40000x1 ![0] bcast_S40000_S40000x1_0 (loopwR ei ew))) xh)) (broadcastInDim S40000x128 ![0, 1] bcast_S40000x1_S40000x128_0_1 (broadcastInDim S40000x1 ![0] bcast_S40000_S40000x1_0 (cntR ei))))

end Cert.ReferenceIdeal.Hand

end
-- ==== Proof.EdgeBridge.lean ====
/-
  The edge-derived quantities and the two neighbourhood aggregations: the kernel program's and the reference program's are
  the same functions on the extended reals.

  Both programs compute them by the same whole-array operations in the same order, over shapes and dimension-number
  records that each program names for itself; a record of one program equals the record of the same name of the other
  field by field (the well-formedness field is a proof). The one difference is that the kernel program gathers and reads
  the node array in its narrow storage format and widens the result, which on the extended reals is the identity.
-/
import proofs.«143715_j36816459661705_2_alg».proof.Proof.KerEdges
import proofs.«143715_j36816459661705_2_alg».proof.Proof.RefEdges

noncomputable section

namespace Cert.EdgeBridge

open Idealize.ShloMosaic
open Cert.KernelIdeal.Hand Cert.ReferenceIdeal.Hand

/-- Widening a format is the identity on the extended reals. -/
theorem extf_ideal {s : Shape} {φ ψ : FTy} (g : FVec Ideal s φ) (h : φ.bits < ψ.bits) :
    (extf ψ g h : s.Idx → EReal) = g := funext fun _ => rfl

/-- The scatter of one value per edge into the nodes: the two programs' dimension numbers are the same record. -/
theorem scatterNode_eq : Cert.KernelIdeal.scatter_S40000_S640000x1_S640000_n_0_0_1 = Cert.ReferenceIdeal.scatter_S40000_S640000x1_S640000_n_0_0_1 := by
  unfold Cert.KernelIdeal.scatter_S40000_S640000x1_S640000_n_0_0_1 Cert.ReferenceIdeal.scatter_S40000_S640000x1_S640000_n_0_0_1
  rfl

/-- The gather of one value per edge from the nodes: the two programs' dimension numbers are the same record. -/
theorem gatherNode_eq : Cert.KernelIdeal.gather_S40000_S640000x1_S640000_n_0_n_n_0_1_1 = Cert.ReferenceIdeal.gather_S40000_S640000x1_S640000_n_0_n_n_0_1_1 := by
  unfold Cert.KernelIdeal.gather_S40000_S640000x1_S640000_n_0_n_n_0_1_1 Cert.ReferenceIdeal.gather_S40000_S640000x1_S640000_n_0_n_n_0_1_1
  rfl

/-- The gather of one row per edge from a node array: the two programs' dimension numbers are the same record. -/
theorem gatherRow_eq : Cert.KernelIdeal.gather_S40000x128_S640000x1_S640000x128_1_0_n_n_0_1_1128 = Cert.ReferenceIdeal.gather_S40000x128_S640000x1_S640000x128_1_0_n_n_0_1_1128 := by
  unfold Cert.KernelIdeal.gather_S40000x128_S640000x1_S640000x128_1_0_n_n_0_1_1128 Cert.ReferenceIdeal.gather_S40000x128_S640000x1_S640000x128_1_0_n_n_0_1_1128
  rfl

/-- The scatter of one row per edge into a node array: the two programs' dimension numbers are the same record. -/
theorem scatterRow_eq : Cert.KernelIdeal.scatter_S40000x128_S640000x1_S640000x128_1_0_0_1 = Cert.ReferenceIdeal.scatter_S40000x128_S640000x1_S640000x128_1_0_0_1 := by
  unfold Cert.KernelIdeal.scatter_S40000x128_S640000x1_S640000x128_1_0_0_1 Cert.ReferenceIdeal.scatter_S40000x128_S640000x1_S640000x128_1_0_0_1
  rfl

/-- The edges' sources. -/
theorem src_eq (ei : IVec Cert.KernelIdeal.S2x640000 32) : srcK ei = srcR ei := by
  unfold srcK srcR
  rfl

/-- The edges' targets. -/
theorem dst_eq (ei : IVec Cert.KernelIdeal.S2x640000 32) : dstK ei = dstR ei := by
  unfold dstK dstR
  rfl

/-- The self-loops. -/
theorem loop_eq (ei : IVec Cert.KernelIdeal.S2x640000 32) : loopK ei = loopR ei := by
  unfold loopK loopR
  rw [src_eq, dst_eq]

/-- The weights with the self-loops' set to zero. -/
theorem wc_eq (ei : IVec Cert.KernelIdeal.S2x640000 32) (ew : FVec Ideal Cert.KernelIdeal.S640000 .f32) : wcK ei ew = wcR ei ew := by
  unfold wcK wcR
  rw [loop_eq]

/-- The Chebyshev coefficients. -/
theorem norm_eq (ei : IVec Cert.KernelIdeal.S2x640000 32) (ew : FVec Ideal Cert.KernelIdeal.S640000 .f32) : normK ei ew = normR ei ew := by
  unfold normK normR
  rw [src_eq, dst_eq, wc_eq, scatterNode_eq, gatherNode_eq]

/-- The counts. -/
theorem cnt_eq (ei : IVec Cert.KernelIdeal.S2x640000 32) : cntK (F := Ideal) ei = cntR ei := by
  unfold cntK cntR
  rw [dst_eq, loop_eq, scatterNode_eq]

/-- The self-loop weights. -/
theorem loopw_eq (ei : IVec Cert.KernelIdeal.S2x640000 32) (ew : FVec Ideal Cert.KernelIdeal.S640000 .f32) : loopwK ei ew = loopwR ei ew := by
  unfold loopwK loopwR
  rw [src_eq, loop_eq, scatterNode_eq]

/-- The Chebyshev aggregation of a node array. -/
theorem tx_eq (xh : FVec Ideal Cert.KernelIdeal.S40000x128 .bf16) (ei : IVec Cert.KernelIdeal.S2x640000 32) (ew : FVec Ideal Cert.KernelIdeal.S640000 .f32) :
    txK xh ei ew = txR xh ei ew := by
  unfold txK txR
  rw [extf_ideal, src_eq, dst_eq, norm_eq, scatterRow_eq, gatherRow_eq]

/-- The mean aggregation of a node array. -/
theorem agg_eq (xh : FVec Ideal Cert.KernelIdeal.S40000x128 .bf16) (ei : IVec Cert.KernelIdeal.S2x640000 32) (ew : FVec Ideal Cert.KernelIdeal.S640000 .f32) :
    aggK xh ei ew = aggR xh ei ew := by
  unfold aggK aggR
  rw [extf_ideal, extf_ideal, src_eq, dst_eq, wc_eq, loopw_eq, cnt_eq, scatterRow_eq, gatherRow_eq]

end Cert.EdgeBridge

end
-- ==== Proof.KerValue.lean ====
/-
  The idealized kernel's result as one function of its 23 argument arrays.

  Chaining the five regions: the result is the classifier stage of the second cell's combining stage of … of the
  first linear stage of the launch arrays, where each cell's two edge aggregations are the host's gathers and
  segment sums of that cell's linear stage with edge quantities that depend on the edge arrays only — the kernel
  computes those once and the reference once per cell, the same terms. The whole is written in the host's spelling
  with the reference's own edge functions.
-/
import proofs.«143715_j36816459661705_2_alg».proof.Proof.KerValueLin
import proofs.«143715_j36816459661705_2_alg».proof.Proof.KerValueComb
import proofs.«143715_j36816459661705_2_alg».proof.Proof.EdgeBridge
import proofs.«143715_j36816459661705_2_alg».proof.Proof.RefEdges

noncomputable section

namespace Cert.Proof.Bridge

open Idealize.ShloMosaic Idealize.ShloMosaic.ValueIdx Idealize.ShloMosaic.TcCoe Idealize.SL.Sem
open Cert.Gnn Cert.Gnn.HostForm
open Cert.ReferenceIdeal.Hand

/-- A cell over 512 input features: the linear stage, its two edge aggregations, the combining stage. -/
def cellH512 (x : FVec Ideal ⟨2, ![40000, 512]⟩ .f32) (ei : IVec ⟨2, ![2, 640000]⟩ 32) (ew : FVec Ideal ⟨1, ![640000]⟩ .f32)
    (pw : FVec Ideal ⟨2, ![512, 128]⟩ .f32) (pb : FVec Ideal ⟨1, ![128]⟩ .f32)
    (cw0 cw1 : FVec Ideal ⟨2, ![128, 128]⟩ .f32) (cb : FVec Ideal ⟨1, ![128]⟩ .f32) (sw : FVec Ideal ⟨2, ![128, 128]⟩ .f32)
    (sb : FVec Ideal ⟨1, ![128]⟩ .f32) (lw : FVec Ideal ⟨2, ![128, 128]⟩ .f32) (lb : FVec Ideal ⟨1, ![128]⟩ .f32) :
    FVec Ideal ⟨2, ![40000, 128]⟩ .f32 :=
  comb Cert.ReferenceIdeal.Facts₀.dot_S40000x128_S128x128_S40000x128_1_0_0_1_n_n_wf Cert.ReferenceIdeal.Facts₀.bcast_S1x128_S40000x128_0_1 Cert.ReferenceIdeal.Facts₀.bcast_S128_S1x128_1
    Cert.ReferenceIdeal.Facts₀.bcast_S_S40000x128
    (lin Cert.ReferenceIdeal.Facts₀.dot_S40000x512_S512x128_S40000x128_1_0_0_1_n_n_wf Cert.ReferenceIdeal.Facts₀.bcast_S1x128_S40000x128_0_1 Cert.ReferenceIdeal.Facts₀.bcast_S128_S1x128_1 x pw pb)
    (txR (lin Cert.ReferenceIdeal.Facts₀.dot_S40000x512_S512x128_S40000x128_1_0_0_1_n_n_wf Cert.ReferenceIdeal.Facts₀.bcast_S1x128_S40000x128_0_1 Cert.ReferenceIdeal.Facts₀.bcast_S128_S1x128_1 x pw pb) ei ew)
    (aggR (lin Cert.ReferenceIdeal.Facts₀.dot_S40000x512_S512x128_S40000x128_1_0_0_1_n_n_wf Cert.ReferenceIdeal.Facts₀.bcast_S1x128_S40000x128_0_1 Cert.ReferenceIdeal.Facts₀.bcast_S128_S1x128_1 x pw pb) ei ew)
    cw0 cw1 cb sw sb lw lb

/-- A cell over 128 input features. -/
def cellH128 (x : FVec Ideal ⟨2, ![40000, 128]⟩ .f32) (ei : IVec ⟨2, ![2, 640000]⟩ 32) (ew : FVec Ideal ⟨1, ![640000]⟩ .f32)
    (pw : FVec Ideal ⟨2, ![128, 128]⟩ .f32) (pb : FVec Ideal ⟨1, ![128]⟩ .f32)
    (cw0 cw1 : FVec Ideal ⟨2, ![128, 128]⟩ .f32) (cb : FVec Ideal ⟨1, ![128]⟩ .f32) (sw : FVec Ideal ⟨2, ![128, 128]⟩ .f32)
    (sb : FVec Ideal ⟨1, ![128]⟩ .f32) (lw : FVec Ideal ⟨2, ![128, 128]⟩ .f32) (lb : FVec Ideal ⟨1, ![128]⟩ .f32) :
    FVec Ideal ⟨2, ![40000, 128]⟩ .f32 :=
  comb Cert.ReferenceIdeal.Facts₀.dot_S40000x128_S128x128_S40000x128_1_0_0_1_n_n_wf Cert.ReferenceIdeal.Facts₀.bcast_S1x128_S40000x128_0_1 Cert.ReferenceIdeal.Facts₀.bcast_S128_S1x128_1
    Cert.ReferenceIdeal.Facts₀.bcast_S_S40000x128
    (lin Cert.ReferenceIdeal.Facts₀.dot_S40000x128_S128x128_S40000x128_1_0_0_1_n_n_wf Cert.ReferenceIdeal.Facts₀.bcast_S1x128_S40000x128_0_1 Cert.ReferenceIdeal.Facts₀.bcast_S128_S1x128_1 x pw pb)
    (txR (lin Cert.ReferenceIdeal.Facts₀.dot_S40000x128_S128x128_S40000x128_1_0_0_1_n_n_wf Cert.ReferenceIdeal.Facts₀.bcast_S1x128_S40000x128_0_1 Cert.ReferenceIdeal.Facts₀.bcast_S128_S1x128_1 x pw pb) ei ew)
    (aggR (lin Cert.ReferenceIdeal.Facts₀.dot_S40000x128_S128x128_S40000x128_1_0_0_1_n_n_wf Cert.ReferenceIdeal.Facts₀.bcast_S1x128_S40000x128_0_1 Cert.ReferenceIdeal.Facts₀.bcast_S128_S1x128_1 x pw pb) ei ew)
    cw0 cw1 cb sw sb lw lb

/-- The network: two cells and the classifier. -/
def modelH (a0 : FVec Ideal ⟨2, ![40000, 512]⟩ .f32) (a1 : IVec ⟨2, ![2, 640000]⟩ 32) (a2 : FVec Ideal ⟨1, ![640000]⟩ .f32)
    (a3 : FVec Ideal ⟨2, ![512, 128]⟩ .f32) (a4 : FVec Ideal ⟨1, ![128]⟩ .f32)
    (a5 a6 : FVec Ideal ⟨2, ![128, 128]⟩ .f32) (a7 : FVec Ideal ⟨1, ![128]⟩ .f32) (a8 : FVec Ideal ⟨2, ![128, 128]⟩ .f32)
    (a9 : FVec Ideal ⟨1, ![128]⟩ .f32) (a10 : FVec Ideal ⟨2, ![128, 128]⟩ .f32) (a11 : FVec Ideal ⟨1, ![128]⟩ .f32)
    (a12 : FVec Ideal ⟨2, ![128, 128]⟩ .f32) (a13 : FVec Ideal ⟨1, ![128]⟩ .f32)
    (a14 a15 : FVec Ideal ⟨2, ![128, 128]⟩ .f32) (a16 : FVec Ideal ⟨1, ![128]⟩ .f32) (a17 : FVec Ideal ⟨2, ![128, 128]⟩ .f32)
    (a18 : FVec Ideal ⟨1, ![128]⟩ .f32) (a19 : FVec Ideal ⟨2, ![128, 128]⟩ .f32) (a20 : FVec Ideal ⟨1, ![128]⟩ .f32)
    (a21 : FVec Ideal ⟨2, ![128, 40]⟩ .f32) (a22 : FVec Ideal ⟨1, ![40]⟩ .f32) : FVec Ideal ⟨2, ![40000, 40]⟩ .f32 :=
  cls Cert.ReferenceIdeal.Facts₀.dot_S40000x128_S128x40_S40000x40_1_0_0_1_n_n_wf Cert.ReferenceIdeal.Facts₀.bcast_S1x40_S40000x40_0_1 Cert.ReferenceIdeal.Facts₀.bcast_S40_S1x40_1
    Cert.ReferenceIdeal.Facts₀.reducesTo_S40000x40_S40000_d1 Cert.ReferenceIdeal.Facts₀.h_S_ Cert.ReferenceIdeal.Facts₀.bcast_S_S40000 Cert.ReferenceIdeal.Facts₀.bcast_S40000_S40000x1_0 Cert.ReferenceIdeal.Facts₀.bcast_S40000x1_S40000x40_0_1
    (cellH128 (cellH512 a0 a1 a2 a3 a4 a5 a6 a7 a8 a9 a10 a11) a1 a2 a12 a13 a14 a15 a16 a17 a18 a19 a20) a21 a22

open Cert.KernelIdeal Cert.KernelIdeal.Gen Cert.KernelIdeal.Hand

variable (m : (ℓ : Loc nD τ sig) → Buf (Elt Ideal) ℓ) (ρ : Dev nD → PrngReg) (c : Dev nD)

/-- The kernel's result is the network of its launch arrays. -/
theorem ker_value :
    W20 (F := Ideal) m ρ c (Proc.devRef .tc main_v129)
      = modelH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  rw [stage4, stage3, stage2, stage1, stage0]
  simp only [Cert.EdgeBridge.tx_eq, Cert.EdgeBridge.agg_eq]
  rfl

end Cert.Proof.Bridge

end
-- ==== Proof.KerRun.lean ====
/-
  The run of the idealized kernel program with its result named.

  The program is five tiled regions among stretches of whole-array operations. The buffer contents at each boundary
  between two segments form a chain: a stretch of whole-array operations takes the contents to the operations'
  results, and a region replaces its own arrays by what its write-backs leave and keeps every other buffer. The last
  link of the chain is what the final memory holds at every buffer that lives through the run; read at the result
  buffer it names the result, and read at an argument it is the argument as launched.
-/
import proofs.«143715_j36816459661705_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program runs to the end, and every final state holds, on each core, the
    result buffer at the last link of the chain of boundary contents and every argument array as launched. -/
theorem run_out : θ_run defs (onTc (τ := τ) (main (F := F))) ⟨m, fun _ => 0, ρ⟩ (fun r => ∀ c : Dev nD,
      r.2.mem ((c.tc : Thread nD τ).loc main_v129) = Gen.W20 m ρ c (Proc.devRef .tc main_v129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v129 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c),
       (h c _ (mem_uc main_arg18 (by decide))).trans (W20_main_arg18 m ρ c),
       (h c _ (mem_uc main_arg19 (by decide))).trans (W20_main_arg19 m ρ c),
       (h c _ (mem_uc main_arg20 (by decide))).trans (W20_main_arg20 m ρ c),
       (h c _ (mem_uc main_arg21 (by decide))).trans (W20_main_arg21 m ρ c),
       (h c _ (mem_uc main_arg22 (by decide))).trans (W20_main_arg22 m ρ c)⟩)

end Cert.KernelIdeal.Hand

end
-- ==== Proof.RefOps.lean ====
/-
  The reference program's host operations as one list.

  The program is a straight line of tensor operations; the functions it calls (the selections by a mask, the leaky
  rectifier, the logarithm of the softmax) are written out at their call sites, each of their values at the buffer the
  call gives it. The list is cut where the program's text is cut, into five consecutive stretches.
-/
import proofs.«143715_j36816459661705_2_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F]
open Facts₀ Facts

/-- Stretch 0 of the program's operations (66 of them), in order. -/
abbrev ops0 : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.binary main_v1 main_v3 main_v4 (cmpi .eq : (⟨S640000, .i32⟩ : BufTy).Contents (Elt F) → (⟨S640000, .i32⟩ : BufTy).Contents (Elt F) → (⟨S640000, .i1⟩ : BufTy).Contents (Elt F)),
    StableHlo.binary main_arg0 main_arg3 main_v5 ((fun l r => Host.dotGeneral dot_S40000x512_S512x128_S40000x128_1_0_0_1_n_n none l r) : (⟨S40000x512, .f32⟩ : BufTy).Contents (Elt F) → (⟨S512x128, .f32⟩ : BufTy).Contents (Elt F) → (⟨S40000x128, .f32⟩ : BufTy).Contents (Elt F)),
    StableHlo.unary main_arg4 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S40000x128 ![0, 1] bcast_S1x128_S40000x128_0_1 : (⟨S1x128, .f32⟩ : BufTy).Contents (Elt F) → (⟨S40000x128, .f32⟩ : BufTy).Contents (Elt F)),
    StableHlo.binary main_v5 main_v7 main_v8 (addf : (⟨S40000x128, .f32⟩ : BufTy).Contents (Elt F) → (⟨S40000x128, .f32⟩ : BufTy).Contents (Elt F) → (⟨S40000x128, .f32⟩ : BufTy).Contents (Elt F)),
    StableHlo.nullary main_cst (constant S_ .f32 0x00000000#32),
    StableHlo.unary main_cst main_call0_v0 ((id) : (⟨S_, .f32⟩ : BufTy).Contents (Elt F) → (⟨S_, .f32⟩ : BufTy).Contents (Elt F)),
    StableHlo.unary main_call0_v0 main_call0_v1 ((broadcastInDim S640000 ![] bcast_S_S640000) : (⟨S_, .f32⟩ : BufTy).Contents (Elt F) → (⟨S640000, .f32⟩ : BufTy).Contents (Elt F)),
    StableHlo.ternary main_v4 main_call0_v1 main_arg2 main_v9 ((select) : (⟨S640000, .i1⟩ : BufTy).Contents (Elt F) → (⟨S640000, .f32⟩ : BufTy).Contents (Elt F) → (⟨S640000, .f32⟩ : BufTy).Contents (Elt F) → (⟨S640000, .f32⟩ : BufTy).Contents (Elt F)),
    StableHlo.nullary main_cst_0 (constant S_ .f32 0x00000000#32),
    StableHlo.unary main_cst_0 main_v10 (broadcastInDim S40000 ![] bcast_S_S40000 : (⟨S_, .f32⟩ : BufTy).Contents (Elt F) → (⟨S40000, .f32⟩ : BufTy).Contents (Elt F)),
    StableHlo.unary main_v1 main_v11 (broadcastInDim S640000x1 ![0] bcast_S640000_S640000x1_0 : (⟨S640000, .i32⟩ : BufTy).Contents (Elt F) → (⟨S640000x1, .i32⟩ : BufTy).Contents (Elt F)),
    StableHlo.ternary main_v10 main_v11 main_v9 main_v12 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_1 (constant S_ .f32 0x00000000#32),
    StableHlo.unary main_cst_1 main_v13 (broadcastInDim S40000 ![] bcast_S_S40000 : (⟨S_, .f32⟩ : BufTy).Contents (Elt F) → (⟨S40000, .f32⟩ : BufTy).Contents (Elt F)),
    StableHlo.binary main_v12 main_v13 main_v14 (cmpf .ogt : (⟨S40000, .f32⟩ : BufTy).Contents (Elt F) → (⟨S40000, .f32⟩ : BufTy).Contents (Elt F) → (⟨S40000, .i1⟩ : BufTy).Contents (Elt F)),
    StableHlo.nullary main_cst_2 (constant S_ .f32 0x00000000#32),
    StableHlo.unary main_cst_2 main_v15 (broadcastInDim S40000 ![] bcast_S_S40000 : (⟨S_, .f32⟩ : BufTy).Contents (Elt F) → (⟨S40000, .f32⟩ : BufTy).Contents (Elt F)),
    StableHlo.binary main_v12 main_v15 main_v16 (cmpf .ogt : (⟨S40000, .f32⟩ : BufTy).Contents (Elt F) → (⟨S40000, .f32⟩ : BufTy).Contents (Elt F) → (⟨S40000, .i1⟩ : BufTy).Contents (Elt F)),
    StableHlo.nullary main_cst_3 (constant S_ .f32 0x3F800000#32),
    StableHlo.unary main_cst_3 main_call1_v0 ((id) : (⟨S_, .f32⟩ : BufTy).Contents (Elt F) → (⟨S_, .f32⟩ : BufTy).Contents (Elt F)),
    StableHlo.unary main_call1_v0 main_call1_v1 ((broadcastInDim S40000 ![] bcast_S_S40000) : (⟨S_, .f32⟩ : BufTy).Contents (Elt F) → (⟨S40000, .f32⟩ : BufTy).Contents (Elt F)),
    StableHlo.ternary main_v16 main_v12 main_call1_v1 main_v17 ((select) : (⟨S40000, .i1⟩ : BufTy).Contents (Elt F) → (⟨S40000, .f32⟩ : BufTy).Contents (Elt F) → (⟨S40000, .f32⟩ : BufTy).Contents (Elt F) → (⟨S40000, .f32⟩ : BufTy).Contents (Elt F)),
    StableHlo.unary main_v17 main_v18 (Host.rsqrt : (⟨S40000, .f32⟩ : BufTy).Contents (Elt F) → (⟨S40000, .f32⟩ : BufTy).Contents (Elt F)),
    StableHlo.nullary main_cst_4 (constant S_ .f32 0x00000000#32),
    StableHlo.unary main_cst_4 main_call2_v0 ((id) : (⟨S_, .f32⟩ : BufTy).Contents (Elt F) → (⟨S_, .f32⟩ : BufTy).Contents (Elt F)),
    StableHlo.unary main_call2_v0 main_call2_v1 ((broadcastInDim S40000 ![] bcast_S_S40000) : (⟨S_, .f32⟩ : BufTy).Contents (Elt F) → (⟨S40000, .f32⟩ : BufTy).Contents (Elt F)),
    StableHlo.ternary main_v14 main_v18 main_call2_v1 main_v19 ((select) : (⟨S40000, .i1⟩ : BufTy).Contents (Elt F) → (⟨S40000, .f32⟩ : BufTy).Contents (Elt F) → (⟨S40000, .f32⟩ : BufTy).Contents (Elt F) → (⟨S40000, .f32⟩ : BufTy).Contents (Elt F)),
    StableHlo.nullary main_c (constantI S_ 32 0#32),
    StableHlo.unary main_c main_v20 (broadcastInDim S640000 ![] bcast_S_S640000 : (⟨S_, .i32⟩ : BufTy).Contents (Elt F) → (⟨S640000, .i32⟩ : BufTy).Contents (Elt F)),
    StableHlo.binary main_v1 main_v20 main_v21 (cmpi .slt : (⟨S640000, .i32⟩ : BufTy).Contents (Elt F) → (⟨S640000, .i32⟩ : BufTy).Contents (Elt F) → (⟨S640000, .i1⟩ : BufTy).Contents (Elt F)),
    StableHlo.nullary main_c_5 (constantI S_ 32 40000#32),
    StableHlo.unary main_c_5 main_v22 (broadcastInDim S640000 ![] bcast_S_S640000 : (⟨S_, .i32⟩ : BufTy).Contents (Elt F) → (⟨S640000, .i32⟩ : BufTy).Contents (Elt F)),
    StableHlo.binary main_v1 main_v22 main_v23 (addi : (⟨S640000, .i32⟩ : BufTy).Contents (Elt F) → (⟨S640000, .i32⟩ : BufTy).Contents (Elt F) → (⟨S640000, .i32⟩ : BufTy).Contents (Elt F)),
    StableHlo.ternary main_v21 main_v23 main_v1 main_v24 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v24 main_v25 (broadcastInDim S640000x1 ![0] bcast_S640000_S640000x1_0 : (⟨S640000, .i32⟩ : BufTy).Contents (Elt F) → (⟨S640000x1, .i32⟩ : BufTy).Contents (Elt F)),
    StableHlo.binary main_v19 main_v25 main_v26 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    StableHlo.unary main_v26 main_v27 (Host.negf : (⟨S640000, .f32⟩ : BufTy).Contents (Elt F) → (⟨S640000, .f32⟩ : BufTy).Contents (Elt F)),
    StableHlo.binary main_v27 main_v9 main_v28 (mulf : (⟨S640000, .f32⟩ : BufTy).Contents (Elt F) → (⟨S640000, .f32⟩ : BufTy).Contents (Elt F) → (⟨S640000, .f32⟩ : BufTy).Contents (Elt F)),
    StableHlo.nullary main_c_6 (constantI S_ 32 0#32),
    StableHlo.unary main_c_6 main_v29 (broadcastInDim S640000 ![] bcast_S_S640000 : (⟨S_, .i32⟩ : BufTy).Contents (Elt F) → (⟨S640000, .i32⟩ : BufTy).Contents (Elt F)),
    StableHlo.binary main_v3 main_v29 main_v30 (cmpi .slt : (⟨S640000, .i32⟩ : BufTy).Contents (Elt F) → (⟨S640000, .i32⟩ : BufTy).Contents (Elt F) → (⟨S640000, .i1⟩ : BufTy).Contents (Elt F)),
    StableHlo.nullary main_c_7 (constantI S_ 32 40000#32),
    StableHlo.unary main_c_7 main_v31 (broadcastInDim S640000 ![] bcast_S_S640000 : (⟨S_, .i32⟩ : BufTy).Contents (Elt F) → (⟨S640000, .i32⟩ : BufTy).Contents (Elt F)),
    StableHlo.binary main_v3 main_v31 main_v32 (addi : (⟨S640000, .i32⟩ : BufTy).Contents (Elt F) → (⟨S640000, .i32⟩ : BufTy).Contents (Elt F) → (⟨S640000, .i32⟩ : BufTy).Contents (Elt F)),
    StableHlo.ternary main_v30 main_v32 main_v3 main_v33 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v33 main_v34 (broadcastInDim S640000x1 ![0] bcast_S640000_S640000x1_0 : (⟨S640000, .i32⟩ : BufTy).Contents (Elt F) → (⟨S640000x1, .i32⟩ : BufTy).Contents (Elt F)),
    StableHlo.binary main_v19 main_v34 main_v35 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    StableHlo.binary main_v28 main_v35 main_v36 (mulf : (⟨S640000, .f32⟩ : BufTy).Contents (Elt F) → (⟨S640000, .f32⟩ : BufTy).Contents (Elt F) → (⟨S640000, .f32⟩ : BufTy).Contents (Elt F)),
    StableHlo.unary main_v36 main_v37 (broadcastInDim S640000x1 ![0] bcast_S640000_S640000x1_0 : (⟨S640000, .f32⟩ : BufTy).Contents (Elt F) → (⟨S640000x1, .f32⟩ : BufTy).Contents (Elt F)),
    StableHlo.nullary main_c_8 (constantI S_ 32 0#32),
    StableHlo.unary main_c_8 main_v38 (broadcastInDim S640000 ![] bcast_S_S640000 : (⟨S_, .i32⟩ : BufTy).Contents (Elt F) → (⟨S640000, .i32⟩ : BufTy).Contents (Elt F)),
    StableHlo.binary main_v1 main_v38 main_v39 (cmpi .slt : (⟨S640000, .i32⟩ : BufTy).Contents (Elt F) → (⟨S640000, .i32⟩ : BufTy).Contents (Elt F) → (⟨S640000, .i1⟩ : BufTy).Contents (Elt F)),
    StableHlo.nullary main_c_9 (constantI S_ 32 40000#32),
    StableHlo.unary main_c_9 main_v40 (broadcastInDim S640000 ![] bcast_S_S640000 : (⟨S_, .i32⟩ : BufTy).Contents (Elt F) → (⟨S640000, .i32⟩ : BufTy).Contents (Elt F)),
    StableHlo.binary main_v1 main_v40 main_v41 (addi : (⟨S640000, .i32⟩ : BufTy).Contents (Elt F) → (⟨S640000, .i32⟩ : BufTy).Contents (Elt F) → (⟨S640000, .i32⟩ : BufTy).Contents (Elt F)),
    StableHlo.ternary main_v39 main_v41 main_v1 main_v42 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v42 main_v43 (broadcastInDim S640000x1 ![0] bcast_S640000_S640000x1_0 : (⟨S640000, .i32⟩ : BufTy).Contents (Elt F) → (⟨S640000x1, .i32⟩ : BufTy).Contents (Elt F)),
    StableHlo.binary main_v8 main_v43 main_v44 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_v37 main_v45 (broadcastInDim S640000x128 ![0, 1] bcast_S640000x1_S640000x128_0_1 : (⟨S640000x1, .f32⟩ : BufTy).Contents (Elt F) → (⟨S640000x128, .f32⟩ : BufTy).Contents (Elt F)),
    StableHlo.binary main_v45 main_v44 main_v46 (mulf : (⟨S640000x128, .f32⟩ : BufTy).Contents (Elt F) → (⟨S640000x128, .f32⟩ : BufTy).Contents (Elt F) → (⟨S640000x128, .f32⟩ : BufTy).Contents (Elt F)),
    StableHlo.nullary main_cst_10 (constant S_ .f32 0x00000000#32) ]

/-- Stretch 1 of the program's operations (72 of them), in order. -/
abbrev ops1 : List (HloOp τ sig (Elt F)) :=
  [ StableHlo.unary main_cst_10 main_v47 (broadcastInDim S40000x128 ![] bcast_S_S40000x128 : (⟨S_, .f32⟩ : BufTy).Contents (Elt F) → (⟨S40000x128, .f32⟩ : BufTy).Contents (Elt F)),
    StableHlo.unary main_v3 main_v48 (broadcastInDim S640000x1 ![0] bcast_S640000_S640000x1_0 : (⟨S640000, .i32⟩ : BufTy).Contents (Elt F) → (⟨S640000x1, .i32⟩ : BufTy).Contents (Elt F)),
    StableHlo.ternary main_v47 main_v48 main_v46 main_v49 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.binary main_v8 main_arg5 main_v50 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.binary main_v49 main_arg6 main_v51 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.binary main_v50 main_v51 main_v52 (addf : (⟨S40000x128, .f32⟩ : BufTy).Contents (Elt F) → (⟨S40000x128, .f32⟩ : BufTy).Contents (Elt F) → (⟨S40000x128, .f32⟩ : BufTy).Contents (Elt F)),
    StableHlo.unary main_arg7 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S40000x128 ![0, 1] bcast_S1x128_S40000x128_0_1 : (⟨S1x128, .f32⟩ : BufTy).Contents (Elt F) → (⟨S40000x128, .f32⟩ : BufTy).Contents (Elt F)),
    StableHlo.binary main_v52 main_v54 main_v55 (addf : (⟨S40000x128, .f32⟩ : BufTy).Contents (Elt F) → (⟨S40000x128, .f32⟩ : BufTy).Contents (Elt F) → (⟨S40000x128, .f32⟩ : BufTy).Contents (Elt F)),
    StableHlo.nullary main_cst_11 (constant S_ .f32 0x3C23D70A#32),
    StableHlo.nullary main_call3_cst (constant S_ .f32 0x00000000#32),
    StableHlo.unary main_call3_cst main_call3_v0 ((broadcastInDim S40000x128 ![] bcast_S_S40000x128) : (⟨S_, .f32⟩ : BufTy).Contents (Elt F) → (⟨S40000x128, .f32⟩ : BufTy).Contents (Elt F)),
    StableHlo.binary main_v55 main_call3_v0 main_call3_v1 ((cmpf .oge) : (⟨S40000x128, .f32⟩ : BufTy).Contents (Elt F) → (⟨S40000x128, .f32⟩ : BufTy).Contents (Elt F) → (⟨S40000x128, .i1⟩ : BufTy).Contents (Elt F)),
    StableHlo.unary main_cst_11 main_call3_v2 ((id) : (⟨S_, .f32⟩ : BufTy).Contents (Elt F) → (⟨S_, .f32⟩ : BufTy).Contents (Elt F)),
    StableHlo.unary main_call3_v2 main_call3_v3 ((broadcastInDim S40000x128 ![] bcast_S_S40000x128) : (⟨S_, .f32⟩ : BufTy).Contents (Elt F) → (⟨S40000x128, .f32⟩ : BufTy).Contents (Elt F)),
    StableHlo.binary main_call3_v3 main_v55 main_call3_v4 ((mulf) : (⟨S40000x128, .f32⟩ : BufTy).Contents (Elt F) → (⟨S40000x128, .f32⟩ : BufTy).Contents (Elt F) → (⟨S40000x128, .f32⟩ : BufTy).Contents (Elt F)),
    StableHlo.ternary main_call3_v1 main_v55 main_call3_v4 main_v56 ((select) : (⟨S40000x128, .i1⟩ : BufTy).Contents (Elt F) → (⟨S40000x128, .f32⟩ : BufTy).Contents (Elt F) → (⟨S40000x128, .f32⟩ : BufTy).Contents (Elt F) → (⟨S40000x128, .f32⟩ : BufTy).Contents (Elt F)),
    StableHlo.nullary main_cst_12 (constant S_ .f32 0x3F800000#32),
    StableHlo.unary main_cst_12 main_v57 (broadcastInDim S40000 ![] bcast_S_S40000 : (⟨S_, .f32⟩ : BufTy).Contents (Elt F) → (⟨S40000, .f32⟩ : BufTy).Contents (Elt F)),
    StableHlo.nullary main_c_13 (constantI S_ 32 40000#32),
    StableHlo.unary main_c_13 main_call4_v0 ((id) : (⟨S_, .i32⟩ : BufTy).Contents (Elt F) → (⟨S_, .i32⟩ : BufTy).Contents (Elt F)),
    StableHlo.unary main_call4_v0 main_call4_v1 ((broadcastInDim S640000 ![] bcast_S_S640000) : (⟨S_, .i32⟩ : BufTy).Contents (Elt F) → (⟨S640000, .i32⟩ : BufTy).Contents (Elt F)),
    StableHlo.ternary main_v4 main_v1 main_call4_v1 main_v58 ((select) : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.nullary main_c_14 (constantI S_ 32 0#32),
    StableHlo.unary main_c_14 main_v59 (broadcastInDim S640000 ![] bcast_S_S640000 : (⟨S_, .i32⟩ : BufTy).Contents (Elt F) → (⟨S640000, .i32⟩ : BufTy).Contents (Elt F)),
    StableHlo.binary main_v58 main_v59 main_v60 (cmpi .slt : (⟨S640000, .i32⟩ : BufTy).Contents (Elt F) → (⟨S640000, .i32⟩ : BufTy).Contents (Elt F) → (⟨S640000, .i1⟩ : BufTy).Contents (Elt F)),
    StableHlo.nullary main_c_15 (constantI S_ 32 40000#32),
    StableHlo.unary main_c_15 main_v61 (broadcastInDim S640000 ![] bcast_S_S640000 : (⟨S_, .i32⟩ : BufTy).Contents (Elt F) → (⟨S640000, .i32⟩ : BufTy).Contents (Elt F)),
    StableHlo.binary main_v58 main_v61 main_v62 (addi : (⟨S640000, .i32⟩ : BufTy).Contents (Elt F) → (⟨S640000, .i32⟩ : BufTy).Contents (Elt F) → (⟨S640000, .i32⟩ : BufTy).Contents (Elt F)),
    StableHlo.ternary main_v60 main_v62 main_v58 main_v63 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v63 main_v64 (broadcastInDim S640000x1 ![0] bcast_S640000_S640000x1_0 : (⟨S640000, .i32⟩ : BufTy).Contents (Elt F) → (⟨S640000x1, .i32⟩ : BufTy).Contents (Elt F)),
    StableHlo.ternary main_v57 main_v64 main_arg2 main_v65 ((fun x i u => Host.scatter scatter_S40000_S640000x1_S640000_n_0_0_1 (fun _ b => b) x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_16 (constant S_ .f32 0x00000000#32),
    StableHlo.unary main_cst_16 main_call5_v0 ((id) : (⟨S_, .f32⟩ : BufTy).Contents (Elt F) → (⟨S_, .f32⟩ : BufTy).Contents (Elt F)),
    StableHlo.unary main_call5_v0 main_call5_v1 ((broadcastInDim S640000 ![] bcast_S_S640000) : (⟨S_, .f32⟩ : BufTy).Contents (Elt F) → (⟨S640000, .f32⟩ : BufTy).Contents (Elt F)),
    StableHlo.ternary main_v4 main_call5_v1 main_arg2 main_v66 ((select) : (⟨S640000, .i1⟩ : BufTy).Contents (Elt F) → (⟨S640000, .f32⟩ : BufTy).Contents (Elt F) → (⟨S640000, .f32⟩ : BufTy).Contents (Elt F) → (⟨S640000, .f32⟩ : BufTy).Contents (Elt F)),
    StableHlo.unary main_v66 main_v67 (broadcastInDim S640000x1 ![0] bcast_S640000_S640000x1_0 : (⟨S640000, .f32⟩ : BufTy).Contents (Elt F) → (⟨S640000x1, .f32⟩ : BufTy).Contents (Elt F)),
    StableHlo.nullary main_c_17 (constantI S_ 32 0#32),
    StableHlo.unary main_c_17 main_v68 (broadcastInDim S640000 ![] bcast_S_S640000 : (⟨S_, .i32⟩ : BufTy).Contents (Elt F) → (⟨S640000, .i32⟩ : BufTy).Contents (Elt F)),
    StableHlo.binary main_v1 main_v68 main_v69 (cmpi .slt : (⟨S640000, .i32⟩ : BufTy).Contents (Elt F) → (⟨S640000, .i32⟩ : BufTy).Contents (Elt F) → (⟨S640000, .i1⟩ : BufTy).Contents (Elt F)),
    StableHlo.nullary main_c_18 (constantI S_ 32 40000#32),
    StableHlo.unary main_c_18 main_v70 (broadcastInDim S640000 ![] bcast_S_S640000 : (⟨S_, .i32⟩ : BufTy).Contents (Elt F) → (⟨S640000, .i32⟩ : BufTy).Contents (Elt F)),
    StableHlo.binary main_v1 main_v70 main_v71 (addi : (⟨S640000, .i32⟩ : BufTy).Contents (Elt F) → (⟨S640000, .i32⟩ : BufTy).Contents (Elt F) → (⟨S640000, .i32⟩ : BufTy).Contents (Elt F)),
    StableHlo.ternary main_v69 main_v71 main_v1 main_v72 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v72 main_v73 (broadcastInDim S640000x1 ![0] bcast_S640000_S640000x1_0 : (⟨S640000, .i32⟩ : BufTy).Contents (Elt F) → (⟨S640000x1, .i32⟩ : BufTy).Contents (Elt F)),
    StableHlo.binary main_v8 main_v73 main_v74 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_v67 main_v75 (broadcastInDim S640000x128 ![0, 1] bcast_S640000x1_S640000x128_0_1 : (⟨S640000x1, .f32⟩ : BufTy).Contents (Elt F) → (⟨S640000x128, .f32⟩ : BufTy).Contents (Elt F)),
    StableHlo.binary main_v75 main_v74 main_v76 (mulf : (⟨S640000x128, .f32⟩ : BufTy).Contents (Elt F) → (⟨S640000x128, .f32⟩ : BufTy).Contents (Elt F) → (⟨S640000x128, .f32⟩ : BufTy).Contents (Elt F)),
    StableHlo.nullary main_cst_19 (constant S_ .f32 0x00000000#32),
    StableHlo.unary main_cst_19 main_v77 (broadcastInDim S40000x128 ![] bcast_S_S40000x128 : (⟨S_, .f32⟩ : BufTy).Contents (Elt F) → (⟨S40000x128, .f32⟩ : BufTy).Contents (Elt F)),
    StableHlo.unary main_v3 main_v78 (broadcastInDim S640000x1 ![0] bcast_S640000_S640000x1_0 : (⟨S640000, .i32⟩ : BufTy).Contents (Elt F) → (⟨S640000x1, .i32⟩ : BufTy).Contents (Elt F)),
    StableHlo.ternary main_v77 main_v78 main_v76 main_v79 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.unary main_v65 main_v80 (broadcastInDim S40000x1 ![0] bcast_S40000_S40000x1_0 : (⟨S40000, .f32⟩ : BufTy).Contents (Elt F) → (⟨S40000x1, .f32⟩ : BufTy).Contents (Elt F)),
    StableHlo.unary main_v80 main_v81 (broadcastInDim S40000x128 ![0, 1] bcast_S40000x1_S40000x128_0_1 : (⟨S40000x1, .f32⟩ : BufTy).Contents (Elt F) → (⟨S40000x128, .f32⟩ : BufTy).Contents (Elt F)),
    StableHlo.binary main_v81 main_v8 main_v82 (mulf : (⟨S40000x128, .f32⟩ : BufTy).Contents (Elt F) → (⟨S40000x128, .f32⟩ : BufTy).Contents (Elt F) → (⟨S40000x128, .f32⟩ : BufTy).Contents (Elt F)),
    StableHlo.binary main_v79 main_v82 main_v83 (addf : (⟨S40000x128, .f32⟩ : BufTy).Contents (Elt F) → (⟨S40000x128, .f32⟩ : BufTy).Contents (Elt F) → (⟨S40000x128, .f32⟩ : BufTy).Contents (Elt F)),
    StableHlo.nullary main_cst_20 (constant S_ .f32 0x00000000#32),
    StableHlo.nullary main_cst_21 (constant S_ .f32 0x3F800000#32),
    StableHlo.unary main_cst_20 main_call6_v0 ((broadcastInDim S640000 ![] bcast_S_S640000) : (⟨S_, .f32⟩ : BufTy).Contents (Elt F) → (⟨S640000, .f32⟩ : BufTy).Contents (Elt F)),
    StableHlo.unary main_cst_21 main_call6_v1 ((broadcastInDim S640000 ![] bcast_S_S640000) : (⟨S_, .f32⟩ : BufTy).Contents (Elt F) → (⟨S640000, .f32⟩ : BufTy).Contents (Elt F)),
    StableHlo.ternary main_v4 main_call6_v0 main_call6_v1 main_v84 ((select) : (⟨S640000, .i1⟩ : BufTy).Contents (Elt F) → (⟨S640000, .f32⟩ : BufTy).Contents (Elt F) → (⟨S640000, .f32⟩ : BufTy).Contents (Elt F) → (⟨S640000, .f32⟩ : BufTy).Contents (Elt F)),
    StableHlo.nullary main_cst_22 (constant S_ .f32 0x00000000#32),
    StableHlo.unary main_cst_22 main_v85 (broadcastInDim S40000 ![] bcast_S_S40000 : (⟨S_, .f32⟩ : BufTy).Contents (Elt F) → (⟨S40000, .f32⟩ : BufTy).Contents (Elt F)),
    StableHlo.unary main_v3 main_v86 (broadcastInDim S640000x1 ![0] bcast_S640000_S640000x1_0 : (⟨S640000, .i32⟩ : BufTy).Contents (Elt F) → (⟨S640000x1, .i32⟩ : BufTy).Contents (Elt F)),
    StableHlo.unary main_v84 main_v87 (id : (⟨S640000, .f32⟩ : BufTy).Contents (Elt F) → (⟨S640000, .f32⟩ : BufTy).Contents (Elt F)),
    StableHlo.ternary main_v85 main_v86 main_v87 main_v88 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_23 (constant S_ .f32 0x3F800000#32),
    StableHlo.unary main_cst_23 main_v89 (broadcastInDim S40000 ![] bcast_S_S40000 : (⟨S_, .f32⟩ : BufTy).Contents (Elt F) → (⟨S40000, .f32⟩ : BufTy).Contents (Elt F)),
    StableHlo.binary main_v88 main_v89 main_v90 (addf : (⟨S40000, .f32⟩ : BufTy).Contents (Elt F) → (⟨S40000, .f32⟩ : BufTy).Contents (Elt F) → (⟨S40000, .f32⟩ : BufTy).Contents (Elt F)),
    StableHlo.unary main_v90 main_v91 (broadcastInDim S40000x1 ![0] bcast_S40000_S40000x1_0 : (⟨S40000, .f32⟩ : BufTy).Contents (Elt F) → (⟨S40000x1, .f32⟩ : BufTy).Contents (Elt F)),
    StableHlo.unary main_v91 main_v92 (broadcastInDim S40000x128 ![0, 1] bcast_S40000x1_S40000x128_0_1 : (⟨S40000x1, .f32⟩ : BufTy).Contents (Elt F) → (⟨S40000x128, .f32⟩ : BufTy).Contents (Elt F)),
    StableHlo.binary main_v83 main_v92 main_v93 (Host.divf : (⟨S40000x128, .f32⟩ : BufTy).Contents (Elt F) → (⟨S40000x128, .f32⟩ : BufTy).Contents (Elt F) → (⟨S40000x128, .f32⟩ : BufTy).Contents (Elt F)) ]

/-- Stretch 2 of the program's operations (72 of them), in order. -/
abbrev ops2 : List (HloOp τ sig (Elt F)) :=
  [ StableHlo.binary main_v93 main_arg8 main_v94 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg9 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S40000x128 ![0, 1] bcast_S1x128_S40000x128_0_1 : (⟨S1x128, .f32⟩ : BufTy).Contents (Elt F) → (⟨S40000x128, .f32⟩ : BufTy).Contents (Elt F)),
    StableHlo.binary main_v94 main_v96 main_v97 (addf : (⟨S40000x128, .f32⟩ : BufTy).Contents (Elt F) → (⟨S40000x128, .f32⟩ : BufTy).Contents (Elt F) → (⟨S40000x128, .f32⟩ : BufTy).Contents (Elt F)),
    StableHlo.nullary main_cst_24 (constant S_ .f32 0x3C23D70A#32),
    StableHlo.nullary main_call7_cst (constant S_ .f32 0x00000000#32),
    StableHlo.unary main_call7_cst main_call7_v0 ((broadcastInDim S40000x128 ![] bcast_S_S40000x128) : (⟨S_, .f32⟩ : BufTy).Contents (Elt F) → (⟨S40000x128, .f32⟩ : BufTy).Contents (Elt F)),
    StableHlo.binary main_v97 main_call7_v0 main_call7_v1 ((cmpf .oge) : (⟨S40000x128, .f32⟩ : BufTy).Contents (Elt F) → (⟨S40000x128, .f32⟩ : BufTy).Contents (Elt F) → (⟨S40000x128, .i1⟩ : BufTy).Contents (Elt F)),
    StableHlo.unary main_cst_24 main_call7_v2 ((id) : (⟨S_, .f32⟩ : BufTy).Contents (Elt F) → (⟨S_, .f32⟩ : BufTy).Contents (Elt F)),
    StableHlo.unary main_call7_v2 main_call7_v3 ((broadcastInDim S40000x128 ![] bcast_S_S40000x128) : (⟨S_, .f32⟩ : BufTy).Contents (Elt F) → (⟨S40000x128, .f32⟩ : BufTy).Contents (Elt F)),
    StableHlo.binary main_call7_v3 main_v97 main_call7_v4 ((mulf) : (⟨S40000x128, .f32⟩ : BufTy).Contents (Elt F) → (⟨S40000x128, .f32⟩ : BufTy).Contents (Elt F) → (⟨S40000x128, .f32⟩ : BufTy).Contents (Elt F)),
    StableHlo.ternary main_call7_v1 main_v97 main_call7_v4 main_v98 ((select) : (⟨S40000x128, .i1⟩ : BufTy).Contents (Elt F) → (⟨S40000x128, .f32⟩ : BufTy).Contents (Elt F) → (⟨S40000x128, .f32⟩ : BufTy).Contents (Elt F) → (⟨S40000x128, .f32⟩ : BufTy).Contents (Elt F)),
    StableHlo.binary main_v56 main_v98 main_v99 (addf : (⟨S40000x128, .f32⟩ : BufTy).Contents (Elt F) → (⟨S40000x128, .f32⟩ : BufTy).Contents (Elt F) → (⟨S40000x128, .f32⟩ : BufTy).Contents (Elt F)),
    StableHlo.binary main_v99 main_arg10 main_v100 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg11 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S40000x128 ![0, 1] bcast_S1x128_S40000x128_0_1 : (⟨S1x128, .f32⟩ : BufTy).Contents (Elt F) → (⟨S40000x128, .f32⟩ : BufTy).Contents (Elt F)),
    StableHlo.binary main_v100 main_v102 main_v103 (addf : (⟨S40000x128, .f32⟩ : BufTy).Contents (Elt F) → (⟨S40000x128, .f32⟩ : BufTy).Contents (Elt F) → (⟨S40000x128, .f32⟩ : BufTy).Contents (Elt F)),
    StableHlo.binary main_v103 main_arg12 main_v104 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg13 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S40000x128 ![0, 1] bcast_S1x128_S40000x128_0_1 : (⟨S1x128, .f32⟩ : BufTy).Contents (Elt F) → (⟨S40000x128, .f32⟩ : BufTy).Contents (Elt F)),
    StableHlo.binary main_v104 main_v106 main_v107 (addf : (⟨S40000x128, .f32⟩ : BufTy).Contents (Elt F) → (⟨S40000x128, .f32⟩ : BufTy).Contents (Elt F) → (⟨S40000x128, .f32⟩ : BufTy).Contents (Elt F)),
    StableHlo.nullary main_cst_25 (constant S_ .f32 0x00000000#32),
    StableHlo.unary main_cst_25 main_call8_v0 ((id) : (⟨S_, .f32⟩ : BufTy).Contents (Elt F) → (⟨S_, .f32⟩ : BufTy).Contents (Elt F)),
    StableHlo.unary main_call8_v0 main_call8_v1 ((broadcastInDim S640000 ![] bcast_S_S640000) : (⟨S_, .f32⟩ : BufTy).Contents (Elt F) → (⟨S640000, .f32⟩ : BufTy).Contents (Elt F)),
    StableHlo.ternary main_v4 main_call8_v1 main_arg2 main_v108 ((select) : (⟨S640000, .i1⟩ : BufTy).Contents (Elt F) → (⟨S640000, .f32⟩ : BufTy).Contents (Elt F) → (⟨S640000, .f32⟩ : BufTy).Contents (Elt F) → (⟨S640000, .f32⟩ : BufTy).Contents (Elt F)),
    StableHlo.nullary main_cst_26 (constant S_ .f32 0x00000000#32),
    StableHlo.unary main_cst_26 main_v109 (broadcastInDim S40000 ![] bcast_S_S40000 : (⟨S_, .f32⟩ : BufTy).Contents (Elt F) → (⟨S40000, .f32⟩ : BufTy).Contents (Elt F)),
    StableHlo.unary main_v1 main_v110 (broadcastInDim S640000x1 ![0] bcast_S640000_S640000x1_0 : (⟨S640000, .i32⟩ : BufTy).Contents (Elt F) → (⟨S640000x1, .i32⟩ : BufTy).Contents (Elt F)),
    StableHlo.ternary main_v109 main_v110 main_v108 main_v111 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_27 (constant S_ .f32 0x00000000#32),
    StableHlo.unary main_cst_27 main_v112 (broadcastInDim S40000 ![] bcast_S_S40000 : (⟨S_, .f32⟩ : BufTy).Contents (Elt F) → (⟨S40000, .f32⟩ : BufTy).Contents (Elt F)),
    StableHlo.binary main_v111 main_v112 main_v113 (cmpf .ogt : (⟨S40000, .f32⟩ : BufTy).Contents (Elt F) → (⟨S40000, .f32⟩ : BufTy).Contents (Elt F) → (⟨S40000, .i1⟩ : BufTy).Contents (Elt F)),
    StableHlo.nullary main_cst_28 (constant S_ .f32 0x00000000#32),
    StableHlo.unary main_cst_28 main_v114 (broadcastInDim S40000 ![] bcast_S_S40000 : (⟨S_, .f32⟩ : BufTy).Contents (Elt F) → (⟨S40000, .f32⟩ : BufTy).Contents (Elt F)),
    StableHlo.binary main_v111 main_v114 main_v115 (cmpf .ogt : (⟨S40000, .f32⟩ : BufTy).Contents (Elt F) → (⟨S40000, .f32⟩ : BufTy).Contents (Elt F) → (⟨S40000, .i1⟩ : BufTy).Contents (Elt F)),
    StableHlo.nullary main_cst_29 (constant S_ .f32 0x3F800000#32),
    StableHlo.unary main_cst_29 main_call9_v0 ((id) : (⟨S_, .f32⟩ : BufTy).Contents (Elt F) → (⟨S_, .f32⟩ : BufTy).Contents (Elt F)),
    StableHlo.unary main_call9_v0 main_call9_v1 ((broadcastInDim S40000 ![] bcast_S_S40000) : (⟨S_, .f32⟩ : BufTy).Contents (Elt F) → (⟨S40000, .f32⟩ : BufTy).Contents (Elt F)),
    StableHlo.ternary main_v115 main_v111 main_call9_v1 main_v116 ((select) : (⟨S40000, .i1⟩ : BufTy).Contents (Elt F) → (⟨S40000, .f32⟩ : BufTy).Contents (Elt F) → (⟨S40000, .f32⟩ : BufTy).Contents (Elt F) → (⟨S40000, .f32⟩ : BufTy).Contents (Elt F)),
    StableHlo.unary main_v116 main_v117 (Host.rsqrt : (⟨S40000, .f32⟩ : BufTy).Contents (Elt F) → (⟨S40000, .f32⟩ : BufTy).Contents (Elt F)),
    StableHlo.nullary main_cst_30 (constant S_ .f32 0x00000000#32),
    StableHlo.unary main_cst_30 main_call10_v0 ((id) : (⟨S_, .f32⟩ : BufTy).Contents (Elt F) → (⟨S_, .f32⟩ : BufTy).Contents (Elt F)),
    StableHlo.unary main_call10_v0 main_call10_v1 ((broadcastInDim S40000 ![] bcast_S_S40000) : (⟨S_, .f32⟩ : BufTy).Contents (Elt F) → (⟨S40000, .f32⟩ : BufTy).Contents (Elt F)),
    StableHlo.ternary main_v113 main_v117 main_call10_v1 main_v118 ((select) : (⟨S40000, .i1⟩ : BufTy).Contents (Elt F) → (⟨S40000, .f32⟩ : BufTy).Contents (Elt F) → (⟨S40000, .f32⟩ : BufTy).Contents (Elt F) → (⟨S40000, .f32⟩ : BufTy).Contents (Elt F)),
    StableHlo.nullary main_c_31 (constantI S_ 32 0#32),
    StableHlo.unary main_c_31 main_v119 (broadcastInDim S640000 ![] bcast_S_S640000 : (⟨S_, .i32⟩ : BufTy).Contents (Elt F) → (⟨S640000, .i32⟩ : BufTy).Contents (Elt F)),
    StableHlo.binary main_v1 main_v119 main_v120 (cmpi .slt : (⟨S640000, .i32⟩ : BufTy).Contents (Elt F) → (⟨S640000, .i32⟩ : BufTy).Contents (Elt F) → (⟨S640000, .i1⟩ : BufTy).Contents (Elt F)),
    StableHlo.nullary main_c_32 (constantI S_ 32 40000#32),
    StableHlo.unary main_c_32 main_v121 (broadcastInDim S640000 ![] bcast_S_S640000 : (⟨S_, .i32⟩ : BufTy).Contents (Elt F) → (⟨S640000, .i32⟩ : BufTy).Contents (Elt F)),
    StableHlo.binary main_v1 main_v121 main_v122 (addi : (⟨S640000, .i32⟩ : BufTy).Contents (Elt F) → (⟨S640000, .i32⟩ : BufTy).Contents (Elt F) → (⟨S640000, .i32⟩ : BufTy).Contents (Elt F)),
    StableHlo.ternary main_v120 main_v122 main_v1 main_v123 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v123 main_v124 (broadcastInDim S640000x1 ![0] bcast_S640000_S640000x1_0 : (⟨S640000, .i32⟩ : BufTy).Contents (Elt F) → (⟨S640000x1, .i32⟩ : BufTy).Contents (Elt F)),
    StableHlo.binary main_v118 main_v124 main_v125 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    StableHlo.unary main_v125 main_v126 (Host.negf : (⟨S640000, .f32⟩ : BufTy).Contents (Elt F) → (⟨S640000, .f32⟩ : BufTy).Contents (Elt F)),
    StableHlo.binary main_v126 main_v108 main_v127 (mulf : (⟨S640000, .f32⟩ : BufTy).Contents (Elt F) → (⟨S640000, .f32⟩ : BufTy).Contents (Elt F) → (⟨S640000, .f32⟩ : BufTy).Contents (Elt F)),
    StableHlo.nullary main_c_33 (constantI S_ 32 0#32),
    StableHlo.unary main_c_33 main_v128 (broadcastInDim S640000 ![] bcast_S_S640000 : (⟨S_, .i32⟩ : BufTy).Contents (Elt F) → (⟨S640000, .i32⟩ : BufTy).Contents (Elt F)),
    StableHlo.binary main_v3 main_v128 main_v129 (cmpi .slt : (⟨S640000, .i32⟩ : BufTy).Contents (Elt F) → (⟨S640000, .i32⟩ : BufTy).Contents (Elt F) → (⟨S640000, .i1⟩ : BufTy).Contents (Elt F)),
    StableHlo.nullary main_c_34 (constantI S_ 32 40000#32),
    StableHlo.unary main_c_34 main_v130 (broadcastInDim S640000 ![] bcast_S_S640000 : (⟨S_, .i32⟩ : BufTy).Contents (Elt F) → (⟨S640000, .i32⟩ : BufTy).Contents (Elt F)),
    StableHlo.binary main_v3 main_v130 main_v131 (addi : (⟨S640000, .i32⟩ : BufTy).Contents (Elt F) → (⟨S640000, .i32⟩ : BufTy).Contents (Elt F) → (⟨S640000, .i32⟩ : BufTy).Contents (Elt F)),
    StableHlo.ternary main_v129 main_v131 main_v3 main_v132 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v132 main_v133 (broadcastInDim S640000x1 ![0] bcast_S640000_S640000x1_0 : (⟨S640000, .i32⟩ : BufTy).Contents (Elt F) → (⟨S640000x1, .i32⟩ : BufTy).Contents (Elt F)),
    StableHlo.binary main_v118 main_v133 main_v134 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    StableHlo.binary main_v127 main_v134 main_v135 (mulf : (⟨S640000, .f32⟩ : BufTy).Contents (Elt F) → (⟨S640000, .f32⟩ : BufTy).Contents (Elt F) → (⟨S640000, .f32⟩ : BufTy).Contents (Elt F)),
    StableHlo.unary main_v135 main_v136 (broadcastInDim S640000x1 ![0] bcast_S640000_S640000x1_0 : (⟨S640000, .f32⟩ : BufTy).Contents (Elt F) → (⟨S640000x1, .f32⟩ : BufTy).Contents (Elt F)),
    StableHlo.nullary main_c_35 (constantI S_ 32 0#32),
    StableHlo.unary main_c_35 main_v137 (broadcastInDim S640000 ![] bcast_S_S640000 : (⟨S_, .i32⟩ : BufTy).Contents (Elt F) → (⟨S640000, .i32⟩ : BufTy).Contents (Elt F)),
    StableHlo.binary main_v1 main_v137 main_v138 (cmpi .slt : (⟨S640000, .i32⟩ : BufTy).Contents (Elt F) → (⟨S640000, .i32⟩ : BufTy).Contents (Elt F) → (⟨S640000, .i1⟩ : BufTy).Contents (Elt F)),
    StableHlo.nullary main_c_36 (constantI S_ 32 40000#32),
    StableHlo.unary main_c_36 main_v139 (broadcastInDim S640000 ![] bcast_S_S640000 : (⟨S_, .i32⟩ : BufTy).Contents (Elt F) → (⟨S640000, .i32⟩ : BufTy).Contents (Elt F)),
    StableHlo.binary main_v1 main_v139 main_v140 (addi : (⟨S640000, .i32⟩ : BufTy).Contents (Elt F) → (⟨S640000, .i32⟩ : BufTy).Contents (Elt F) → (⟨S640000, .i32⟩ : BufTy).Contents (Elt F)) ]

/-- Stretch 3 of the program's operations (72 of them), in order. -/
abbrev ops3 : List (HloOp τ sig (Elt F)) :=
  [ StableHlo.ternary main_v138 main_v140 main_v1 main_v141 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v141 main_v142 (broadcastInDim S640000x1 ![0] bcast_S640000_S640000x1_0 : (⟨S640000, .i32⟩ : BufTy).Contents (Elt F) → (⟨S640000x1, .i32⟩ : BufTy).Contents (Elt F)),
    StableHlo.binary main_v107 main_v142 main_v143 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_v136 main_v144 (broadcastInDim S640000x128 ![0, 1] bcast_S640000x1_S640000x128_0_1 : (⟨S640000x1, .f32⟩ : BufTy).Contents (Elt F) → (⟨S640000x128, .f32⟩ : BufTy).Contents (Elt F)),
    StableHlo.binary main_v144 main_v143 main_v145 (mulf : (⟨S640000x128, .f32⟩ : BufTy).Contents (Elt F) → (⟨S640000x128, .f32⟩ : BufTy).Contents (Elt F) → (⟨S640000x128, .f32⟩ : BufTy).Contents (Elt F)),
    StableHlo.nullary main_cst_37 (constant S_ .f32 0x00000000#32),
    StableHlo.unary main_cst_37 main_v146 (broadcastInDim S40000x128 ![] bcast_S_S40000x128 : (⟨S_, .f32⟩ : BufTy).Contents (Elt F) → (⟨S40000x128, .f32⟩ : BufTy).Contents (Elt F)),
    StableHlo.unary main_v3 main_v147 (broadcastInDim S640000x1 ![0] bcast_S640000_S640000x1_0 : (⟨S640000, .i32⟩ : BufTy).Contents (Elt F) → (⟨S640000x1, .i32⟩ : BufTy).Contents (Elt F)),
    StableHlo.ternary main_v146 main_v147 main_v145 main_v148 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.binary main_v107 main_arg14 main_v149 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.binary main_v148 main_arg15 main_v150 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.binary main_v149 main_v150 main_v151 (addf : (⟨S40000x128, .f32⟩ : BufTy).Contents (Elt F) → (⟨S40000x128, .f32⟩ : BufTy).Contents (Elt F) → (⟨S40000x128, .f32⟩ : BufTy).Contents (Elt F)),
    StableHlo.unary main_arg16 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S40000x128 ![0, 1] bcast_S1x128_S40000x128_0_1 : (⟨S1x128, .f32⟩ : BufTy).Contents (Elt F) → (⟨S40000x128, .f32⟩ : BufTy).Contents (Elt F)),
    StableHlo.binary main_v151 main_v153 main_v154 (addf : (⟨S40000x128, .f32⟩ : BufTy).Contents (Elt F) → (⟨S40000x128, .f32⟩ : BufTy).Contents (Elt F) → (⟨S40000x128, .f32⟩ : BufTy).Contents (Elt F)),
    StableHlo.nullary main_cst_38 (constant S_ .f32 0x3C23D70A#32),
    StableHlo.nullary main_call11_cst (constant S_ .f32 0x00000000#32),
    StableHlo.unary main_call11_cst main_call11_v0 ((broadcastInDim S40000x128 ![] bcast_S_S40000x128) : (⟨S_, .f32⟩ : BufTy).Contents (Elt F) → (⟨S40000x128, .f32⟩ : BufTy).Contents (Elt F)),
    StableHlo.binary main_v154 main_call11_v0 main_call11_v1 ((cmpf .oge) : (⟨S40000x128, .f32⟩ : BufTy).Contents (Elt F) → (⟨S40000x128, .f32⟩ : BufTy).Contents (Elt F) → (⟨S40000x128, .i1⟩ : BufTy).Contents (Elt F)),
    StableHlo.unary main_cst_38 main_call11_v2 ((id) : (⟨S_, .f32⟩ : BufTy).Contents (Elt F) → (⟨S_, .f32⟩ : BufTy).Contents (Elt F)),
    StableHlo.unary main_call11_v2 main_call11_v3 ((broadcastInDim S40000x128 ![] bcast_S_S40000x128) : (⟨S_, .f32⟩ : BufTy).Contents (Elt F) → (⟨S40000x128, .f32⟩ : BufTy).Contents (Elt F)),
    StableHlo.binary main_call11_v3 main_v154 main_call11_v4 ((mulf) : (⟨S40000x128, .f32⟩ : BufTy).Contents (Elt F) → (⟨S40000x128, .f32⟩ : BufTy).Contents (Elt F) → (⟨S40000x128, .f32⟩ : BufTy).Contents (Elt F)),
    StableHlo.ternary main_call11_v1 main_v154 main_call11_v4 main_v155 ((select) : (⟨S40000x128, .i1⟩ : BufTy).Contents (Elt F) → (⟨S40000x128, .f32⟩ : BufTy).Contents (Elt F) → (⟨S40000x128, .f32⟩ : BufTy).Contents (Elt F) → (⟨S40000x128, .f32⟩ : BufTy).Contents (Elt F)),
    StableHlo.nullary main_cst_39 (constant S_ .f32 0x3F800000#32),
    StableHlo.unary main_cst_39 main_v156 (broadcastInDim S40000 ![] bcast_S_S40000 : (⟨S_, .f32⟩ : BufTy).Contents (Elt F) → (⟨S40000, .f32⟩ : BufTy).Contents (Elt F)),
    StableHlo.nullary main_c_40 (constantI S_ 32 40000#32),
    StableHlo.unary main_c_40 main_call12_v0 ((id) : (⟨S_, .i32⟩ : BufTy).Contents (Elt F) → (⟨S_, .i32⟩ : BufTy).Contents (Elt F)),
    StableHlo.unary main_call12_v0 main_call12_v1 ((broadcastInDim S640000 ![] bcast_S_S640000) : (⟨S_, .i32⟩ : BufTy).Contents (Elt F) → (⟨S640000, .i32⟩ : BufTy).Contents (Elt F)),
    StableHlo.ternary main_v4 main_v1 main_call12_v1 main_v157 ((select) : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.nullary main_c_41 (constantI S_ 32 0#32),
    StableHlo.unary main_c_41 main_v158 (broadcastInDim S640000 ![] bcast_S_S640000 : (⟨S_, .i32⟩ : BufTy).Contents (Elt F) → (⟨S640000, .i32⟩ : BufTy).Contents (Elt F)),
    StableHlo.binary main_v157 main_v158 main_v159 (cmpi .slt : (⟨S640000, .i32⟩ : BufTy).Contents (Elt F) → (⟨S640000, .i32⟩ : BufTy).Contents (Elt F) → (⟨S640000, .i1⟩ : BufTy).Contents (Elt F)),
    StableHlo.nullary main_c_42 (constantI S_ 32 40000#32),
    StableHlo.unary main_c_42 main_v160 (broadcastInDim S640000 ![] bcast_S_S640000 : (⟨S_, .i32⟩ : BufTy).Contents (Elt F) → (⟨S640000, .i32⟩ : BufTy).Contents (Elt F)),
    StableHlo.binary main_v157 main_v160 main_v161 (addi : (⟨S640000, .i32⟩ : BufTy).Contents (Elt F) → (⟨S640000, .i32⟩ : BufTy).Contents (Elt F) → (⟨S640000, .i32⟩ : BufTy).Contents (Elt F)),
    StableHlo.ternary main_v159 main_v161 main_v157 main_v162 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v162 main_v163 (broadcastInDim S640000x1 ![0] bcast_S640000_S640000x1_0 : (⟨S640000, .i32⟩ : BufTy).Contents (Elt F) → (⟨S640000x1, .i32⟩ : BufTy).Contents (Elt F)),
    StableHlo.ternary main_v156 main_v163 main_arg2 main_v164 ((fun x i u => Host.scatter scatter_S40000_S640000x1_S640000_n_0_0_1 (fun _ b => b) x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_43 (constant S_ .f32 0x00000000#32),
    StableHlo.unary main_cst_43 main_call13_v0 ((id) : (⟨S_, .f32⟩ : BufTy).Contents (Elt F) → (⟨S_, .f32⟩ : BufTy).Contents (Elt F)),
    StableHlo.unary main_call13_v0 main_call13_v1 ((broadcastInDim S640000 ![] bcast_S_S640000) : (⟨S_, .f32⟩ : BufTy).Contents (Elt F) → (⟨S640000, .f32⟩ : BufTy).Contents (Elt F)),
    StableHlo.ternary main_v4 main_call13_v1 main_arg2 main_v165 ((select) : (⟨S640000, .i1⟩ : BufTy).Contents (Elt F) → (⟨S640000, .f32⟩ : BufTy).Contents (Elt F) → (⟨S640000, .f32⟩ : BufTy).Contents (Elt F) → (⟨S640000, .f32⟩ : BufTy).Contents (Elt F)),
    StableHlo.unary main_v165 main_v166 (broadcastInDim S640000x1 ![0] bcast_S640000_S640000x1_0 : (⟨S640000, .f32⟩ : BufTy).Contents (Elt F) → (⟨S640000x1, .f32⟩ : BufTy).Contents (Elt F)),
    StableHlo.nullary main_c_44 (constantI S_ 32 0#32),
    StableHlo.unary main_c_44 main_v167 (broadcastInDim S640000 ![] bcast_S_S640000 : (⟨S_, .i32⟩ : BufTy).Contents (Elt F) → (⟨S640000, .i32⟩ : BufTy).Contents (Elt F)),
    StableHlo.binary main_v1 main_v167 main_v168 (cmpi .slt : (⟨S640000, .i32⟩ : BufTy).Contents (Elt F) → (⟨S640000, .i32⟩ : BufTy).Contents (Elt F) → (⟨S640000, .i1⟩ : BufTy).Contents (Elt F)),
    StableHlo.nullary main_c_45 (constantI S_ 32 40000#32),
    StableHlo.unary main_c_45 main_v169 (broadcastInDim S640000 ![] bcast_S_S640000 : (⟨S_, .i32⟩ : BufTy).Contents (Elt F) → (⟨S640000, .i32⟩ : BufTy).Contents (Elt F)),
    StableHlo.binary main_v1 main_v169 main_v170 (addi : (⟨S640000, .i32⟩ : BufTy).Contents (Elt F) → (⟨S640000, .i32⟩ : BufTy).Contents (Elt F) → (⟨S640000, .i32⟩ : BufTy).Contents (Elt F)),
    StableHlo.ternary main_v168 main_v170 main_v1 main_v171 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v171 main_v172 (broadcastInDim S640000x1 ![0] bcast_S640000_S640000x1_0 : (⟨S640000, .i32⟩ : BufTy).Contents (Elt F) → (⟨S640000x1, .i32⟩ : BufTy).Contents (Elt F)),
    StableHlo.binary main_v107 main_v172 main_v173 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_v166 main_v174 (broadcastInDim S640000x128 ![0, 1] bcast_S640000x1_S640000x128_0_1 : (⟨S640000x1, .f32⟩ : BufTy).Contents (Elt F) → (⟨S640000x128, .f32⟩ : BufTy).Contents (Elt F)),
    StableHlo.binary main_v174 main_v173 main_v175 (mulf : (⟨S640000x128, .f32⟩ : BufTy).Contents (Elt F) → (⟨S640000x128, .f32⟩ : BufTy).Contents (Elt F) → (⟨S640000x128, .f32⟩ : BufTy).Contents (Elt F)),
    StableHlo.nullary main_cst_46 (constant S_ .f32 0x00000000#32),
    StableHlo.unary main_cst_46 main_v176 (broadcastInDim S40000x128 ![] bcast_S_S40000x128 : (⟨S_, .f32⟩ : BufTy).Contents (Elt F) → (⟨S40000x128, .f32⟩ : BufTy).Contents (Elt F)),
    StableHlo.unary main_v3 main_v177 (broadcastInDim S640000x1 ![0] bcast_S640000_S640000x1_0 : (⟨S640000, .i32⟩ : BufTy).Contents (Elt F) → (⟨S640000x1, .i32⟩ : BufTy).Contents (Elt F)),
    StableHlo.ternary main_v176 main_v177 main_v175 main_v178 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.unary main_v164 main_v179 (broadcastInDim S40000x1 ![0] bcast_S40000_S40000x1_0 : (⟨S40000, .f32⟩ : BufTy).Contents (Elt F) → (⟨S40000x1, .f32⟩ : BufTy).Contents (Elt F)),
    StableHlo.unary main_v179 main_v180 (broadcastInDim S40000x128 ![0, 1] bcast_S40000x1_S40000x128_0_1 : (⟨S40000x1, .f32⟩ : BufTy).Contents (Elt F) → (⟨S40000x128, .f32⟩ : BufTy).Contents (Elt F)),
    StableHlo.binary main_v180 main_v107 main_v181 (mulf : (⟨S40000x128, .f32⟩ : BufTy).Contents (Elt F) → (⟨S40000x128, .f32⟩ : BufTy).Contents (Elt F) → (⟨S40000x128, .f32⟩ : BufTy).Contents (Elt F)),
    StableHlo.binary main_v178 main_v181 main_v182 (addf : (⟨S40000x128, .f32⟩ : BufTy).Contents (Elt F) → (⟨S40000x128, .f32⟩ : BufTy).Contents (Elt F) → (⟨S40000x128, .f32⟩ : BufTy).Contents (Elt F)),
    StableHlo.nullary main_cst_47 (constant S_ .f32 0x00000000#32),
    StableHlo.nullary main_cst_48 (constant S_ .f32 0x3F800000#32),
    StableHlo.unary main_cst_47 main_call14_v0 ((broadcastInDim S640000 ![] bcast_S_S640000) : (⟨S_, .f32⟩ : BufTy).Contents (Elt F) → (⟨S640000, .f32⟩ : BufTy).Contents (Elt F)),
    StableHlo.unary main_cst_48 main_call14_v1 ((broadcastInDim S640000 ![] bcast_S_S640000) : (⟨S_, .f32⟩ : BufTy).Contents (Elt F) → (⟨S640000, .f32⟩ : BufTy).Contents (Elt F)),
    StableHlo.ternary main_v4 main_call14_v0 main_call14_v1 main_v183 ((select) : (⟨S640000, .i1⟩ : BufTy).Contents (Elt F) → (⟨S640000, .f32⟩ : BufTy).Contents (Elt F) → (⟨S640000, .f32⟩ : BufTy).Contents (Elt F) → (⟨S640000, .f32⟩ : BufTy).Contents (Elt F)),
    StableHlo.nullary main_cst_49 (constant S_ .f32 0x00000000#32),
    StableHlo.unary main_cst_49 main_v184 (broadcastInDim S40000 ![] bcast_S_S40000 : (⟨S_, .f32⟩ : BufTy).Contents (Elt F) → (⟨S40000, .f32⟩ : BufTy).Contents (Elt F)),
    StableHlo.unary main_v3 main_v185 (broadcastInDim S640000x1 ![0] bcast_S640000_S640000x1_0 : (⟨S640000, .i32⟩ : BufTy).Contents (Elt F) → (⟨S640000x1, .i32⟩ : BufTy).Contents (Elt F)),
    StableHlo.unary main_v183 main_v186 (id : (⟨S640000, .f32⟩ : BufTy).Contents (Elt F) → (⟨S640000, .f32⟩ : BufTy).Contents (Elt F)),
    StableHlo.ternary main_v184 main_v185 main_v186 main_v187 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)) ]

/-- Stretch 4 of the program's operations (42 of them), in order. -/
abbrev ops4 : List (HloOp τ sig (Elt F)) :=
  [ StableHlo.nullary main_cst_50 (constant S_ .f32 0x3F800000#32),
    StableHlo.unary main_cst_50 main_v188 (broadcastInDim S40000 ![] bcast_S_S40000 : (⟨S_, .f32⟩ : BufTy).Contents (Elt F) → (⟨S40000, .f32⟩ : BufTy).Contents (Elt F)),
    StableHlo.binary main_v187 main_v188 main_v189 (addf : (⟨S40000, .f32⟩ : BufTy).Contents (Elt F) → (⟨S40000, .f32⟩ : BufTy).Contents (Elt F) → (⟨S40000, .f32⟩ : BufTy).Contents (Elt F)),
    StableHlo.unary main_v189 main_v190 (broadcastInDim S40000x1 ![0] bcast_S40000_S40000x1_0 : (⟨S40000, .f32⟩ : BufTy).Contents (Elt F) → (⟨S40000x1, .f32⟩ : BufTy).Contents (Elt F)),
    StableHlo.unary main_v190 main_v191 (broadcastInDim S40000x128 ![0, 1] bcast_S40000x1_S40000x128_0_1 : (⟨S40000x1, .f32⟩ : BufTy).Contents (Elt F) → (⟨S40000x128, .f32⟩ : BufTy).Contents (Elt F)),
    StableHlo.binary main_v182 main_v191 main_v192 (Host.divf : (⟨S40000x128, .f32⟩ : BufTy).Contents (Elt F) → (⟨S40000x128, .f32⟩ : BufTy).Contents (Elt F) → (⟨S40000x128, .f32⟩ : BufTy).Contents (Elt F)),
    StableHlo.binary main_v192 main_arg17 main_v193 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg18 main_v194 (broadcastInDim S1x128 ![1] bcast_S128_S1x128_1 : (⟨S128, .f32⟩ : BufTy).Contents (Elt F) → (⟨S1x128, .f32⟩ : BufTy).Contents (Elt F)),
    StableHlo.unary main_v194 main_v195 (broadcastInDim S40000x128 ![0, 1] bcast_S1x128_S40000x128_0_1 : (⟨S1x128, .f32⟩ : BufTy).Contents (Elt F) → (⟨S40000x128, .f32⟩ : BufTy).Contents (Elt F)),
    StableHlo.binary main_v193 main_v195 main_v196 (addf : (⟨S40000x128, .f32⟩ : BufTy).Contents (Elt F) → (⟨S40000x128, .f32⟩ : BufTy).Contents (Elt F) → (⟨S40000x128, .f32⟩ : BufTy).Contents (Elt F)),
    StableHlo.nullary main_cst_51 (constant S_ .f32 0x3C23D70A#32),
    StableHlo.nullary main_call15_cst (constant S_ .f32 0x00000000#32),
    StableHlo.unary main_call15_cst main_call15_v0 ((broadcastInDim S40000x128 ![] bcast_S_S40000x128) : (⟨S_, .f32⟩ : BufTy).Contents (Elt F) → (⟨S40000x128, .f32⟩ : BufTy).Contents (Elt F)),
    StableHlo.binary main_v196 main_call15_v0 main_call15_v1 ((cmpf .oge) : (⟨S40000x128, .f32⟩ : BufTy).Contents (Elt F) → (⟨S40000x128, .f32⟩ : BufTy).Contents (Elt F) → (⟨S40000x128, .i1⟩ : BufTy).Contents (Elt F)),
    StableHlo.unary main_cst_51 main_call15_v2 ((id) : (⟨S_, .f32⟩ : BufTy).Contents (Elt F) → (⟨S_, .f32⟩ : BufTy).Contents (Elt F)),
    StableHlo.unary main_call15_v2 main_call15_v3 ((broadcastInDim S40000x128 ![] bcast_S_S40000x128) : (⟨S_, .f32⟩ : BufTy).Contents (Elt F) → (⟨S40000x128, .f32⟩ : BufTy).Contents (Elt F)),
    StableHlo.binary main_call15_v3 main_v196 main_call15_v4 ((mulf) : (⟨S40000x128, .f32⟩ : BufTy).Contents (Elt F) → (⟨S40000x128, .f32⟩ : BufTy).Contents (Elt F) → (⟨S40000x128, .f32⟩ : BufTy).Contents (Elt F)),
    StableHlo.ternary main_call15_v1 main_v196 main_call15_v4 main_v197 ((select) : (⟨S40000x128, .i1⟩ : BufTy).Contents (Elt F) → (⟨S40000x128, .f32⟩ : BufTy).Contents (Elt F) → (⟨S40000x128, .f32⟩ : BufTy).Contents (Elt F) → (⟨S40000x128, .f32⟩ : BufTy).Contents (Elt F)),
    StableHlo.binary main_v155 main_v197 main_v198 (addf : (⟨S40000x128, .f32⟩ : BufTy).Contents (Elt F) → (⟨S40000x128, .f32⟩ : BufTy).Contents (Elt F) → (⟨S40000x128, .f32⟩ : BufTy).Contents (Elt F)),
    StableHlo.binary main_v198 main_arg19 main_v199 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg20 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S40000x128 ![0, 1] bcast_S1x128_S40000x128_0_1 : (⟨S1x128, .f32⟩ : BufTy).Contents (Elt F) → (⟨S40000x128, .f32⟩ : BufTy).Contents (Elt F)),
    StableHlo.binary main_v199 main_v201 main_v202 (addf : (⟨S40000x128, .f32⟩ : BufTy).Contents (Elt F) → (⟨S40000x128, .f32⟩ : BufTy).Contents (Elt F) → (⟨S40000x128, .f32⟩ : BufTy).Contents (Elt F)),
    StableHlo.binary main_v202 main_arg21 main_v203 ((fun l r => Host.dotGeneral dot_S40000x128_S128x40_S40000x40_1_0_0_1_n_n none l r) : (⟨S40000x128, .f32⟩ : BufTy).Contents (Elt F) → (⟨S128x40, .f32⟩ : BufTy).Contents (Elt F) → (⟨S40000x40, .f32⟩ : BufTy).Contents (Elt F)),
    StableHlo.unary main_arg22 main_v204 (broadcastInDim S1x40 ![1] bcast_S40_S1x40_1 : (⟨S40, .f32⟩ : BufTy).Contents (Elt F) → (⟨S1x40, .f32⟩ : BufTy).Contents (Elt F)),
    StableHlo.unary main_v204 main_v205 (broadcastInDim S40000x40 ![0, 1] bcast_S1x40_S40000x40_0_1 : (⟨S1x40, .f32⟩ : BufTy).Contents (Elt F) → (⟨S40000x40, .f32⟩ : BufTy).Contents (Elt F)),
    StableHlo.binary main_v203 main_v205 main_v206 (addf : (⟨S40000x40, .f32⟩ : BufTy).Contents (Elt F) → (⟨S40000x40, .f32⟩ : BufTy).Contents (Elt F) → (⟨S40000x40, .f32⟩ : BufTy).Contents (Elt F)),
    StableHlo.nullary main_call16_cst (constant S_ .f32 0xFF800000#32),
    StableHlo.binary main_v206 main_call16_cst main_call16_v0 ((fun x v => Host.reduce FloatOps.maximumf x v reducesTo_S40000x40_S40000_d1 h_S_) : (⟨S40000x40, .f32⟩ : BufTy).Contents (Elt F) → (⟨S_, .f32⟩ : BufTy).Contents (Elt F) → (⟨S40000, .f32⟩ : BufTy).Contents (Elt F)),
    StableHlo.nullary main_call16_cst_0 (constant S_ .f32 0xFF800000#32),
    StableHlo.unary main_call16_cst_0 main_call16_v1 ((broadcastInDim S40000 ![] bcast_S_S40000) : (⟨S_, .f32⟩ : BufTy).Contents (Elt F) → (⟨S40000, .f32⟩ : BufTy).Contents (Elt F)),
    StableHlo.binary main_call16_v1 main_call16_v0 main_call16_v2 ((maximumf) : (⟨S40000, .f32⟩ : BufTy).Contents (Elt F) → (⟨S40000, .f32⟩ : BufTy).Contents (Elt F) → (⟨S40000, .f32⟩ : BufTy).Contents (Elt F)),
    StableHlo.unary main_call16_v2 main_call16_v3 ((broadcastInDim S40000x1 ![0] bcast_S40000_S40000x1_0) : (⟨S40000, .f32⟩ : BufTy).Contents (Elt F) → (⟨S40000x1, .f32⟩ : BufTy).Contents (Elt F)),
    StableHlo.unary main_call16_v3 main_call16_v4 ((broadcastInDim S40000x40 ![0, 1] bcast_S40000x1_S40000x40_0_1) : (⟨S40000x1, .f32⟩ : BufTy).Contents (Elt F) → (⟨S40000x40, .f32⟩ : BufTy).Contents (Elt F)),
    StableHlo.binary main_v206 main_call16_v4 main_call16_v5 ((subf) : (⟨S40000x40, .f32⟩ : BufTy).Contents (Elt F) → (⟨S40000x40, .f32⟩ : BufTy).Contents (Elt F) → (⟨S40000x40, .f32⟩ : BufTy).Contents (Elt F)),
    StableHlo.unary main_call16_v5 main_call16_v6 ((Host.exp) : (⟨S40000x40, .f32⟩ : BufTy).Contents (Elt F) → (⟨S40000x40, .f32⟩ : BufTy).Contents (Elt F)),
    StableHlo.nullary main_call16_cst_1 (constant S_ .f32 0x00000000#32),
    StableHlo.binary main_call16_v6 main_call16_cst_1 main_call16_v7 ((fun x v => Host.reduceAdd x v reducesTo_S40000x40_S40000_d1 h_S_) : (⟨S40000x40, .f32⟩ : BufTy).Contents (Elt F) → (⟨S_, .f32⟩ : BufTy).Contents (Elt F) → (⟨S40000, .f32⟩ : BufTy).Contents (Elt F)),
    StableHlo.unary main_call16_v7 main_call16_v8 ((broadcastInDim S40000x1 ![0] bcast_S40000_S40000x1_0) : (⟨S40000, .f32⟩ : BufTy).Contents (Elt F) → (⟨S40000x1, .f32⟩ : BufTy).Contents (Elt F)),
    StableHlo.unary main_call16_v8 main_call16_v9 ((Host.log) : (⟨S40000x1, .f32⟩ : BufTy).Contents (Elt F) → (⟨S40000x1, .f32⟩ : BufTy).Contents (Elt F)),
    StableHlo.unary main_call16_v9 main_call16_v10 ((broadcastInDim S40000x40 ![0, 1] bcast_S40000x1_S40000x40_0_1) : (⟨S40000x1, .f32⟩ : BufTy).Contents (Elt F) → (⟨S40000x40, .f32⟩ : BufTy).Contents (Elt F)),
    StableHlo.binary main_call16_v5 main_call16_v10 main_v207 ((subf) : (⟨S40000x40, .f32⟩ : BufTy).Contents (Elt F) → (⟨S40000x40, .f32⟩ : BufTy).Contents (Elt F) → (⟨S40000x40, .f32⟩ : BufTy).Contents (Elt F)) ]

/-- The program's 324 operations, in order. -/
abbrev ops : List (HloOp τ sig (Elt F)) := ops0 ++ (ops1 ++ (ops2 ++ (ops3 ++ ops4)))

end Cert.ReferenceIdeal.Hand

end
-- ==== Proof.RefRunPartsA.lean ====
/-
  The program's text, stretch by stretch, is the list of its operations run in order.

  Each stretch of the program is a sequence of single-operation steps, the called functions' bodies included; unfolding
  the calls and reading the steps off gives the corresponding stretch of the list. The folds over whole arrays inside a
  reduction, a gather or a scatter are never opened: the two sides name the same operations on the same buffers.
-/
import proofs.«143715_j36816459661705_2_alg».proof.Proof.RefOps

noncomputable section

namespace Cert.ReferenceIdeal.Hand

open Cert.ReferenceIdeal Idealize.ShloMosaic Idealize.ShloMosaic.TcCoe Idealize.SL.Sem Idealize.ShloMosaic.StableHlo

variable {F : FTy → Type} [FloatOps F]
open Facts₀ Facts

attribute [local irreducible] Host.reduce Host.reduceAdd Host.gather Host.scatter Host.scatterAdd in
/-- Stretch 0 of the program's text runs stretch 0 of the list. -/
theorem part0_eq (c : Dev nD) : main_part0 (F := F) c = seq ops0 := rfl

attribute [local irreducible] Host.reduce Host.reduceAdd Host.gather Host.scatter Host.scatterAdd in
/-- Stretch 1 of the program's text runs stretch 1 of the list. -/
theorem part1_eq (c : Dev nD) : main_part1 (F := F) c = seq ops1 := rfl

attribute [local irreducible] Host.reduce Host.reduceAdd Host.gather Host.scatter Host.scatterAdd in
/-- Stretch 2 of the program's text runs stretch 2 of the list. -/
theorem part2_eq (c : Dev nD) : main_part2 (F := F) c = seq ops2 := rfl

end Cert.ReferenceIdeal.Hand

end
-- ==== Proof.RefRunPartsB.lean ====
/-
  The program's text, stretch by stretch, is the list of its operations run in order.

  Each stretch of the program is a sequence of single-operation steps, the called functions' bodies included; unfolding
  the calls and reading the steps off gives the corresponding stretch of the list. The folds over whole arrays inside a
  reduction, a gather or a scatter are never opened: the two sides name the same operations on the same buffers.
-/
import proofs.«143715_j36816459661705_2_alg».proof.Proof.RefOps

noncomputable section

namespace Cert.ReferenceIdeal.Hand

open Cert.ReferenceIdeal Idealize.ShloMosaic Idealize.ShloMosaic.TcCoe Idealize.SL.Sem Idealize.ShloMosaic.StableHlo

variable {F : FTy → Type} [FloatOps F]
open Facts₀ Facts

attribute [local irreducible] Host.reduce Host.reduceAdd Host.gather Host.scatter Host.scatterAdd in
/-- Stretch 3 of the program's text runs stretch 3 of the list. -/
theorem part3_eq (c : Dev nD) : main_part3 (F := F) c = seq ops3 := rfl

attribute [local irreducible] Host.reduce Host.reduceAdd Host.gather Host.scatter Host.scatterAdd in
/-- Stretch 4 of the program's text runs stretch 4 of the list. -/
theorem part4_eq (c : Dev nD) : main_part4 (F := F) c = seq ops4 := rfl

end Cert.ReferenceIdeal.Hand

end
-- ==== Proof.LibAfterSplit.lean ====
/- Running a list of host operations in two stretches: the contents after the whole list are the contents after its
   last operations run from the contents after its first `n`. A general fact about `StableHlo.after`, for any signature. -/
import Idealize.ShloMosaic.Lib.StableHlo.Run
import Idealize.ShloMosaic.Lib.Pipeline.Frame

namespace Cert.Lib.AfterSplit

open Idealize.ShloMosaic Idealize.ShloMosaic.StableHlo

variable {τ : Topo} {sig : RefSig} {Val : EltTy → Type}

/-- A list cut after its first `n` operations: first those, then the rest from what they left. -/
theorem after_take_drop (n : Nat) (l : List (HloOp τ sig Val)) (V : Valuation τ sig Val) :
    after l V = after (l.drop n) (after (l.take n) V) := by
  rw [← StableHlo.after_append, List.take_append_drop]

end Cert.Lib.AfterSplit

namespace Idealize.ShloMosaic.StableHlo

/-- Continues the evaluation of operation results where a one-pass simplification stopped (under the dependent pairs of a
    concatenation's operand list, which only rewriting reaches): each operation's result at its own buffer is its
    function's value, at any other buffer what was there. -/
macro "results_under_pairs" : tactic =>
  `(tactic| (repeat (first
               | rw [nullary_result] | rw [unary_result] | rw [binary_result] | rw [ternary_result] | rw [quaternary_result]
               | rw [reshape_result] | rw [nary4_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo
-- ==== Proof.RefRun.lean ====
/-
  The run of the reference program: it ends, with the result at the fold of its operations and the arguments unchanged.

  The program's text is the sequence of its operations (stretch by stretch, then joined); every operation touches only
  the device's own tensor buffers and determines what it writes; no buffer or counter is scoped. So every weakly fair
  execution from zero counters terminates with each buffer at the fold of the operations over the launch contents. No
  operation writes an argument buffer (each writes a buffer of its own, and those are other buffers), so the arguments
  end as they began.
-/
import proofs.«143715_j36816459661705_2_alg».proof.Proof.RefRunPartsA
import proofs.«143715_j36816459661705_2_alg».proof.Proof.RefRunPartsB
import proofs.«143715_j36816459661705_2_alg».proof.Proof.LibAfterSplit

noncomputable section

namespace Cert.ReferenceIdeal.Hand

open Cert.ReferenceIdeal Idealize.ShloMosaic Idealize.ShloMosaic.TcCoe Idealize.SL.Sem Idealize.ShloMosaic.StableHlo

variable {F : FTy → Type} [FloatOps F]
open Facts₀ Facts

/-- The program is its operations run in order: the five stretches, joined. -/
theorem main_eq (c : Dev nD) : main (F := F) c = seq ops := by
  show _ = seq (ops0 ++ (ops1 ++ (ops2 ++ (ops3 ++ ops4))))
  rw [seq_append, seq_append, seq_append, seq_append, ← part0_eq c, ← part1_eq c, ← part2_eq c, ← part3_eq c, ← part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., binary_bufs_sub ..,
    unary_bufs_sub .., unary_bufs_sub .., binary_bufs_sub .., nullary_bufs_sub .., unary_bufs_sub .., unary_bufs_sub ..,
    ternary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..⟩

theorem ops1_sub : (ops1 : List (HloOp τ sig (Elt F))).Forall fun op => op.bufs ⊆ tcRefs τ sig :=
  ⟨unary_bufs_sub .., unary_bufs_sub .., ternary_bufs_sub .., binary_bufs_sub .., binary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., ternary_bufs_sub .., nullary_bufs_sub .., unary_bufs_sub .., unary_bufs_sub .., ternary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., nullary_bufs_sub .., nullary_bufs_sub .., unary_bufs_sub .., unary_bufs_sub ..,
    ternary_bufs_sub .., nullary_bufs_sub .., unary_bufs_sub .., unary_bufs_sub .., unary_bufs_sub .., ternary_bufs_sub ..,
    nullary_bufs_sub .., unary_bufs_sub .., binary_bufs_sub .., unary_bufs_sub .., unary_bufs_sub .., binary_bufs_sub ..⟩

theorem ops2_sub : (ops2 : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., binary_bufs_sub .., unary_bufs_sub .., unary_bufs_sub .., binary_bufs_sub .., binary_bufs_sub ..,
    unary_bufs_sub .., unary_bufs_sub .., binary_bufs_sub .., nullary_bufs_sub .., unary_bufs_sub .., unary_bufs_sub ..,
    ternary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..⟩

theorem ops3_sub : (ops3 : List (HloOp τ sig (Elt F))).Forall fun op => op.bufs ⊆ tcRefs τ sig :=
  ⟨ternary_bufs_sub .., unary_bufs_sub .., binary_bufs_sub .., unary_bufs_sub .., binary_bufs_sub .., nullary_bufs_sub ..,
    unary_bufs_sub .., unary_bufs_sub .., ternary_bufs_sub .., binary_bufs_sub .., binary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., ternary_bufs_sub .., nullary_bufs_sub .., unary_bufs_sub .., unary_bufs_sub .., ternary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., nullary_bufs_sub .., nullary_bufs_sub .., unary_bufs_sub .., unary_bufs_sub ..,
    ternary_bufs_sub .., nullary_bufs_sub .., unary_bufs_sub .., unary_bufs_sub .., unary_bufs_sub .., ternary_bufs_sub ..⟩

theorem ops4_sub : (ops4 : List (HloOp τ sig (Elt F))).Forall fun op => op.bufs ⊆ tcRefs τ sig :=
  ⟨nullary_bufs_sub .., unary_bufs_sub .., binary_bufs_sub .., unary_bufs_sub .., unary_bufs_sub .., binary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., binary_bufs_sub .., unary_bufs_sub .., unary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., unary_bufs_sub .., binary_bufs_sub ..⟩

/-- Every operation touches only the device's own tensor buffers. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub,
    List.forall_append.mpr ⟨ops3_sub, ops4_sub⟩⟩⟩⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

/-- Every operation determines what it writes. -/
theorem ops_fresh : ∀ op ∈ (ops : List (HloOp τ sig (Elt F))), op.fresh = ∅ :=
  List.forall_iff_forall_mem.mp (List.forall_append.mpr ⟨ops0_fresh, List.forall_append.mpr ⟨ops1_fresh,
    List.forall_append.mpr ⟨ops2_fresh, List.forall_append.mpr ⟨ops3_fresh, ops4_fresh⟩⟩⟩⟩)

/-- The argument buffers. -/
def argRefs : List (Ref sig .tc) :=
  [main_arg0, main_arg1, main_arg2, main_arg3, main_arg4, main_arg5, main_arg6, main_arg7,
   main_arg8, main_arg9, main_arg10, main_arg11, main_arg12, main_arg13, main_arg14, main_arg15,
   main_arg16, main_arg17, main_arg18, main_arg19, main_arg20, main_arg21, main_arg22]

/-- A list of operations that leaves every argument buffer as it was, whatever the contents it starts from. -/
def Keeps (l : List (HloOp τ sig (Elt F))) : Prop :=
  ∀ (V : Valuation τ sig (Elt F)), ∀ r ∈ argRefs, after l V (Proc.devRef .tc r) = V (Proc.devRef .tc r)

theorem Keeps.append {l₁ l₂ : List (HloOp τ sig (Elt F))} (h₁ : Keeps l₁) (h₂ : Keeps l₂) : Keeps (l₁ ++ l₂) :=
  fun V r hr => by rw [after_append, h₂ _ r hr, h₁ V r hr]

/-- A buffer among a list is, as a one-element set of device buffers, inside the list's set. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers stretch 0 writes, in order. -/
def W0 : List (Ref sig .tc) :=
  [main_v0, main_v1, main_v2, main_v3, main_v4, main_v5, main_v6, main_v7,
   main_v8, main_cst, main_call0_v0, main_call0_v1, main_v9, main_cst_0, main_v10, main_v11,
   main_v12, main_cst_1, main_v13, main_v14, main_cst_2, main_v15, main_v16, main_cst_3,
   main_call1_v0, main_call1_v1, main_v17, main_v18, main_cst_4, main_call2_v0, main_call2_v1, main_v19,
   main_c, main_v20, main_v21, main_c_5, main_v22, main_v23, main_v24, main_v25,
   main_v26, main_v27, main_v28, main_c_6, main_v29, main_v30, main_c_7, main_v31,
   main_v32, main_v33, main_v34, main_v35, main_v36, main_v37, main_c_8, main_v38,
   main_v39, main_c_9, main_v40, main_v41, main_v42, main_v43, main_v44, main_v45,
   main_v46, main_cst_10]

theorem ops0_writes : (ops0 : List (HloOp τ sig (Elt F))).Forall fun op => op.writes ⊆ (W0.map (Proc.devRef (τ := τ) .tc)).toFinset :=
  ⟨sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide)⟩

theorem args_not_W0 : ∀ r ∈ argRefs, r ∉ W0 := by decide

theorem keeps0 : Keeps (ops0 (F := F)) :=
  fun V r hr => after_of_writes_sub ops0 V ops0_writes (args_not_W0 r hr)

/-- The buffers stretch 1 writes, in order. -/
def W1 : List (Ref sig .tc) :=
  [main_v47, main_v48, main_v49, main_v50, main_v51, main_v52, main_v53, main_v54,
   main_v55, main_cst_11, main_call3_cst, main_call3_v0, main_call3_v1, main_call3_v2, main_call3_v3, main_call3_v4,
   main_v56, main_cst_12, main_v57, main_c_13, main_call4_v0, main_call4_v1, main_v58, main_c_14,
   main_v59, main_v60, main_c_15, main_v61, main_v62, main_v63, main_v64, main_v65,
   main_cst_16, main_call5_v0, main_call5_v1, main_v66, main_v67, main_c_17, main_v68, main_v69,
   main_c_18, main_v70, main_v71, main_v72, main_v73, main_v74, main_v75, main_v76,
   main_cst_19, main_v77, main_v78, main_v79, main_v80, main_v81, main_v82, main_v83,
   main_cst_20, main_cst_21, main_call6_v0, main_call6_v1, main_v84, main_cst_22, main_v85, main_v86,
   main_v87, main_v88, main_cst_23, main_v89, main_v90, main_v91, main_v92, main_v93]

theorem ops1_writes : (ops1 : List (HloOp τ sig (Elt F))).Forall fun op => op.writes ⊆ (W1.map (Proc.devRef (τ := τ) .tc)).toFinset :=
  ⟨sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide)⟩

theorem args_not_W1 : ∀ r ∈ argRefs, r ∉ W1 := by decide

theorem keeps1 : Keeps (ops1 (F := F)) :=
  fun V r hr => after_of_writes_sub ops1 V ops1_writes (args_not_W1 r hr)

/-- The buffers stretch 2 writes, in order. -/
def W2 : List (Ref sig .tc) :=
  [main_v94, main_v95, main_v96, main_v97, main_cst_24, main_call7_cst, main_call7_v0, main_call7_v1,
   main_call7_v2, main_call7_v3, main_call7_v4, main_v98, main_v99, main_v100, main_v101, main_v102,
   main_v103, main_v104, main_v105, main_v106, main_v107, main_cst_25, main_call8_v0, main_call8_v1,
   main_v108, main_cst_26, main_v109, main_v110, main_v111, main_cst_27, main_v112, main_v113,
   main_cst_28, main_v114, main_v115, main_cst_29, main_call9_v0, main_call9_v1, main_v116, main_v117,
   main_cst_30, main_call10_v0, main_call10_v1, main_v118, main_c_31, main_v119, main_v120, main_c_32,
   main_v121, main_v122, main_v123, main_v124, main_v125, main_v126, main_v127, main_c_33,
   main_v128, main_v129, main_c_34, main_v130, main_v131, main_v132, main_v133, main_v134,
   main_v135, main_v136, main_c_35, main_v137, main_v138, main_c_36, main_v139, main_v140]

theorem ops2_writes : (ops2 : List (HloOp τ sig (Elt F))).Forall fun op => op.writes ⊆ (W2.map (Proc.devRef (τ := τ) .tc)).toFinset :=
  ⟨sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide)⟩

theorem args_not_W2 : ∀ r ∈ argRefs, r ∉ W2 := by decide

theorem keeps2 : Keeps (ops2 (F := F)) :=
  fun V r hr => after_of_writes_sub ops2 V ops2_writes (args_not_W2 r hr)

/-- The buffers stretch 3 writes, in order. -/
def W3 : List (Ref sig .tc) :=
  [main_v141, main_v142, main_v143, main_v144, main_v145, main_cst_37, main_v146, main_v147,
   main_v148, main_v149, main_v150, main_v151, main_v152, main_v153, main_v154, main_cst_38,
   main_call11_cst, main_call11_v0, main_call11_v1, main_call11_v2, main_call11_v3, main_call11_v4, main_v155, main_cst_39,
   main_v156, main_c_40, main_call12_v0, main_call12_v1, main_v157, main_c_41, main_v158, main_v159,
   main_c_42, main_v160, main_v161, main_v162, main_v163, main_v164, main_cst_43, main_call13_v0,
   main_call13_v1, main_v165, main_v166, main_c_44, main_v167, main_v168, main_c_45, main_v169,
   main_v170, main_v171, main_v172, main_v173, main_v174, main_v175, main_cst_46, main_v176,
   main_v177, main_v178, main_v179, main_v180, main_v181, main_v182, main_cst_47, main_cst_48,
   main_call14_v0, main_call14_v1, main_v183, main_cst_49, main_v184, main_v185, main_v186, main_v187]

theorem ops3_writes : (ops3 : List (HloOp τ sig (Elt F))).Forall fun op => op.writes ⊆ (W3.map (Proc.devRef (τ := τ) .tc)).toFinset :=
  ⟨sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide)⟩

theorem args_not_W3 : ∀ r ∈ argRefs, r ∉ W3 := by decide

theorem keeps3 : Keeps (ops3 (F := F)) :=
  fun V r hr => after_of_writes_sub ops3 V ops3_writes (args_not_W3 r hr)

/-- The buffers stretch 4 writes, in order. -/
def W4 : List (Ref sig .tc) :=
  [main_cst_50, main_v188, main_v189, main_v190, main_v191, main_v192, main_v193, main_v194,
   main_v195, main_v196, main_cst_51, main_call15_cst, main_call15_v0, main_call15_v1, main_call15_v2, main_call15_v3,
   main_call15_v4, main_v197, main_v198, main_v199, main_v200, main_v201, main_v202, main_v203,
   main_v204, main_v205, main_v206, main_call16_cst, main_call16_v0, main_call16_cst_0, main_call16_v1, main_call16_v2,
   main_call16_v3, main_call16_v4, main_call16_v5, main_call16_v6, main_call16_cst_1, main_call16_v7, main_call16_v8, main_call16_v9,
   main_call16_v10, main_v207]

theorem ops4_writes : (ops4 : List (HloOp τ sig (Elt F))).Forall fun op => op.writes ⊆ (W4.map (Proc.devRef (τ := τ) .tc)).toFinset :=
  ⟨sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide)⟩

theorem args_not_W4 : ∀ r ∈ argRefs, r ∉ W4 := by decide

theorem keeps4 : Keeps (ops4 (F := F)) :=
  fun V r hr => after_of_writes_sub ops4 V ops4_writes (args_not_W4 r hr)

/-- No operation of the program writes an argument buffer. -/
theorem keeps : Keeps (ops (F := F)) := keeps0.append (keeps1.append (keeps2.append (keeps3.append keeps4)))

/-- On every device, for any float values, from any memory with zero counters: every weakly fair execution of the program
    terminates with the result buffer at the fold of the operations over the launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v207) = after ops (launchContents m c) (Proc.devRef .tc main_v207)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨h c main_v207,
      (h c main_arg0).trans (keeps _ main_arg0 (by decide)),
      (h c main_arg1).trans (keeps _ main_arg1 (by decide)),
      (h c main_arg2).trans (keeps _ main_arg2 (by decide)),
      (h c main_arg3).trans (keeps _ main_arg3 (by decide)),
      (h c main_arg4).trans (keeps _ main_arg4 (by decide)),
      (h c main_arg5).trans (keeps _ main_arg5 (by decide)),
      (h c main_arg6).trans (keeps _ main_arg6 (by decide)),
      (h c main_arg7).trans (keeps _ main_arg7 (by decide)),
      (h c main_arg8).trans (keeps _ main_arg8 (by decide)),
      (h c main_arg9).trans (keeps _ main_arg9 (by decide)),
      (h c main_arg10).trans (keeps _ main_arg10 (by decide)),
      (h c main_arg11).trans (keeps _ main_arg11 (by decide)),
      (h c main_arg12).trans (keeps _ main_arg12 (by decide)),
      (h c main_arg13).trans (keeps _ main_arg13 (by decide)),
      (h c main_arg14).trans (keeps _ main_arg14 (by decide)),
      (h c main_arg15).trans (keeps _ main_arg15 (by decide)),
      (h c main_arg16).trans (keeps _ main_arg16 (by decide)),
      (h c main_arg17).trans (keeps _ main_arg17 (by decide)),
      (h c main_arg18).trans (keeps _ main_arg18 (by decide)),
      (h c main_arg19).trans (keeps _ main_arg19 (by decide)),
      (h c main_arg20).trans (keeps _ main_arg20 (by decide)),
      (h c main_arg21).trans (keeps _ main_arg21 (by decide)),
      (h c main_arg22).trans (keeps _ main_arg22 (by decide))⟩)
    (run_seq scopedRefs_eq scopedSems_eq defs main (fun _ => ops) main_eq (fun _ => ops_sub) m ρ (fun _ => ops_fresh))

end Cert.ReferenceIdeal.Hand

end
-- ==== Proof.RefStages.lean ====
/-
  The dense stages of the reference program, the two cells and the whole network, as compositions of the program's
  whole-array operations.

  A linear map is the matrix product plus the bias spread over the rows (the bias first made a one-row matrix, then
  repeated down the rows). The leaky rectifier keeps an entry that is at least zero and scales any other by the f32
  nearest to 1/100. A cell first maps its input linearly to xh, takes the two neighbourhood aggregations of xh over the
  graph, and combines: (ℓ(xh · w0 + tx · w1 + cb) + ℓ(agg · sw + sb)) · lw + lb. The classifier is a linear map to 40
  scores followed, row by row, by the logarithm of the softmax: the row minus its maximum, minus the logarithm of the
  sum of the exponentials of that difference. Every definition follows the program's operations in their order, the
  small functions it calls written out.
-/
import proofs.«143715_j36816459661705_2_alg».proof.Proof.RefEdges

noncomputable section

namespace Cert.ReferenceIdeal.Hand

open Idealize.ShloMosaic
open Cert.ReferenceIdeal.Facts₀ Cert.ReferenceIdeal.Facts

/-- The first cell's preprocessor: x · w + b over 512 input features, the bias spread over the rows. -/
def linR512 (x : FVec Ideal S40000x512 .f32) (w : FVec Ideal S512x128 .f32) (b : FVec Ideal S128 .f32) : FVec Ideal S40000x128 .f32 :=
  addf (Host.dotGeneral dot_S40000x512_S512x128_S40000x128_1_0_0_1_n_n none x w) (broadcastInDim S40000x128 ![0, 1] bcast_S1x128_S40000x128_0_1 (broadcastInDim S1x128 ![1] bcast_S128_S1x128_1 b))

/-- A linear map with bias at 128 features: x · w + b, the bias spread over the rows. -/
def linR128 (x : FVec Ideal S40000x128 .f32) (w : FVec Ideal S128x128 .f32) (b : FVec Ideal S128 .f32) : FVec Ideal S40000x128 .f32 :=
  addf (Host.dotGeneral dot_S40000x128_S128x128_S40000x128_1_0_0_1_n_n none x w) (broadcastInDim S40000x128 ![0, 1] bcast_S1x128_S40000x128_0_1 (broadcastInDim S1x128 ![1] bcast_S128_S1x128_1 b))

/-- The leaky rectifier, entry by entry: x where x ≥ 0, otherwise x scaled by the f32 nearest to 1/100. -/
def lreluR (x : FVec Ideal S40000x128 .f32) : FVec Ideal S40000x128 .f32 :=
  select (cmpf .oge x (broadcastInDim S40000x128 ![] bcast_S_S40000x128 (constant (F := Ideal) S_ .f32 0x00000000#32))) x
    (mulf (broadcastInDim S40000x128 ![] bcast_S_S40000x128 (id (constant (F := Ideal) S_ .f32 0x3C23D70A#32))) x)

/-- The combining stage of a cell: (ℓ(xh · w0 + tx · w1 + cb) + ℓ(agg · sw + sb)) · lw + lb, ℓ the leaky rectifier. -/
def combR (xh tx agg : FVec Ideal S40000x128 .f32) (w0 w1 : FVec Ideal S128x128 .f32) (cb : FVec Ideal S128 .f32)
    (sw : FVec Ideal S128x128 .f32) (sb : FVec Ideal S128 .f32) (lw : FVec Ideal S128x128 .f32) (lb : FVec Ideal S128 .f32) :
    FVec Ideal S40000x128 .f32 :=
  linR128 (addf (lreluR (addf (addf (Host.dotGeneral dot_S40000x128_S128x128_S40000x128_1_0_0_1_n_n none xh w0) (Host.dotGeneral dot_S40000x128_S128x128_S40000x128_1_0_0_1_n_n none tx w1)) (broadcastInDim S40000x128 ![0, 1] bcast_S1x128_S40000x128_0_1 (broadcastInDim S1x128 ![1] bcast_S128_S1x128_1 cb)))) (lreluR (linR128 agg sw sb))) lw lb

/-- A row of scores minus the row's maximum (the maximum taken from −∞, then once more against −∞). -/
def shiftR (y : FVec Ideal S40000x40 .f32) : FVec Ideal S40000x40 .f32 :=
  subf y (broadcastInDim S40000x40 ![0, 1] bcast_S40000x1_S40000x40_0_1 (broadcastInDim S40000x1 ![0] bcast_S40000_S40000x1_0
    (maximumf (broadcastInDim S40000 ![] bcast_S_S40000 (constant (F := Ideal) S_ .f32 0xFF800000#32))
      (Host.reduce FloatOps.maximumf y (constant (F := Ideal) S_ .f32 0xFF800000#32) reducesTo_S40000x40_S40000_d1 h_S_))))

/-- The logarithm of the softmax of each row: the shifted row minus the logarithm of the sum of its exponentials. -/
def lsmR (y : FVec Ideal S40000x40 .f32) : FVec Ideal S40000x40 .f32 :=
  subf (shiftR y) (broadcastInDim S40000x40 ![0, 1] bcast_S40000x1_S40000x40_0_1 (Host.log (broadcastInDim S40000x1 ![0] bcast_S40000_S40000x1_0
    (Host.reduceAdd (Host.exp (shiftR y)) (constant (F := Ideal) S_ .f32 0x00000000#32) reducesTo_S40000x40_S40000_d1 h_S_))))

/-- The classifier: the logarithm of the softmax of x · w + b, row by row. -/
def clsR (x : FVec Ideal S40000x128 .f32) (w : FVec Ideal S128x40 .f32) (b : FVec Ideal S40 .f32) : FVec Ideal S40000x40 .f32 :=
  lsmR (addf (Host.dotGeneral dot_S40000x128_S128x40_S40000x40_1_0_0_1_n_n none x w)
    (broadcastInDim S40000x40 ![0, 1] bcast_S1x40_S40000x40_0_1 (broadcastInDim S1x40 ![1] bcast_S40_S1x40_1 b)))

/-- The first cell: the preprocessor, then the two branches over its output, combined. -/
def cellR512 (x : FVec Ideal S40000x512 .f32) (ei : IVec S2x640000 32) (ew : FVec Ideal S640000 .f32)
    (pw : FVec Ideal S512x128 .f32) (pb : FVec Ideal S128 .f32) (cw0 cw1 : FVec Ideal S128x128 .f32) (cb : FVec Ideal S128 .f32)
    (sw : FVec Ideal S128x128 .f32) (sb : FVec Ideal S128 .f32) (lw : FVec Ideal S128x128 .f32) (lb : FVec Ideal S128 .f32) :
    FVec Ideal S40000x128 .f32 :=
  combR (linR512 x pw pb) (txR (linR512 x pw pb) ei ew) (aggR (linR512 x pw pb) ei ew) cw0 cw1 cb sw sb lw lb

/-- The second cell: the same over 128 input features. -/
def cellR128 (x : FVec Ideal S40000x128 .f32) (ei : IVec S2x640000 32) (ew : FVec Ideal S640000 .f32)
    (pw : FVec Ideal S128x128 .f32) (pb : FVec Ideal S128 .f32) (cw0 cw1 : FVec Ideal S128x128 .f32) (cb : FVec Ideal S128 .f32)
    (sw : FVec Ideal S128x128 .f32) (sb : FVec Ideal S128 .f32) (lw : FVec Ideal S128x128 .f32) (lb : FVec Ideal S128 .f32) :
    FVec Ideal S40000x128 .f32 :=
  combR (linR128 x pw pb) (txR (linR128 x pw pb) ei ew) (aggR (linR128 x pw pb) ei ew) cw0 cw1 cb sw sb lw lb

/-- The whole network: the two cells, then the classifier. -/
def model (a0 : FVec Ideal S40000x512 .f32) (a1 : IVec S2x640000 32) (a2 : FVec Ideal S640000 .f32)
    (a3 : FVec Ideal S512x128 .f32) (a4 : FVec Ideal S128 .f32) (a5 a6 : FVec Ideal S128x128 .f32) (a7 : FVec Ideal S128 .f32)
    (a8 : FVec Ideal S128x128 .f32) (a9 : FVec Ideal S128 .f32) (a10 : FVec Ideal S128x128 .f32) (a11 : FVec Ideal S128 .f32)
    (a12 : FVec Ideal S128x128 .f32) (a13 : FVec Ideal S128 .f32) (a14 a15 : FVec Ideal S128x128 .f32) (a16 : FVec Ideal S128 .f32)
    (a17 : FVec Ideal S128x128 .f32) (a18 : FVec Ideal S128 .f32) (a19 : FVec Ideal S128x128 .f32) (a20 : FVec Ideal S128 .f32)
    (a21 : FVec Ideal S128x40 .f32) (a22 : FVec Ideal S40 .f32) : FVec Ideal S40000x40 .f32 :=
  clsR (cellR128 (cellR512 a0 a1 a2 a3 a4 a5 a6 a7 a8 a9 a10 a11) a1 a2 a12 a13 a14 a15 a16 a17 a18 a19 a20) a21 a22

end Cert.ReferenceIdeal.Hand

end
-- ==== Proof.RefSlices.lean ====
/-
  The program's operations cut into nine consecutive slices, each ending where a stage of the network is complete:
  the endpoints and the first preprocessor; then, for each cell, the Chebyshev aggregation, the Chebyshev branch, the
  mean aggregation, and the combination with the next linear map; finally the classifier. With each slice the list of
  the buffers it writes (every operation writes one buffer of its own), for telling which buffers a slice leaves alone.
-/
import proofs.«143715_j36816459661705_2_alg».proof.Proof.RefOps

noncomputable section

namespace Cert.ReferenceIdeal.Hand

open Cert.ReferenceIdeal Idealize.ShloMosaic Idealize.ShloMosaic.TcCoe Idealize.SL.Sem Idealize.ShloMosaic.StableHlo

variable {F : FTy → Type} [FloatOps F]
open Facts₀ Facts

/-- Slice 1: operations 0 … 8 of the program. -/
abbrev sl1 : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.binary main_v1 main_v3 main_v4 (cmpi .eq : (⟨S640000, .i32⟩ : BufTy).Contents (Elt F) → (⟨S640000, .i32⟩ : BufTy).Contents (Elt F) → (⟨S640000, .i1⟩ : BufTy).Contents (Elt F)),
    StableHlo.binary main_arg0 main_arg3 main_v5 ((fun l r => Host.dotGeneral dot_S40000x512_S512x128_S40000x128_1_0_0_1_n_n none l r) : (⟨S40000x512, .f32⟩ : BufTy).Contents (Elt F) → (⟨S512x128, .f32⟩ : BufTy).Contents (Elt F) → (⟨S40000x128, .f32⟩ : BufTy).Contents (Elt F)),
    StableHlo.unary main_arg4 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S40000x128 ![0, 1] bcast_S1x128_S40000x128_0_1 : (⟨S1x128, .f32⟩ : BufTy).Contents (Elt F) → (⟨S40000x128, .f32⟩ : BufTy).Contents (Elt F)),
    StableHlo.binary main_v5 main_v7 main_v8 (addf : (⟨S40000x128, .f32⟩ : BufTy).Contents (Elt F) → (⟨S40000x128, .f32⟩ : BufTy).Contents (Elt F) → (⟨S40000x128, .f32⟩ : BufTy).Contents (Elt F)) ]

/-- Slice 2: operations 9 … 68 of the program. -/
abbrev sl2 : List (HloOp τ sig (Elt F)) :=
  [ StableHlo.nullary main_cst (constant S_ .f32 0x00000000#32),
    StableHlo.unary main_cst main_call0_v0 ((id) : (⟨S_, .f32⟩ : BufTy).Contents (Elt F) → (⟨S_, .f32⟩ : BufTy).Contents (Elt F)),
    StableHlo.unary main_call0_v0 main_call0_v1 ((broadcastInDim S640000 ![] bcast_S_S640000) : (⟨S_, .f32⟩ : BufTy).Contents (Elt F) → (⟨S640000, .f32⟩ : BufTy).Contents (Elt F)),
    StableHlo.ternary main_v4 main_call0_v1 main_arg2 main_v9 ((select) : (⟨S640000, .i1⟩ : BufTy).Contents (Elt F) → (⟨S640000, .f32⟩ : BufTy).Contents (Elt F) → (⟨S640000, .f32⟩ : BufTy).Contents (Elt F) → (⟨S640000, .f32⟩ : BufTy).Contents (Elt F)),
    StableHlo.nullary main_cst_0 (constant S_ .f32 0x00000000#32),
    StableHlo.unary main_cst_0 main_v10 (broadcastInDim S40000 ![] bcast_S_S40000 : (⟨S_, .f32⟩ : BufTy).Contents (Elt F) → (⟨S40000, .f32⟩ : BufTy).Contents (Elt F)),
    StableHlo.unary main_v1 main_v11 (broadcastInDim S640000x1 ![0] bcast_S640000_S640000x1_0 : (⟨S640000, .i32⟩ : BufTy).Contents (Elt F) → (⟨S640000x1, .i32⟩ : BufTy).Contents (Elt F)),
    StableHlo.ternary main_v10 main_v11 main_v9 main_v12 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_1 (constant S_ .f32 0x00000000#32),
    StableHlo.unary main_cst_1 main_v13 (broadcastInDim S40000 ![] bcast_S_S40000 : (⟨S_, .f32⟩ : BufTy).Contents (Elt F) → (⟨S40000, .f32⟩ : BufTy).Contents (Elt F)),
    StableHlo.binary main_v12 main_v13 main_v14 (cmpf .ogt : (⟨S40000, .f32⟩ : BufTy).Contents (Elt F) → (⟨S40000, .f32⟩ : BufTy).Contents (Elt F) → (⟨S40000, .i1⟩ : BufTy).Contents (Elt F)),
    StableHlo.nullary main_cst_2 (constant S_ .f32 0x00000000#32),
    StableHlo.unary main_cst_2 main_v15 (broadcastInDim S40000 ![] bcast_S_S40000 : (⟨S_, .f32⟩ : BufTy).Contents (Elt F) → (⟨S40000, .f32⟩ : BufTy).Contents (Elt F)),
    StableHlo.binary main_v12 main_v15 main_v16 (cmpf .ogt : (⟨S40000, .f32⟩ : BufTy).Contents (Elt F) → (⟨S40000, .f32⟩ : BufTy).Contents (Elt F) → (⟨S40000, .i1⟩ : BufTy).Contents (Elt F)),
    StableHlo.nullary main_cst_3 (constant S_ .f32 0x3F800000#32),
    StableHlo.unary main_cst_3 main_call1_v0 ((id) : (⟨S_, .f32⟩ : BufTy).Contents (Elt F) → (⟨S_, .f32⟩ : BufTy).Contents (Elt F)),
    StableHlo.unary main_call1_v0 main_call1_v1 ((broadcastInDim S40000 ![] bcast_S_S40000) : (⟨S_, .f32⟩ : BufTy).Contents (Elt F) → (⟨S40000, .f32⟩ : BufTy).Contents (Elt F)),
    StableHlo.ternary main_v16 main_v12 main_call1_v1 main_v17 ((select) : (⟨S40000, .i1⟩ : BufTy).Contents (Elt F) → (⟨S40000, .f32⟩ : BufTy).Contents (Elt F) → (⟨S40000, .f32⟩ : BufTy).Contents (Elt F) → (⟨S40000, .f32⟩ : BufTy).Contents (Elt F)),
    StableHlo.unary main_v17 main_v18 (Host.rsqrt : (⟨S40000, .f32⟩ : BufTy).Contents (Elt F) → (⟨S40000, .f32⟩ : BufTy).Contents (Elt F)),
    StableHlo.nullary main_cst_4 (constant S_ .f32 0x00000000#32),
    StableHlo.unary main_cst_4 main_call2_v0 ((id) : (⟨S_, .f32⟩ : BufTy).Contents (Elt F) → (⟨S_, .f32⟩ : BufTy).Contents (Elt F)),
    StableHlo.unary main_call2_v0 main_call2_v1 ((broadcastInDim S40000 ![] bcast_S_S40000) : (⟨S_, .f32⟩ : BufTy).Contents (Elt F) → (⟨S40000, .f32⟩ : BufTy).Contents (Elt F)),
    StableHlo.ternary main_v14 main_v18 main_call2_v1 main_v19 ((select) : (⟨S40000, .i1⟩ : BufTy).Contents (Elt F) → (⟨S40000, .f32⟩ : BufTy).Contents (Elt F) → (⟨S40000, .f32⟩ : BufTy).Contents (Elt F) → (⟨S40000, .f32⟩ : BufTy).Contents (Elt F)),
    StableHlo.nullary main_c (constantI S_ 32 0#32),
    StableHlo.unary main_c main_v20 (broadcastInDim S640000 ![] bcast_S_S640000 : (⟨S_, .i32⟩ : BufTy).Contents (Elt F) → (⟨S640000, .i32⟩ : BufTy).Contents (Elt F)),
    StableHlo.binary main_v1 main_v20 main_v21 (cmpi .slt : (⟨S640000, .i32⟩ : BufTy).Contents (Elt F) → (⟨S640000, .i32⟩ : BufTy).Contents (Elt F) → (⟨S640000, .i1⟩ : BufTy).Contents (Elt F)),
    StableHlo.nullary main_c_5 (constantI S_ 32 40000#32),
    StableHlo.unary main_c_5 main_v22 (broadcastInDim S640000 ![] bcast_S_S640000 : (⟨S_, .i32⟩ : BufTy).Contents (Elt F) → (⟨S640000, .i32⟩ : BufTy).Contents (Elt F)),
    StableHlo.binary main_v1 main_v22 main_v23 (addi : (⟨S640000, .i32⟩ : BufTy).Contents (Elt F) → (⟨S640000, .i32⟩ : BufTy).Contents (Elt F) → (⟨S640000, .i32⟩ : BufTy).Contents (Elt F)),
    StableHlo.ternary main_v21 main_v23 main_v1 main_v24 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v24 main_v25 (broadcastInDim S640000x1 ![0] bcast_S640000_S640000x1_0 : (⟨S640000, .i32⟩ : BufTy).Contents (Elt F) → (⟨S640000x1, .i32⟩ : BufTy).Contents (Elt F)),
    StableHlo.binary main_v19 main_v25 main_v26 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    StableHlo.unary main_v26 main_v27 (Host.negf : (⟨S640000, .f32⟩ : BufTy).Contents (Elt F) → (⟨S640000, .f32⟩ : BufTy).Contents (Elt F)),
    StableHlo.binary main_v27 main_v9 main_v28 (mulf : (⟨S640000, .f32⟩ : BufTy).Contents (Elt F) → (⟨S640000, .f32⟩ : BufTy).Contents (Elt F) → (⟨S640000, .f32⟩ : BufTy).Contents (Elt F)),
    StableHlo.nullary main_c_6 (constantI S_ 32 0#32),
    StableHlo.unary main_c_6 main_v29 (broadcastInDim S640000 ![] bcast_S_S640000 : (⟨S_, .i32⟩ : BufTy).Contents (Elt F) → (⟨S640000, .i32⟩ : BufTy).Contents (Elt F)),
    StableHlo.binary main_v3 main_v29 main_v30 (cmpi .slt : (⟨S640000, .i32⟩ : BufTy).Contents (Elt F) → (⟨S640000, .i32⟩ : BufTy).Contents (Elt F) → (⟨S640000, .i1⟩ : BufTy).Contents (Elt F)),
    StableHlo.nullary main_c_7 (constantI S_ 32 40000#32),
    StableHlo.unary main_c_7 main_v31 (broadcastInDim S640000 ![] bcast_S_S640000 : (⟨S_, .i32⟩ : BufTy).Contents (Elt F) → (⟨S640000, .i32⟩ : BufTy).Contents (Elt F)),
    StableHlo.binary main_v3 main_v31 main_v32 (addi : (⟨S640000, .i32⟩ : BufTy).Contents (Elt F) → (⟨S640000, .i32⟩ : BufTy).Contents (Elt F) → (⟨S640000, .i32⟩ : BufTy).Contents (Elt F)),
    StableHlo.ternary main_v30 main_v32 main_v3 main_v33 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v33 main_v34 (broadcastInDim S640000x1 ![0] bcast_S640000_S640000x1_0 : (⟨S640000, .i32⟩ : BufTy).Contents (Elt F) → (⟨S640000x1, .i32⟩ : BufTy).Contents (Elt F)),
    StableHlo.binary main_v19 main_v34 main_v35 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    StableHlo.binary main_v28 main_v35 main_v36 (mulf : (⟨S640000, .f32⟩ : BufTy).Contents (Elt F) → (⟨S640000, .f32⟩ : BufTy).Contents (Elt F) → (⟨S640000, .f32⟩ : BufTy).Contents (Elt F)),
    StableHlo.unary main_v36 main_v37 (broadcastInDim S640000x1 ![0] bcast_S640000_S640000x1_0 : (⟨S640000, .f32⟩ : BufTy).Contents (Elt F) → (⟨S640000x1, .f32⟩ : BufTy).Contents (Elt F)),
    StableHlo.nullary main_c_8 (constantI S_ 32 0#32),
    StableHlo.unary main_c_8 main_v38 (broadcastInDim S640000 ![] bcast_S_S640000 : (⟨S_, .i32⟩ : BufTy).Contents (Elt F) → (⟨S640000, .i32⟩ : BufTy).Contents (Elt F)),
    StableHlo.binary main_v1 main_v38 main_v39 (cmpi .slt : (⟨S640000, .i32⟩ : BufTy).Contents (Elt F) → (⟨S640000, .i32⟩ : BufTy).Contents (Elt F) → (⟨S640000, .i1⟩ : BufTy).Contents (Elt F)),
    StableHlo.nullary main_c_9 (constantI S_ 32 40000#32),
    StableHlo.unary main_c_9 main_v40 (broadcastInDim S640000 ![] bcast_S_S640000 : (⟨S_, .i32⟩ : BufTy).Contents (Elt F) → (⟨S640000, .i32⟩ : BufTy).Contents (Elt F)),
    StableHlo.binary main_v1 main_v40 main_v41 (addi : (⟨S640000, .i32⟩ : BufTy).Contents (Elt F) → (⟨S640000, .i32⟩ : BufTy).Contents (Elt F) → (⟨S640000, .i32⟩ : BufTy).Contents (Elt F)),
    StableHlo.ternary main_v39 main_v41 main_v1 main_v42 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v42 main_v43 (broadcastInDim S640000x1 ![0] bcast_S640000_S640000x1_0 : (⟨S640000, .i32⟩ : BufTy).Contents (Elt F) → (⟨S640000x1, .i32⟩ : BufTy).Contents (Elt F)),
    StableHlo.binary main_v8 main_v43 main_v44 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_v37 main_v45 (broadcastInDim S640000x128 ![0, 1] bcast_S640000x1_S640000x128_0_1 : (⟨S640000x1, .f32⟩ : BufTy).Contents (Elt F) → (⟨S640000x128, .f32⟩ : BufTy).Contents (Elt F)),
    StableHlo.binary main_v45 main_v44 main_v46 (mulf : (⟨S640000x128, .f32⟩ : BufTy).Contents (Elt F) → (⟨S640000x128, .f32⟩ : BufTy).Contents (Elt F) → (⟨S640000x128, .f32⟩ : BufTy).Contents (Elt F)),
    StableHlo.nullary main_cst_10 (constant S_ .f32 0x00000000#32),
    StableHlo.unary main_cst_10 main_v47 (broadcastInDim S40000x128 ![] bcast_S_S40000x128 : (⟨S_, .f32⟩ : BufTy).Contents (Elt F) → (⟨S40000x128, .f32⟩ : BufTy).Contents (Elt F)),
    StableHlo.unary main_v3 main_v48 (broadcastInDim S640000x1 ![0] bcast_S640000_S640000x1_0 : (⟨S640000, .i32⟩ : BufTy).Contents (Elt F) → (⟨S640000x1, .i32⟩ : BufTy).Contents (Elt F)),
    StableHlo.ternary main_v47 main_v48 main_v46 main_v49 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)) ]

/-- Slice 3: operations 69 … 82 of the program. -/
abbrev sl3 : List (HloOp τ sig (Elt F)) :=
  [ StableHlo.binary main_v8 main_arg5 main_v50 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.binary main_v49 main_arg6 main_v51 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.binary main_v50 main_v51 main_v52 (addf : (⟨S40000x128, .f32⟩ : BufTy).Contents (Elt F) → (⟨S40000x128, .f32⟩ : BufTy).Contents (Elt F) → (⟨S40000x128, .f32⟩ : BufTy).Contents (Elt F)),
    StableHlo.unary main_arg7 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S40000x128 ![0, 1] bcast_S1x128_S40000x128_0_1 : (⟨S1x128, .f32⟩ : BufTy).Contents (Elt F) → (⟨S40000x128, .f32⟩ : BufTy).Contents (Elt F)),
    StableHlo.binary main_v52 main_v54 main_v55 (addf : (⟨S40000x128, .f32⟩ : BufTy).Contents (Elt F) → (⟨S40000x128, .f32⟩ : BufTy).Contents (Elt F) → (⟨S40000x128, .f32⟩ : BufTy).Contents (Elt F)),
    StableHlo.nullary main_cst_11 (constant S_ .f32 0x3C23D70A#32),
    StableHlo.nullary main_call3_cst (constant S_ .f32 0x00000000#32),
    StableHlo.unary main_call3_cst main_call3_v0 ((broadcastInDim S40000x128 ![] bcast_S_S40000x128) : (⟨S_, .f32⟩ : BufTy).Contents (Elt F) → (⟨S40000x128, .f32⟩ : BufTy).Contents (Elt F)),
    StableHlo.binary main_v55 main_call3_v0 main_call3_v1 ((cmpf .oge) : (⟨S40000x128, .f32⟩ : BufTy).Contents (Elt F) → (⟨S40000x128, .f32⟩ : BufTy).Contents (Elt F) → (⟨S40000x128, .i1⟩ : BufTy).Contents (Elt F)),
    StableHlo.unary main_cst_11 main_call3_v2 ((id) : (⟨S_, .f32⟩ : BufTy).Contents (Elt F) → (⟨S_, .f32⟩ : BufTy).Contents (Elt F)),
    StableHlo.unary main_call3_v2 main_call3_v3 ((broadcastInDim S40000x128 ![] bcast_S_S40000x128) : (⟨S_, .f32⟩ : BufTy).Contents (Elt F) → (⟨S40000x128, .f32⟩ : BufTy).Contents (Elt F)),
    StableHlo.binary main_call3_v3 main_v55 main_call3_v4 ((mulf) : (⟨S40000x128, .f32⟩ : BufTy).Contents (Elt F) → (⟨S40000x128, .f32⟩ : BufTy).Contents (Elt F) → (⟨S40000x128, .f32⟩ : BufTy).Contents (Elt F)),
    StableHlo.ternary main_call3_v1 main_v55 main_call3_v4 main_v56 ((select) : (⟨S40000x128, .i1⟩ : BufTy).Contents (Elt F) → (⟨S40000x128, .f32⟩ : BufTy).Contents (Elt F) → (⟨S40000x128, .f32⟩ : BufTy).Contents (Elt F) → (⟨S40000x128, .f32⟩ : BufTy).Contents (Elt F)) ]

/-- Slice 4: operations 83 … 137 of the program. -/
abbrev sl4 : List (HloOp τ sig (Elt F)) :=
  [ StableHlo.nullary main_cst_12 (constant S_ .f32 0x3F800000#32),
    StableHlo.unary main_cst_12 main_v57 (broadcastInDim S40000 ![] bcast_S_S40000 : (⟨S_, .f32⟩ : BufTy).Contents (Elt F) → (⟨S40000, .f32⟩ : BufTy).Contents (Elt F)),
    StableHlo.nullary main_c_13 (constantI S_ 32 40000#32),
    StableHlo.unary main_c_13 main_call4_v0 ((id) : (⟨S_, .i32⟩ : BufTy).Contents (Elt F) → (⟨S_, .i32⟩ : BufTy).Contents (Elt F)),
    StableHlo.unary main_call4_v0 main_call4_v1 ((broadcastInDim S640000 ![] bcast_S_S640000) : (⟨S_, .i32⟩ : BufTy).Contents (Elt F) → (⟨S640000, .i32⟩ : BufTy).Contents (Elt F)),
    StableHlo.ternary main_v4 main_v1 main_call4_v1 main_v58 ((select) : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.nullary main_c_14 (constantI S_ 32 0#32),
    StableHlo.unary main_c_14 main_v59 (broadcastInDim S640000 ![] bcast_S_S640000 : (⟨S_, .i32⟩ : BufTy).Contents (Elt F) → (⟨S640000, .i32⟩ : BufTy).Contents (Elt F)),
    StableHlo.binary main_v58 main_v59 main_v60 (cmpi .slt : (⟨S640000, .i32⟩ : BufTy).Contents (Elt F) → (⟨S640000, .i32⟩ : BufTy).Contents (Elt F) → (⟨S640000, .i1⟩ : BufTy).Contents (Elt F)),
    StableHlo.nullary main_c_15 (constantI S_ 32 40000#32),
    StableHlo.unary main_c_15 main_v61 (broadcastInDim S640000 ![] bcast_S_S640000 : (⟨S_, .i32⟩ : BufTy).Contents (Elt F) → (⟨S640000, .i32⟩ : BufTy).Contents (Elt F)),
    StableHlo.binary main_v58 main_v61 main_v62 (addi : (⟨S640000, .i32⟩ : BufTy).Contents (Elt F) → (⟨S640000, .i32⟩ : BufTy).Contents (Elt F) → (⟨S640000, .i32⟩ : BufTy).Contents (Elt F)),
    StableHlo.ternary main_v60 main_v62 main_v58 main_v63 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v63 main_v64 (broadcastInDim S640000x1 ![0] bcast_S640000_S640000x1_0 : (⟨S640000, .i32⟩ : BufTy).Contents (Elt F) → (⟨S640000x1, .i32⟩ : BufTy).Contents (Elt F)),
    StableHlo.ternary main_v57 main_v64 main_arg2 main_v65 ((fun x i u => Host.scatter scatter_S40000_S640000x1_S640000_n_0_0_1 (fun _ b => b) x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_16 (constant S_ .f32 0x00000000#32),
    StableHlo.unary main_cst_16 main_call5_v0 ((id) : (⟨S_, .f32⟩ : BufTy).Contents (Elt F) → (⟨S_, .f32⟩ : BufTy).Contents (Elt F)),
    StableHlo.unary main_call5_v0 main_call5_v1 ((broadcastInDim S640000 ![] bcast_S_S640000) : (⟨S_, .f32⟩ : BufTy).Contents (Elt F) → (⟨S640000, .f32⟩ : BufTy).Contents (Elt F)),
    StableHlo.ternary main_v4 main_call5_v1 main_arg2 main_v66 ((select) : (⟨S640000, .i1⟩ : BufTy).Contents (Elt F) → (⟨S640000, .f32⟩ : BufTy).Contents (Elt F) → (⟨S640000, .f32⟩ : BufTy).Contents (Elt F) → (⟨S640000, .f32⟩ : BufTy).Contents (Elt F)),
    StableHlo.unary main_v66 main_v67 (broadcastInDim S640000x1 ![0] bcast_S640000_S640000x1_0 : (⟨S640000, .f32⟩ : BufTy).Contents (Elt F) → (⟨S640000x1, .f32⟩ : BufTy).Contents (Elt F)),
    StableHlo.nullary main_c_17 (constantI S_ 32 0#32),
    StableHlo.unary main_c_17 main_v68 (broadcastInDim S640000 ![] bcast_S_S640000 : (⟨S_, .i32⟩ : BufTy).Contents (Elt F) → (⟨S640000, .i32⟩ : BufTy).Contents (Elt F)),
    StableHlo.binary main_v1 main_v68 main_v69 (cmpi .slt : (⟨S640000, .i32⟩ : BufTy).Contents (Elt F) → (⟨S640000, .i32⟩ : BufTy).Contents (Elt F) → (⟨S640000, .i1⟩ : BufTy).Contents (Elt F)),
    StableHlo.nullary main_c_18 (constantI S_ 32 40000#32),
    StableHlo.unary main_c_18 main_v70 (broadcastInDim S640000 ![] bcast_S_S640000 : (⟨S_, .i32⟩ : BufTy).Contents (Elt F) → (⟨S640000, .i32⟩ : BufTy).Contents (Elt F)),
    StableHlo.binary main_v1 main_v70 main_v71 (addi : (⟨S640000, .i32⟩ : BufTy).Contents (Elt F) → (⟨S640000, .i32⟩ : BufTy).Contents (Elt F) → (⟨S640000, .i32⟩ : BufTy).Contents (Elt F)),
    StableHlo.ternary main_v69 main_v71 main_v1 main_v72 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v72 main_v73 (broadcastInDim S640000x1 ![0] bcast_S640000_S640000x1_0 : (⟨S640000, .i32⟩ : BufTy).Contents (Elt F) → (⟨S640000x1, .i32⟩ : BufTy).Contents (Elt F)),
    StableHlo.binary main_v8 main_v73 main_v74 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_v67 main_v75 (broadcastInDim S640000x128 ![0, 1] bcast_S640000x1_S640000x128_0_1 : (⟨S640000x1, .f32⟩ : BufTy).Contents (Elt F) → (⟨S640000x128, .f32⟩ : BufTy).Contents (Elt F)),
    StableHlo.binary main_v75 main_v74 main_v76 (mulf : (⟨S640000x128, .f32⟩ : BufTy).Contents (Elt F) → (⟨S640000x128, .f32⟩ : BufTy).Contents (Elt F) → (⟨S640000x128, .f32⟩ : BufTy).Contents (Elt F)),
    StableHlo.nullary main_cst_19 (constant S_ .f32 0x00000000#32),
    StableHlo.unary main_cst_19 main_v77 (broadcastInDim S40000x128 ![] bcast_S_S40000x128 : (⟨S_, .f32⟩ : BufTy).Contents (Elt F) → (⟨S40000x128, .f32⟩ : BufTy).Contents (Elt F)),
    StableHlo.unary main_v3 main_v78 (broadcastInDim S640000x1 ![0] bcast_S640000_S640000x1_0 : (⟨S640000, .i32⟩ : BufTy).Contents (Elt F) → (⟨S640000x1, .i32⟩ : BufTy).Contents (Elt F)),
    StableHlo.ternary main_v77 main_v78 main_v76 main_v79 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.unary main_v65 main_v80 (broadcastInDim S40000x1 ![0] bcast_S40000_S40000x1_0 : (⟨S40000, .f32⟩ : BufTy).Contents (Elt F) → (⟨S40000x1, .f32⟩ : BufTy).Contents (Elt F)),
    StableHlo.unary main_v80 main_v81 (broadcastInDim S40000x128 ![0, 1] bcast_S40000x1_S40000x128_0_1 : (⟨S40000x1, .f32⟩ : BufTy).Contents (Elt F) → (⟨S40000x128, .f32⟩ : BufTy).Contents (Elt F)),
    StableHlo.binary main_v81 main_v8 main_v82 (mulf : (⟨S40000x128, .f32⟩ : BufTy).Contents (Elt F) → (⟨S40000x128, .f32⟩ : BufTy).Contents (Elt F) → (⟨S40000x128, .f32⟩ : BufTy).Contents (Elt F)),
    StableHlo.binary main_v79 main_v82 main_v83 (addf : (⟨S40000x128, .f32⟩ : BufTy).Contents (Elt F) → (⟨S40000x128, .f32⟩ : BufTy).Contents (Elt F) → (⟨S40000x128, .f32⟩ : BufTy).Contents (Elt F)),
    StableHlo.nullary main_cst_20 (constant S_ .f32 0x00000000#32),
    StableHlo.nullary main_cst_21 (constant S_ .f32 0x3F800000#32),
    StableHlo.unary main_cst_20 main_call6_v0 ((broadcastInDim S640000 ![] bcast_S_S640000) : (⟨S_, .f32⟩ : BufTy).Contents (Elt F) → (⟨S640000, .f32⟩ : BufTy).Contents (Elt F)),
    StableHlo.unary main_cst_21 main_call6_v1 ((broadcastInDim S640000 ![] bcast_S_S640000) : (⟨S_, .f32⟩ : BufTy).Contents (Elt F) → (⟨S640000, .f32⟩ : BufTy).Contents (Elt F)),
    StableHlo.ternary main_v4 main_call6_v0 main_call6_v1 main_v84 ((select) : (⟨S640000, .i1⟩ : BufTy).Contents (Elt F) → (⟨S640000, .f32⟩ : BufTy).Contents (Elt F) → (⟨S640000, .f32⟩ : BufTy).Contents (Elt F) → (⟨S640000, .f32⟩ : BufTy).Contents (Elt F)),
    StableHlo.nullary main_cst_22 (constant S_ .f32 0x00000000#32),
    StableHlo.unary main_cst_22 main_v85 (broadcastInDim S40000 ![] bcast_S_S40000 : (⟨S_, .f32⟩ : BufTy).Contents (Elt F) → (⟨S40000, .f32⟩ : BufTy).Contents (Elt F)),
    StableHlo.unary main_v3 main_v86 (broadcastInDim S640000x1 ![0] bcast_S640000_S640000x1_0 : (⟨S640000, .i32⟩ : BufTy).Contents (Elt F) → (⟨S640000x1, .i32⟩ : BufTy).Contents (Elt F)),
    StableHlo.unary main_v84 main_v87 (id : (⟨S640000, .f32⟩ : BufTy).Contents (Elt F) → (⟨S640000, .f32⟩ : BufTy).Contents (Elt F)),
    StableHlo.ternary main_v85 main_v86 main_v87 main_v88 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_23 (constant S_ .f32 0x3F800000#32),
    StableHlo.unary main_cst_23 main_v89 (broadcastInDim S40000 ![] bcast_S_S40000 : (⟨S_, .f32⟩ : BufTy).Contents (Elt F) → (⟨S40000, .f32⟩ : BufTy).Contents (Elt F)),
    StableHlo.binary main_v88 main_v89 main_v90 (addf : (⟨S40000, .f32⟩ : BufTy).Contents (Elt F) → (⟨S40000, .f32⟩ : BufTy).Contents (Elt F) → (⟨S40000, .f32⟩ : BufTy).Contents (Elt F)),
    StableHlo.unary main_v90 main_v91 (broadcastInDim S40000x1 ![0] bcast_S40000_S40000x1_0 : (⟨S40000, .f32⟩ : BufTy).Contents (Elt F) → (⟨S40000x1, .f32⟩ : BufTy).Contents (Elt F)),
    StableHlo.unary main_v91 main_v92 (broadcastInDim S40000x128 ![0, 1] bcast_S40000x1_S40000x128_0_1 : (⟨S40000x1, .f32⟩ : BufTy).Contents (Elt F) → (⟨S40000x128, .f32⟩ : BufTy).Contents (Elt F)),
    StableHlo.binary main_v83 main_v92 main_v93 (Host.divf : (⟨S40000x128, .f32⟩ : BufTy).Contents (Elt F) → (⟨S40000x128, .f32⟩ : BufTy).Contents (Elt F) → (⟨S40000x128, .f32⟩ : BufTy).Contents (Elt F)) ]

/-- Slice 5: operations 138 … 158 of the program. -/
abbrev sl5 : List (HloOp τ sig (Elt F)) :=
  [ StableHlo.binary main_v93 main_arg8 main_v94 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg9 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S40000x128 ![0, 1] bcast_S1x128_S40000x128_0_1 : (⟨S1x128, .f32⟩ : BufTy).Contents (Elt F) → (⟨S40000x128, .f32⟩ : BufTy).Contents (Elt F)),
    StableHlo.binary main_v94 main_v96 main_v97 (addf : (⟨S40000x128, .f32⟩ : BufTy).Contents (Elt F) → (⟨S40000x128, .f32⟩ : BufTy).Contents (Elt F) → (⟨S40000x128, .f32⟩ : BufTy).Contents (Elt F)),
    StableHlo.nullary main_cst_24 (constant S_ .f32 0x3C23D70A#32),
    StableHlo.nullary main_call7_cst (constant S_ .f32 0x00000000#32),
    StableHlo.unary main_call7_cst main_call7_v0 ((broadcastInDim S40000x128 ![] bcast_S_S40000x128) : (⟨S_, .f32⟩ : BufTy).Contents (Elt F) → (⟨S40000x128, .f32⟩ : BufTy).Contents (Elt F)),
    StableHlo.binary main_v97 main_call7_v0 main_call7_v1 ((cmpf .oge) : (⟨S40000x128, .f32⟩ : BufTy).Contents (Elt F) → (⟨S40000x128, .f32⟩ : BufTy).Contents (Elt F) → (⟨S40000x128, .i1⟩ : BufTy).Contents (Elt F)),
    StableHlo.unary main_cst_24 main_call7_v2 ((id) : (⟨S_, .f32⟩ : BufTy).Contents (Elt F) → (⟨S_, .f32⟩ : BufTy).Contents (Elt F)),
    StableHlo.unary main_call7_v2 main_call7_v3 ((broadcastInDim S40000x128 ![] bcast_S_S40000x128) : (⟨S_, .f32⟩ : BufTy).Contents (Elt F) → (⟨S40000x128, .f32⟩ : BufTy).Contents (Elt F)),
    StableHlo.binary main_call7_v3 main_v97 main_call7_v4 ((mulf) : (⟨S40000x128, .f32⟩ : BufTy).Contents (Elt F) → (⟨S40000x128, .f32⟩ : BufTy).Contents (Elt F) → (⟨S40000x128, .f32⟩ : BufTy).Contents (Elt F)),
    StableHlo.ternary main_call7_v1 main_v97 main_call7_v4 main_v98 ((select) : (⟨S40000x128, .i1⟩ : BufTy).Contents (Elt F) → (⟨S40000x128, .f32⟩ : BufTy).Contents (Elt F) → (⟨S40000x128, .f32⟩ : BufTy).Contents (Elt F) → (⟨S40000x128, .f32⟩ : BufTy).Contents (Elt F)),
    StableHlo.binary main_v56 main_v98 main_v99 (addf : (⟨S40000x128, .f32⟩ : BufTy).Contents (Elt F) → (⟨S40000x128, .f32⟩ : BufTy).Contents (Elt F) → (⟨S40000x128, .f32⟩ : BufTy).Contents (Elt F)),
    StableHlo.binary main_v99 main_arg10 main_v100 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg11 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S40000x128 ![0, 1] bcast_S1x128_S40000x128_0_1 : (⟨S1x128, .f32⟩ : BufTy).Contents (Elt F) → (⟨S40000x128, .f32⟩ : BufTy).Contents (Elt F)),
    StableHlo.binary main_v100 main_v102 main_v103 (addf : (⟨S40000x128, .f32⟩ : BufTy).Contents (Elt F) → (⟨S40000x128, .f32⟩ : BufTy).Contents (Elt F) → (⟨S40000x128, .f32⟩ : BufTy).Contents (Elt F)),
    StableHlo.binary main_v103 main_arg12 main_v104 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg13 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S40000x128 ![0, 1] bcast_S1x128_S40000x128_0_1 : (⟨S1x128, .f32⟩ : BufTy).Contents (Elt F) → (⟨S40000x128, .f32⟩ : BufTy).Contents (Elt F)),
    StableHlo.binary main_v104 main_v106 main_v107 (addf : (⟨S40000x128, .f32⟩ : BufTy).Contents (Elt F) → (⟨S40000x128, .f32⟩ : BufTy).Contents (Elt F) → (⟨S40000x128, .f32⟩ : BufTy).Contents (Elt F)) ]

/-- Slice 6: operations 159 … 218 of the program. -/
abbrev sl6 : List (HloOp τ sig (Elt F)) :=
  [ StableHlo.nullary main_cst_25 (constant S_ .f32 0x00000000#32),
    StableHlo.unary main_cst_25 main_call8_v0 ((id) : (⟨S_, .f32⟩ : BufTy).Contents (Elt F) → (⟨S_, .f32⟩ : BufTy).Contents (Elt F)),
    StableHlo.unary main_call8_v0 main_call8_v1 ((broadcastInDim S640000 ![] bcast_S_S640000) : (⟨S_, .f32⟩ : BufTy).Contents (Elt F) → (⟨S640000, .f32⟩ : BufTy).Contents (Elt F)),
    StableHlo.ternary main_v4 main_call8_v1 main_arg2 main_v108 ((select) : (⟨S640000, .i1⟩ : BufTy).Contents (Elt F) → (⟨S640000, .f32⟩ : BufTy).Contents (Elt F) → (⟨S640000, .f32⟩ : BufTy).Contents (Elt F) → (⟨S640000, .f32⟩ : BufTy).Contents (Elt F)),
    StableHlo.nullary main_cst_26 (constant S_ .f32 0x00000000#32),
    StableHlo.unary main_cst_26 main_v109 (broadcastInDim S40000 ![] bcast_S_S40000 : (⟨S_, .f32⟩ : BufTy).Contents (Elt F) → (⟨S40000, .f32⟩ : BufTy).Contents (Elt F)),
    StableHlo.unary main_v1 main_v110 (broadcastInDim S640000x1 ![0] bcast_S640000_S640000x1_0 : (⟨S640000, .i32⟩ : BufTy).Contents (Elt F) → (⟨S640000x1, .i32⟩ : BufTy).Contents (Elt F)),
    StableHlo.ternary main_v109 main_v110 main_v108 main_v111 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_27 (constant S_ .f32 0x00000000#32),
    StableHlo.unary main_cst_27 main_v112 (broadcastInDim S40000 ![] bcast_S_S40000 : (⟨S_, .f32⟩ : BufTy).Contents (Elt F) → (⟨S40000, .f32⟩ : BufTy).Contents (Elt F)),
    StableHlo.binary main_v111 main_v112 main_v113 (cmpf .ogt : (⟨S40000, .f32⟩ : BufTy).Contents (Elt F) → (⟨S40000, .f32⟩ : BufTy).Contents (Elt F) → (⟨S40000, .i1⟩ : BufTy).Contents (Elt F)),
    StableHlo.nullary main_cst_28 (constant S_ .f32 0x00000000#32),
    StableHlo.unary main_cst_28 main_v114 (broadcastInDim S40000 ![] bcast_S_S40000 : (⟨S_, .f32⟩ : BufTy).Contents (Elt F) → (⟨S40000, .f32⟩ : BufTy).Contents (Elt F)),
    StableHlo.binary main_v111 main_v114 main_v115 (cmpf .ogt : (⟨S40000, .f32⟩ : BufTy).Contents (Elt F) → (⟨S40000, .f32⟩ : BufTy).Contents (Elt F) → (⟨S40000, .i1⟩ : BufTy).Contents (Elt F)),
    StableHlo.nullary main_cst_29 (constant S_ .f32 0x3F800000#32),
    StableHlo.unary main_cst_29 main_call9_v0 ((id) : (⟨S_, .f32⟩ : BufTy).Contents (Elt F) → (⟨S_, .f32⟩ : BufTy).Contents (Elt F)),
    StableHlo.unary main_call9_v0 main_call9_v1 ((broadcastInDim S40000 ![] bcast_S_S40000) : (⟨S_, .f32⟩ : BufTy).Contents (Elt F) → (⟨S40000, .f32⟩ : BufTy).Contents (Elt F)),
    StableHlo.ternary main_v115 main_v111 main_call9_v1 main_v116 ((select) : (⟨S40000, .i1⟩ : BufTy).Contents (Elt F) → (⟨S40000, .f32⟩ : BufTy).Contents (Elt F) → (⟨S40000, .f32⟩ : BufTy).Contents (Elt F) → (⟨S40000, .f32⟩ : BufTy).Contents (Elt F)),
    StableHlo.unary main_v116 main_v117 (Host.rsqrt : (⟨S40000, .f32⟩ : BufTy).Contents (Elt F) → (⟨S40000, .f32⟩ : BufTy).Contents (Elt F)),
    StableHlo.nullary main_cst_30 (constant S_ .f32 0x00000000#32),
    StableHlo.unary main_cst_30 main_call10_v0 ((id) : (⟨S_, .f32⟩ : BufTy).Contents (Elt F) → (⟨S_, .f32⟩ : BufTy).Contents (Elt F)),
    StableHlo.unary main_call10_v0 main_call10_v1 ((broadcastInDim S40000 ![] bcast_S_S40000) : (⟨S_, .f32⟩ : BufTy).Contents (Elt F) → (⟨S40000, .f32⟩ : BufTy).Contents (Elt F)),
    StableHlo.ternary main_v113 main_v117 main_call10_v1 main_v118 ((select) : (⟨S40000, .i1⟩ : BufTy).Contents (Elt F) → (⟨S40000, .f32⟩ : BufTy).Contents (Elt F) → (⟨S40000, .f32⟩ : BufTy).Contents (Elt F) → (⟨S40000, .f32⟩ : BufTy).Contents (Elt F)),
    StableHlo.nullary main_c_31 (constantI S_ 32 0#32),
    StableHlo.unary main_c_31 main_v119 (broadcastInDim S640000 ![] bcast_S_S640000 : (⟨S_, .i32⟩ : BufTy).Contents (Elt F) → (⟨S640000, .i32⟩ : BufTy).Contents (Elt F)),
    StableHlo.binary main_v1 main_v119 main_v120 (cmpi .slt : (⟨S640000, .i32⟩ : BufTy).Contents (Elt F) → (⟨S640000, .i32⟩ : BufTy).Contents (Elt F) → (⟨S640000, .i1⟩ : BufTy).Contents (Elt F)),
    StableHlo.nullary main_c_32 (constantI S_ 32 40000#32),
    StableHlo.unary main_c_32 main_v121 (broadcastInDim S640000 ![] bcast_S_S640000 : (⟨S_, .i32⟩ : BufTy).Contents (Elt F) → (⟨S640000, .i32⟩ : BufTy).Contents (Elt F)),
    StableHlo.binary main_v1 main_v121 main_v122 (addi : (⟨S640000, .i32⟩ : BufTy).Contents (Elt F) → (⟨S640000, .i32⟩ : BufTy).Contents (Elt F) → (⟨S640000, .i32⟩ : BufTy).Contents (Elt F)),
    StableHlo.ternary main_v120 main_v122 main_v1 main_v123 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v123 main_v124 (broadcastInDim S640000x1 ![0] bcast_S640000_S640000x1_0 : (⟨S640000, .i32⟩ : BufTy).Contents (Elt F) → (⟨S640000x1, .i32⟩ : BufTy).Contents (Elt F)),
    StableHlo.binary main_v118 main_v124 main_v125 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    StableHlo.unary main_v125 main_v126 (Host.negf : (⟨S640000, .f32⟩ : BufTy).Contents (Elt F) → (⟨S640000, .f32⟩ : BufTy).Contents (Elt F)),
    StableHlo.binary main_v126 main_v108 main_v127 (mulf : (⟨S640000, .f32⟩ : BufTy).Contents (Elt F) → (⟨S640000, .f32⟩ : BufTy).Contents (Elt F) → (⟨S640000, .f32⟩ : BufTy).Contents (Elt F)),
    StableHlo.nullary main_c_33 (constantI S_ 32 0#32),
    StableHlo.unary main_c_33 main_v128 (broadcastInDim S640000 ![] bcast_S_S640000 : (⟨S_, .i32⟩ : BufTy).Contents (Elt F) → (⟨S640000, .i32⟩ : BufTy).Contents (Elt F)),
    StableHlo.binary main_v3 main_v128 main_v129 (cmpi .slt : (⟨S640000, .i32⟩ : BufTy).Contents (Elt F) → (⟨S640000, .i32⟩ : BufTy).Contents (Elt F) → (⟨S640000, .i1⟩ : BufTy).Contents (Elt F)),
    StableHlo.nullary main_c_34 (constantI S_ 32 40000#32),
    StableHlo.unary main_c_34 main_v130 (broadcastInDim S640000 ![] bcast_S_S640000 : (⟨S_, .i32⟩ : BufTy).Contents (Elt F) → (⟨S640000, .i32⟩ : BufTy).Contents (Elt F)),
    StableHlo.binary main_v3 main_v130 main_v131 (addi : (⟨S640000, .i32⟩ : BufTy).Contents (Elt F) → (⟨S640000, .i32⟩ : BufTy).Contents (Elt F) → (⟨S640000, .i32⟩ : BufTy).Contents (Elt F)),
    StableHlo.ternary main_v129 main_v131 main_v3 main_v132 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v132 main_v133 (broadcastInDim S640000x1 ![0] bcast_S640000_S640000x1_0 : (⟨S640000, .i32⟩ : BufTy).Contents (Elt F) → (⟨S640000x1, .i32⟩ : BufTy).Contents (Elt F)),
    StableHlo.binary main_v118 main_v133 main_v134 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    StableHlo.binary main_v127 main_v134 main_v135 (mulf : (⟨S640000, .f32⟩ : BufTy).Contents (Elt F) → (⟨S640000, .f32⟩ : BufTy).Contents (Elt F) → (⟨S640000, .f32⟩ : BufTy).Contents (Elt F)),
    StableHlo.unary main_v135 main_v136 (broadcastInDim S640000x1 ![0] bcast_S640000_S640000x1_0 : (⟨S640000, .f32⟩ : BufTy).Contents (Elt F) → (⟨S640000x1, .f32⟩ : BufTy).Contents (Elt F)),
    StableHlo.nullary main_c_35 (constantI S_ 32 0#32),
    StableHlo.unary main_c_35 main_v137 (broadcastInDim S640000 ![] bcast_S_S640000 : (⟨S_, .i32⟩ : BufTy).Contents (Elt F) → (⟨S640000, .i32⟩ : BufTy).Contents (Elt F)),
    StableHlo.binary main_v1 main_v137 main_v138 (cmpi .slt : (⟨S640000, .i32⟩ : BufTy).Contents (Elt F) → (⟨S640000, .i32⟩ : BufTy).Contents (Elt F) → (⟨S640000, .i1⟩ : BufTy).Contents (Elt F)),
    StableHlo.nullary main_c_36 (constantI S_ 32 40000#32),
    StableHlo.unary main_c_36 main_v139 (broadcastInDim S640000 ![] bcast_S_S640000 : (⟨S_, .i32⟩ : BufTy).Contents (Elt F) → (⟨S640000, .i32⟩ : BufTy).Contents (Elt F)),
    StableHlo.binary main_v1 main_v139 main_v140 (addi : (⟨S640000, .i32⟩ : BufTy).Contents (Elt F) → (⟨S640000, .i32⟩ : BufTy).Contents (Elt F) → (⟨S640000, .i32⟩ : BufTy).Contents (Elt F)),
    StableHlo.ternary main_v138 main_v140 main_v1 main_v141 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v141 main_v142 (broadcastInDim S640000x1 ![0] bcast_S640000_S640000x1_0 : (⟨S640000, .i32⟩ : BufTy).Contents (Elt F) → (⟨S640000x1, .i32⟩ : BufTy).Contents (Elt F)),
    StableHlo.binary main_v107 main_v142 main_v143 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_v136 main_v144 (broadcastInDim S640000x128 ![0, 1] bcast_S640000x1_S640000x128_0_1 : (⟨S640000x1, .f32⟩ : BufTy).Contents (Elt F) → (⟨S640000x128, .f32⟩ : BufTy).Contents (Elt F)),
    StableHlo.binary main_v144 main_v143 main_v145 (mulf : (⟨S640000x128, .f32⟩ : BufTy).Contents (Elt F) → (⟨S640000x128, .f32⟩ : BufTy).Contents (Elt F) → (⟨S640000x128, .f32⟩ : BufTy).Contents (Elt F)),
    StableHlo.nullary main_cst_37 (constant S_ .f32 0x00000000#32),
    StableHlo.unary main_cst_37 main_v146 (broadcastInDim S40000x128 ![] bcast_S_S40000x128 : (⟨S_, .f32⟩ : BufTy).Contents (Elt F) → (⟨S40000x128, .f32⟩ : BufTy).Contents (Elt F)),
    StableHlo.unary main_v3 main_v147 (broadcastInDim S640000x1 ![0] bcast_S640000_S640000x1_0 : (⟨S640000, .i32⟩ : BufTy).Contents (Elt F) → (⟨S640000x1, .i32⟩ : BufTy).Contents (Elt F)),
    StableHlo.ternary main_v146 main_v147 main_v145 main_v148 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)) ]

/-- Slice 7: operations 219 … 232 of the program. -/
abbrev sl7 : List (HloOp τ sig (Elt F)) :=
  [ StableHlo.binary main_v107 main_arg14 main_v149 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.binary main_v148 main_arg15 main_v150 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.binary main_v149 main_v150 main_v151 (addf : (⟨S40000x128, .f32⟩ : BufTy).Contents (Elt F) → (⟨S40000x128, .f32⟩ : BufTy).Contents (Elt F) → (⟨S40000x128, .f32⟩ : BufTy).Contents (Elt F)),
    StableHlo.unary main_arg16 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S40000x128 ![0, 1] bcast_S1x128_S40000x128_0_1 : (⟨S1x128, .f32⟩ : BufTy).Contents (Elt F) → (⟨S40000x128, .f32⟩ : BufTy).Contents (Elt F)),
    StableHlo.binary main_v151 main_v153 main_v154 (addf : (⟨S40000x128, .f32⟩ : BufTy).Contents (Elt F) → (⟨S40000x128, .f32⟩ : BufTy).Contents (Elt F) → (⟨S40000x128, .f32⟩ : BufTy).Contents (Elt F)),
    StableHlo.nullary main_cst_38 (constant S_ .f32 0x3C23D70A#32),
    StableHlo.nullary main_call11_cst (constant S_ .f32 0x00000000#32),
    StableHlo.unary main_call11_cst main_call11_v0 ((broadcastInDim S40000x128 ![] bcast_S_S40000x128) : (⟨S_, .f32⟩ : BufTy).Contents (Elt F) → (⟨S40000x128, .f32⟩ : BufTy).Contents (Elt F)),
    StableHlo.binary main_v154 main_call11_v0 main_call11_v1 ((cmpf .oge) : (⟨S40000x128, .f32⟩ : BufTy).Contents (Elt F) → (⟨S40000x128, .f32⟩ : BufTy).Contents (Elt F) → (⟨S40000x128, .i1⟩ : BufTy).Contents (Elt F)),
    StableHlo.unary main_cst_38 main_call11_v2 ((id) : (⟨S_, .f32⟩ : BufTy).Contents (Elt F) → (⟨S_, .f32⟩ : BufTy).Contents (Elt F)),
    StableHlo.unary main_call11_v2 main_call11_v3 ((broadcastInDim S40000x128 ![] bcast_S_S40000x128) : (⟨S_, .f32⟩ : BufTy).Contents (Elt F) → (⟨S40000x128, .f32⟩ : BufTy).Contents (Elt F)),
    StableHlo.binary main_call11_v3 main_v154 main_call11_v4 ((mulf) : (⟨S40000x128, .f32⟩ : BufTy).Contents (Elt F) → (⟨S40000x128, .f32⟩ : BufTy).Contents (Elt F) → (⟨S40000x128, .f32⟩ : BufTy).Contents (Elt F)),
    StableHlo.ternary main_call11_v1 main_v154 main_call11_v4 main_v155 ((select) : (⟨S40000x128, .i1⟩ : BufTy).Contents (Elt F) → (⟨S40000x128, .f32⟩ : BufTy).Contents (Elt F) → (⟨S40000x128, .f32⟩ : BufTy).Contents (Elt F) → (⟨S40000x128, .f32⟩ : BufTy).Contents (Elt F)) ]

/-- Slice 8: operations 233 … 287 of the program. -/
abbrev sl8 : List (HloOp τ sig (Elt F)) :=
  [ StableHlo.nullary main_cst_39 (constant S_ .f32 0x3F800000#32),
    StableHlo.unary main_cst_39 main_v156 (broadcastInDim S40000 ![] bcast_S_S40000 : (⟨S_, .f32⟩ : BufTy).Contents (Elt F) → (⟨S40000, .f32⟩ : BufTy).Contents (Elt F)),
    StableHlo.nullary main_c_40 (constantI S_ 32 40000#32),
    StableHlo.unary main_c_40 main_call12_v0 ((id) : (⟨S_, .i32⟩ : BufTy).Contents (Elt F) → (⟨S_, .i32⟩ : BufTy).Contents (Elt F)),
    StableHlo.unary main_call12_v0 main_call12_v1 ((broadcastInDim S640000 ![] bcast_S_S640000) : (⟨S_, .i32⟩ : BufTy).Contents (Elt F) → (⟨S640000, .i32⟩ : BufTy).Contents (Elt F)),
    StableHlo.ternary main_v4 main_v1 main_call12_v1 main_v157 ((select) : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.nullary main_c_41 (constantI S_ 32 0#32),
    StableHlo.unary main_c_41 main_v158 (broadcastInDim S640000 ![] bcast_S_S640000 : (⟨S_, .i32⟩ : BufTy).Contents (Elt F) → (⟨S640000, .i32⟩ : BufTy).Contents (Elt F)),
    StableHlo.binary main_v157 main_v158 main_v159 (cmpi .slt : (⟨S640000, .i32⟩ : BufTy).Contents (Elt F) → (⟨S640000, .i32⟩ : BufTy).Contents (Elt F) → (⟨S640000, .i1⟩ : BufTy).Contents (Elt F)),
    StableHlo.nullary main_c_42 (constantI S_ 32 40000#32),
    StableHlo.unary main_c_42 main_v160 (broadcastInDim S640000 ![] bcast_S_S640000 : (⟨S_, .i32⟩ : BufTy).Contents (Elt F) → (⟨S640000, .i32⟩ : BufTy).Contents (Elt F)),
    StableHlo.binary main_v157 main_v160 main_v161 (addi : (⟨S640000, .i32⟩ : BufTy).Contents (Elt F) → (⟨S640000, .i32⟩ : BufTy).Contents (Elt F) → (⟨S640000, .i32⟩ : BufTy).Contents (Elt F)),
    StableHlo.ternary main_v159 main_v161 main_v157 main_v162 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v162 main_v163 (broadcastInDim S640000x1 ![0] bcast_S640000_S640000x1_0 : (⟨S640000, .i32⟩ : BufTy).Contents (Elt F) → (⟨S640000x1, .i32⟩ : BufTy).Contents (Elt F)),
    StableHlo.ternary main_v156 main_v163 main_arg2 main_v164 ((fun x i u => Host.scatter scatter_S40000_S640000x1_S640000_n_0_0_1 (fun _ b => b) x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_43 (constant S_ .f32 0x00000000#32),
    StableHlo.unary main_cst_43 main_call13_v0 ((id) : (⟨S_, .f32⟩ : BufTy).Contents (Elt F) → (⟨S_, .f32⟩ : BufTy).Contents (Elt F)),
    StableHlo.unary main_call13_v0 main_call13_v1 ((broadcastInDim S640000 ![] bcast_S_S640000) : (⟨S_, .f32⟩ : BufTy).Contents (Elt F) → (⟨S640000, .f32⟩ : BufTy).Contents (Elt F)),
    StableHlo.ternary main_v4 main_call13_v1 main_arg2 main_v165 ((select) : (⟨S640000, .i1⟩ : BufTy).Contents (Elt F) → (⟨S640000, .f32⟩ : BufTy).Contents (Elt F) → (⟨S640000, .f32⟩ : BufTy).Contents (Elt F) → (⟨S640000, .f32⟩ : BufTy).Contents (Elt F)),
    StableHlo.unary main_v165 main_v166 (broadcastInDim S640000x1 ![0] bcast_S640000_S640000x1_0 : (⟨S640000, .f32⟩ : BufTy).Contents (Elt F) → (⟨S640000x1, .f32⟩ : BufTy).Contents (Elt F)),
    StableHlo.nullary main_c_44 (constantI S_ 32 0#32),
    StableHlo.unary main_c_44 main_v167 (broadcastInDim S640000 ![] bcast_S_S640000 : (⟨S_, .i32⟩ : BufTy).Contents (Elt F) → (⟨S640000, .i32⟩ : BufTy).Contents (Elt F)),
    StableHlo.binary main_v1 main_v167 main_v168 (cmpi .slt : (⟨S640000, .i32⟩ : BufTy).Contents (Elt F) → (⟨S640000, .i32⟩ : BufTy).Contents (Elt F) → (⟨S640000, .i1⟩ : BufTy).Contents (Elt F)),
    StableHlo.nullary main_c_45 (constantI S_ 32 40000#32),
    StableHlo.unary main_c_45 main_v169 (broadcastInDim S640000 ![] bcast_S_S640000 : (⟨S_, .i32⟩ : BufTy).Contents (Elt F) → (⟨S640000, .i32⟩ : BufTy).Contents (Elt F)),
    StableHlo.binary main_v1 main_v169 main_v170 (addi : (⟨S640000, .i32⟩ : BufTy).Contents (Elt F) → (⟨S640000, .i32⟩ : BufTy).Contents (Elt F) → (⟨S640000, .i32⟩ : BufTy).Contents (Elt F)),
    StableHlo.ternary main_v168 main_v170 main_v1 main_v171 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v171 main_v172 (broadcastInDim S640000x1 ![0] bcast_S640000_S640000x1_0 : (⟨S640000, .i32⟩ : BufTy).Contents (Elt F) → (⟨S640000x1, .i32⟩ : BufTy).Contents (Elt F)),
    StableHlo.binary main_v107 main_v172 main_v173 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_v166 main_v174 (broadcastInDim S640000x128 ![0, 1] bcast_S640000x1_S640000x128_0_1 : (⟨S640000x1, .f32⟩ : BufTy).Contents (Elt F) → (⟨S640000x128, .f32⟩ : BufTy).Contents (Elt F)),
    StableHlo.binary main_v174 main_v173 main_v175 (mulf : (⟨S640000x128, .f32⟩ : BufTy).Contents (Elt F) → (⟨S640000x128, .f32⟩ : BufTy).Contents (Elt F) → (⟨S640000x128, .f32⟩ : BufTy).Contents (Elt F)),
    StableHlo.nullary main_cst_46 (constant S_ .f32 0x00000000#32),
    StableHlo.unary main_cst_46 main_v176 (broadcastInDim S40000x128 ![] bcast_S_S40000x128 : (⟨S_, .f32⟩ : BufTy).Contents (Elt F) → (⟨S40000x128, .f32⟩ : BufTy).Contents (Elt F)),
    StableHlo.unary main_v3 main_v177 (broadcastInDim S640000x1 ![0] bcast_S640000_S640000x1_0 : (⟨S640000, .i32⟩ : BufTy).Contents (Elt F) → (⟨S640000x1, .i32⟩ : BufTy).Contents (Elt F)),
    StableHlo.ternary main_v176 main_v177 main_v175 main_v178 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.unary main_v164 main_v179 (broadcastInDim S40000x1 ![0] bcast_S40000_S40000x1_0 : (⟨S40000, .f32⟩ : BufTy).Contents (Elt F) → (⟨S40000x1, .f32⟩ : BufTy).Contents (Elt F)),
    StableHlo.unary main_v179 main_v180 (broadcastInDim S40000x128 ![0, 1] bcast_S40000x1_S40000x128_0_1 : (⟨S40000x1, .f32⟩ : BufTy).Contents (Elt F) → (⟨S40000x128, .f32⟩ : BufTy).Contents (Elt F)),
    StableHlo.binary main_v180 main_v107 main_v181 (mulf : (⟨S40000x128, .f32⟩ : BufTy).Contents (Elt F) → (⟨S40000x128, .f32⟩ : BufTy).Contents (Elt F) → (⟨S40000x128, .f32⟩ : BufTy).Contents (Elt F)),
    StableHlo.binary main_v178 main_v181 main_v182 (addf : (⟨S40000x128, .f32⟩ : BufTy).Contents (Elt F) → (⟨S40000x128, .f32⟩ : BufTy).Contents (Elt F) → (⟨S40000x128, .f32⟩ : BufTy).Contents (Elt F)),
    StableHlo.nullary main_cst_47 (constant S_ .f32 0x00000000#32),
    StableHlo.nullary main_cst_48 (constant S_ .f32 0x3F800000#32),
    StableHlo.unary main_cst_47 main_call14_v0 ((broadcastInDim S640000 ![] bcast_S_S640000) : (⟨S_, .f32⟩ : BufTy).Contents (Elt F) → (⟨S640000, .f32⟩ : BufTy).Contents (Elt F)),
    StableHlo.unary main_cst_48 main_call14_v1 ((broadcastInDim S640000 ![] bcast_S_S640000) : (⟨S_, .f32⟩ : BufTy).Contents (Elt F) → (⟨S640000, .f32⟩ : BufTy).Contents (Elt F)),
    StableHlo.ternary main_v4 main_call14_v0 main_call14_v1 main_v183 ((select) : (⟨S640000, .i1⟩ : BufTy).Contents (Elt F) → (⟨S640000, .f32⟩ : BufTy).Contents (Elt F) → (⟨S640000, .f32⟩ : BufTy).Contents (Elt F) → (⟨S640000, .f32⟩ : BufTy).Contents (Elt F)),
    StableHlo.nullary main_cst_49 (constant S_ .f32 0x00000000#32),
    StableHlo.unary main_cst_49 main_v184 (broadcastInDim S40000 ![] bcast_S_S40000 : (⟨S_, .f32⟩ : BufTy).Contents (Elt F) → (⟨S40000, .f32⟩ : BufTy).Contents (Elt F)),
    StableHlo.unary main_v3 main_v185 (broadcastInDim S640000x1 ![0] bcast_S640000_S640000x1_0 : (⟨S640000, .i32⟩ : BufTy).Contents (Elt F) → (⟨S640000x1, .i32⟩ : BufTy).Contents (Elt F)),
    StableHlo.unary main_v183 main_v186 (id : (⟨S640000, .f32⟩ : BufTy).Contents (Elt F) → (⟨S640000, .f32⟩ : BufTy).Contents (Elt F)),
    StableHlo.ternary main_v184 main_v185 main_v186 main_v187 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_50 (constant S_ .f32 0x3F800000#32),
    StableHlo.unary main_cst_50 main_v188 (broadcastInDim S40000 ![] bcast_S_S40000 : (⟨S_, .f32⟩ : BufTy).Contents (Elt F) → (⟨S40000, .f32⟩ : BufTy).Contents (Elt F)),
    StableHlo.binary main_v187 main_v188 main_v189 (addf : (⟨S40000, .f32⟩ : BufTy).Contents (Elt F) → (⟨S40000, .f32⟩ : BufTy).Contents (Elt F) → (⟨S40000, .f32⟩ : BufTy).Contents (Elt F)),
    StableHlo.unary main_v189 main_v190 (broadcastInDim S40000x1 ![0] bcast_S40000_S40000x1_0 : (⟨S40000, .f32⟩ : BufTy).Contents (Elt F) → (⟨S40000x1, .f32⟩ : BufTy).Contents (Elt F)),
    StableHlo.unary main_v190 main_v191 (broadcastInDim S40000x128 ![0, 1] bcast_S40000x1_S40000x128_0_1 : (⟨S40000x1, .f32⟩ : BufTy).Contents (Elt F) → (⟨S40000x128, .f32⟩ : BufTy).Contents (Elt F)),
    StableHlo.binary main_v182 main_v191 main_v192 (Host.divf : (⟨S40000x128, .f32⟩ : BufTy).Contents (Elt F) → (⟨S40000x128, .f32⟩ : BufTy).Contents (Elt F) → (⟨S40000x128, .f32⟩ : BufTy).Contents (Elt F)) ]

/-- Slice 9: operations 288 … 323 of the program. -/
abbrev sl9 : List (HloOp τ sig (Elt F)) :=
  [ StableHlo.binary main_v192 main_arg17 main_v193 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg18 main_v194 (broadcastInDim S1x128 ![1] bcast_S128_S1x128_1 : (⟨S128, .f32⟩ : BufTy).Contents (Elt F) → (⟨S1x128, .f32⟩ : BufTy).Contents (Elt F)),
    StableHlo.unary main_v194 main_v195 (broadcastInDim S40000x128 ![0, 1] bcast_S1x128_S40000x128_0_1 : (⟨S1x128, .f32⟩ : BufTy).Contents (Elt F) → (⟨S40000x128, .f32⟩ : BufTy).Contents (Elt F)),
    StableHlo.binary main_v193 main_v195 main_v196 (addf : (⟨S40000x128, .f32⟩ : BufTy).Contents (Elt F) → (⟨S40000x128, .f32⟩ : BufTy).Contents (Elt F) → (⟨S40000x128, .f32⟩ : BufTy).Contents (Elt F)),
    StableHlo.nullary main_cst_51 (constant S_ .f32 0x3C23D70A#32),
    StableHlo.nullary main_call15_cst (constant S_ .f32 0x00000000#32),
    StableHlo.unary main_call15_cst main_call15_v0 ((broadcastInDim S40000x128 ![] bcast_S_S40000x128) : (⟨S_, .f32⟩ : BufTy).Contents (Elt F) → (⟨S40000x128, .f32⟩ : BufTy).Contents (Elt F)),
    StableHlo.binary main_v196 main_call15_v0 main_call15_v1 ((cmpf .oge) : (⟨S40000x128, .f32⟩ : BufTy).Contents (Elt F) → (⟨S40000x128, .f32⟩ : BufTy).Contents (Elt F) → (⟨S40000x128, .i1⟩ : BufTy).Contents (Elt F)),
    StableHlo.unary main_cst_51 main_call15_v2 ((id) : (⟨S_, .f32⟩ : BufTy).Contents (Elt F) → (⟨S_, .f32⟩ : BufTy).Contents (Elt F)),
    StableHlo.unary main_call15_v2 main_call15_v3 ((broadcastInDim S40000x128 ![] bcast_S_S40000x128) : (⟨S_, .f32⟩ : BufTy).Contents (Elt F) → (⟨S40000x128, .f32⟩ : BufTy).Contents (Elt F)),
    StableHlo.binary main_call15_v3 main_v196 main_call15_v4 ((mulf) : (⟨S40000x128, .f32⟩ : BufTy).Contents (Elt F) → (⟨S40000x128, .f32⟩ : BufTy).Contents (Elt F) → (⟨S40000x128, .f32⟩ : BufTy).Contents (Elt F)),
    StableHlo.ternary main_call15_v1 main_v196 main_call15_v4 main_v197 ((select) : (⟨S40000x128, .i1⟩ : BufTy).Contents (Elt F) → (⟨S40000x128, .f32⟩ : BufTy).Contents (Elt F) → (⟨S40000x128, .f32⟩ : BufTy).Contents (Elt F) → (⟨S40000x128, .f32⟩ : BufTy).Contents (Elt F)),
    StableHlo.binary main_v155 main_v197 main_v198 (addf : (⟨S40000x128, .f32⟩ : BufTy).Contents (Elt F) → (⟨S40000x128, .f32⟩ : BufTy).Contents (Elt F) → (⟨S40000x128, .f32⟩ : BufTy).Contents (Elt F)),
    StableHlo.binary main_v198 main_arg19 main_v199 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg20 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S40000x128 ![0, 1] bcast_S1x128_S40000x128_0_1 : (⟨S1x128, .f32⟩ : BufTy).Contents (Elt F) → (⟨S40000x128, .f32⟩ : BufTy).Contents (Elt F)),
    StableHlo.binary main_v199 main_v201 main_v202 (addf : (⟨S40000x128, .f32⟩ : BufTy).Contents (Elt F) → (⟨S40000x128, .f32⟩ : BufTy).Contents (Elt F) → (⟨S40000x128, .f32⟩ : BufTy).Contents (Elt F)),
    StableHlo.binary main_v202 main_arg21 main_v203 ((fun l r => Host.dotGeneral dot_S40000x128_S128x40_S40000x40_1_0_0_1_n_n none l r) : (⟨S40000x128, .f32⟩ : BufTy).Contents (Elt F) → (⟨S128x40, .f32⟩ : BufTy).Contents (Elt F) → (⟨S40000x40, .f32⟩ : BufTy).Contents (Elt F)),
    StableHlo.unary main_arg22 main_v204 (broadcastInDim S1x40 ![1] bcast_S40_S1x40_1 : (⟨S40, .f32⟩ : BufTy).Contents (Elt F) → (⟨S1x40, .f32⟩ : BufTy).Contents (Elt F)),
    StableHlo.unary main_v204 main_v205 (broadcastInDim S40000x40 ![0, 1] bcast_S1x40_S40000x40_0_1 : (⟨S1x40, .f32⟩ : BufTy).Contents (Elt F) → (⟨S40000x40, .f32⟩ : BufTy).Contents (Elt F)),
    StableHlo.binary main_v203 main_v205 main_v206 (addf : (⟨S40000x40, .f32⟩ : BufTy).Contents (Elt F) → (⟨S40000x40, .f32⟩ : BufTy).Contents (Elt F) → (⟨S40000x40, .f32⟩ : BufTy).Contents (Elt F)),
    StableHlo.nullary main_call16_cst (constant S_ .f32 0xFF800000#32),
    StableHlo.binary main_v206 main_call16_cst main_call16_v0 ((fun x v => Host.reduce FloatOps.maximumf x v reducesTo_S40000x40_S40000_d1 h_S_) : (⟨S40000x40, .f32⟩ : BufTy).Contents (Elt F) → (⟨S_, .f32⟩ : BufTy).Contents (Elt F) → (⟨S40000, .f32⟩ : BufTy).Contents (Elt F)),
    StableHlo.nullary main_call16_cst_0 (constant S_ .f32 0xFF800000#32),
    StableHlo.unary main_call16_cst_0 main_call16_v1 ((broadcastInDim S40000 ![] bcast_S_S40000) : (⟨S_, .f32⟩ : BufTy).Contents (Elt F) → (⟨S40000, .f32⟩ : BufTy).Contents (Elt F)),
    StableHlo.binary main_call16_v1 main_call16_v0 main_call16_v2 ((maximumf) : (⟨S40000, .f32⟩ : BufTy).Contents (Elt F) → (⟨S40000, .f32⟩ : BufTy).Contents (Elt F) → (⟨S40000, .f32⟩ : BufTy).Contents (Elt F)),
    StableHlo.unary main_call16_v2 main_call16_v3 ((broadcastInDim S40000x1 ![0] bcast_S40000_S40000x1_0) : (⟨S40000, .f32⟩ : BufTy).Contents (Elt F) → (⟨S40000x1, .f32⟩ : BufTy).Contents (Elt F)),
    StableHlo.unary main_call16_v3 main_call16_v4 ((broadcastInDim S40000x40 ![0, 1] bcast_S40000x1_S40000x40_0_1) : (⟨S40000x1, .f32⟩ : BufTy).Contents (Elt F) → (⟨S40000x40, .f32⟩ : BufTy).Contents (Elt F)),
    StableHlo.binary main_v206 main_call16_v4 main_call16_v5 ((subf) : (⟨S40000x40, .f32⟩ : BufTy).Contents (Elt F) → (⟨S40000x40, .f32⟩ : BufTy).Contents (Elt F) → (⟨S40000x40, .f32⟩ : BufTy).Contents (Elt F)),
    StableHlo.unary main_call16_v5 main_call16_v6 ((Host.exp) : (⟨S40000x40, .f32⟩ : BufTy).Contents (Elt F) → (⟨S40000x40, .f32⟩ : BufTy).Contents (Elt F)),
    StableHlo.nullary main_call16_cst_1 (constant S_ .f32 0x00000000#32),
    StableHlo.binary main_call16_v6 main_call16_cst_1 main_call16_v7 ((fun x v => Host.reduceAdd x v reducesTo_S40000x40_S40000_d1 h_S_) : (⟨S40000x40, .f32⟩ : BufTy).Contents (Elt F) → (⟨S_, .f32⟩ : BufTy).Contents (Elt F) → (⟨S40000, .f32⟩ : BufTy).Contents (Elt F)),
    StableHlo.unary main_call16_v7 main_call16_v8 ((broadcastInDim S40000x1 ![0] bcast_S40000_S40000x1_0) : (⟨S40000, .f32⟩ : BufTy).Contents (Elt F) → (⟨S40000x1, .f32⟩ : BufTy).Contents (Elt F)),
    StableHlo.unary main_call16_v8 main_call16_v9 ((Host.log) : (⟨S40000x1, .f32⟩ : BufTy).Contents (Elt F) → (⟨S40000x1, .f32⟩ : BufTy).Contents (Elt F)),
    StableHlo.unary main_call16_v9 main_call16_v10 ((broadcastInDim S40000x40 ![0, 1] bcast_S40000x1_S40000x40_0_1) : (⟨S40000x1, .f32⟩ : BufTy).Contents (Elt F) → (⟨S40000x40, .f32⟩ : BufTy).Contents (Elt F)),
    StableHlo.binary main_call16_v5 main_call16_v10 main_v207 ((subf) : (⟨S40000x40, .f32⟩ : BufTy).Contents (Elt F) → (⟨S40000x40, .f32⟩ : BufTy).Contents (Elt F) → (⟨S40000x40, .f32⟩ : BufTy).Contents (Elt F)) ]

/-- The program's operations are the nine slices in order. -/
theorem ops_eq_slices : (ops : List (HloOp τ sig (Elt F))) = sl1 ++ (sl2 ++ (sl3 ++ (sl4 ++ (sl5 ++ (sl6 ++ (sl7 ++ (sl8 ++ sl9))))))) := rfl

/-- A buffer among a list is, as a one-element set of device buffers, inside the list's set. -/
theorem sub_of_mem' {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers slice 1 writes, in order. -/
def slW1 : List (Ref sig .tc) :=
  [main_v0, main_v1, main_v2, main_v3, main_v4, main_v5, main_v6, main_v7,
   main_v8]

theorem sl1_writes : (sl1 : List (HloOp τ sig (Elt F))).Forall fun op => op.writes ⊆ (slW1.map (Proc.devRef (τ := τ) .tc)).toFinset :=
  ⟨sub_of_mem' (by decide), sub_of_mem' (by decide), sub_of_mem' (by decide), sub_of_mem' (by decide),
    sub_of_mem' (by decide), sub_of_mem' (by decide), sub_of_mem' (by decide), sub_of_mem' (by decide),
    sub_of_mem' (by decide)⟩

/-- Slice 1 leaves every buffer it does not write as it was. -/
theorem sl1_keeps (V : Valuation τ sig (Elt F)) {r : Ref sig .tc} (hr : r ∉ slW1) :
    after sl1 V (Proc.devRef .tc r) = V (Proc.devRef .tc r) :=
  after_of_writes_sub sl1 V sl1_writes hr

/-- The buffers slice 2 writes, in order. -/
def slW2 : List (Ref sig .tc) :=
  [main_cst, main_call0_v0, main_call0_v1, main_v9, main_cst_0, main_v10, main_v11, main_v12,
   main_cst_1, main_v13, main_v14, main_cst_2, main_v15, main_v16, main_cst_3, main_call1_v0,
   main_call1_v1, main_v17, main_v18, main_cst_4, main_call2_v0, main_call2_v1, main_v19, main_c,
   main_v20, main_v21, main_c_5, main_v22, main_v23, main_v24, main_v25, main_v26,
   main_v27, main_v28, main_c_6, main_v29, main_v30, main_c_7, main_v31, main_v32,
   main_v33, main_v34, main_v35, main_v36, main_v37, main_c_8, main_v38, main_v39,
   main_c_9, main_v40, main_v41, main_v42, main_v43, main_v44, main_v45, main_v46,
   main_cst_10, main_v47, main_v48, main_v49]

theorem sl2_writes : (sl2 : List (HloOp τ sig (Elt F))).Forall fun op => op.writes ⊆ (slW2.map (Proc.devRef (τ := τ) .tc)).toFinset :=
  ⟨sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide)⟩

/-- Slice 2 leaves every buffer it does not write as it was. -/
theorem sl2_keeps (V : Valuation τ sig (Elt F)) {r : Ref sig .tc} (hr : r ∉ slW2) :
    after sl2 V (Proc.devRef .tc r) = V (Proc.devRef .tc r) :=
  after_of_writes_sub sl2 V sl2_writes hr

/-- The buffers slice 3 writes, in order. -/
def slW3 : List (Ref sig .tc) :=
  [main_v50, main_v51, main_v52, main_v53, main_v54, main_v55, main_cst_11, main_call3_cst,
   main_call3_v0, main_call3_v1, main_call3_v2, main_call3_v3, main_call3_v4, main_v56]

theorem sl3_writes : (sl3 : List (HloOp τ sig (Elt F))).Forall fun op => op.writes ⊆ (slW3.map (Proc.devRef (τ := τ) .tc)).toFinset :=
  ⟨sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide)⟩

/-- Slice 3 leaves every buffer it does not write as it was. -/
theorem sl3_keeps (V : Valuation τ sig (Elt F)) {r : Ref sig .tc} (hr : r ∉ slW3) :
    after sl3 V (Proc.devRef .tc r) = V (Proc.devRef .tc r) :=
  after_of_writes_sub sl3 V sl3_writes hr

/-- The buffers slice 4 writes, in order. -/
def slW4 : List (Ref sig .tc) :=
  [main_cst_12, main_v57, main_c_13, main_call4_v0, main_call4_v1, main_v58, main_c_14, main_v59,
   main_v60, main_c_15, main_v61, main_v62, main_v63, main_v64, main_v65, main_cst_16,
   main_call5_v0, main_call5_v1, main_v66, main_v67, main_c_17, main_v68, main_v69, main_c_18,
   main_v70, main_v71, main_v72, main_v73, main_v74, main_v75, main_v76, main_cst_19,
   main_v77, main_v78, main_v79, main_v80, main_v81, main_v82, main_v83, main_cst_20,
   main_cst_21, main_call6_v0, main_call6_v1, main_v84, main_cst_22, main_v85, main_v86, main_v87,
   main_v88, main_cst_23, main_v89, main_v90, main_v91, main_v92, main_v93]

theorem sl4_writes : (sl4 : List (HloOp τ sig (Elt F))).Forall fun op => op.writes ⊆ (slW4.map (Proc.devRef (τ := τ) .tc)).toFinset :=
  ⟨sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide)⟩

/-- Slice 4 leaves every buffer it does not write as it was. -/
theorem sl4_keeps (V : Valuation τ sig (Elt F)) {r : Ref sig .tc} (hr : r ∉ slW4) :
    after sl4 V (Proc.devRef .tc r) = V (Proc.devRef .tc r) :=
  after_of_writes_sub sl4 V sl4_writes hr

/-- The buffers slice 5 writes, in order. -/
def slW5 : List (Ref sig .tc) :=
  [main_v94, main_v95, main_v96, main_v97, main_cst_24, main_call7_cst, main_call7_v0, main_call7_v1,
   main_call7_v2, main_call7_v3, main_call7_v4, main_v98, main_v99, main_v100, main_v101, main_v102,
   main_v103, main_v104, main_v105, main_v106, main_v107]

theorem sl5_writes : (sl5 : List (HloOp τ sig (Elt F))).Forall fun op => op.writes ⊆ (slW5.map (Proc.devRef (τ := τ) .tc)).toFinset :=
  ⟨sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide)⟩

/-- Slice 5 leaves every buffer it does not write as it was. -/
theorem sl5_keeps (V : Valuation τ sig (Elt F)) {r : Ref sig .tc} (hr : r ∉ slW5) :
    after sl5 V (Proc.devRef .tc r) = V (Proc.devRef .tc r) :=
  after_of_writes_sub sl5 V sl5_writes hr

/-- The buffers slice 6 writes, in order. -/
def slW6 : List (Ref sig .tc) :=
  [main_cst_25, main_call8_v0, main_call8_v1, main_v108, main_cst_26, main_v109, main_v110, main_v111,
   main_cst_27, main_v112, main_v113, main_cst_28, main_v114, main_v115, main_cst_29, main_call9_v0,
   main_call9_v1, main_v116, main_v117, main_cst_30, main_call10_v0, main_call10_v1, main_v118, main_c_31,
   main_v119, main_v120, main_c_32, main_v121, main_v122, main_v123, main_v124, main_v125,
   main_v126, main_v127, main_c_33, main_v128, main_v129, main_c_34, main_v130, main_v131,
   main_v132, main_v133, main_v134, main_v135, main_v136, main_c_35, main_v137, main_v138,
   main_c_36, main_v139, main_v140, main_v141, main_v142, main_v143, main_v144, main_v145,
   main_cst_37, main_v146, main_v147, main_v148]

theorem sl6_writes : (sl6 : List (HloOp τ sig (Elt F))).Forall fun op => op.writes ⊆ (slW6.map (Proc.devRef (τ := τ) .tc)).toFinset :=
  ⟨sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide)⟩

/-- Slice 6 leaves every buffer it does not write as it was. -/
theorem sl6_keeps (V : Valuation τ sig (Elt F)) {r : Ref sig .tc} (hr : r ∉ slW6) :
    after sl6 V (Proc.devRef .tc r) = V (Proc.devRef .tc r) :=
  after_of_writes_sub sl6 V sl6_writes hr

/-- The buffers slice 7 writes, in order. -/
def slW7 : List (Ref sig .tc) :=
  [main_v149, main_v150, main_v151, main_v152, main_v153, main_v154, main_cst_38, main_call11_cst,
   main_call11_v0, main_call11_v1, main_call11_v2, main_call11_v3, main_call11_v4, main_v155]

theorem sl7_writes : (sl7 : List (HloOp τ sig (Elt F))).Forall fun op => op.writes ⊆ (slW7.map (Proc.devRef (τ := τ) .tc)).toFinset :=
  ⟨sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide)⟩

/-- Slice 7 leaves every buffer it does not write as it was. -/
theorem sl7_keeps (V : Valuation τ sig (Elt F)) {r : Ref sig .tc} (hr : r ∉ slW7) :
    after sl7 V (Proc.devRef .tc r) = V (Proc.devRef .tc r) :=
  after_of_writes_sub sl7 V sl7_writes hr

/-- The buffers slice 8 writes, in order. -/
def slW8 : List (Ref sig .tc) :=
  [main_cst_39, main_v156, main_c_40, main_call12_v0, main_call12_v1, main_v157, main_c_41, main_v158,
   main_v159, main_c_42, main_v160, main_v161, main_v162, main_v163, main_v164, main_cst_43,
   main_call13_v0, main_call13_v1, main_v165, main_v166, main_c_44, main_v167, main_v168, main_c_45,
   main_v169, main_v170, main_v171, main_v172, main_v173, main_v174, main_v175, main_cst_46,
   main_v176, main_v177, main_v178, main_v179, main_v180, main_v181, main_v182, main_cst_47,
   main_cst_48, main_call14_v0, main_call14_v1, main_v183, main_cst_49, main_v184, main_v185, main_v186,
   main_v187, main_cst_50, main_v188, main_v189, main_v190, main_v191, main_v192]

theorem sl8_writes : (sl8 : List (HloOp τ sig (Elt F))).Forall fun op => op.writes ⊆ (slW8.map (Proc.devRef (τ := τ) .tc)).toFinset :=
  ⟨sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide)⟩

/-- Slice 8 leaves every buffer it does not write as it was. -/
theorem sl8_keeps (V : Valuation τ sig (Elt F)) {r : Ref sig .tc} (hr : r ∉ slW8) :
    after sl8 V (Proc.devRef .tc r) = V (Proc.devRef .tc r) :=
  after_of_writes_sub sl8 V sl8_writes hr

/-- The buffers slice 9 writes, in order. -/
def slW9 : List (Ref sig .tc) :=
  [main_v193, main_v194, main_v195, main_v196, main_cst_51, main_call15_cst, main_call15_v0, main_call15_v1,
   main_call15_v2, main_call15_v3, main_call15_v4, main_v197, main_v198, main_v199, main_v200, main_v201,
   main_v202, main_v203, main_v204, main_v205, main_v206, main_call16_cst, main_call16_v0, main_call16_cst_0,
   main_call16_v1, main_call16_v2, main_call16_v3, main_call16_v4, main_call16_v5, main_call16_v6, main_call16_cst_1, main_call16_v7,
   main_call16_v8, main_call16_v9, main_call16_v10, main_v207]

theorem sl9_writes : (sl9 : List (HloOp τ sig (Elt F))).Forall fun op => op.writes ⊆ (slW9.map (Proc.devRef (τ := τ) .tc)).toFinset :=
  ⟨sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide),
    sub_of_mem' (by decide), sub_of_mem' (by decide), sub_of_mem' (by decide), sub_of_mem' (by decide)⟩

/-- Slice 9 leaves every buffer it does not write as it was. -/
theorem sl9_keeps (V : Valuation τ sig (Elt F)) {r : Ref sig .tc} (hr : r ∉ slW9) :
    after sl9 V (Proc.devRef .tc r) = V (Proc.devRef .tc r) :=
  after_of_writes_sub sl9 V sl9_writes hr

end Cert.ReferenceIdeal.Hand

end
-- ==== Proof.RefStagesA.lean ====
/-
  What the first five slices of the program leave in the buffers the later ones read, as the stage functions of what
  they found in the buffers they read. Each statement is over arbitrary starting contents: the slice's operations are
  evaluated in order (an operation's result at its own buffer is its function of its operands' contents, any other
  buffer is untouched), the contents read at the slice's entry are replaced by what they are assumed to be, and the
  composed term is the stage function's by unfolding its definition. The folds over whole arrays inside reductions,
  gathers and scatters are never opened.
-/
import proofs.«143715_j36816459661705_2_alg».proof.Proof.RefSlices
import proofs.«143715_j36816459661705_2_alg».proof.Proof.RefStages

noncomputable section

namespace Cert.ReferenceIdeal.Hand

open Cert.ReferenceIdeal Idealize.ShloMosaic Idealize.SL.Sem Idealize.ShloMosaic.StableHlo
open Facts₀ Facts

attribute [local irreducible] Host.reduce Host.reduceAdd Host.gather Host.scatter Host.scatterAdd in
theorem st1_v1 (W : Valuation τ sig (Elt Ideal)) : after sl1 W (Proc.devRef .tc main_v1) = srcR (W (Proc.devRef .tc main_arg1)) := by
  after_results_simp
  rfl

attribute [local irreducible] Host.reduce Host.reduceAdd Host.gather Host.scatter Host.scatterAdd in
theorem st1_v3 (W : Valuation τ sig (Elt Ideal)) : after sl1 W (Proc.devRef .tc main_v3) = dstR (W (Proc.devRef .tc main_arg1)) := by
  after_results_simp
  rfl

attribute [local irreducible] Host.reduce Host.reduceAdd Host.gather Host.scatter Host.scatterAdd in
theorem st1_v4 (W : Valuation τ sig (Elt Ideal)) : after sl1 W (Proc.devRef .tc main_v4) = loopR (W (Proc.devRef .tc main_arg1)) := by
  after_results_simp
  rfl

attribute [local irreducible] Host.reduce Host.reduceAdd Host.gather Host.scatter Host.scatterAdd in
theorem st1_v8 (W : Valuation τ sig (Elt Ideal)) :
    after sl1 W (Proc.devRef .tc main_v8) = linR512 (W (Proc.devRef .tc main_arg0)) (W (Proc.devRef .tc main_arg3)) (W (Proc.devRef .tc main_arg4)) := by
  after_results_simp
  rfl

attribute [local irreducible] Host.reduce Host.reduceAdd Host.gather Host.scatter Host.scatterAdd in
/-- Slice 2: the Chebyshev aggregation of the first cell. -/
theorem st2 (W : Valuation τ sig (Elt Ideal)) (ei : IVec S2x640000 32) (ew : FVec Ideal S640000 .f32) (xh : FVec Ideal S40000x128 .f32)
    (h1 : W (Proc.devRef .tc main_v1) = srcR ei) (h3 : W (Proc.devRef .tc main_v3) = dstR ei) (h4 : W (Proc.devRef .tc main_v4) = loopR ei)
    (hx : W (Proc.devRef .tc main_v8) = xh) (h2 : W (Proc.devRef .tc main_arg2) = ew) :
    after sl2 W (Proc.devRef .tc main_v49) = txR xh ei ew := by
  after_results_simp
  rw [h1, h3, h4, hx, h2]
  rfl

attribute [local irreducible] Host.reduce Host.reduceAdd Host.gather Host.scatter Host.scatterAdd in
/-- Slice 3: the Chebyshev branch of the first cell, rectified. -/
theorem st3 (W : Valuation τ sig (Elt Ideal)) (xh tx : FVec Ideal S40000x128 .f32)
    (hx : W (Proc.devRef .tc main_v8) = xh) (ht : W (Proc.devRef .tc main_v49) = tx) :
    after sl3 W (Proc.devRef .tc main_v56)
      = lreluR (addf (addf (Host.dotGeneral (φ₂ := .f32) dot_S40000x128_S128x128_S40000x128_1_0_0_1_n_n none xh (W (Proc.devRef .tc main_arg5))) (Host.dotGeneral (φ₂ := .f32) dot_S40000x128_S128x128_S40000x128_1_0_0_1_n_n none tx (W (Proc.devRef .tc main_arg6)))) (broadcastInDim S40000x128 ![0, 1] bcast_S1x128_S40000x128_0_1 (broadcastInDim S1x128 ![1] bcast_S128_S1x128_1 (W (Proc.devRef .tc main_arg7))))) := by
  after_results_simp
  rw [hx, ht]
  rfl

attribute [local irreducible] Host.reduce Host.reduceAdd Host.gather Host.scatter Host.scatterAdd in
/-- Slice 4: the mean aggregation of the first cell. -/
theorem st4 (W : Valuation τ sig (Elt Ideal)) (ei : IVec S2x640000 32) (ew : FVec Ideal S640000 .f32) (xh : FVec Ideal S40000x128 .f32)
    (h1 : W (Proc.devRef .tc main_v1) = srcR ei) (h3 : W (Proc.devRef .tc main_v3) = dstR ei) (h4 : W (Proc.devRef .tc main_v4) = loopR ei)
    (hx : W (Proc.devRef .tc main_v8) = xh) (h2 : W (Proc.devRef .tc main_arg2) = ew) :
    after sl4 W (Proc.devRef .tc main_v93) = aggR xh ei ew := by
  after_results_simp
  rw [h1, h3, h4, hx, h2]
  rfl

attribute [local irreducible] Host.reduce Host.reduceAdd Host.gather Host.scatter Host.scatterAdd in
/-- Slice 5: the first cell's combination, then the second cell's preprocessor. -/
theorem st5 (W : Valuation τ sig (Elt Ideal)) (agg o1 : FVec Ideal S40000x128 .f32)
    (ha : W (Proc.devRef .tc main_v93) = agg) (ho : W (Proc.devRef .tc main_v56) = o1) :
    after sl5 W (Proc.devRef .tc main_v107)
      = linR128 (linR128 (addf o1 (lreluR (linR128 agg (W (Proc.devRef .tc main_arg8)) (W (Proc.devRef .tc main_arg9))))) (W (Proc.devRef .tc main_arg10)) (W (Proc.devRef .tc main_arg11)))
          (W (Proc.devRef .tc main_arg12)) (W (Proc.devRef .tc main_arg13)) := by
  after_results_simp
  rw [ha, ho]
  rfl

end Cert.ReferenceIdeal.Hand

end
-- ==== Proof.RefStagesB.lean ====
/-
  The later slices of the reference program, read at their result buffers: the second cell's two neighbourhood
  aggregations, its Chebyshev branch, and its combination followed by the last linear map and the classifier.

  Each slice is a straight line of whole-array operations, every one writing a buffer of its own; from ANY contents W
  that hold the named values at the slice's input buffers, the slice's result buffer ends holding the stage's function
  of those values and of the weight arguments as W has them. The operations compose to exactly the stage's defining term,
  so each statement is the fold of the slice read at one buffer.
-/
import proofs.«143715_j36816459661705_2_alg».proof.Proof.RefSlices
import proofs.«143715_j36816459661705_2_alg».proof.Proof.RefStages

noncomputable section

namespace Cert.ReferenceIdeal.Hand

open Cert.ReferenceIdeal Idealize.ShloMosaic Idealize.ShloMosaic.TcCoe Idealize.SL.Sem Idealize.ShloMosaic.StableHlo
open Facts₀ Facts

attribute [local irreducible] Host.reduce Host.reduceAdd Host.gather Host.scatter Host.scatterAdd in
/-- The second cell's Chebyshev aggregation of its preprocessor's output. -/
theorem st6 (W : Valuation τ sig (Elt Ideal)) (ei : IVec S2x640000 32) (ew : FVec Ideal S640000 .f32) (xh : FVec Ideal S40000x128 .f32)
    (h1 : W ↑main_v1 = srcR ei) (h3 : W ↑main_v3 = dstR ei) (h4 : W ↑main_v4 = loopR ei) (hx : W ↑main_v107 = xh) (h2 : W ↑main_arg2 = ew) :
    after (sl6 (F := Ideal)) W (Proc.devRef .tc main_v148) = txR xh ei ew := by
  after_results_simp
  rw [h1, h3, h4, hx, h2]
  rfl

attribute [local irreducible] Host.reduce Host.reduceAdd Host.gather Host.scatter Host.scatterAdd in
/-- The second cell's Chebyshev branch: the rectified sum of the two products and the bias. -/
theorem st7 (W : Valuation τ sig (Elt Ideal)) (xh tx : FVec Ideal S40000x128 .f32)
    (hx : W ↑main_v107 = xh) (ht : W ↑main_v148 = tx) :
    after (sl7 (F := Ideal)) W (Proc.devRef .tc main_v155)
      = lreluR (addf (addf (Host.dotGeneral (φ₂ := .f32) dot_S40000x128_S128x128_S40000x128_1_0_0_1_n_n none xh (W ↑main_arg14)) (Host.dotGeneral (φ₂ := .f32) dot_S40000x128_S128x128_S40000x128_1_0_0_1_n_n none tx (W ↑main_arg15))) (broadcastInDim S40000x128 ![0, 1] bcast_S1x128_S40000x128_0_1 (broadcastInDim S1x128 ![1] bcast_S128_S1x128_1 (W ↑main_arg16 : FVec Ideal S128 .f32)))) := by
  after_results_simp
  rw [hx, ht]
  rfl

attribute [local irreducible] Host.reduce Host.reduceAdd Host.gather Host.scatter Host.scatterAdd in
/-- The second cell's mean aggregation of its preprocessor's output. -/
theorem st8 (W : Valuation τ sig (Elt Ideal)) (ei : IVec S2x640000 32) (ew : FVec Ideal S640000 .f32) (xh : FVec Ideal S40000x128 .f32)
    (h1 : W ↑main_v1 = srcR ei) (h3 : W ↑main_v3 = dstR ei) (h4 : W ↑main_v4 = loopR ei) (hx : W ↑main_v107 = xh) (h2 : W ↑main_arg2 = ew) :
    after (sl8 (F := Ideal)) W (Proc.devRef .tc main_v192) = aggR xh ei ew := by
  after_results_simp
  rw [h1, h3, h4, hx, h2]
  rfl

attribute [local irreducible] Host.reduce Host.reduceAdd Host.gather Host.scatter Host.scatterAdd in
/-- The second cell's combination, the last linear map and the classifier. -/
theorem st9 (W : Valuation τ sig (Elt Ideal)) (agg o1 : FVec Ideal S40000x128 .f32)
    (ha : W ↑main_v192 = agg) (ho : W ↑main_v155 = o1) :
    after (sl9 (F := Ideal)) W (Proc.devRef .tc main_v207)
      = clsR (linR128 (addf o1 (lreluR (linR128 agg (W ↑main_arg17) (W ↑main_arg18)))) (W ↑main_arg19) (W ↑main_arg20)) (W ↑main_arg21) (W ↑main_arg22) := by
  after_results_simp
  rw [ha, ho]
  rfl

end Cert.ReferenceIdeal.Hand

end
-- ==== Proof.RefStagesOut.lean ====
/-
  The program's result as one composed term of its twenty-three arguments.

  The operations are run slice by slice. After each slice the buffers the later slices read hold the stage functions
  of the arguments: a slice's own results by that slice's statement at the contents the earlier slices left, every
  other buffer (an argument, or an earlier stage's result) unchanged because the slice writes none of them. The last
  slice's result is the classifier of the second cell of the first cell, which is the whole network's definition
  unfolded.
-/
import proofs.«143715_j36816459661705_2_alg».proof.Proof.RefStagesA
import proofs.«143715_j36816459661705_2_alg».proof.Proof.RefStagesB
import proofs.«143715_j36816459661705_2_alg».proof.Proof.LibAfterSplit

noncomputable section

namespace Cert.ReferenceIdeal.Hand

open Cert.ReferenceIdeal Idealize.ShloMosaic Idealize.SL.Sem Idealize.ShloMosaic.StableHlo
open Facts₀ Facts

/-- The result buffer after the whole program, from any contents: the network of the contents of the argument buffers. -/
theorem out_eq (V : Valuation τ sig (Elt Ideal)) :
    after ops V (Proc.devRef .tc main_v207)
      = model (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  rw [ops_eq_slices, after_append, after_append, after_append, after_append, after_append, after_append, after_append, after_append]
  have a2_1 : (after sl1 V) (Proc.devRef .tc main_arg2) = V (Proc.devRef .tc main_arg2) := (sl1_keeps V (by decide))
  have a2_2 : (after sl2 (after sl1 V)) (Proc.devRef .tc main_arg2) = V (Proc.devRef .tc main_arg2) := (sl2_keeps (after sl1 V) (by decide)).trans a2_1
  have a2_3 : (after sl3 (after sl2 (after sl1 V))) (Proc.devRef .tc main_arg2) = V (Proc.devRef .tc main_arg2) := (sl3_keeps (after sl2 (after sl1 V)) (by decide)).trans a2_2
  have a2_4 : (after sl4 (after sl3 (after sl2 (after sl1 V)))) (Proc.devRef .tc main_arg2) = V (Proc.devRef .tc main_arg2) := (sl4_keeps (after sl3 (after sl2 (after sl1 V))) (by decide)).trans a2_3
  have a2_5 : (after sl5 (after sl4 (after sl3 (after sl2 (after sl1 V))))) (Proc.devRef .tc main_arg2) = V (Proc.devRef .tc main_arg2) := (sl5_keeps (after sl4 (after sl3 (after sl2 (after sl1 V)))) (by decide)).trans a2_4
  have a2_6 : (after sl6 (after sl5 (after sl4 (after sl3 (after sl2 (after sl1 V)))))) (Proc.devRef .tc main_arg2) = V (Proc.devRef .tc main_arg2) := (sl6_keeps (after sl5 (after sl4 (after sl3 (after sl2 (after sl1 V))))) (by decide)).trans a2_5
  have a2_7 : (after sl7 (after sl6 (after sl5 (after sl4 (after sl3 (after sl2 (after sl1 V))))))) (Proc.devRef .tc main_arg2) = V (Proc.devRef .tc main_arg2) := (sl7_keeps (after sl6 (after sl5 (after sl4 (after sl3 (after sl2 (after sl1 V)))))) (by decide)).trans a2_6
  have a5_1 : (after sl1 V) (Proc.devRef .tc main_arg5) = V (Proc.devRef .tc main_arg5) := (sl1_keeps V (by decide))
  have a5_2 : (after sl2 (after sl1 V)) (Proc.devRef .tc main_arg5) = V (Proc.devRef .tc main_arg5) := (sl2_keeps (after sl1 V) (by decide)).trans a5_1
  have a6_1 : (after sl1 V) (Proc.devRef .tc main_arg6) = V (Proc.devRef .tc main_arg6) := (sl1_keeps V (by decide))
  have a6_2 : (after sl2 (after sl1 V)) (Proc.devRef .tc main_arg6) = V (Proc.devRef .tc main_arg6) := (sl2_keeps (after sl1 V) (by decide)).trans a6_1
  have a7_1 : (after sl1 V) (Proc.devRef .tc main_arg7) = V (Proc.devRef .tc main_arg7) := (sl1_keeps V (by decide))
  have a7_2 : (after sl2 (after sl1 V)) (Proc.devRef .tc main_arg7) = V (Proc.devRef .tc main_arg7) := (sl2_keeps (after sl1 V) (by decide)).trans a7_1
  have a8_1 : (after sl1 V) (Proc.devRef .tc main_arg8) = V (Proc.devRef .tc main_arg8) := (sl1_keeps V (by decide))
  have a8_2 : (after sl2 (after sl1 V)) (Proc.devRef .tc main_arg8) = V (Proc.devRef .tc main_arg8) := (sl2_keeps (after sl1 V) (by decide)).trans a8_1
  have a8_3 : (after sl3 (after sl2 (after sl1 V))) (Proc.devRef .tc main_arg8) = V (Proc.devRef .tc main_arg8) := (sl3_keeps (after sl2 (after sl1 V)) (by decide)).trans a8_2
  have a8_4 : (after sl4 (after sl3 (after sl2 (after sl1 V)))) (Proc.devRef .tc main_arg8) = V (Proc.devRef .tc main_arg8) := (sl4_keeps (after sl3 (after sl2 (after sl1 V))) (by decide)).trans a8_3
  have a9_1 : (after sl1 V) (Proc.devRef .tc main_arg9) = V (Proc.devRef .tc main_arg9) := (sl1_keeps V (by decide))
  have a9_2 : (after sl2 (after sl1 V)) (Proc.devRef .tc main_arg9) = V (Proc.devRef .tc main_arg9) := (sl2_keeps (after sl1 V) (by decide)).trans a9_1
  have a9_3 : (after sl3 (after sl2 (after sl1 V))) (Proc.devRef .tc main_arg9) = V (Proc.devRef .tc main_arg9) := (sl3_keeps (after sl2 (after sl1 V)) (by decide)).trans a9_2
  have a9_4 : (after sl4 (after sl3 (after sl2 (after sl1 V)))) (Proc.devRef .tc main_arg9) = V (Proc.devRef .tc main_arg9) := (sl4_keeps (after sl3 (after sl2 (after sl1 V))) (by decide)).trans a9_3
  have a10_1 : (after sl1 V) (Proc.devRef .tc main_arg10) = V (Proc.devRef .tc main_arg10) := (sl1_keeps V (by decide))
  have a10_2 : (after sl2 (after sl1 V)) (Proc.devRef .tc main_arg10) = V (Proc.devRef .tc main_arg10) := (sl2_keeps (after sl1 V) (by decide)).trans a10_1
  have a10_3 : (after sl3 (after sl2 (after sl1 V))) (Proc.devRef .tc main_arg10) = V (Proc.devRef .tc main_arg10) := (sl3_keeps (after sl2 (after sl1 V)) (by decide)).trans a10_2
  have a10_4 : (after sl4 (after sl3 (after sl2 (after sl1 V)))) (Proc.devRef .tc main_arg10) = V (Proc.devRef .tc main_arg10) := (sl4_keeps (after sl3 (after sl2 (after sl1 V))) (by decide)).trans a10_3
  have a11_1 : (after sl1 V) (Proc.devRef .tc main_arg11) = V (Proc.devRef .tc main_arg11) := (sl1_keeps V (by decide))
  have a11_2 : (after sl2 (after sl1 V)) (Proc.devRef .tc main_arg11) = V (Proc.devRef .tc main_arg11) := (sl2_keeps (after sl1 V) (by decide)).trans a11_1
  have a11_3 : (after sl3 (after sl2 (after sl1 V))) (Proc.devRef .tc main_arg11) = V (Proc.devRef .tc main_arg11) := (sl3_keeps (after sl2 (after sl1 V)) (by decide)).trans a11_2
  have a11_4 : (after sl4 (after sl3 (after sl2 (after sl1 V)))) (Proc.devRef .tc main_arg11) = V (Proc.devRef .tc main_arg11) := (sl4_keeps (after sl3 (after sl2 (after sl1 V))) (by decide)).trans a11_3
  have a12_1 : (after sl1 V) (Proc.devRef .tc main_arg12) = V (Proc.devRef .tc main_arg12) := (sl1_keeps V (by decide))
  have a12_2 : (after sl2 (after sl1 V)) (Proc.devRef .tc main_arg12) = V (Proc.devRef .tc main_arg12) := (sl2_keeps (after sl1 V) (by decide)).trans a12_1
  have a12_3 : (after sl3 (after sl2 (after sl1 V))) (Proc.devRef .tc main_arg12) = V (Proc.devRef .tc main_arg12) := (sl3_keeps (after sl2 (after sl1 V)) (by decide)).trans a12_2
  have a12_4 : (after sl4 (after sl3 (after sl2 (after sl1 V)))) (Proc.devRef .tc main_arg12) = V (Proc.devRef .tc main_arg12) := (sl4_keeps (after sl3 (after sl2 (after sl1 V))) (by decide)).trans a12_3
  have a13_1 : (after sl1 V) (Proc.devRef .tc main_arg13) = V (Proc.devRef .tc main_arg13) := (sl1_keeps V (by decide))
  have a13_2 : (after sl2 (after sl1 V)) (Proc.devRef .tc main_arg13) = V (Proc.devRef .tc main_arg13) := (sl2_keeps (after sl1 V) (by decide)).trans a13_1
  have a13_3 : (after sl3 (after sl2 (after sl1 V))) (Proc.devRef .tc main_arg13) = V (Proc.devRef .tc main_arg13) := (sl3_keeps (after sl2 (after sl1 V)) (by decide)).trans a13_2
  have a13_4 : (after sl4 (after sl3 (after sl2 (after sl1 V)))) (Proc.devRef .tc main_arg13) = V (Proc.devRef .tc main_arg13) := (sl4_keeps (after sl3 (after sl2 (after sl1 V))) (by decide)).trans a13_3
  have a14_1 : (after sl1 V) (Proc.devRef .tc main_arg14) = V (Proc.devRef .tc main_arg14) := (sl1_keeps V (by decide))
  have a14_2 : (after sl2 (after sl1 V)) (Proc.devRef .tc main_arg14) = V (Proc.devRef .tc main_arg14) := (sl2_keeps (after sl1 V) (by decide)).trans a14_1
  have a14_3 : (after sl3 (after sl2 (after sl1 V))) (Proc.devRef .tc main_arg14) = V (Proc.devRef .tc main_arg14) := (sl3_keeps (after sl2 (after sl1 V)) (by decide)).trans a14_2
  have a14_4 : (after sl4 (after sl3 (after sl2 (after sl1 V)))) (Proc.devRef .tc main_arg14) = V (Proc.devRef .tc main_arg14) := (sl4_keeps (after sl3 (after sl2 (after sl1 V))) (by decide)).trans a14_3
  have a14_5 : (after sl5 (after sl4 (after sl3 (after sl2 (after sl1 V))))) (Proc.devRef .tc main_arg14) = V (Proc.devRef .tc main_arg14) := (sl5_keeps (after sl4 (after sl3 (after sl2 (after sl1 V)))) (by decide)).trans a14_4
  have a14_6 : (after sl6 (after sl5 (after sl4 (after sl3 (after sl2 (after sl1 V)))))) (Proc.devRef .tc main_arg14) = V (Proc.devRef .tc main_arg14) := (sl6_keeps (after sl5 (after sl4 (after sl3 (after sl2 (after sl1 V))))) (by decide)).trans a14_5
  have a15_1 : (after sl1 V) (Proc.devRef .tc main_arg15) = V (Proc.devRef .tc main_arg15) := (sl1_keeps V (by decide))
  have a15_2 : (after sl2 (after sl1 V)) (Proc.devRef .tc main_arg15) = V (Proc.devRef .tc main_arg15) := (sl2_keeps (after sl1 V) (by decide)).trans a15_1
  have a15_3 : (after sl3 (after sl2 (after sl1 V))) (Proc.devRef .tc main_arg15) = V (Proc.devRef .tc main_arg15) := (sl3_keeps (after sl2 (after sl1 V)) (by decide)).trans a15_2
  have a15_4 : (after sl4 (after sl3 (after sl2 (after sl1 V)))) (Proc.devRef .tc main_arg15) = V (Proc.devRef .tc main_arg15) := (sl4_keeps (after sl3 (after sl2 (after sl1 V))) (by decide)).trans a15_3
  have a15_5 : (after sl5 (after sl4 (after sl3 (after sl2 (after sl1 V))))) (Proc.devRef .tc main_arg15) = V (Proc.devRef .tc main_arg15) := (sl5_keeps (after sl4 (after sl3 (after sl2 (after sl1 V)))) (by decide)).trans a15_4
  have a15_6 : (after sl6 (after sl5 (after sl4 (after sl3 (after sl2 (after sl1 V)))))) (Proc.devRef .tc main_arg15) = V (Proc.devRef .tc main_arg15) := (sl6_keeps (after sl5 (after sl4 (after sl3 (after sl2 (after sl1 V))))) (by decide)).trans a15_5
  have a16_1 : (after sl1 V) (Proc.devRef .tc main_arg16) = V (Proc.devRef .tc main_arg16) := (sl1_keeps V (by decide))
  have a16_2 : (after sl2 (after sl1 V)) (Proc.devRef .tc main_arg16) = V (Proc.devRef .tc main_arg16) := (sl2_keeps (after sl1 V) (by decide)).trans a16_1
  have a16_3 : (after sl3 (after sl2 (after sl1 V))) (Proc.devRef .tc main_arg16) = V (Proc.devRef .tc main_arg16) := (sl3_keeps (after sl2 (after sl1 V)) (by decide)).trans a16_2
  have a16_4 : (after sl4 (after sl3 (after sl2 (after sl1 V)))) (Proc.devRef .tc main_arg16) = V (Proc.devRef .tc main_arg16) := (sl4_keeps (after sl3 (after sl2 (after sl1 V))) (by decide)).trans a16_3
  have a16_5 : (after sl5 (after sl4 (after sl3 (after sl2 (after sl1 V))))) (Proc.devRef .tc main_arg16) = V (Proc.devRef .tc main_arg16) := (sl5_keeps (after sl4 (after sl3 (after sl2 (after sl1 V)))) (by decide)).trans a16_4
  have a16_6 : (after sl6 (after sl5 (after sl4 (after sl3 (after sl2 (after sl1 V)))))) (Proc.devRef .tc main_arg16) = V (Proc.devRef .tc main_arg16) := (sl6_keeps (after sl5 (after sl4 (after sl3 (after sl2 (after sl1 V))))) (by decide)).trans a16_5
  have a17_1 : (after sl1 V) (Proc.devRef .tc main_arg17) = V (Proc.devRef .tc main_arg17) := (sl1_keeps V (by decide))
  have a17_2 : (after sl2 (after sl1 V)) (Proc.devRef .tc main_arg17) = V (Proc.devRef .tc main_arg17) := (sl2_keeps (after sl1 V) (by decide)).trans a17_1
  have a17_3 : (after sl3 (after sl2 (after sl1 V))) (Proc.devRef .tc main_arg17) = V (Proc.devRef .tc main_arg17) := (sl3_keeps (after sl2 (after sl1 V)) (by decide)).trans a17_2
  have a17_4 : (after sl4 (after sl3 (after sl2 (after sl1 V)))) (Proc.devRef .tc main_arg17) = V (Proc.devRef .tc main_arg17) := (sl4_keeps (after sl3 (after sl2 (after sl1 V))) (by decide)).trans a17_3
  have a17_5 : (after sl5 (after sl4 (after sl3 (after sl2 (after sl1 V))))) (Proc.devRef .tc main_arg17) = V (Proc.devRef .tc main_arg17) := (sl5_keeps (after sl4 (after sl3 (after sl2 (after sl1 V)))) (by decide)).trans a17_4
  have a17_6 : (after sl6 (after sl5 (after sl4 (after sl3 (after sl2 (after sl1 V)))))) (Proc.devRef .tc main_arg17) = V (Proc.devRef .tc main_arg17) := (sl6_keeps (after sl5 (after sl4 (after sl3 (after sl2 (after sl1 V))))) (by decide)).trans a17_5
  have a17_7 : (after sl7 (after sl6 (after sl5 (after sl4 (after sl3 (after sl2 (after sl1 V))))))) (Proc.devRef .tc main_arg17) = V (Proc.devRef .tc main_arg17) := (sl7_keeps (after sl6 (after sl5 (after sl4 (after sl3 (after sl2 (after sl1 V)))))) (by decide)).trans a17_6
  have a17_8 : (after sl8 (after sl7 (after sl6 (after sl5 (after sl4 (after sl3 (after sl2 (after sl1 V)))))))) (Proc.devRef .tc main_arg17) = V (Proc.devRef .tc main_arg17) := (sl8_keeps (after sl7 (after sl6 (after sl5 (after sl4 (after sl3 (after sl2 (after sl1 V))))))) (by decide)).trans a17_7
  have a18_1 : (after sl1 V) (Proc.devRef .tc main_arg18) = V (Proc.devRef .tc main_arg18) := (sl1_keeps V (by decide))
  have a18_2 : (after sl2 (after sl1 V)) (Proc.devRef .tc main_arg18) = V (Proc.devRef .tc main_arg18) := (sl2_keeps (after sl1 V) (by decide)).trans a18_1
  have a18_3 : (after sl3 (after sl2 (after sl1 V))) (Proc.devRef .tc main_arg18) = V (Proc.devRef .tc main_arg18) := (sl3_keeps (after sl2 (after sl1 V)) (by decide)).trans a18_2
  have a18_4 : (after sl4 (after sl3 (after sl2 (after sl1 V)))) (Proc.devRef .tc main_arg18) = V (Proc.devRef .tc main_arg18) := (sl4_keeps (after sl3 (after sl2 (after sl1 V))) (by decide)).trans a18_3
  have a18_5 : (after sl5 (after sl4 (after sl3 (after sl2 (after sl1 V))))) (Proc.devRef .tc main_arg18) = V (Proc.devRef .tc main_arg18) := (sl5_keeps (after sl4 (after sl3 (after sl2 (after sl1 V)))) (by decide)).trans a18_4
  have a18_6 : (after sl6 (after sl5 (after sl4 (after sl3 (after sl2 (after sl1 V)))))) (Proc.devRef .tc main_arg18) = V (Proc.devRef .tc main_arg18) := (sl6_keeps (after sl5 (after sl4 (after sl3 (after sl2 (after sl1 V))))) (by decide)).trans a18_5
  have a18_7 : (after sl7 (after sl6 (after sl5 (after sl4 (after sl3 (after sl2 (after sl1 V))))))) (Proc.devRef .tc main_arg18) = V (Proc.devRef .tc main_arg18) := (sl7_keeps (after sl6 (after sl5 (after sl4 (after sl3 (after sl2 (after sl1 V)))))) (by decide)).trans a18_6
  have a18_8 : (after sl8 (after sl7 (after sl6 (after sl5 (after sl4 (after sl3 (after sl2 (after sl1 V)))))))) (Proc.devRef .tc main_arg18) = V (Proc.devRef .tc main_arg18) := (sl8_keeps (after sl7 (after sl6 (after sl5 (after sl4 (after sl3 (after sl2 (after sl1 V))))))) (by decide)).trans a18_7
  have a19_1 : (after sl1 V) (Proc.devRef .tc main_arg19) = V (Proc.devRef .tc main_arg19) := (sl1_keeps V (by decide))
  have a19_2 : (after sl2 (after sl1 V)) (Proc.devRef .tc main_arg19) = V (Proc.devRef .tc main_arg19) := (sl2_keeps (after sl1 V) (by decide)).trans a19_1
  have a19_3 : (after sl3 (after sl2 (after sl1 V))) (Proc.devRef .tc main_arg19) = V (Proc.devRef .tc main_arg19) := (sl3_keeps (after sl2 (after sl1 V)) (by decide)).trans a19_2
  have a19_4 : (after sl4 (after sl3 (after sl2 (after sl1 V)))) (Proc.devRef .tc main_arg19) = V (Proc.devRef .tc main_arg19) := (sl4_keeps (after sl3 (after sl2 (after sl1 V))) (by decide)).trans a19_3
  have a19_5 : (after sl5 (after sl4 (after sl3 (after sl2 (after sl1 V))))) (Proc.devRef .tc main_arg19) = V (Proc.devRef .tc main_arg19) := (sl5_keeps (after sl4 (after sl3 (after sl2 (after sl1 V)))) (by decide)).trans a19_4
  have a19_6 : (after sl6 (after sl5 (after sl4 (after sl3 (after sl2 (after sl1 V)))))) (Proc.devRef .tc main_arg19) = V (Proc.devRef .tc main_arg19) := (sl6_keeps (after sl5 (after sl4 (after sl3 (after sl2 (after sl1 V))))) (by decide)).trans a19_5
  have a19_7 : (after sl7 (after sl6 (after sl5 (after sl4 (after sl3 (after sl2 (after sl1 V))))))) (Proc.devRef .tc main_arg19) = V (Proc.devRef .tc main_arg19) := (sl7_keeps (after sl6 (after sl5 (after sl4 (after sl3 (after sl2 (after sl1 V)))))) (by decide)).trans a19_6
  have a19_8 : (after sl8 (after sl7 (after sl6 (after sl5 (after sl4 (after sl3 (after sl2 (after sl1 V)))))))) (Proc.devRef .tc main_arg19) = V (Proc.devRef .tc main_arg19) := (sl8_keeps (after sl7 (after sl6 (after sl5 (after sl4 (after sl3 (after sl2 (after sl1 V))))))) (by decide)).trans a19_7
  have a20_1 : (after sl1 V) (Proc.devRef .tc main_arg20) = V (Proc.devRef .tc main_arg20) := (sl1_keeps V (by decide))
  have a20_2 : (after sl2 (after sl1 V)) (Proc.devRef .tc main_arg20) = V (Proc.devRef .tc main_arg20) := (sl2_keeps (after sl1 V) (by decide)).trans a20_1
  have a20_3 : (after sl3 (after sl2 (after sl1 V))) (Proc.devRef .tc main_arg20) = V (Proc.devRef .tc main_arg20) := (sl3_keeps (after sl2 (after sl1 V)) (by decide)).trans a20_2
  have a20_4 : (after sl4 (after sl3 (after sl2 (after sl1 V)))) (Proc.devRef .tc main_arg20) = V (Proc.devRef .tc main_arg20) := (sl4_keeps (after sl3 (after sl2 (after sl1 V))) (by decide)).trans a20_3
  have a20_5 : (after sl5 (after sl4 (after sl3 (after sl2 (after sl1 V))))) (Proc.devRef .tc main_arg20) = V (Proc.devRef .tc main_arg20) := (sl5_keeps (after sl4 (after sl3 (after sl2 (after sl1 V)))) (by decide)).trans a20_4
  have a20_6 : (after sl6 (after sl5 (after sl4 (after sl3 (after sl2 (after sl1 V)))))) (Proc.devRef .tc main_arg20) = V (Proc.devRef .tc main_arg20) := (sl6_keeps (after sl5 (after sl4 (after sl3 (after sl2 (after sl1 V))))) (by decide)).trans a20_5
  have a20_7 : (after sl7 (after sl6 (after sl5 (after sl4 (after sl3 (after sl2 (after sl1 V))))))) (Proc.devRef .tc main_arg20) = V (Proc.devRef .tc main_arg20) := (sl7_keeps (after sl6 (after sl5 (after sl4 (after sl3 (after sl2 (after sl1 V)))))) (by decide)).trans a20_6
  have a20_8 : (after sl8 (after sl7 (after sl6 (after sl5 (after sl4 (after sl3 (after sl2 (after sl1 V)))))))) (Proc.devRef .tc main_arg20) = V (Proc.devRef .tc main_arg20) := (sl8_keeps (after sl7 (after sl6 (after sl5 (after sl4 (after sl3 (after sl2 (after sl1 V))))))) (by decide)).trans a20_7
  have a21_1 : (after sl1 V) (Proc.devRef .tc main_arg21) = V (Proc.devRef .tc main_arg21) := (sl1_keeps V (by decide))
  have a21_2 : (after sl2 (after sl1 V)) (Proc.devRef .tc main_arg21) = V (Proc.devRef .tc main_arg21) := (sl2_keeps (after sl1 V) (by decide)).trans a21_1
  have a21_3 : (after sl3 (after sl2 (after sl1 V))) (Proc.devRef .tc main_arg21) = V (Proc.devRef .tc main_arg21) := (sl3_keeps (after sl2 (after sl1 V)) (by decide)).trans a21_2
  have a21_4 : (after sl4 (after sl3 (after sl2 (after sl1 V)))) (Proc.devRef .tc main_arg21) = V (Proc.devRef .tc main_arg21) := (sl4_keeps (after sl3 (after sl2 (after sl1 V))) (by decide)).trans a21_3
  have a21_5 : (after sl5 (after sl4 (after sl3 (after sl2 (after sl1 V))))) (Proc.devRef .tc main_arg21) = V (Proc.devRef .tc main_arg21) := (sl5_keeps (after sl4 (after sl3 (after sl2 (after sl1 V)))) (by decide)).trans a21_4
  have a21_6 : (after sl6 (after sl5 (after sl4 (after sl3 (after sl2 (after sl1 V)))))) (Proc.devRef .tc main_arg21) = V (Proc.devRef .tc main_arg21) := (sl6_keeps (after sl5 (after sl4 (after sl3 (after sl2 (after sl1 V))))) (by decide)).trans a21_5
  have a21_7 : (after sl7 (after sl6 (after sl5 (after sl4 (after sl3 (after sl2 (after sl1 V))))))) (Proc.devRef .tc main_arg21) = V (Proc.devRef .tc main_arg21) := (sl7_keeps (after sl6 (after sl5 (after sl4 (after sl3 (after sl2 (after sl1 V)))))) (by decide)).trans a21_6
  have a21_8 : (after sl8 (after sl7 (after sl6 (after sl5 (after sl4 (after sl3 (after sl2 (after sl1 V)))))))) (Proc.devRef .tc main_arg21) = V (Proc.devRef .tc main_arg21) := (sl8_keeps (after sl7 (after sl6 (after sl5 (after sl4 (after sl3 (after sl2 (after sl1 V))))))) (by decide)).trans a21_7
  have a22_1 : (after sl1 V) (Proc.devRef .tc main_arg22) = V (Proc.devRef .tc main_arg22) := (sl1_keeps V (by decide))
  have a22_2 : (after sl2 (after sl1 V)) (Proc.devRef .tc main_arg22) = V (Proc.devRef .tc main_arg22) := (sl2_keeps (after sl1 V) (by decide)).trans a22_1
  have a22_3 : (after sl3 (after sl2 (after sl1 V))) (Proc.devRef .tc main_arg22) = V (Proc.devRef .tc main_arg22) := (sl3_keeps (after sl2 (after sl1 V)) (by decide)).trans a22_2
  have a22_4 : (after sl4 (after sl3 (after sl2 (after sl1 V)))) (Proc.devRef .tc main_arg22) = V (Proc.devRef .tc main_arg22) := (sl4_keeps (after sl3 (after sl2 (after sl1 V))) (by decide)).trans a22_3
  have a22_5 : (after sl5 (after sl4 (after sl3 (after sl2 (after sl1 V))))) (Proc.devRef .tc main_arg22) = V (Proc.devRef .tc main_arg22) := (sl5_keeps (after sl4 (after sl3 (after sl2 (after sl1 V)))) (by decide)).trans a22_4
  have a22_6 : (after sl6 (after sl5 (after sl4 (after sl3 (after sl2 (after sl1 V)))))) (Proc.devRef .tc main_arg22) = V (Proc.devRef .tc main_arg22) := (sl6_keeps (after sl5 (after sl4 (after sl3 (after sl2 (after sl1 V))))) (by decide)).trans a22_5
  have a22_7 : (after sl7 (after sl6 (after sl5 (after sl4 (after sl3 (after sl2 (after sl1 V))))))) (Proc.devRef .tc main_arg22) = V (Proc.devRef .tc main_arg22) := (sl7_keeps (after sl6 (after sl5 (after sl4 (after sl3 (after sl2 (after sl1 V)))))) (by decide)).trans a22_6
  have a22_8 : (after sl8 (after sl7 (after sl6 (after sl5 (after sl4 (after sl3 (after sl2 (after sl1 V)))))))) (Proc.devRef .tc main_arg22) = V (Proc.devRef .tc main_arg22) := (sl8_keeps (after sl7 (after sl6 (after sl5 (after sl4 (after sl3 (after sl2 (after sl1 V))))))) (by decide)).trans a22_7
  have v1_1 := st1_v1 V
  have v3_1 := st1_v3 V
  have v4_1 := st1_v4 V
  have x1_1 := st1_v8 V
  have v1_2 := (sl2_keeps (after sl1 V) (r := main_v1) (by decide)).trans v1_1
  have v1_3 := (sl3_keeps (after sl2 (after sl1 V)) (r := main_v1) (by decide)).trans v1_2
  have v1_4 := (sl4_keeps (after sl3 (after sl2 (after sl1 V))) (r := main_v1) (by decide)).trans v1_3
  have v1_5 := (sl5_keeps (after sl4 (after sl3 (after sl2 (after sl1 V)))) (r := main_v1) (by decide)).trans v1_4
  have v1_6 := (sl6_keeps (after sl5 (after sl4 (after sl3 (after sl2 (after sl1 V))))) (r := main_v1) (by decide)).trans v1_5
  have v1_7 := (sl7_keeps (after sl6 (after sl5 (after sl4 (after sl3 (after sl2 (after sl1 V)))))) (r := main_v1) (by decide)).trans v1_6
  have v3_2 := (sl2_keeps (after sl1 V) (r := main_v3) (by decide)).trans v3_1
  have v3_3 := (sl3_keeps (after sl2 (after sl1 V)) (r := main_v3) (by decide)).trans v3_2
  have v3_4 := (sl4_keeps (after sl3 (after sl2 (after sl1 V))) (r := main_v3) (by decide)).trans v3_3
  have v3_5 := (sl5_keeps (after sl4 (after sl3 (after sl2 (after sl1 V)))) (r := main_v3) (by decide)).trans v3_4
  have v3_6 := (sl6_keeps (after sl5 (after sl4 (after sl3 (after sl2 (after sl1 V))))) (r := main_v3) (by decide)).trans v3_5
  have v3_7 := (sl7_keeps (after sl6 (after sl5 (after sl4 (after sl3 (after sl2 (after sl1 V)))))) (r := main_v3) (by decide)).trans v3_6
  have v4_2 := (sl2_keeps (after sl1 V) (r := main_v4) (by decide)).trans v4_1
  have v4_3 := (sl3_keeps (after sl2 (after sl1 V)) (r := main_v4) (by decide)).trans v4_2
  have v4_4 := (sl4_keeps (after sl3 (after sl2 (after sl1 V))) (r := main_v4) (by decide)).trans v4_3
  have v4_5 := (sl5_keeps (after sl4 (after sl3 (after sl2 (after sl1 V)))) (r := main_v4) (by decide)).trans v4_4
  have v4_6 := (sl6_keeps (after sl5 (after sl4 (after sl3 (after sl2 (after sl1 V))))) (r := main_v4) (by decide)).trans v4_5
  have v4_7 := (sl7_keeps (after sl6 (after sl5 (after sl4 (after sl3 (after sl2 (after sl1 V)))))) (r := main_v4) (by decide)).trans v4_6
  have x1_2 := (sl2_keeps (after sl1 V) (r := main_v8) (by decide)).trans x1_1
  have x1_3 := (sl3_keeps (after sl2 (after sl1 V)) (r := main_v8) (by decide)).trans x1_2
  have tx1_2 := st2 (after sl1 V) _ _ _ v1_1 v3_1 v4_1 x1_1 a2_1
  have o1_3 := st3 (after sl2 (after sl1 V)) _ _ x1_2 tx1_2
  rw [a5_2, a6_2, a7_2] at o1_3
  have ag1_4 := st4 (after sl3 (after sl2 (after sl1 V))) _ _ _ v1_3 v3_3 v4_3 x1_3 a2_3
  have o1_4 := (sl4_keeps (after sl3 (after sl2 (after sl1 V))) (r := main_v56) (by decide)).trans o1_3
  have x2_5 := st5 (after sl4 (after sl3 (after sl2 (after sl1 V)))) _ _ ag1_4 o1_4
  rw [a8_4, a9_4, a10_4, a11_4, a12_4, a13_4] at x2_5
  have x2_6 := (sl6_keeps (after sl5 (after sl4 (after sl3 (after sl2 (after sl1 V))))) (r := main_v107) (by decide)).trans x2_5
  have x2_7 := (sl7_keeps (after sl6 (after sl5 (after sl4 (after sl3 (after sl2 (after sl1 V)))))) (r := main_v107) (by decide)).trans x2_6
  have tx2_6 := st6 (after sl5 (after sl4 (after sl3 (after sl2 (after sl1 V))))) _ _ _ v1_5 v3_5 v4_5 x2_5 a2_5
  have o2_7 := st7 (after sl6 (after sl5 (after sl4 (after sl3 (after sl2 (after sl1 V)))))) _ _ x2_6 tx2_6
  rw [a14_6, a15_6, a16_6] at o2_7
  have ag2_8 := st8 (after sl7 (after sl6 (after sl5 (after sl4 (after sl3 (after sl2 (after sl1 V))))))) _ _ _ v1_7 v3_7 v4_7 x2_7 a2_7
  have o2_8 := (sl8_keeps (after sl7 (after sl6 (after sl5 (after sl4 (after sl3 (after sl2 (after sl1 V))))))) (r := main_v155) (by decide)).trans o2_7
  have y_9 := st9 (after sl8 (after sl7 (after sl6 (after sl5 (after sl4 (after sl3 (after sl2 (after sl1 V)))))))) _ _ ag2_8 o2_8
  rw [a17_8, a18_8, a19_8, a20_8, a21_8, a22_8] at y_9
  unfold model cellR128 cellR512 combR
  exact y_9

end Cert.ReferenceIdeal.Hand

end
-- ==== Proof.Final.lean ====
/-
  The claims about the two idealized programs.

  The kernel's result is the network `modelH` of its launch arrays (the five regions chained); the reference's
  result is the same network of its own launch arrays (its operations composed stage by stage, with the same edge
  functions and the same dense stages); from memories agreeing on the 23 arguments the two results are equal. No
  algebraic law is needed beyond reading both matrix products as the same finite sums: the kernel computes the
  reference's formula row block by row block.
-/
import proofs.«143715_j36816459661705_2_alg».proof.Proof.KerValue
import proofs.«143715_j36816459661705_2_alg».proof.Proof.KerRun
import proofs.«143715_j36816459661705_2_alg».proof.Proof.RefRun
import proofs.«143715_j36816459661705_2_alg».proof.Proof.RefStages
import proofs.«143715_j36816459661705_2_alg».proof.Proof.RefStagesOut
import proofs.«143715_j36816459661705_2_alg».proof.Defs
import proofs.«143715_j36816459661705_2_alg».proof.Proof.Gen.Pre_finite_inputs

noncomputable section

namespace Cert.Proof.Bridge

open Idealize.ShloMosaic Idealize.ShloMosaic.TcCoe Idealize.SL.Sem

/-- The reference runs and keeps its arguments: its run with the result dropped. -/
theorem frame_ri : Cert.frame_ReferenceIdeal := fun m ρ _ =>
  (θ_run (Cert.ReferenceIdeal.defs (F := Ideal)) _ _).mono (fun _ h c => (h c).2) (Cert.ReferenceIdeal.Hand.run (F := Ideal) m ρ)

/-- The reference's network is the network of the kernel's side: the same stages in the same spelling. -/
theorem model_eq (a0) (a1) (a2) (a3) (a4) (a5) (a6) (a7) (a8) (a9) (a10) (a11) (a12) (a13) (a14) (a15) (a16) (a17) (a18) (a19) (a20) (a21) (a22) :
    Cert.ReferenceIdeal.Hand.model a0 a1 a2 a3 a4 a5 a6 a7 a8 a9 a10 a11 a12 a13 a14 a15 a16 a17 a18 a19 a20 a21 a22 = modelH a0 a1 a2 a3 a4 a5 a6 a7 a8 a9 a10 a11 a12 a13 a14 a15 a16 a17 a18 a19 a20 a21 a22 := rfl

/-- Both programs run, keep their arguments, and end with equal results. -/
theorem algebraic : Cert.algebraic_KernelIdeal_ReferenceIdeal := by
  intro m ρ m' ρ' _ hagree
  refine ⟨fun c => Cert.KernelIdeal.Gen.W20 (F := Ideal) m ρ c (Proc.devRef .tc Cert.KernelIdeal.main_v129),
    Cert.KernelIdeal.Hand.run_out (F := Ideal) m ρ, ?_⟩
  refine (θ_run (Cert.ReferenceIdeal.defs (F := Ideal)) _ _).mono (fun r h c => ⟨(h c).1.trans ?_, (h c).2⟩)
    (Cert.ReferenceIdeal.Hand.run (F := Ideal) m' ρ')
  obtain ⟨h0, h1, h2, h3, h4, h5, h6, h7, h8, h9, h10, h11, h12, h13, h14, h15, h16, h17, h18, h19, h20, h21, h22⟩ := hagree c
  refine ((Cert.ReferenceIdeal.Hand.out_eq _).trans (model_eq _ _ _ _ _ _ _ _ _ _ _ _ _ _ _ _ _ _ _ _ _ _ _)).trans ?_
  refine Eq.trans ?_ (ker_value m ρ c).symm
  show modelH (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) = _
  rw [h0, h1, h2, h3, h4, h5, h6, h7, h8, h9, h10, h11, h12, h13, h14, h15, h16, h17, h18, h19, h20, h21, h22]

end Cert.Proof.Bridge

end
-- ==== Proof.lean ====
/-
  The certificate of a two-cell graph network: a Pallas implementation (three kinds of fused dense kernels — a
  preprocessor linear map, a combining stage of a Chebyshev branch and a mean-aggregation branch, a classifier with
  the logarithm of a softmax — around host gathers and segment sums) against its plain jnp reference.

  The three frames: the two kernel programs' are the generated frame certificates (five class-A regions each); the
  reference's is its hand-written run with the result dropped. The idealization rewrote nothing, so `preserves` is
  `True`. The algebraic claim is `Cert.Proof.Bridge.algebraic`: at the ideal values both programs compute the same
  network of the argument arrays, entry by entry (Entry, DenseHost, Reg*, Ker*, Ref*, Final).
-/
import proofs.«143715_j36816459661705_2_alg».proof.Defs
import proofs.«143715_j36816459661705_2_alg».proof.Proof.Gen.Kernel
import proofs.«143715_j36816459661705_2_alg».proof.Proof.Gen.Kernel.Frame
import proofs.«143715_j36816459661705_2_alg».proof.Proof.Gen.KernelIdeal
import proofs.«143715_j36816459661705_2_alg».proof.Proof.Gen.KernelIdeal.Frame
import proofs.«143715_j36816459661705_2_alg».proof.Proof.Gen.ReferenceIdeal
import proofs.«143715_j36816459661705_2_alg».proof.Proof.Gen.Pre_finite_inputs
import proofs.«143715_j36816459661705_2_alg».proof.Proof.Final
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.Proof.Bridge.frame_ri,
    trivial,
    Cert.Proof.Bridge.algebraic⟩

end Cert.Proof

end
